-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S1600000 : Shape := ⟨1, ![1600000]⟩
abbrev S3300000 : Shape := ⟨1, ![3300000]⟩
abbrev S600000 : Shape := ⟨1, ![600000]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S3300000 : S_.BroadcastsInDim S3300000 (![] : Fin 0 → Fin S3300000.rank)
  reducesTo_S3300000_S_d0 : S3300000.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg10 : FVec F S600000 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S600000 .f32 := Host.absf main_arg10
  let main_cst_6 : FVec F S_ .f32 := constant S_ .f32 0x7F800000#32
  let main_v20 : FVec F S600000 .f32 := broadcastInDim S600000 ![] bcast_S_S600000 main_cst_6
  let main_v21 : IVec S600000 1 := cmpf .olt main_v19 main_v20
  let main_c_7 : IVec S_ 1 := constantI S_ 1 1#1
  let main_v22 : IVec S_ 1 := (fun x v => Host.reduce IntOp.andi x v reducesTo_S600000_S_d0 h_S_) main_v21 main_c_7
  let main_v23 : IVec S_ 1 := andi main_v18 main_v22
  main_v23

def fn {F : FTy → Type} [FloatOps F] (main_arg0 : IVec S50000 32) (main_arg1 : FVec F S1600000 .f32) (main_arg2 : FVec F S1600000 .f32) (main_arg3 : IVec S1600000 32) (main_arg4 : IVec S1600000 32) (main_arg5 : FVec F S3300000 .f32) (main_arg6 : FVec F S600000 .f32) (main_arg7 : IVec S3300000 32) (main_arg8 : IVec S3300000 32) (main_arg9 : IVec S3300000 32) (main_arg10 : FVec F S600000 .f32) (main_arg11 : IVec S600000 32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3300000 .f32 := Host.absf main_arg5
  let main_cst_2 : FVec F S_ .f32 := constant S_ .f32 0x7F800000#32
  let main_v10 : FVec F S3300000 .f32 := broadcastInDim S3300000 ![] bcast_S_S3300000 main_cst_2
  let main_v11 : IVec S3300000 1 := cmpf .olt main_v9 main_v10
  let main_c_3 : IVec S_ 1 := constantI S_ 1 1#1
  let main_v12 : IVec S_ 1 := (fun x v => Host.reduce IntOp.andi x v reducesTo_S3300000_S_d0 h_S_) main_v11 main_c_3
  let main_v13 : IVec S_ 1 := andi main_v8 main_v12
  let main_v14 : FVec F S600000 .f32 := Host.absf main_arg6
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg10 main_v13 main_v16
-- ==== Kernel.lean ====
abbrev S50000 : Shape := ⟨1, ![50000]⟩
abbrev S1600000 : Shape := ⟨1, ![1600000]⟩
abbrev S3300000 : Shape := ⟨1, ![3300000]⟩
abbrev S600000 : Shape := ⟨1, ![600000]⟩
abbrev S4x4 : Shape := ⟨2, ![4, 4]⟩
abbrev S_ : Shape := ⟨0, ![]⟩
abbrev S1600000x1 : Shape := ⟨2, ![1600000, 1]⟩
abbrev S12500x128 : Shape := ⟨2, ![12500, 128]⟩
abbrev S12500x16x128 : Shape := ⟨3, ![12500, 16, 128]⟩
abbrev S512x128 : Shape := ⟨2, ![512, 128]⟩
abbrev S512x16x128 : Shape := ⟨3, ![512, 16, 128]⟩
abbrev S512x1x128 : Shape := ⟨3, ![512, 1, 128]⟩
abbrev S12500x128x16 : Shape := ⟨3, ![12500, 128, 16]⟩
abbrev S1600000x16 : Shape := ⟨2, ![1600000, 16]⟩
abbrev S200000x16 : Shape := ⟨2, ![200000, 16]⟩
abbrev S50000x64 : Shape := ⟨2, ![50000, 64]⟩
abbrev S3300000x1 : Shape := ⟨2, ![3300000, 1]⟩
abbrev S600000x1 : Shape := ⟨2, ![600000, 1]⟩
abbrev S3300000x2 : Shape := ⟨2, ![3300000, 2]⟩
abbrev S3300096 : Shape := ⟨1, ![3300096]⟩
abbrev S25782x128 : Shape := ⟨2, ![25782, 128]⟩
abbrev S25782x16x128 : Shape := ⟨3, ![25782, 16, 128]⟩
abbrev S25782x128x16 : Shape := ⟨3, ![25782, 128, 16]⟩
abbrev S3300096x16 : Shape := ⟨2, ![3300096, 16]⟩
abbrev S500000x16 : Shape := ⟨2, ![500000, 16]⟩
abbrev S3300096x1 : Shape := ⟨2, ![3300096, 1]⟩
abbrev S50000x160 : Shape := ⟨2, ![50000, 160]⟩
abbrev S50000x224 : Shape := ⟨2, ![50000, 224]⟩

abbrev nBuf : Space → Nat
  | .hbm => 150
  | .vmem => 14
  | .smem => 0
  | _ => 0

abbrev hbmTy0_0 (i : Nat) : BufTy := match i % 128 with
  | 0 => ⟨S50000, .i32⟩
  | 1 => ⟨S1600000, .f32⟩
  | 2 => ⟨S1600000, .f32⟩
  | 3 => ⟨S1600000, .i32⟩
  | 4 => ⟨S1600000, .i32⟩
  | 5 => ⟨S3300000, .f32⟩
  | 6 => ⟨S600000, .f32⟩
  | 7 => ⟨S3300000, .i32⟩
  | 8 => ⟨S3300000, .i32⟩
  | 9 => ⟨S3300000, .i32⟩
  | 10 => ⟨S600000, .f32⟩
  | 11 => ⟨S600000, .i32⟩
  | 12 => ⟨S4x4, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .i32⟩
  | 22 => ⟨S_, .i32⟩
  | 23 => ⟨S1600000, .i32⟩
  | 24 => ⟨S1600000, .i32⟩
  | 25 => ⟨S1600000, .i32⟩
  | 26 => ⟨S12500x128, .f32⟩
  | 27 => ⟨S12500x128, .f32⟩
  | 28 => ⟨S12500x16x128, .f32⟩
  | 29 => ⟨S12500x128x16, .f32⟩
  | 30 => ⟨S1600000x16, .f32⟩
  | 31 => ⟨S_, .f32⟩
  | 32 => ⟨S200000x16, .f32⟩
  | 33 => ⟨S1600000x1, .i32⟩
  | 34 => ⟨S200000x16, .f32⟩
  | 35 => ⟨S50000x64, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .f32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000, .f32⟩
  | 67 => ⟨S_, .i32⟩
  | 68 => ⟨S3300000, .i32⟩
  | 69 => ⟨S3300000, .i1⟩
  | 70 => ⟨S_, .i32⟩
  | 71 => ⟨S3300000, .i32⟩
  | 72 => ⟨S3300000, .i32⟩
  | 73 => ⟨S3300000, .i32⟩
  | 74 => ⟨S3300000x1, .i32⟩
  | 75 => ⟨S3300000, .f32⟩
  | 76 => ⟨S3300000, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000, .i32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .i32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .i32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x1, .i32⟩
  | 120 => ⟨S3300000x2, .i32⟩
  | 121 => ⟨S3300000, .i32⟩
  | 122 => ⟨S_, .i32⟩
  | 123 => ⟨S3300000, .i32⟩
  | 124 => ⟨S3300000, .i32⟩
  | 125 => ⟨S3300000, .i32⟩
  | 126 => ⟨S_, .i32⟩
  | 127 => ⟨S_, .f32⟩
  | _ => ⟨S50000, .i32⟩

abbrev hbmTy0_1 (i : Nat) : BufTy := match i % 128 with
  | 0 => ⟨S3300096, .f32⟩
  | 1 => ⟨S_, .i32⟩
  | 2 => ⟨S_, .f32⟩
  | 3 => ⟨S3300096, .f32⟩
  | 4 => ⟨S_, .i32⟩
  | 5 => ⟨S_, .f32⟩
  | 6 => ⟨S3300096, .f32⟩
  | 7 => ⟨S_, .i32⟩
  | 8 => ⟨S_, .i32⟩
  | 9 => ⟨S3300096, .i32⟩
  | 10 => ⟨S25782x128, .f32⟩
  | 11 => ⟨S25782x128, .f32⟩
  | 12 => ⟨S25782x128, .f32⟩
  | 13 => ⟨S25782x16x128, .f32⟩
  | 14 => ⟨S25782x128x16, .f32⟩
  | 15 => ⟨S3300096x16, .f32⟩
  | 16 => ⟨S_, .f32⟩
  | 17 => ⟨S500000x16, .f32⟩
  | 18 => ⟨S3300096x1, .i32⟩
  | 19 => ⟨S500000x16, .f32⟩
  | 20 => ⟨S50000x160, .f32⟩
  | 21 => ⟨S50000x224, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x16x128, .f32⟩
  | .local _ .vmem, ⟨5, _⟩ => ⟨S512x16x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x16x128, .f32⟩
  | .local _ .vmem, ⟨13, _⟩ => ⟨S512x16x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_22 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_23 : Ref sig .tc := ⟨.hbm, 126, rfl⟩
abbrev main_call0_v0 : Ref sig .tc := ⟨.hbm, 127, rfl⟩
abbrev main_v89 : Ref sig .tc := ⟨.hbm, 128, rfl⟩
abbrev main_c_24 : Ref sig .tc := ⟨.hbm, 129, rfl⟩
abbrev main_call1_v0 : Ref sig .tc := ⟨.hbm, 130, rfl⟩
abbrev main_v90 : Ref sig .tc := ⟨.hbm, 131, rfl⟩
abbrev main_c_25 : Ref sig .tc := ⟨.hbm, 132, rfl⟩
abbrev main_call2_v0 : Ref sig .tc := ⟨.hbm, 133, rfl⟩
abbrev main_v91 : Ref sig .tc := ⟨.hbm, 134, rfl⟩
abbrev main_c_26 : Ref sig .tc := ⟨.hbm, 135, rfl⟩
abbrev main_call3_v0 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_27 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![51], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S12500x128 : S1600000.ShapeCasts S12500x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x16x128_S512x1x128_0_0_0 : ∀ a, (![0, 0, 0] : Fin 3 → Nat) a + S512x1x128.size a ≤ S512x16x128.size a
  h_S512x1x128 : 0 < S512x1x128.numel
  shapeCasts_S512x1x128_S512x128 : S512x1x128.ShapeCasts S512x128
  shapeCasts_S512x128_S512x1x128 : S512x128.ShapeCasts S512x1x128
  inb_S512x16x128_S512x1x128_0_1_0 : ∀ a, (![0, 1, 0] : Fin 3 → Nat) a + S512x1x128.size a ≤ S512x16x128.size a
  inb_S512x16x128_S512x1x128_0_2_0 : ∀ a, (![0, 2, 0] : Fin 3 → Nat) a + S512x1x128.size a ≤ S512x16x128.size a
  inb_S512x16x128_S512x1x128_0_3_0 : ∀ a, (![0, 3, 0] : Fin 3 → Nat) a + S512x1x128.size a ≤ S512x16x128.size a
  inb_S512x16x128_S512x1x128_0_4_0 : ∀ a, (![0, 4, 0] : Fin 3 → Nat) a + S512x1x128.size a ≤ S512x16x128.size a
  inb_S512x16x128_S512x1x128_0_5_0 : ∀ a, (![0, 5, 0] : Fin 3 → Nat) a + S512x1x128.size a ≤ S512x16x128.size a
  inb_S512x16x128_S512x1x128_0_6_0 : ∀ a, (![0, 6, 0] : Fin 3 → Nat) a + S512x1x128.size a ≤ S512x16x128.size a
  inb_S512x16x128_S512x1x128_0_7_0 : ∀ a, (![0, 7, 0] : Fin 3 → Nat) a + S512x1x128.size a ≤ S512x16x128.size a
  inb_S512x16x128_S512x1x128_0_8_0 : ∀ a, (![0, 8, 0] : Fin 3 → Nat) a + S512x1x128.size a ≤ S512x16x128.size a
  inb_S512x16x128_S512x1x128_0_9_0 : ∀ a, (![0, 9, 0] : Fin 3 → Nat) a + S512x1x128.size a ≤ S512x16x128.size a
  inb_S512x16x128_S512x1x128_0_10_0 : ∀ a, (![0, 10, 0] : Fin 3 → Nat) a + S512x1x128.size a ≤ S512x16x128.size a
  inb_S512x16x128_S512x1x128_0_11_0 : ∀ a, (![0, 11, 0] : Fin 3 → Nat) a + S512x1x128.size a ≤ S512x16x128.size a
  inb_S512x16x128_S512x1x128_0_12_0 : ∀ a, (![0, 12, 0] : Fin 3 → Nat) a + S512x1x128.size a ≤ S512x16x128.size a
  inb_S512x16x128_S512x1x128_0_13_0 : ∀ a, (![0, 13, 0] : Fin 3 → Nat) a + S512x1x128.size a ≤ S512x16x128.size a
  inb_S512x16x128_S512x1x128_0_14_0 : ∀ a, (![0, 14, 0] : Fin 3 → Nat) a + S512x1x128.size a ≤ S512x16x128.size a
  inb_S512x16x128_S512x1x128_0_15_0 : ∀ a, (![0, 15, 0] : Fin 3 → Nat) a + S512x1x128.size a ≤ S512x16x128.size a
  transposes_S12500x16x128_S12500x128x16_0_2_1 : S12500x16x128.Transposes [0, 2, 1] S12500x128x16
  shapeCasts_S12500x128x16_S1600000x16 : S12500x128x16.ShapeCasts S1600000x16
  bcast_S_S200000x16 : S_.BroadcastsInDim S200000x16 (![] : Fin 0 → Fin S200000x16.rank)
  shapeCasts_S200000x16_S50000x64 : S200000x16.ShapeCasts S50000x64
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S_S600000 : S_.BroadcastsInDim S600000 (![] : Fin 0 → Fin S600000.rank)
  bcast_S600000_S600000x1_0 : S600000.BroadcastsInDim S600000x1 (![0] : Fin 1 → Fin S600000x1.rank)
  concatenates_S3300000x1_S3300000x1_S3300000x2_d1 : Shape.Concatenates [S3300000x1, S3300000x1] S3300000x2 1
  pads_S3300000_S3300096_0960 : S3300000.Pads (![0] : Fin 1 → Nat) ![96] ![0] S3300096
  h_S_ : 0 < S_.numel
  shapeCasts_S3300096_S25782x128 : S3300096.ShapeCasts S25782x128
  transposes_S25782x16x128_S25782x128x16_0_2_1 : S25782x16x128.Transposes [0, 2, 1] S25782x128x16
  shapeCasts_S25782x128x16_S3300096x16 : S25782x128x16.ShapeCasts S3300096x16
  bcast_S_S500000x16 : S_.BroadcastsInDim S500000x16 (![] : Fin 0 → Fin S500000x16.rank)
  bcast_S3300096_S3300096x1_0 : S3300096.BroadcastsInDim S3300096x1 (![0] : Fin 1 → Fin S3300096x1.rank)
  shapeCasts_S500000x16_S50000x160 : S500000x16.ShapeCasts S50000x160
  concatenates_S50000x64_S50000x160_S50000x224_d1 : Shape.Concatenates [S50000x64, S50000x160] S50000x224 1
  gather_S50000_S1600000x1_S1600000_n_0_n_n_0_1_1_wf : GatherDims.WF S50000 S1600000x1 S1600000 [] [0] [] [0] [] 1 ![1]
  scatter_S200000x16_S1600000x1_S1600000x16_1_0_0_1_wf : ScatterDims.WF S200000x16 S1600000x1 S1600000x16 [1] [0] [0] 1
  gather_S600000_S3300000x1_S3300000_n_0_n_n_0_1_1_wf : GatherDims.WF S600000 S3300000x1 S3300000 [] [0] [] [0] [] 1 ![1]
  gather_S50000_S600000x1_S600000_n_0_n_n_0_1_1_wf : GatherDims.WF S50000 S600000x1 S600000 [] [0] [] [0] [] 1 ![1]
  gather_S4x4_S3300000x2_S3300000_n_01_n_n_01_1_11_wf : GatherDims.WF S4x4 S3300000x2 S3300000 [] [0, 1] [] [0, 1] [] 1 ![1, 1]
  scatter_S500000x16_S3300096x1_S3300096x16_1_0_0_1_wf : ScatterDims.WF S500000x16 S3300096x1 S3300096x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x128.size a < S12500x128.size a
  hwx0_0 : ∀ i : grid0.Coords, EltTy.bits .f32 = 32 ∨ (Rect.unit (s := S12500x128) (fun a => cc0_transform_0 i a * S512x128.size a) (fun a => (Pipeline.Clip.of (cc0_transform_0 i a) (S512x128.size a) (S12500x128.size a)).extent (S512x128.size a)) fun a => Pipeline.Clip.inb (Pipeline.Clip.ok_of (hstart0_0 i a))).WholeWords (EltTy.packing .f32)
  hwxs0_0 : ∀ i : grid0.Coords, EltTy.bits .f32 = 32 ∨ (Rect.unit (s := S512x128) (fun _ => 0) (fun a => (Pipeline.Clip.of (cc0_transform_0 i a) (S512x128.size a) (S12500x128.size a)).extent (S512x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x128.size a < S12500x128.size a
  hwx0_1 : ∀ i : grid0.Coords, EltTy.bits .f32 = 32 ∨ (Rect.unit (s := S12500x128) (fun a => cc0_transform_1 i a * S512x128.size a) (fun a => (Pipeline.Clip.of (cc0_transform_1 i a) (S512x128.size a) (S12500x128.size a)).extent (S512x128.size a)) fun a => Pipeline.Clip.inb (Pipeline.Clip.ok_of (hstart0_1 i a))).WholeWords (EltTy.packing .f32)
  hwxs0_1 : ∀ i : grid0.Coords, EltTy.bits .f32 = 32 ∨ (Rect.unit (s := S512x128) (fun _ => 0) (fun a => (Pipeline.Clip.of (cc0_transform_1 i a) (S512x128.size a) (S12500x128.size a)).extent (S512x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x16x128.size a < S12500x16x128.size a
  hwx0_2 : ∀ i : grid0.Coords, EltTy.bits .f32 = 32 ∨ (Rect.unit (s := S12500x16x128) (fun a => cc0_transform_2 i a * S512x16x128.size a) (fun a => (Pipeline.Clip.of (cc0_transform_2 i a) (S512x16x128.size a) (S12500x16x128.size a)).extent (S512x16x128.size a)) fun a => Pipeline.Clip.inb (Pipeline.Clip.ok_of (hstart0_2 i a))).WholeWords (EltTy.packing .f32)
  hwxs0_2 : ∀ i : grid0.Coords, EltTy.bits .f32 = 32 ∨ (Rect.unit (s := S512x16x128) (fun _ => 0) (fun a => (Pipeline.Clip.of (cc0_transform_2 i a) (S512x16x128.size a) (S12500x16x128.size a)).extent (S512x16x128.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S512x128.size a < S25782x128.size a
  hwx1_0 : ∀ i : grid1.Coords, EltTy.bits .f32 = 32 ∨ (Rect.unit (s := S25782x128) (fun a => cc1_transform_0 i a * S512x128.size a) (fun a => (Pipeline.Clip.of (cc1_transform_0 i a) (S512x128.size a) (S25782x128.size a)).extent (S512x128.size a)) fun a => Pipeline.Clip.inb (Pipeline.Clip.ok_of (hstart1_0 i a))).WholeWords (EltTy.packing .f32)
  hwxs1_0 : ∀ i : grid1.Coords, EltTy.bits .f32 = 32 ∨ (Rect.unit (s := S512x128) (fun _ => 0) (fun a => (Pipeline.Clip.of (cc1_transform_0 i a) (S512x128.size a) (S25782x128.size a)).extent (S512x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x128.size a < S25782x128.size a
  hwx1_1 : ∀ i : grid1.Coords, EltTy.bits .f32 = 32 ∨ (Rect.unit (s := S25782x128) (fun a => cc1_transform_1 i a * S512x128.size a) (fun a => (Pipeline.Clip.of (cc1_transform_1 i a) (S512x128.size a) (S25782x128.size a)).extent (S512x128.size a)) fun a => Pipeline.Clip.inb (Pipeline.Clip.ok_of (hstart1_1 i a))).WholeWords (EltTy.packing .f32)
  hwxs1_1 : ∀ i : grid1.Coords, EltTy.bits .f32 = 32 ∨ (Rect.unit (s := S512x128) (fun _ => 0) (fun a => (Pipeline.Clip.of (cc1_transform_1 i a) (S512x128.size a) (S25782x128.size a)).extent (S512x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S512x128.size a < S25782x128.size a
  hwx1_2 : ∀ i : grid1.Coords, EltTy.bits .f32 = 32 ∨ (Rect.unit (s := S25782x128) (fun a => cc1_transform_2 i a * S512x128.size a) (fun a => (Pipeline.Clip.of (cc1_transform_2 i a) (S512x128.size a) (S25782x128.size a)).extent (S512x128.size a)) fun a => Pipeline.Clip.inb (Pipeline.Clip.ok_of (hstart1_2 i a))).WholeWords (EltTy.packing .f32)
  hwxs1_2 : ∀ i : grid1.Coords, EltTy.bits .f32 = 32 ∨ (Rect.unit (s := S512x128) (fun _ => 0) (fun a => (Pipeline.Clip.of (cc1_transform_2 i a) (S512x128.size a) (S25782x128.size a)).extent (S512x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x16x128.size a < S25782x16x128.size a
  hwx1_3 : ∀ i : grid1.Coords, EltTy.bits .f32 = 32 ∨ (Rect.unit (s := S25782x16x128) (fun a => cc1_transform_3 i a * S512x16x128.size a) (fun a => (Pipeline.Clip.of (cc1_transform_3 i a) (S512x16x128.size a) (S25782x16x128.size a)).extent (S512x16x128.size a)) fun a => Pipeline.Clip.inb (Pipeline.Clip.ok_of (hstart1_3 i a))).WholeWords (EltTy.packing .f32)
  hwxs1_3 : ∀ i : grid1.Coords, EltTy.bits .f32 = 32 ∨ (Rect.unit (s := S512x16x128) (fun _ => 0) (fun a => (Pipeline.Clip.of (cc1_transform_3 i a) (S512x16x128.size a) (S25782x16x128.size a)).extent (S512x16x128.size a)) fun a => (Nat.zero_add _).trans_le (Pipeline.Clip.extent_le (Pipeline.Clip.ok_of (hstart1_3 i a)))).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S200000x16_S1600000x1_S1600000x16_1_0_0_1 : ScatterDims S200000x16 S1600000x1 S1600000x16 where
  updateWindowDims := [1]
  insertedWindowDims := [0]
  scatterDimsToOperandDims := [0]
  indexVectorDim := 1
  wf := scatter_S200000x16_S1600000x1_S1600000x16_1_0_0_1_wf
def gather_S600000_S3300000x1_S3300000_n_0_n_n_0_1_1 : GatherDims S600000 S3300000x1 S3300000 where
  offsetDims := []
  collapsedSliceDims := [0]
  operandBatchingDims := []
  startIndicesBatchingDims := []
  startIndexMap := [0]
  indexVectorDim := 1
  sliceSizes := ![1]
  wf := gather_S600000_S3300000x1_S3300000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S4x4_S3300000x2_S3300000_n_01_n_n_01_1_11 : GatherDims S4x4 S3300000x2 S3300000 where
  offsetDims := []
  collapsedSliceDims := [0, 1]
  operandBatchingDims := []
  startIndicesBatchingDims := []
  startIndexMap := [0, 1]
  indexVectorDim := 1
  sliceSizes := ![1, 1]
  wf := gather_S4x4_S3300000x2_S3300000_n_01_n_n_01_1_11_wf
def scatter_S500000x16_S3300096x1_S3300096x16_1_0_0_1 : ScatterDims S500000x16 S3300096x1 S3300096x16 where
  updateWindowDims := [1]
  insertedWindowDims := [0]
  scatterDimsToOperandDims := [0]
  indexVectorDim := 1
  wf := scatter_S500000x16_S3300096x1_S3300096x16_1_0_0_1_wf

abbrev win0_0 : Pipeline.Window sig grid0 :=
  Pipeline.Window.ofSpecClip (Memref.whole main_v10) S512x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v11) S512x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v12) S512x16x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v93) S512x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v94) S512x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v95) S512x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v96) S512x16x128.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S1600000 : Shape := ⟨1, ![1600000]⟩
abbrev S3300000 : Shape := ⟨1, ![3300000]⟩
abbrev S600000 : Shape := ⟨1, ![600000]⟩
abbrev S1x16 : Shape := ⟨2, ![1, 16]⟩
abbrev S1x4 : Shape := ⟨2, ![1, 4]⟩
abbrev S4x4 : Shape := ⟨2, ![4, 4]⟩
abbrev S1600000x1 : Shape := ⟨2, ![1600000, 1]⟩
abbrev S1600000x16 : Shape := ⟨2, ![1600000, 16]⟩
abbrev S_ : Shape := ⟨0, ![]⟩
abbrev S200000x16 : Shape := ⟨2, ![200000, 16]⟩
abbrev S50000x64 : Shape := ⟨2, ![50000, 64]⟩
abbrev S3300000x1 : Shape := ⟨2, ![3300000, 1]⟩
abbrev S3300000x4 : Shape := ⟨2, ![3300000, 4]⟩
abbrev S3300000x1x4 : Shape := ⟨3, ![3300000, 1, 4]⟩
abbrev S3300000x4x1 : Shape := ⟨3, ![3300000, 4, 1]⟩
abbrev S3300000x4x4 : Shape := ⟨3, ![3300000, 4, 4]⟩
abbrev S3300000x16 : Shape := ⟨2, ![3300000, 16]⟩
abbrev S600000x1 : Shape := ⟨2, ![600000, 1]⟩
abbrev S3300000x2 : Shape := ⟨2, ![3300000, 2]⟩
abbrev S500000x16 : Shape := ⟨2, ![500000, 16]⟩
abbrev S50000x160 : Shape := ⟨2, ![50000, 160]⟩
abbrev S50000x224 : Shape := ⟨2, ![50000, 224]⟩

abbrev nBuf : Space → Nat
  | .hbm => 181
  | .vmem => 0
  | .smem => 0
  | _ => 0

abbrev hbmTy0_0 (i : Nat) : BufTy := match i % 128 with
  | 0 => ⟨S50000, .i32⟩
  | 1 => ⟨S1600000, .f32⟩
  | 2 => ⟨S1600000, .f32⟩
  | 3 => ⟨S1600000, .i32⟩
  | 4 => ⟨S1600000, .i32⟩
  | 5 => ⟨S3300000, .f32⟩
  | 6 => ⟨S600000, .f32⟩
  | 7 => ⟨S3300000, .i32⟩
  | 8 => ⟨S3300000, .i32⟩
  | 9 => ⟨S3300000, .i32⟩
  | 10 => ⟨S600000, .f32⟩
  | 11 => ⟨S600000, .i32⟩
  | 12 => ⟨S1x16, .f32⟩
  | 13 => ⟨S1x4, .f32⟩
  | 14 => ⟨S1x4, .f32⟩
  | 15 => ⟨S4x4, .i32⟩
  | 16 => ⟨S1600000x1, .f32⟩
  | 17 => ⟨S1600000x16, .f32⟩
  | 18 => ⟨S1600000x16, .f32⟩
  | 19 => ⟨S1600000x16, .f32⟩
  | 20 => ⟨S1600000x16, .f32⟩
  | 21 => ⟨S_, .f32⟩
  | 22 => ⟨S1600000x16, .f32⟩
  | 23 => ⟨S1600000x16, .f32⟩
  | 24 => ⟨S1600000x16, .f32⟩
  | 25 => ⟨S1600000x16, .f32⟩
  | 26 => ⟨S_, .f32⟩
  | 27 => ⟨S1600000x16, .f32⟩
  | 28 => ⟨S1600000x16, .f32⟩
  | 29 => ⟨S1600000x1, .f32⟩
  | 30 => ⟨S1600000x16, .f32⟩
  | 31 => ⟨S1600000x16, .f32⟩
  | 32 => ⟨S_, .i32⟩
  | 33 => ⟨S1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .i32⟩
  | 44 => ⟨S1600000, .i32⟩
  | 45 => ⟨S_, .f32⟩
  | 46 => ⟨S200000x16, .f32⟩
  | 47 => ⟨S1600000x1, .i32⟩
  | 48 => ⟨S200000x16, .f32⟩
  | 49 => ⟨S50000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000, .f32⟩
  | 68 => ⟨S3300000, .f32⟩
  | 69 => ⟨S3300000x1, .f32⟩
  | 70 => ⟨S_, .f32⟩
  | 71 => ⟨S3300000x1, .f32⟩
  | 72 => ⟨S3300000x1, .f32⟩
  | 73 => ⟨S3300000x1, .f32⟩
  | 74 => ⟨S3300000x4, .f32⟩
  | 75 => ⟨S3300000x4, .f32⟩
  | 76 => ⟨S3300000x4, .f32⟩
  | 77 => ⟨S3300000x4, .f32⟩
  | 78 => ⟨S_, .f32⟩
  | 79 => ⟨S3300000x4, .f32⟩
  | 80 => ⟨S3300000x4, .f32⟩
  | 81 => ⟨S_, .f32⟩
  | 82 => ⟨S3300000x4, .f32⟩
  | 83 => ⟨S3300000x4, .f32⟩
  | 84 => ⟨S_, .f32⟩
  | 85 => ⟨S3300000x4, .f32⟩
  | 86 => ⟨S3300000x4, .f32⟩
  | 87 => ⟨S3300000x4, .f32⟩
  | 88 => ⟨S3300000x4, .f32⟩
  | 89 => ⟨S3300000x4, .f32⟩
  | 90 => ⟨S3300000x4, .f32⟩
  | 91 => ⟨S_, .f32⟩
  | 92 => ⟨S3300000x4, .f32⟩
  | 93 => ⟨S3300000x4, .f32⟩
  | 94 => ⟨S3300000x4, .f32⟩
  | 95 => ⟨S3300000x1x4, .f32⟩
  | 96 => ⟨S3300000x4x1, .f32⟩
  | 97 => ⟨S3300000x4x4, .f32⟩
  | 98 => ⟨S3300000x4x4, .f32⟩
  | 99 => ⟨S3300000x4x4, .f32⟩
  | 100 => ⟨S3300000x16, .f32⟩
  | 101 => ⟨S_, .f32⟩
  | 102 => ⟨S3300000x16, .f32⟩
  | 103 => ⟨S3300000x16, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000, .f32⟩
  | 122 => ⟨S3300000, .f32⟩
  | 123 => ⟨S3300000x1, .f32⟩
  | 124 => ⟨S3300000x16, .f32⟩
  | 125 => ⟨S3300000x16, .f32⟩
  | 126 => ⟨S_, .i32⟩
  | 127 => ⟨S600000, .i32⟩
  | _ => ⟨S50000, .i32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000, .i32⟩
  | 7 => ⟨S_, .i32⟩
  | 8 => ⟨S3300000, .i32⟩
  | 9 => ⟨S3300000, .i32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S3300000, .i32⟩
  | 19 => ⟨S_, .i32⟩
  | 20 => ⟨S3300000, .i32⟩
  | 21 => ⟨S3300000, .i1⟩
  | 22 => ⟨S_, .i32⟩
  | 23 => ⟨S3300000, .i32⟩
  | 24 => ⟨S3300000, .i32⟩
  | 25 => ⟨S3300000, .i32⟩
  | 26 => ⟨S3300000x1, .i32⟩
  | 27 => ⟨S3300000, .i32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000x1, .i32⟩
  | 44 => ⟨S3300000x2, .i32⟩
  | 45 => ⟨S3300000, .i32⟩
  | 46 => ⟨S3300000, .i32⟩
  | 47 => ⟨S_, .f32⟩
  | 48 => ⟨S500000x16, .f32⟩
  | 49 => ⟨S3300000x1, .i32⟩
  | 50 => ⟨S500000x16, .f32⟩
  | 51 => ⟨S50000x160, .f32⟩
  | 52 => ⟨S50000x224, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_22 : Ref sig .tc := ⟨.hbm, 126, rfl⟩
abbrev main_v90 : Ref sig .tc := ⟨.hbm, 127, rfl⟩
abbrev main_v91 : Ref sig .tc := ⟨.hbm, 128, rfl⟩
abbrev main_c_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_24 : Ref sig .tc := ⟨.hbm, 135, rfl⟩
abbrev main_v97 : Ref sig .tc := ⟨.hbm, 136, rfl⟩
abbrev main_v98 : Ref sig .tc := ⟨.hbm, 137, rfl⟩
abbrev main_c_25 : Ref sig .tc := ⟨.hbm, 138, rfl⟩
abbrev main_v99 : Ref sig .tc := ⟨.hbm, 139, rfl⟩
abbrev main_v100 : Ref sig .tc := ⟨.hbm, 140, rfl⟩
abbrev main_c_26 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_27 : Ref sig .tc := ⟨.hbm, 147, rfl⟩
abbrev main_v106 : Ref sig .tc := ⟨.hbm, 148, rfl⟩
abbrev main_v107 : Ref sig .tc := ⟨.hbm, 149, rfl⟩
abbrev main_c_28 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_29 : Ref sig .tc := ⟨.hbm, 156, rfl⟩
abbrev main_v113 : Ref sig .tc := ⟨.hbm, 157, rfl⟩
abbrev main_v114 : Ref sig .tc := ⟨.hbm, 158, rfl⟩
abbrev main_c_30 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_31 : Ref sig .tc := ⟨.hbm, 163, rfl⟩
abbrev main_v118 : Ref sig .tc := ⟨.hbm, 164, rfl⟩
abbrev main_v119 : Ref sig .tc := ⟨.hbm, 165, rfl⟩
abbrev main_c_32 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_33 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S_S1600000 : S_.BroadcastsInDim S1600000 (![] : Fin 0 → Fin S1600000.rank)
  bcast_S_S200000x16 : S_.BroadcastsInDim S200000x16 (![] : Fin 0 → Fin S200000x16.rank)
  shapeCasts_S200000x16_S50000x64 : S200000x16.ShapeCasts S50000x64
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S_S3300000x1 : S_.BroadcastsInDim S3300000x1 (![] : Fin 0 → Fin S3300000x1.rank)
  bcast_S3300000x1_S3300000x4_0_1 : S3300000x1.BroadcastsInDim S3300000x4 (![0, 1] : Fin 2 → Fin S3300000x4.rank)
  bcast_S1x4_S3300000x4_0_1 : S1x4.BroadcastsInDim S3300000x4 (![0, 1] : Fin 2 → Fin S3300000x4.rank)
  bcast_S_S3300000x4 : S_.BroadcastsInDim S3300000x4 (![] : Fin 0 → Fin S3300000x4.rank)
  bcast_S3300000x4_S3300000x1x4_0_2 : S3300000x4.BroadcastsInDim S3300000x1x4 (![0, 2] : Fin 2 → Fin S3300000x1x4.rank)
  bcast_S3300000x4_S3300000x4x1_0_1 : S3300000x4.BroadcastsInDim S3300000x4x1 (![0, 1] : Fin 2 → Fin S3300000x4x1.rank)
  bcast_S3300000x1x4_S3300000x4x4_0_1_2 : S3300000x1x4.BroadcastsInDim S3300000x4x4 (![0, 1, 2] : Fin 3 → Fin S3300000x4x4.rank)
  bcast_S3300000x4x1_S3300000x4x4_0_1_2 : S3300000x4x1.BroadcastsInDim S3300000x4x4 (![0, 1, 2] : Fin 3 → Fin S3300000x4x4.rank)
  shapeCasts_S3300000x4x4_S3300000x16 : S3300000x4x4.ShapeCasts S3300000x16
  bcast_S_S3300000x16 : S_.BroadcastsInDim S3300000x16 (![] : Fin 0 → Fin S3300000x16.rank)
  bcast_S3300000x1_S3300000x16_0_1 : S3300000x1.BroadcastsInDim S3300000x16 (![0, 1] : Fin 2 → Fin S3300000x16.rank)
  bcast_S_S600000 : S_.BroadcastsInDim S600000 (![] : Fin 0 → Fin S600000.rank)
  bcast_S600000_S600000x1_0 : S600000.BroadcastsInDim S600000x1 (![0] : Fin 1 → Fin S600000x1.rank)
  concatenates_S3300000x1_S3300000x1_S3300000x2_d1 : Shape.Concatenates [S3300000x1, S3300000x1] S3300000x2 1
  bcast_S_S500000x16 : S_.BroadcastsInDim S500000x16 (![] : Fin 0 → Fin S500000x16.rank)
  shapeCasts_S500000x16_S50000x160 : S500000x16.ShapeCasts S50000x160
  concatenates_S50000x64_S50000x160_S50000x224_d1 : Shape.Concatenates [S50000x64, S50000x160] S50000x224 1
  gather_S50000_S1600000x1_S1600000_n_0_n_n_0_1_1_wf : GatherDims.WF S50000 S1600000x1 S1600000 [] [0] [] [0] [] 1 ![1]
  scatter_S200000x16_S1600000x1_S1600000x16_1_0_0_1_wf : ScatterDims.WF S200000x16 S1600000x1 S1600000x16 [1] [0] [0] 1
  gather_S600000_S3300000x1_S3300000_n_0_n_n_0_1_1_wf : GatherDims.WF S600000 S3300000x1 S3300000 [] [0] [] [0] [] 1 ![1]
  gather_S50000_S600000x1_S600000_n_0_n_n_0_1_1_wf : GatherDims.WF S50000 S600000x1 S600000 [] [0] [] [0] [] 1 ![1]
  gather_S4x4_S3300000x2_S3300000_n_01_n_n_01_1_11_wf : GatherDims.WF S4x4 S3300000x2 S3300000 [] [0, 1] [] [0, 1] [] 1 ![1, 1]
  scatter_S500000x16_S3300000x1_S3300000x16_1_0_0_1_wf : ScatterDims.WF S500000x16 S3300000x1 S3300000x16 [1] [0] [0] 1

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S200000x16_S1600000x1_S1600000x16_1_0_0_1 : ScatterDims S200000x16 S1600000x1 S1600000x16 where
  updateWindowDims := [1]
  insertedWindowDims := [0]
  scatterDimsToOperandDims := [0]
  indexVectorDim := 1
  wf := scatter_S200000x16_S1600000x1_S1600000x16_1_0_0_1_wf
def gather_S600000_S3300000x1_S3300000_n_0_n_n_0_1_1 : GatherDims S600000 S3300000x1 S3300000 where
  offsetDims := []
  collapsedSliceDims := [0]
  operandBatchingDims := []
  startIndicesBatchingDims := []
  startIndexMap := [0]
  indexVectorDim := 1
  sliceSizes := ![1]
  wf := gather_S600000_S3300000x1_S3300000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S4x4_S3300000x2_S3300000_n_01_n_n_01_1_11 : GatherDims S4x4 S3300000x2 S3300000 where
  offsetDims := []
  collapsedSliceDims := [0, 1]
  operandBatchingDims := []
  startIndicesBatchingDims := []
  startIndexMap := [0, 1]
  indexVectorDim := 1
  sliceSizes := ![1, 1]
  wf := gather_S4x4_S3300000x2_S3300000_n_01_n_n_01_1_11_wf
def scatter_S500000x16_S3300000x1_S3300000x16_1_0_0_1 : ScatterDims S500000x16 S3300000x1 S3300000x16 where
  updateWindowDims := [1]
  insertedWindowDims := [0]
  scatterDimsToOperandDims := [0]
  indexVectorDim := 1
  wf := scatter_S500000x16_S3300000x1_S3300000x16_1_0_0_1_wf

class Facts : Prop extends Facts₀ where

variable [Facts]
-- ==== Proof.KBody0.lean ====
import proofs.«150593_j33397665694348_2_alg».proof.Proof.Gen.Kernel.Skeleton
import proofs.«150593_j33397665694348_2_alg».proof.Proof.Gen.Kernel.Launch
import proofs.«150593_j33397665694348_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The radial kernel's body on whole staging buffers: it loads its two [512,128] inputs whole and stores sixteen
    [512,1,128] slabs, one per channel k, into its [512,16,128] output; the slabs tile the output, so afterwards the
    output buffer holds one function of the two inputs (`out0`), whatever it held before. -/

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [512,128] input block. -/
abbrev rin : Rect S512x128 := Rect.unit (s := S512x128) ![0, 0] S512x128.size inb_S512x128_S512x128_0_0
/-- Channel 0's slab of the output block. -/
abbrev rc0 : Rect S512x16x128 := Rect.unit (s := S512x16x128) ![0, 0, 0] S512x1x128.size inb_S512x16x128_S512x1x128_0_0_0
/-- Channel 1's slab of the output block. -/
abbrev rc1 : Rect S512x16x128 := Rect.unit (s := S512x16x128) ![0, 1, 0] S512x1x128.size inb_S512x16x128_S512x1x128_0_1_0
/-- Channel 2's slab of the output block. -/
abbrev rc2 : Rect S512x16x128 := Rect.unit (s := S512x16x128) ![0, 2, 0] S512x1x128.size inb_S512x16x128_S512x1x128_0_2_0
/-- Channel 3's slab of the output block. -/
abbrev rc3 : Rect S512x16x128 := Rect.unit (s := S512x16x128) ![0, 3, 0] S512x1x128.size inb_S512x16x128_S512x1x128_0_3_0
/-- Channel 4's slab of the output block. -/
abbrev rc4 : Rect S512x16x128 := Rect.unit (s := S512x16x128) ![0, 4, 0] S512x1x128.size inb_S512x16x128_S512x1x128_0_4_0
/-- Channel 5's slab of the output block. -/
abbrev rc5 : Rect S512x16x128 := Rect.unit (s := S512x16x128) ![0, 5, 0] S512x1x128.size inb_S512x16x128_S512x1x128_0_5_0
/-- Channel 6's slab of the output block. -/
abbrev rc6 : Rect S512x16x128 := Rect.unit (s := S512x16x128) ![0, 6, 0] S512x1x128.size inb_S512x16x128_S512x1x128_0_6_0
/-- Channel 7's slab of the output block. -/
abbrev rc7 : Rect S512x16x128 := Rect.unit (s := S512x16x128) ![0, 7, 0] S512x1x128.size inb_S512x16x128_S512x1x128_0_7_0
/-- Channel 8's slab of the output block. -/
abbrev rc8 : Rect S512x16x128 := Rect.unit (s := S512x16x128) ![0, 8, 0] S512x1x128.size inb_S512x16x128_S512x1x128_0_8_0
/-- Channel 9's slab of the output block. -/
abbrev rc9 : Rect S512x16x128 := Rect.unit (s := S512x16x128) ![0, 9, 0] S512x1x128.size inb_S512x16x128_S512x1x128_0_9_0
/-- Channel 10's slab of the output block. -/
abbrev rc10 : Rect S512x16x128 := Rect.unit (s := S512x16x128) ![0, 10, 0] S512x1x128.size inb_S512x16x128_S512x1x128_0_10_0
/-- Channel 11's slab of the output block. -/
abbrev rc11 : Rect S512x16x128 := Rect.unit (s := S512x16x128) ![0, 11, 0] S512x1x128.size inb_S512x16x128_S512x1x128_0_11_0
/-- Channel 12's slab of the output block. -/
abbrev rc12 : Rect S512x16x128 := Rect.unit (s := S512x16x128) ![0, 12, 0] S512x1x128.size inb_S512x16x128_S512x1x128_0_12_0
/-- Channel 13's slab of the output block. -/
abbrev rc13 : Rect S512x16x128 := Rect.unit (s := S512x16x128) ![0, 13, 0] S512x1x128.size inb_S512x16x128_S512x1x128_0_13_0
/-- Channel 14's slab of the output block. -/
abbrev rc14 : Rect S512x16x128 := Rect.unit (s := S512x16x128) ![0, 14, 0] S512x1x128.size inb_S512x16x128_S512x1x128_0_14_0
/-- Channel 15's slab of the output block. -/
abbrev rc15 : Rect S512x16x128 := Rect.unit (s := S512x16x128) ![0, 15, 0] S512x1x128.size inb_S512x16x128_S512x1x128_0_15_0

/-- The sixteen stores as pieces, last first: channel k's slab holds channel k's payload of the two inputs. -/
def chans (x0 x1 : Vec F S512x128 .f32) : List (View.Piece (Elt F) S512x16x128 .f32) :=
  let l0 := View.ld x0 rin
  let l1 := View.ld x1 rin
  let v1 := k0_pay1 l0
  let v3 := k0_pay2 l1
  [ ⟨rc15, k0_pay23 v1 v3⟩,
    ⟨rc14, k0_pay22 v1 v3⟩,
    ⟨rc13, k0_pay21 v3 (k0_pay19 v1) k0_pay20⟩,
    ⟨rc12, k0_pay18 v1 v3⟩,
    ⟨rc11, k0_pay17 v1 v3⟩,
    ⟨rc10, k0_pay16 v3 (k0_pay15 v1)⟩,
    ⟨rc9, k0_pay14 v1 v3⟩,
    ⟨rc8, k0_pay13 v1 v3⟩,
    ⟨rc7, k0_pay12 (k0_pay11 v1 v3)⟩,
    ⟨rc6, k0_pay10 v1 v3⟩,
    ⟨rc5, k0_pay9 v1 v3 (Scalar.ofBits .f32 0x400B3333#32)⟩,
    ⟨rc4, k0_pay8 v1 v3⟩,
    ⟨rc3, k0_pay7 v1 v3⟩,
    ⟨rc2, k0_pay6 v3 (k0_pay5 l0)⟩,
    ⟨rc1, k0_pay4 l0 l1⟩,
    ⟨rc0, k0_pay3 l0 l1⟩ ]

/-- What the body leaves in the output buffer. -/
def out0 (x0 x1 : Vec F S512x128 .f32) : Vec F S512x16x128 .f32 := View.canon (chans x0 x1)

/-- Sixteen slabs of one channel each tile the sixteen-channel block. -/
theorem cover0 (p0 p1 p2 p3 p4 p5 p6 p7 p8 p9 p10 p11 p12 p13 p14 p15 : Vec F S512x1x128 .f32) (y : S512x16x128.Idx) :
    ∃ pc ∈ ([⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] : List (View.Piece (Elt F) S512x16x128 .f32)), y ∈ pc.1.set :=
  View.cover_of_tiled [⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] S512x1x128.size (by rfl) y

set_option maxHeartbeats 4000000 in
/-- The body on whole staging memrefs, the inputs' at contents `x0`, `x1` and the output's at anything, runs to the
    continuation holding the inputs' as they were and the output's at `out0 x0 x1`. -/
theorem sound_kernel0 (c : Dev nD) (E : Set ℕ) (i : grid0.Coords)
    (arg1 : Memref sig .tc .vmem S512x128 .f32) (harg1 : arg1.IsWhole) (arg2 : Memref sig .tc .vmem S512x128 .f32) (harg2 : arg2.IsWhole)
    (arg3 : Memref sig .tc .vmem S512x16x128 .f32) (harg3 : arg3.IsWhole)
    (x0 x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (out0 x0 x1)) -∗ K ⟨⟩))
      ⊢ wp frame (wpE (defs₀ (F := F)) Variants.none c none) E (cc0__radial_kernel i arg1 harg1 arg2 harg2 arg3 harg3) K := by
  simp only [cc0__radial_kernel_eq_skeleton]; unfold cc0__radial_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _ _ _ _ _ _ _ _ _ _ _ _ _ _ _ _)

end Cert.Kernel.Body0

end
-- ==== Proof.KDat0.lean ====
import proofs.«150593_j33397665694348_2_alg».proof.Proof.KBody0

/-! Region 0 (the radial kernel) at the contents `V` the region is entered from: at grid point t the two input
    windows hold rows 512·t … of their [12500,128] arrays — at the last point only the 212 rows inside the array, the
    rest of the staging buffer being words nothing names — and the body leaves in the output's buffer `out0` of what
    the inputs' buffers hold. On the rows inside the array that does not depend on the unnamed words (`hcong`). -/

set_option maxRecDepth 16384

noncomputable section

namespace Cert.Kernel.Dat0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.Body0

/-- On the rows inside the array, what the body writes does not depend on the words the input buffers hold past the
    array's end. -/
def Cong (F : FTy → Type) [FloatOps F] : Prop :=
  ∀ (t : Fin cfg0.N) (d0 d0' d1 d1' : S512x128.Idx → Elt F .f32)
    (g0 : (win0_0.xblock (grid0.coords t)).Idx → Elt F .f32) (g1 : (win0_1.xblock (grid0.coords t)).Idx → Elt F .f32),
    win0_2.cut (grid0.coords t) (out0 (win0_0.fill (grid0.coords t) d0 g0) (win0_1.fill (grid0.coords t) d1 g1))
      = win0_2.cut (grid0.coords t) (out0 (win0_0.fill (grid0.coords t) d0' g0) (win0_1.fill (grid0.coords t) d1' g1))

variable (V : (c : Dev nD) → (b : Ref sig .tc) → Buf (Elt F) ((c : Thread nD τ).loc b))

/-- The part inside the array of input window 0's block at point `t`, read off the entry contents; -/
def xblk0 (c : Dev nD) (t : Fin cfg0.N) : (win0_0.xblock (grid0.coords t)).Idx → Elt F .f32 :=
  (win0_0.blk t).view.read (Elt F) (V c (Pipeline.arrRef spec0 0))
/-- input window 1's. -/
def xblk1 (c : Dev nD) (t : Fin cfg0.N) : (win0_1.xblock (grid0.coords t)).Idx → Elt F .f32 :=
  (win0_1.blk t).view.read (Elt F) (V c (Pipeline.arrRef spec0 1))

/-- The same filled out to the whole [512,128] block with the zero word (any word would do: nothing reads it). -/
def in0 (c : Dev nD) (t : Fin cfg0.N) : S512x128.Idx → Elt F .f32 :=
  win0_0.fill (grid0.coords t) (fun _ => Scalar.ofBits .f32 0#32) (xblk0 V c t)
def in1 (c : Dev nD) (t : Fin cfg0.N) : S512x128.Idx → Elt F .f32 :=
  win0_1.fill (grid0.coords t) (fun _ => Scalar.ofBits .f32 0#32) (xblk1 V c t)

/-- The proof data of pipeline 0 on core `c`: the arrays as the region finds them; after the body each input's
    buffer at its block and the output's at `out0` of the two; the class's invariant; nothing owed; full shares. -/
def dat0 (c : Dev nD) : Dat τ (Elt F) Unit ℕ (UR sig nD τ) ℕ cfg0 c where
  A w := V c (Pipeline.arrRef spec0 w)
  after w t := match w with
    | ⟨0, _⟩ => in0 V c t
    | ⟨1, _⟩ => in1 V c t
    | ⟨2, _⟩ => out0 (in0 V c t) (in1 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds in the inputs' buffers: the block just fetched on the rows inside the array, `d` elsewhere. -/
theorem before0_0 (c : Dev nD) (t : Fin cfg0.N) (d) :
    (dat0 V c).before (0 : Fin 3) t d = win0_0.fill (grid0.coords t) d (xblk0 V c t) := by
  unfold Dat.before; rw [if_pos (fetch0_0 t)]; rfl
theorem before0_1 (c : Dev nD) (t : Fin cfg0.N) (d) :
    (dat0 V c).before (1 : Fin 3) t d = win0_1.fill (grid0.coords t) d (xblk1 V c t) := by
  unfold Dat.before; rw [if_pos (fetch0_1 t)]; rfl

/-- What the body leaves, window by window. -/
theorem after0_0 (c : Dev nD) (t : Fin cfg0.N) : (dat0 V c).after 0 t = in0 V c t := by dsimp only [dat0]
theorem after0_1 (c : Dev nD) (t : Fin cfg0.N) : (dat0 V c).after 1 t = in1 V c t := by dsimp only [dat0]
theorem after0_2 (c : Dev nD) (t : Fin cfg0.N) : (dat0 V c).after 2 t = out0 (in0 V c t) (in1 V c t) := by dsimp only [dat0]

/-- The padded blocks cut back to the rows inside the array are the blocks. -/
theorem cut_in0 (c : Dev nD) (t : Fin cfg0.N) : (win0 0).cut (grid0.coords t) (in0 V c t) = xblk0 V c t := win0_0.cut_fill _ _ _
theorem cut_in1 (c : Dev nD) (t : Fin cfg0.N) : (win0 1).cut (grid0.coords t) (in1 V c t) = xblk1 V c t := win0_1.cut_fill _ _ _

/-- What the body wrote from blocks padded with any words agrees, on the rows inside the array, with what it would
    have written from the zero-padded blocks: so filling it out with itself changes nothing. -/
theorem out_fill
    (hcong : Cong F)
    (c : Dev nD) (t : Fin cfg0.N) (d0 d1 : S512x128.Idx → Elt F .f32) :
    (win0 2).fill (grid0.coords t) (out0 (win0_0.fill (grid0.coords t) d0 (xblk0 V c t)) (win0_1.fill (grid0.coords t) d1 (xblk1 V c t)))
        ((win0 2).cut (grid0.coords t) (out0 (in0 V c t) (in1 V c t)))
      = out0 (win0_0.fill (grid0.coords t) d0 (xblk0 V c t)) (win0_1.fill (grid0.coords t) d1 (xblk1 V c t)) :=
  win0_2.fill_congr_cut (grid0.coords t) (hcong t d0 _ d1 _ (xblk0 V c t) (xblk1 V c t))

/-- The body obligation, every window stated on the rows inside the array only. -/
theorem body_obligation0
    (hcong : Cong F)
    (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  iapply (sound_kernel0 (F := F) c Set.univ (grid0.coords t) _ _ _ _ _ _
    (win0_0.fill (grid0.coords t) d0 (xblk0 V c t)) (win0_1.fill (grid0.coords t) d1 (xblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after0_0, cut_in0]; try iexact H0
  isplitl [H1]
  · iexists d1
    rw [after0_1, cut_in1]; try iexact H1
  · iexists out0 (win0_0.fill (grid0.coords t) d0 (xblk0 V c t)) (win0_1.fill (grid0.coords t) d1 (xblk1 V c t))
    rw [after0_2, out_fill V hcong c t d0 d1]; try iexact H2

end Cert.Kernel.Dat0

end
-- ==== Proof.KBody1.lean ====
import proofs.«150593_j33397665694348_2_alg».proof.Proof.Gen.Kernel.Skeleton
import proofs.«150593_j33397665694348_2_alg».proof.Proof.Gen.Kernel.Launch
import proofs.«150593_j33397665694348_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The angular kernel's body on whole staging buffers: it loads its three [512,128] inputs whole and stores sixteen
    [512,1,128] slabs, one per channel, into its [512,16,128] output; the slabs tile the output, so afterwards the
    output buffer holds one function of the three inputs (`out1`), whatever it held before. -/

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [512,128] input block. -/
abbrev rin : Rect S512x128 := Rect.unit (s := S512x128) ![0, 0] S512x128.size inb_S512x128_S512x128_0_0
/-- Channel 0's slab of the output block. -/
abbrev rc0 : Rect S512x16x128 := Rect.unit (s := S512x16x128) ![0, 0, 0] S512x1x128.size inb_S512x16x128_S512x1x128_0_0_0
/-- Channel 1's slab of the output block. -/
abbrev rc1 : Rect S512x16x128 := Rect.unit (s := S512x16x128) ![0, 1, 0] S512x1x128.size inb_S512x16x128_S512x1x128_0_1_0
/-- Channel 2's slab of the output block. -/
abbrev rc2 : Rect S512x16x128 := Rect.unit (s := S512x16x128) ![0, 2, 0] S512x1x128.size inb_S512x16x128_S512x1x128_0_2_0
/-- Channel 3's slab of the output block. -/
abbrev rc3 : Rect S512x16x128 := Rect.unit (s := S512x16x128) ![0, 3, 0] S512x1x128.size inb_S512x16x128_S512x1x128_0_3_0
/-- Channel 4's slab of the output block. -/
abbrev rc4 : Rect S512x16x128 := Rect.unit (s := S512x16x128) ![0, 4, 0] S512x1x128.size inb_S512x16x128_S512x1x128_0_4_0
/-- Channel 5's slab of the output block. -/
abbrev rc5 : Rect S512x16x128 := Rect.unit (s := S512x16x128) ![0, 5, 0] S512x1x128.size inb_S512x16x128_S512x1x128_0_5_0
/-- Channel 6's slab of the output block. -/
abbrev rc6 : Rect S512x16x128 := Rect.unit (s := S512x16x128) ![0, 6, 0] S512x1x128.size inb_S512x16x128_S512x1x128_0_6_0
/-- Channel 7's slab of the output block. -/
abbrev rc7 : Rect S512x16x128 := Rect.unit (s := S512x16x128) ![0, 7, 0] S512x1x128.size inb_S512x16x128_S512x1x128_0_7_0
/-- Channel 8's slab of the output block. -/
abbrev rc8 : Rect S512x16x128 := Rect.unit (s := S512x16x128) ![0, 8, 0] S512x1x128.size inb_S512x16x128_S512x1x128_0_8_0
/-- Channel 9's slab of the output block. -/
abbrev rc9 : Rect S512x16x128 := Rect.unit (s := S512x16x128) ![0, 9, 0] S512x1x128.size inb_S512x16x128_S512x1x128_0_9_0
/-- Channel 10's slab of the output block. -/
abbrev rc10 : Rect S512x16x128 := Rect.unit (s := S512x16x128) ![0, 10, 0] S512x1x128.size inb_S512x16x128_S512x1x128_0_10_0
/-- Channel 11's slab of the output block. -/
abbrev rc11 : Rect S512x16x128 := Rect.unit (s := S512x16x128) ![0, 11, 0] S512x1x128.size inb_S512x16x128_S512x1x128_0_11_0
/-- Channel 12's slab of the output block. -/
abbrev rc12 : Rect S512x16x128 := Rect.unit (s := S512x16x128) ![0, 12, 0] S512x1x128.size inb_S512x16x128_S512x1x128_0_12_0
/-- Channel 13's slab of the output block. -/
abbrev rc13 : Rect S512x16x128 := Rect.unit (s := S512x16x128) ![0, 13, 0] S512x1x128.size inb_S512x16x128_S512x1x128_0_13_0
/-- Channel 14's slab of the output block. -/
abbrev rc14 : Rect S512x16x128 := Rect.unit (s := S512x16x128) ![0, 14, 0] S512x1x128.size inb_S512x16x128_S512x1x128_0_14_0
/-- Channel 15's slab of the output block. -/
abbrev rc15 : Rect S512x16x128 := Rect.unit (s := S512x16x128) ![0, 15, 0] S512x1x128.size inb_S512x16x128_S512x1x128_0_15_0

/-- The sixteen stores as pieces, last first, over the values the body shares between channels: the angle, the mean
    distance, twice the switch product, the four angular factors and two of the radial ones. -/
def chans (x0 x1 x2 : Vec F S512x128 .f32) : List (View.Piece (Elt F) S512x16x128 .f32) :=
  let l0 := View.ld x0 rin
  let l1 := View.ld x1 rin
  let l2 := View.ld x2 rin
  let v1 := k1_pay3 l0
  let v3 := k1_pay4 l1
  let v7 := k1_pay5 l2
  let v19 := k1_pay6 l0
  let v31 := k1_pay7 l0
  let v42 := k1_pay8 l0
  let v43 := k1_pay9 v42
  let v55 := k1_pay10 v1
  let v113 := k1_pay21 v3
  [ ⟨rc15, k1_pay2 v7 v55 (k1_pay26 v3)⟩,
    ⟨rc14, k1_pay1 (k1_pay29 v3 v7 v43)⟩,
    ⟨rc13, k1_pay28 v3 v7 v31⟩,
    ⟨rc12, k1_pay27 v3 v7 v19⟩,
    ⟨rc11, k1_pay25 v7 v55 v113⟩,
    ⟨rc10, k1_pay24 v7 v43 v113⟩,
    ⟨rc9, k1_pay23 v7 v31 v113⟩,
    ⟨rc8, k1_pay22 v3 v7 v19⟩,
    ⟨rc7, k1_pay20 v3 v7 v55⟩,
    ⟨rc6, k1_pay19 v3 v7 v43⟩,
    ⟨rc5, k1_pay18 v3 v7 v31⟩,
    ⟨rc4, k1_pay17 v3 v7 v19⟩,
    ⟨rc3, k1_pay15 v1 v3 v7⟩,
    ⟨rc2, k1_pay14 v3 v7 v42⟩,
    ⟨rc1, k1_pay13 v3 v7 v31⟩,
    ⟨rc0, k1_pay12 v3 v7 v19⟩ ]

/-- What the body leaves in the output buffer. -/
def out1 (x0 x1 x2 : Vec F S512x128 .f32) : Vec F S512x16x128 .f32 := View.canon (chans x0 x1 x2)

/-- Sixteen slabs of one channel each tile the sixteen-channel block. -/
theorem cover1 (p0 p1 p2 p3 p4 p5 p6 p7 p8 p9 p10 p11 p12 p13 p14 p15 : Vec F S512x1x128 .f32) (y : S512x16x128.Idx) :
    ∃ pc ∈ ([⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] : List (View.Piece (Elt F) S512x16x128 .f32)), y ∈ pc.1.set :=
  View.cover_of_tiled [⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] S512x1x128.size (by rfl) y

set_option maxHeartbeats 4000000 in
/-- The body on whole staging memrefs, the inputs' at contents `x0`, `x1`, `x2` and the output's at anything, runs to
    the continuation holding the inputs' as they were and the output's at `out1 x0 x1 x2`. -/
theorem sound_kernel1 (c : Dev nD) (E : Set ℕ) (i : grid1.Coords)
    (arg1 : Memref sig .tc .vmem S512x128 .f32) (harg1 : arg1.IsWhole) (arg2 : Memref sig .tc .vmem S512x128 .f32) (harg2 : arg2.IsWhole)
    (arg3 : Memref sig .tc .vmem S512x128 .f32) (harg3 : arg3.IsWhole)
    (arg4 : Memref sig .tc .vmem S512x16x128 .f32) (harg4 : arg4.IsWhole)
    (x0 x1 x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out1 x0 x1 x2)) -∗ K ⟨⟩))
      ⊢ wp frame (wpE (defs₀ (F := F)) Variants.none c none) E (cc1__angular_kernel i arg1 harg1 arg2 harg2 arg3 harg3 arg4 harg4) K := by
  simp only [cc1__angular_kernel_eq_skeleton]; unfold cc1__angular_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _ _ _ _ _ _ _ _ _ _ _ _ _ _ _)

end Cert.Kernel.Body1

end
-- ==== Proof.KDat1.lean ====
import proofs.«150593_j33397665694348_2_alg».proof.Proof.KBody1

/-! Region 1 (the angular kernel) at the contents `V` the region is entered from: at grid point t the three input
    windows hold rows 512·t … of their [25782,128] arrays — at the last point only the 182 rows inside the array, the
    rest of the staging buffer being words nothing names — and the body leaves in the output's buffer `out1` of what
    the inputs' buffers hold. On the rows inside the array that does not depend on the unnamed words (`hcong`). -/

set_option maxRecDepth 16384

noncomputable section

namespace Cert.Kernel.Dat1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.Body1

/-- On the rows inside the array, what the body writes does not depend on the words the input buffers hold past the
    array's end. -/
def Cong (F : FTy → Type) [FloatOps F] : Prop :=
  ∀ (t : Fin cfg1.N) (d0 d0' d1 d1' d2 d2' : S512x128.Idx → Elt F .f32)
    (g0 : (win1_0.xblock (grid1.coords t)).Idx → Elt F .f32) (g1 : (win1_1.xblock (grid1.coords t)).Idx → Elt F .f32)
    (g2 : (win1_2.xblock (grid1.coords t)).Idx → Elt F .f32),
    win1_3.cut (grid1.coords t) (out1 (win1_0.fill (grid1.coords t) d0 g0) (win1_1.fill (grid1.coords t) d1 g1) (win1_2.fill (grid1.coords t) d2 g2))
      = win1_3.cut (grid1.coords t) (out1 (win1_0.fill (grid1.coords t) d0' g0) (win1_1.fill (grid1.coords t) d1' g1) (win1_2.fill (grid1.coords t) d2' g2))

variable (V : (c : Dev nD) → (b : Ref sig .tc) → Buf (Elt F) ((c : Thread nD τ).loc b))

/-- The part inside the array of input window 0's block at point `t`, read off the entry contents; -/
def xblk0 (c : Dev nD) (t : Fin cfg1.N) : (win1_0.xblock (grid1.coords t)).Idx → Elt F .f32 :=
  (win1_0.blk t).view.read (Elt F) (V c (Pipeline.arrRef spec1 0))
/-- input window 1's; -/
def xblk1 (c : Dev nD) (t : Fin cfg1.N) : (win1_1.xblock (grid1.coords t)).Idx → Elt F .f32 :=
  (win1_1.blk t).view.read (Elt F) (V c (Pipeline.arrRef spec1 1))
/-- input window 2's. -/
def xblk2 (c : Dev nD) (t : Fin cfg1.N) : (win1_2.xblock (grid1.coords t)).Idx → Elt F .f32 :=
  (win1_2.blk t).view.read (Elt F) (V c (Pipeline.arrRef spec1 2))

/-- The same filled out to the whole [512,128] block with the zero word (any word would do: nothing reads it). -/
def in0 (c : Dev nD) (t : Fin cfg1.N) : S512x128.Idx → Elt F .f32 :=
  win1_0.fill (grid1.coords t) (fun _ => Scalar.ofBits .f32 0#32) (xblk0 V c t)
def in1 (c : Dev nD) (t : Fin cfg1.N) : S512x128.Idx → Elt F .f32 :=
  win1_1.fill (grid1.coords t) (fun _ => Scalar.ofBits .f32 0#32) (xblk1 V c t)
def in2 (c : Dev nD) (t : Fin cfg1.N) : S512x128.Idx → Elt F .f32 :=
  win1_2.fill (grid1.coords t) (fun _ => Scalar.ofBits .f32 0#32) (xblk2 V c t)

/-- The proof data of pipeline 1 on core `c`: the arrays as the region finds them; after the body each input's
    buffer at its block and the output's at `out1` of the three; the class's invariant; nothing owed; full shares. -/
def dat1 (c : Dev nD) : Dat τ (Elt F) Unit ℕ (UR sig nD τ) ℕ cfg1 c where
  A w := V c (Pipeline.arrRef spec1 w)
  after w t := match w with
    | ⟨0, _⟩ => in0 V c t
    | ⟨1, _⟩ => in1 V c t
    | ⟨2, _⟩ => in2 V c t
    | ⟨3, _⟩ => out1 (in0 V c t) (in1 V c t) (in2 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body finds in the inputs' buffers: the block just fetched on the rows inside the array, `d` elsewhere. -/
theorem before1_0 (c : Dev nD) (t : Fin cfg1.N) (d) :
    (dat1 V c).before (0 : Fin 4) t d = win1_0.fill (grid1.coords t) d (xblk0 V c t) := by
  unfold Dat.before; rw [if_pos (fetch1_0 t)]; rfl
theorem before1_1 (c : Dev nD) (t : Fin cfg1.N) (d) :
    (dat1 V c).before (1 : Fin 4) t d = win1_1.fill (grid1.coords t) d (xblk1 V c t) := by
  unfold Dat.before; rw [if_pos (fetch1_1 t)]; rfl
theorem before1_2 (c : Dev nD) (t : Fin cfg1.N) (d) :
    (dat1 V c).before (2 : Fin 4) t d = win1_2.fill (grid1.coords t) d (xblk2 V c t) := by
  unfold Dat.before; rw [if_pos (fetch1_2 t)]; rfl

/-- What the body leaves, window by window. -/
theorem after1_0 (c : Dev nD) (t : Fin cfg1.N) : (dat1 V c).after 0 t = in0 V c t := by dsimp only [dat1]
theorem after1_1 (c : Dev nD) (t : Fin cfg1.N) : (dat1 V c).after 1 t = in1 V c t := by dsimp only [dat1]
theorem after1_2 (c : Dev nD) (t : Fin cfg1.N) : (dat1 V c).after 2 t = in2 V c t := by dsimp only [dat1]
theorem after1_3 (c : Dev nD) (t : Fin cfg1.N) : (dat1 V c).after 3 t = out1 (in0 V c t) (in1 V c t) (in2 V c t) := by dsimp only [dat1]

/-- The padded blocks cut back to the rows inside the array are the blocks. -/
theorem cut_in0 (c : Dev nD) (t : Fin cfg1.N) : (win1 0).cut (grid1.coords t) (in0 V c t) = xblk0 V c t := win1_0.cut_fill _ _ _
theorem cut_in1 (c : Dev nD) (t : Fin cfg1.N) : (win1 1).cut (grid1.coords t) (in1 V c t) = xblk1 V c t := win1_1.cut_fill _ _ _
theorem cut_in2 (c : Dev nD) (t : Fin cfg1.N) : (win1 2).cut (grid1.coords t) (in2 V c t) = xblk2 V c t := win1_2.cut_fill _ _ _

/-- What the body wrote from blocks padded with any words agrees, on the rows inside the array, with what it would
    have written from the zero-padded blocks: so filling it out with itself changes nothing. -/
theorem out_fill
    (hcong : Cong F)
    (c : Dev nD) (t : Fin cfg1.N) (d0 d1 d2 : S512x128.Idx → Elt F .f32) :
    (win1 3).fill (grid1.coords t) (out1 (win1_0.fill (grid1.coords t) d0 (xblk0 V c t)) (win1_1.fill (grid1.coords t) d1 (xblk1 V c t)) (win1_2.fill (grid1.coords t) d2 (xblk2 V c t)))
        ((win1 3).cut (grid1.coords t) (out1 (in0 V c t) (in1 V c t) (in2 V c t)))
      = out1 (win1_0.fill (grid1.coords t) d0 (xblk0 V c t)) (win1_1.fill (grid1.coords t) d1 (xblk1 V c t)) (win1_2.fill (grid1.coords t) d2 (xblk2 V c t)) :=
  win1_3.fill_congr_cut (grid1.coords t) (hcong t d0 _ d1 _ d2 _ (xblk0 V c t) (xblk1 V c t) (xblk2 V c t))

/-- The body obligation, every window stated on the rows inside the array only. -/
theorem body_obligation1
    (hcong : Cong F)
    (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := F) c Set.univ (grid1.coords t) _ _ _ _ _ _ _ _
    (win1_0.fill (grid1.coords t) d0 (xblk0 V c t)) (win1_1.fill (grid1.coords t) d1 (xblk1 V c t)) (win1_2.fill (grid1.coords t) d2 (xblk2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after1_0, cut_in0]; try iexact H0
  isplitl [H1]
  · iexists d1
    rw [after1_1, cut_in1]; try iexact H1
  isplitl [H2]
  · iexists d2
    rw [after1_2, cut_in2]; try iexact H2
  · iexists out1 (win1_0.fill (grid1.coords t) d0 (xblk0 V c t)) (win1_1.fill (grid1.coords t) d1 (xblk1 V c t)) (win1_2.fill (grid1.coords t) d2 (xblk2 V c t))
    rw [after1_3, out_fill V hcong c t d0 d1 d2]; try iexact H3

end Cert.Kernel.Dat1

end
-- ==== Proof.KHostTab.lean ====
import proofs.«150593_j33397665694348_2_alg».proof.Proof.Gen.Kernel.Launch
import Idealize.ShloMosaic.Lib.StableHlo.Run

/-! For each stretch of host operations of Kernel's @main: no operation allocates a buffer, and the stretch writes
    only the buffers listed. -/

set_option maxRecDepth 4096

noncomputable section

namespace Cert.Kernel.HostTab

open Cert.Kernel Cert.Kernel.Gen Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
/-- The buffers hostOps0 writes. -/
abbrev hostOps0_W : List (Ref sig .tc) := [main_c, main_c_0, main_v0, main_v1, main_c_1, main_v2, main_v3, main_v4, main_v5, main_v6, main_c_2, main_v7, main_v8, main_v9, main_v10, main_v11]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
/-- The buffers hostOps1 writes. -/
abbrev hostOps1_W : List (Ref sig .tc) := [main_v13, main_v14, main_cst, main_v15, main_v16, main_v17, main_v18, main_c_3, main_v19, main_v20, main_c_4, main_v21, main_v22, main_v23, main_v24, main_v25, main_c_5, main_v26, main_v27, main_c_6, main_v28, main_v29, main_v30, main_v31, main_v32, main_v33, main_cst_7, main_v34, main_v35, main_c_8, main_v36, main_v37, main_c_9, main_v38, main_v39, main_v40, main_v41, main_v42, main_c_10, main_v43, main_v44, main_c_11, main_v45, main_v46, main_v47, main_v48, main_v49, main_v50, main_c_12, main_v51, main_v52, main_c_13, main_v53, main_v54, main_v55, main_v56, main_v57, main_c_14, main_v58, main_v59, main_c_15, main_v60, main_v61, main_v62, main_v63, main_v64, main_c_16, main_v65, main_v66, main_c_17, main_v67, main_v68, main_v69, main_v70, main_v71, main_c_18, main_v72, main_v73, main_c_19, main_v74, main_v75, main_v76, main_c_20, main_v77, main_v78, main_c_21, main_v79, main_v80, main_v81, main_v82, main_v83, main_v84, main_v85, main_c_22, main_v86, main_v87, main_v88, main_c_23]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
/-- The buffers hostOps1_1 writes. -/
abbrev hostOps1_1_W : List (Ref sig .tc) := [main_call0_v0, main_v89]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
/-- The buffers hostOps1_2 writes. -/
abbrev hostOps1_2_W : List (Ref sig .tc) := [main_c_24]
theorem hostOps1_2_writes : (hostOps1_2 : List (HloOp τ sig (Elt F))).Forall fun op => op.writes ⊆ (hostOps1_2_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
/-- The buffers hostOps1_3 writes. -/
abbrev hostOps1_3_W : List (Ref sig .tc) := [main_call1_v0, main_v90]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_4_fresh : (hostOps1_4 : List (HloOp τ sig (Elt F))).Forall fun op => op.fresh = ∅ := by
  simp only [List.Forall]; repeat' constructor
/-- The buffers hostOps1_4 writes. -/
abbrev hostOps1_4_W : List (Ref sig .tc) := [main_c_25]
theorem hostOps1_4_writes : (hostOps1_4 : List (HloOp τ sig (Elt F))).Forall fun op => op.writes ⊆ (hostOps1_4_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_5_fresh : (hostOps1_5 : List (HloOp τ sig (Elt F))).Forall fun op => op.fresh = ∅ := by
  simp only [List.Forall]; repeat' constructor
/-- The buffers hostOps1_5 writes. -/
abbrev hostOps1_5_W : List (Ref sig .tc) := [main_call2_v0, main_v91]
theorem hostOps1_5_writes : (hostOps1_5 : List (HloOp τ sig (Elt F))).Forall fun op => op.writes ⊆ (hostOps1_5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_6_fresh : (hostOps1_6 : List (HloOp τ sig (Elt F))).Forall fun op => op.fresh = ∅ := by
  simp only [List.Forall]; repeat' constructor
/-- The buffers hostOps1_6 writes. -/
abbrev hostOps1_6_W : List (Ref sig .tc) := [main_c_26]
theorem hostOps1_6_writes : (hostOps1_6 : List (HloOp τ sig (Elt F))).Forall fun op => op.writes ⊆ (hostOps1_6_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_7_fresh : (hostOps1_7 : List (HloOp τ sig (Elt F))).Forall fun op => op.fresh = ∅ := by
  simp only [List.Forall]; repeat' constructor
/-- The buffers hostOps1_7 writes. -/
abbrev hostOps1_7_W : List (Ref sig .tc) := [main_call3_v0, main_v92]
theorem hostOps1_7_writes : (hostOps1_7 : List (HloOp τ sig (Elt F))).Forall fun op => op.writes ⊆ (hostOps1_7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_8_fresh : (hostOps1_8 : List (HloOp τ sig (Elt F))).Forall fun op => op.fresh = ∅ := by
  simp only [List.Forall]; repeat' constructor
/-- The buffers hostOps1_8 writes. -/
abbrev hostOps1_8_W : List (Ref sig .tc) := [main_v93, main_v94, main_v95]
theorem hostOps1_8_writes : (hostOps1_8 : List (HloOp τ sig (Elt F))).Forall fun op => op.writes ⊆ (hostOps1_8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
/-- The buffers hostOps2 writes. -/
abbrev hostOps2_W : List (Ref sig .tc) := [main_v97, main_v98, main_cst_27, main_v99, main_v100, main_v101, main_v102, main_v103]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

end Cert.Kernel.HostTab

end
-- ==== Proof.KRun.lean ====
import proofs.«150593_j33397665694348_2_alg».proof.Proof.KDat0
import proofs.«150593_j33397665694348_2_alg».proof.Proof.KDat1
import proofs.«150593_j33397665694348_2_alg».proof.Proof.KHostTab

/-! The run of @main: eleven stretches of host operations and the two kernel regions, in order. Between two of these
    thirteen items the core holds every unscoped buffer whole, at contents `W0` (the launch's), then the fold of each
    host stretch, then — after a region — the region's arrays at what its pipeline leaves and every other buffer as
    it was. The regions' body obligations rest on `hc0` / `hc1`: what a body writes on the rows inside the array does
    not depend on the words past the array's end in its input buffers. -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (Seg HostSeg RegionSeg)
open Cert.Kernel.HostTab

variable (m : (ℓ : Loc nD τ sig) → Buf (Elt F) ℓ) (ρ : Dev nD → PrngReg)

/-! ## The buffers' contents at the thirteen boundaries -/

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Dat0.dat0 (V1 m) c).arrAt w cfg0.N
theorem W2_arr (c : Dev nD) (w : Fin cfg0.W) :
    W2 m c (Proc.devRef .tc (Pipeline.arrRef spec0 w)) = (Dat0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dat0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After each of the nine host stretches between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev W10 : Dev nD → Valuation τ sig (Elt F) := fun c => StableHlo.after hostOps1_7 (W9 m c)
/-- Region 1's entry. -/
abbrev W11 : Dev nD → Valuation τ sig (Elt F) := fun c => StableHlo.after hostOps1_8 (W10 m c)
abbrev V11 : (c : Dev nD) → (b : Ref sig .tc) → Buf (Elt F) ((c : Thread nD τ).loc b) := fun c b => W11 m c b
/-- At region 1's exit: its arrays at what the pipeline leaves, every other buffer as entered. -/
def W12 (c : Dev nD) : Valuation τ sig (Elt F) :=
  Pipeline.withArrays spec1 c (W11 m c) fun w => (Dat1.dat1 (V11 m) c).arrAt w cfg1.N
theorem W12_arr (c : Dev nD) (w : Fin cfg1.W) :
    W12 m c (Proc.devRef .tc (Pipeline.arrRef spec1 w)) = (Dat1.dat1 (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev V12 : (c : Dev nD) → (b : Ref sig .tc) → Buf (Elt F) ((c : Thread nD τ).loc b) := fun c b => W12 m c b
theorem hF1 (c : Dev nD) (w : Fin cfg1.W) : (Dat1.dat1 (V11 m) c).arrAt w cfg1.N = V12 m c (Pipeline.arrRef spec1 w) :=
  (W12_arr m c w).symm
theorem hrest1 (c : Dev nD) : ∀ b, b ∉ Finset.univ.image (Pipeline.arrRef spec1) → V12 m c b = V11 m c b :=
  fun b hb => W12_of_ne m c b fun w e => hb (Finset.mem_image.mpr ⟨w, Finset.mem_univ _, e⟩)
/-- After the last host stretch: the end. -/
abbrev W13 : Dev nD → Valuation τ sig (Elt F) := fun c => StableHlo.after hostOps2 (W12 m c)

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Dat0.dat0 (V1 m) c
  | ⟨1, _⟩ => fun c => Dat1.dat1 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class's
    invariant and comes back; nothing is owed; the kernel has no semaphore of its own. -/
def reg0 (hc0 : Dat0.Cong F) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Dat0.body_obligation0 (V1 m) hc0 c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays are
    split out of the unscoped buffers and put back at the exit contents; the generator register goes into the class's
    invariant and comes back; nothing is owed; the kernel has no semaphore of its own. -/
def reg1 (hc1 : Dat1.Cong F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Dat1.body_obligation1 (V11 m) hc1 c
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen items in order. -/
abbrev segs (hc0 : Dat0.Cong F) (hc1 : Dat1.Cong F) : List (Pipeline.Seg (pcfgs (F := F)) adm (pdats m) () defs₀ 𝒱₀ L lv) :=
  [ .host (hseg hostOps0 hostOps0_sub hostOps0_fresh (W0 m)),
    .region (reg0 m hc0),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .region (reg1 m hc1),
    .host (hseg hostOps2 hostOps2_sub hostOps2_fresh (W12 m)) ]

/-- @main is the run of the segments. -/
theorem main_run (hc0 : Dat0.Cong F) (hc1 : Dat1.Cong F) (c : Dev nD) : main (F := F) c = Pipeline.Seg.run (segs m hc0 hc1) := (main_chain c).trans (by chain_rfl)

set_option backward.isDefEq.respectTransparency.types false in
/-- At the compiled mesh, from any memory with zero counters, every weakly fair execution of @main on the TensorCores
    terminates, nothing faulting, and every final state has each unscoped buffer at the last boundary's contents. -/
theorem run (hc0 : Dat0.Cong F) (hc1 : Dat1.Cong F) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m hc0 hc1)
    (fun c Q => by rw [main_run m hc0 hc1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show (iprop(StableHlo.held (c : Thread nD τ) (Pipeline.ucRefs τ sig) (W13 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.Kernel.Run

end
-- ==== Proof.KArgs.lean ====
import proofs.«150593_j33397665694348_2_alg».proof.Proof.KRun

/-! A buffer that no host stretch writes and that is no array of either region holds at the end what it held at
    launch: so do the twelve arguments. -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.HostTab

variable (m : (ℓ : Loc nD τ sig) → Buf (Elt F) ℓ)

/-- The walk back through the thirteen items. -/
theorem W13_kept (c : Dev nD) (b : Ref sig .tc)
    (h0 : b ∉ hostOps0_W) (h1 : b ∉ hostOps1_W) (h2 : b ∉ hostOps1_1_W) (h3 : b ∉ hostOps1_2_W) (h4 : b ∉ hostOps1_3_W) (h5 : b ∉ hostOps1_4_W) (h6 : b ∉ hostOps1_5_W) (h7 : b ∉ hostOps1_6_W) (h8 : b ∉ hostOps1_7_W) (h9 : b ∉ hostOps1_8_W) (h10 : b ∉ hostOps2_W)
    (hr0 : ∀ w, Pipeline.arrRef spec0 w ≠ b) (hr1 : ∀ w, Pipeline.arrRef spec1 w ≠ b) :
    W13 m c (Proc.devRef .tc b) = m ((c : Thread nD τ).loc b) :=
  calc W13 m c (Proc.devRef .tc b)
    _ = W12 m c (Proc.devRef .tc b) := StableHlo.after_of_writes_sub hostOps2 _ hostOps2_writes h10
    _ = W11 m c (Proc.devRef .tc b) := W12_of_ne m c b hr1
    _ = W10 m c (Proc.devRef .tc b) := StableHlo.after_of_writes_sub hostOps1_8 _ hostOps1_8_writes h9
    _ = W9 m c (Proc.devRef .tc b) := StableHlo.after_of_writes_sub hostOps1_7 _ hostOps1_7_writes h8
    _ = W8 m c (Proc.devRef .tc b) := StableHlo.after_of_writes_sub hostOps1_6 _ hostOps1_6_writes h7
    _ = W7 m c (Proc.devRef .tc b) := StableHlo.after_of_writes_sub hostOps1_5 _ hostOps1_5_writes h6
    _ = W6 m c (Proc.devRef .tc b) := StableHlo.after_of_writes_sub hostOps1_4 _ hostOps1_4_writes h5
    _ = W5 m c (Proc.devRef .tc b) := StableHlo.after_of_writes_sub hostOps1_3 _ hostOps1_3_writes h4
    _ = W4 m c (Proc.devRef .tc b) := StableHlo.after_of_writes_sub hostOps1_2 _ hostOps1_2_writes h3
    _ = W3 m c (Proc.devRef .tc b) := StableHlo.after_of_writes_sub hostOps1_1 _ hostOps1_1_writes h2
    _ = W2 m c (Proc.devRef .tc b) := StableHlo.after_of_writes_sub hostOps1 _ hostOps1_writes h1
    _ = W1 m c (Proc.devRef .tc b) := W2_of_ne m c b hr0
    _ = W0 m c (Proc.devRef .tc b) := StableHlo.after_of_writes_sub hostOps0 _ hostOps0_writes h0
    _ = m ((c : Thread nD τ).loc b) := rfl

theorem W13_arg0 (c : Dev nD) : W13 m c (Proc.devRef .tc main_arg0) = m ((c : Thread nD τ).loc main_arg0) :=
  W13_kept m c main_arg0 (by decide) (by decide) (by decide) (by decide) (by decide) (by decide) (by decide) (by decide) (by decide) (by decide) (by decide) (by decide) (by decide)
theorem W13_arg1 (c : Dev nD) : W13 m c (Proc.devRef .tc main_arg1) = m ((c : Thread nD τ).loc main_arg1) :=
  W13_kept m c main_arg1 (by decide) (by decide) (by decide) (by decide) (by decide) (by decide) (by decide) (by decide) (by decide) (by decide) (by decide) (by decide) (by decide)
theorem W13_arg2 (c : Dev nD) : W13 m c (Proc.devRef .tc main_arg2) = m ((c : Thread nD τ).loc main_arg2) :=
  W13_kept m c main_arg2 (by decide) (by decide) (by decide) (by decide) (by decide) (by decide) (by decide) (by decide) (by decide) (by decide) (by decide) (by decide) (by decide)
theorem W13_arg3 (c : Dev nD) : W13 m c (Proc.devRef .tc main_arg3) = m ((c : Thread nD τ).loc main_arg3) :=
  W13_kept m c main_arg3 (by decide) (by decide) (by decide) (by decide) (by decide) (by decide) (by decide) (by decide) (by decide) (by decide) (by decide) (by decide) (by decide)
theorem W13_arg4 (c : Dev nD) : W13 m c (Proc.devRef .tc main_arg4) = m ((c : Thread nD τ).loc main_arg4) :=
  W13_kept m c main_arg4 (by decide) (by decide) (by decide) (by decide) (by decide) (by decide) (by decide) (by decide) (by decide) (by decide) (by decide) (by decide) (by decide)
theorem W13_arg5 (c : Dev nD) : W13 m c (Proc.devRef .tc main_arg5) = m ((c : Thread nD τ).loc main_arg5) :=
  W13_kept m c main_arg5 (by decide) (by decide) (by decide) (by decide) (by decide) (by decide) (by decide) (by decide) (by decide) (by decide) (by decide) (by decide) (by decide)
theorem W13_arg6 (c : Dev nD) : W13 m c (Proc.devRef .tc main_arg6) = m ((c : Thread nD τ).loc main_arg6) :=
  W13_kept m c main_arg6 (by decide) (by decide) (by decide) (by decide) (by decide) (by decide) (by decide) (by decide) (by decide) (by decide) (by decide) (by decide) (by decide)
theorem W13_arg7 (c : Dev nD) : W13 m c (Proc.devRef .tc main_arg7) = m ((c : Thread nD τ).loc main_arg7) :=
  W13_kept m c main_arg7 (by decide) (by decide) (by decide) (by decide) (by decide) (by decide) (by decide) (by decide) (by decide) (by decide) (by decide) (by decide) (by decide)
theorem W13_arg8 (c : Dev nD) : W13 m c (Proc.devRef .tc main_arg8) = m ((c : Thread nD τ).loc main_arg8) :=
  W13_kept m c main_arg8 (by decide) (by decide) (by decide) (by decide) (by decide) (by decide) (by decide) (by decide) (by decide) (by decide) (by decide) (by decide) (by decide)
theorem W13_arg9 (c : Dev nD) : W13 m c (Proc.devRef .tc main_arg9) = m ((c : Thread nD τ).loc main_arg9) :=
  W13_kept m c main_arg9 (by decide) (by decide) (by decide) (by decide) (by decide) (by decide) (by decide) (by decide) (by decide) (by decide) (by decide) (by decide) (by decide)
theorem W13_arg10 (c : Dev nD) : W13 m c (Proc.devRef .tc main_arg10) = m ((c : Thread nD τ).loc main_arg10) :=
  W13_kept m c main_arg10 (by decide) (by decide) (by decide) (by decide) (by decide) (by decide) (by decide) (by decide) (by decide) (by decide) (by decide) (by decide) (by decide)
theorem W13_arg11 (c : Dev nD) : W13 m c (Proc.devRef .tc main_arg11) = m ((c : Thread nD τ).loc main_arg11) :=
  W13_kept m c main_arg11 (by decide) (by decide) (by decide) (by decide) (by decide) (by decide) (by decide) (by decide) (by decide) (by decide) (by decide) (by decide) (by decide)

end Cert.Kernel.Run

end
-- ==== Proof.LibMidAxis.lean ====
/-
  A unit MIDDLE axis, inserted and repeated, read at an index given by coordinates.

  An `[a, b]` array becomes `[a, 1, b]` (a shape cast on the vector unit, a `broadcast_in_dim` along axes `[0, 2]` on the
  host) and is then repeated `k` times along the new axis to `[a, k, b]` (a broadcast, or a `broadcast_in_dim` along all
  three axes); a `[1, k, b]` table is repeated `a` times along its leading axis. Each lemma says which element of the
  operand the result holds at `(p, j, q)`; none depends on the element type.
-/
import Idealize.ShloMosaic.Lib.ValueLayout

namespace Cert.MidAxis

open Idealize.ShloMosaic Idealize.ShloMosaic.ValueIdx

variable {α : Type}

/-- An `[a, b]` array cast to `[a, 1, b]` holds, at `(p, u, q)`, the operand's `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` holds, at `(p, j, q)`, the operand's `(p, 0, q)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ x h (ix3 p j q) = x (ix3 p (0 : Fin 1) q) := by
  refine broadcastTo_apply x h (ix3 p j q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A `[1, k, b]` table broadcast to `[a, k, b]` holds, at `(p, j, q)`, the table's `(0, j, q)`. -/
theorem broadcastTo_1kb_akb_apply {a k b : ℕ} (x : (⟨3, ![1, k, b]⟩ : Shape).Idx → α)
    (h : (⟨3, ![1, k, b]⟩ : Shape).Broadcasts ⟨3, ![a, k, b]⟩) (p : Fin a) (j : Fin k) (q : Fin b) :
    broadcastTo ⟨3, ![a, k, b]⟩ x h (ix3 p j q) = x (ix3 (0 : Fin 1) j q) := by
  refine broadcastTo_apply x h (ix3 p j q) (ix3 (0 : Fin 1) j q) fun ax => ?_
  match ax with
  | ⟨0, _⟩ => rfl
  | ⟨1, _⟩ =>
    show j.val = if k = 1 then 0 else j.val
    split
    · have := j.isLt; omega
    · rfl
  | ⟨2, _⟩ =>
    show q.val = if b = 1 then 0 else q.val
    split
    · have := q.isLt; omega
    · rfl

/-- A host `broadcast_in_dim` of an `[a, b]` array along axes `[0, 2]` of `[a, 1, b]` holds, at `(p, u, q)`, the
    operand's `(p, q)`. -/
theorem broadcastInDim_ab_a1b_apply {a b : ℕ} (dims : Fin 2 → Fin 3) (hd0 : dims 0 = 0) (hd1 : dims 1 = 2)
    (h : (⟨2, ![a, b]⟩ : Shape).BroadcastsInDim ⟨3, ![a, 1, b]⟩ dims)
    (x : (⟨2, ![a, b]⟩ : Shape).Idx → α) (p : Fin a) (u : Fin 1) (q : Fin b) :
    broadcastInDim ⟨3, ![a, 1, b]⟩ dims h x (ix3 p u q) = x (ix2 p q) := by
  refine broadcastInDim_apply dims h x (ix3 p u q) (ix2 p q) fun ax => ?_
  match ax with
  | ⟨0, _⟩ =>
    show p.val = if a = 1 then 0 else (ix3 p u q (dims 0)).val
    rw [hd0]
    split
    · have := p.isLt; omega
    · rfl
  | ⟨1, _⟩ =>
    show q.val = if b = 1 then 0 else (ix3 p u q (dims 1)).val
    rw [hd1]
    split
    · have := q.isLt; omega
    · rfl

/-- A host `broadcast_in_dim` of an `[a, 1, b]` array along all three axes of `[a, k, b]` holds, at `(p, j, q)`, the
    operand's `(p, 0, q)`. -/
theorem broadcastInDim_a1b_akb_apply {a k b : ℕ} (dims : Fin 3 → Fin 3) (hd0 : dims 0 = 0) (hd2 : dims 2 = 2)
    (h : (⟨3, ![a, 1, b]⟩ : Shape).BroadcastsInDim ⟨3, ![a, k, b]⟩ dims)
    (x : (⟨3, ![a, 1, b]⟩ : Shape).Idx → α) (p : Fin a) (j : Fin k) (q : Fin b) :
    broadcastInDim ⟨3, ![a, k, b]⟩ dims h x (ix3 p j q) = x (ix3 p (0 : Fin 1) q) := by
  refine broadcastInDim_apply dims h x (ix3 p j q) (ix3 p (0 : Fin 1) q) fun ax => ?_
  match ax with
  | ⟨0, _⟩ =>
    show p.val = if a = 1 then 0 else (ix3 p j q (dims 0)).val
    rw [hd0]
    split
    · have := p.isLt; omega
    · rfl
  | ⟨1, _⟩ => rfl
  | ⟨2, _⟩ =>
    show q.val = if b = 1 then 0 else (ix3 p j q (dims 2)).val
    rw [hd2]
    split
    · have := q.isLt; omega
    · rfl

/-- A host `broadcast_in_dim` of a `[1, k, b]` table along all three axes of `[a, k, b]` holds, at `(p, j, q)`, the
    table's `(0, j, q)`. -/
theorem broadcastInDim_1kb_akb_apply {a k b : ℕ} (dims : Fin 3 → Fin 3) (hd1 : dims 1 = 1) (hd2 : dims 2 = 2)
    (h : (⟨3, ![1, k, b]⟩ : Shape).BroadcastsInDim ⟨3, ![a, k, b]⟩ dims)
    (x : (⟨3, ![1, k, b]⟩ : Shape).Idx → α) (p : Fin a) (j : Fin k) (q : Fin b) :
    broadcastInDim ⟨3, ![a, k, b]⟩ dims h x (ix3 p j q) = x (ix3 (0 : Fin 1) j q) := by
  refine broadcastInDim_apply dims h x (ix3 p j q) (ix3 (0 : Fin 1) j q) fun ax => ?_
  match ax with
  | ⟨0, _⟩ => rfl
  | ⟨1, _⟩ =>
    show j.val = if k = 1 then 0 else (ix3 p j q (dims 1)).val
    rw [hd1]
    split
    · have := j.isLt; omega
    · rfl
  | ⟨2, _⟩ =>
    show q.val = if b = 1 then 0 else (ix3 p j q (dims 2)).val
    rw [hd2]
    split
    · have := q.isLt; omega
    · rfl

end Cert.MidAxis
-- ==== Proof.KPoint0.lean ====
import proofs.«150593_j33397665694348_2_alg».proof.Proof.KDat0
import proofs.«150593_j33397665694348_2_alg».proof.Proof.LibMidAxis
import Idealize.ShloMosaic.Lib.ValueIdx
import Idealize.ShloMosaic.Lib.Pipeline.Value

/-! The radial body read at an index. Every channel k of the output block is the same chain of its own shift s_k:
    at row p and lane q the output holds 0.25 · exp (0 − (16 · (x0 − s_k)) · (x0 − s_k)) · x1 of the two inputs at (p, q)
    — so what the body writes at a row depends on its inputs at that row only. -/

set_option maxRecDepth 16384

noncomputable section

namespace Cert.Kernel.Point0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open Cert.Kernel.Body0

/-- The sixteen radial shifts, as the words the body names them by. -/
def shiftW : Fin 16 → BitVec 32
  | ⟨0, _⟩ => 0x3F4CCCCD#32
  | ⟨1, _⟩ => 0x3F89999A#32
  | ⟨2, _⟩ => 0x3FACCCCD#32
  | ⟨3, _⟩ => 0x3FD00000#32
  | ⟨4, _⟩ => 0x3FF33333#32
  | ⟨5, _⟩ => 0x400B3333#32
  | ⟨6, _⟩ => 0x401CCCCD#32
  | ⟨7, _⟩ => 0x402E6666#32
  | ⟨8, _⟩ => 0x40400000#32
  | ⟨9, _⟩ => 0x4051999A#32
  | ⟨10, _⟩ => 0x40633333#32
  | ⟨11, _⟩ => 0x4074CCCD#32
  | ⟨12, _⟩ => 0x40833333#32
  | ⟨13, _⟩ => 0x408C0000#32
  | ⟨14, _⟩ => 0x4094CCCD#32
  | ⟨15, _⟩ => 0x409D999A#32
  | ⟨_ + 16, h⟩ => absurd h (Nat.not_lt.2 (Nat.le_add_left _ _))

/-- One channel at one element: the inputs' elements `a` (the distance) and `b` (the switch), the shift `s`. -/
def radS (s a b : F .f32) : F .f32 :=
  FloatOps.mulf (FloatOps.mulf (Scalar.ofBits .f32 0x3E800000#32)
    (FloatOps.exp (FloatOps.subf (Scalar.ofBits .f32 0x00000000#32)
      (FloatOps.mulf (FloatOps.mulf (Scalar.ofBits .f32 0x41800000#32) (FloatOps.subf a s)) (FloatOps.subf a s))))) b

/-- One channel's slab as the body computes it from the two loaded blocks. -/
def radV (s : F .f32) (v1 v3 : FVec F S512x128 .f32) : FVec F S512x1x128 .f32 :=
  shapeCast S512x1x128
    (mulf (mulf (broadcast S512x128 (Scalar.ofBits .f32 0x3E800000#32))
      (exp (subf (broadcast S512x128 (Scalar.ofBits .f32 0x00000000#32))
        (mulf (mulf (broadcast S512x128 (Scalar.ofBits .f32 0x41800000#32)) (subf v1 (broadcast S512x128 s))) (subf v1 (broadcast S512x128 s)))))) v3)
    shapeCasts_S512x128_S512x1x128

/-- The slab at (p, ·, q) is the chain of the blocks' elements at (p, q). -/
theorem radV_apply (s : F .f32) (v1 v3 : FVec F S512x128 .f32) (p : Fin 512) (u : Fin 1) (q : Fin 128) :
    radV s v1 v3 (ix3 p u q) = radS s (v1 (ix2 p q)) (v3 (ix2 p q)) := by
  unfold radV radS
  refine (Cert.MidAxis.shapeCast_ab_a1b_apply _ _ p u q).trans ?_
  rfl

/-- Channel by channel, the store's payload is the channel's slab (the body's own spelling of it, read off). -/
theorem pay_c0 (l0 l1 : Vec F S512x128 .f32) : k0_pay3 l0 l1 = radV (Scalar.ofBits .f32 0x3F4CCCCD#32) (k0_pay1 l0) (k0_pay2 l1) := rfl
theorem pay_c1 (l0 l1 : Vec F S512x128 .f32) : k0_pay4 l0 l1 = radV (Scalar.ofBits .f32 0x3F89999A#32) (k0_pay1 l0) (k0_pay2 l1) := rfl
theorem pay_c2 (l0 : Vec F S512x128 .f32) (v3 : FVec F S512x128 .f32) : k0_pay6 v3 (k0_pay5 l0) = radV (Scalar.ofBits .f32 0x3FACCCCD#32) (k0_pay1 l0) v3 := rfl
theorem pay_c3 (v1 v3 : FVec F S512x128 .f32) : k0_pay7 v1 v3 = radV (Scalar.ofBits .f32 0x3FD00000#32) v1 v3 := rfl
theorem pay_c4 (v1 v3 : FVec F S512x128 .f32) : k0_pay8 v1 v3 = radV (Scalar.ofBits .f32 0x3FF33333#32) v1 v3 := rfl
theorem pay_c5 (v1 v3 : FVec F S512x128 .f32) : k0_pay9 v1 v3 (Scalar.ofBits .f32 0x400B3333#32) = radV (Scalar.ofBits .f32 0x400B3333#32) v1 v3 := rfl
theorem pay_c6 (v1 v3 : FVec F S512x128 .f32) : k0_pay10 v1 v3 = radV (Scalar.ofBits .f32 0x401CCCCD#32) v1 v3 := rfl
theorem pay_c7 (v1 v3 : FVec F S512x128 .f32) : k0_pay12 (k0_pay11 v1 v3) = radV (Scalar.ofBits .f32 0x402E6666#32) v1 v3 := rfl
theorem pay_c8 (v1 v3 : FVec F S512x128 .f32) : k0_pay13 v1 v3 = radV (Scalar.ofBits .f32 0x40400000#32) v1 v3 := rfl
theorem pay_c9 (v1 v3 : FVec F S512x128 .f32) : k0_pay14 v1 v3 = radV (Scalar.ofBits .f32 0x4051999A#32) v1 v3 := rfl
theorem pay_c10 (v1 v3 : FVec F S512x128 .f32) : k0_pay16 v3 (k0_pay15 v1) = radV (Scalar.ofBits .f32 0x40633333#32) v1 v3 := rfl
theorem pay_c11 (v1 v3 : FVec F S512x128 .f32) : k0_pay17 v1 v3 = radV (Scalar.ofBits .f32 0x4074CCCD#32) v1 v3 := rfl
theorem pay_c12 (v1 v3 : FVec F S512x128 .f32) : k0_pay18 v1 v3 = radV (Scalar.ofBits .f32 0x40833333#32) v1 v3 := rfl
theorem pay_c13 (v1 v3 : FVec F S512x128 .f32) : k0_pay21 v3 (k0_pay19 v1) k0_pay20 = radV (Scalar.ofBits .f32 0x408C0000#32) v1 v3 := rfl
theorem pay_c14 (v1 v3 : FVec F S512x128 .f32) : k0_pay22 v1 v3 = radV (Scalar.ofBits .f32 0x4094CCCD#32) v1 v3 := rfl
theorem pay_c15 (v1 v3 : FVec F S512x128 .f32) : k0_pay23 v1 v3 = radV (Scalar.ofBits .f32 0x409D999A#32) v1 v3 := rfl
/-- The two loaded blocks cast to their own shape are themselves. -/
theorem pay1_eq (l0 : Vec F S512x128 .f32) : k0_pay1 l0 = l0 := shapeCast_self _ _
theorem pay2_eq (l1 : Vec F S512x128 .f32) : k0_pay2 l1 = l1 := shapeCast_self _ _

/-- The sixteen stores' payloads are the sixteen slabs of the two blocks. -/
theorem chans_eq (x0 x1 : Vec F S512x128 .f32) :
    chans x0 x1 = [ ⟨rc15, radV (Scalar.ofBits .f32 0x409D999A#32) x0 x1⟩,
      ⟨rc14, radV (Scalar.ofBits .f32 0x4094CCCD#32) x0 x1⟩,
      ⟨rc13, radV (Scalar.ofBits .f32 0x408C0000#32) x0 x1⟩,
      ⟨rc12, radV (Scalar.ofBits .f32 0x40833333#32) x0 x1⟩,
      ⟨rc11, radV (Scalar.ofBits .f32 0x4074CCCD#32) x0 x1⟩,
      ⟨rc10, radV (Scalar.ofBits .f32 0x40633333#32) x0 x1⟩,
      ⟨rc9, radV (Scalar.ofBits .f32 0x4051999A#32) x0 x1⟩,
      ⟨rc8, radV (Scalar.ofBits .f32 0x40400000#32) x0 x1⟩,
      ⟨rc7, radV (Scalar.ofBits .f32 0x402E6666#32) x0 x1⟩,
      ⟨rc6, radV (Scalar.ofBits .f32 0x401CCCCD#32) x0 x1⟩,
      ⟨rc5, radV (Scalar.ofBits .f32 0x400B3333#32) x0 x1⟩,
      ⟨rc4, radV (Scalar.ofBits .f32 0x3FF33333#32) x0 x1⟩,
      ⟨rc3, radV (Scalar.ofBits .f32 0x3FD00000#32) x0 x1⟩,
      ⟨rc2, radV (Scalar.ofBits .f32 0x3FACCCCD#32) x0 x1⟩,
      ⟨rc1, radV (Scalar.ofBits .f32 0x3F89999A#32) x0 x1⟩,
      ⟨rc0, radV (Scalar.ofBits .f32 0x3F4CCCCD#32) x0 x1⟩ ] := by
  unfold chans
  simp only [View.ld_unit_zero (S := S512x128) (off := ![0, 0]) (funext fun a => by fin_cases a <;> rfl),
    pay_c0, pay_c1, pay_c2, pay_c3, pay_c4, pay_c5, pay_c6, pay_c7, pay_c8, pay_c9, pay_c10, pay_c11, pay_c12, pay_c13, pay_c14, pay_c15, pay1_eq, pay2_eq]

/-- The sixteen slabs, last first. -/
def slabs (x0 x1 : Vec F S512x128 .f32) : List (View.Piece (Elt F) S512x16x128 .f32) :=
    [ ⟨rc15, radV (Scalar.ofBits .f32 0x409D999A#32) x0 x1⟩,
      ⟨rc14, radV (Scalar.ofBits .f32 0x4094CCCD#32) x0 x1⟩,
      ⟨rc13, radV (Scalar.ofBits .f32 0x408C0000#32) x0 x1⟩,
      ⟨rc12, radV (Scalar.ofBits .f32 0x40833333#32) x0 x1⟩,
      ⟨rc11, radV (Scalar.ofBits .f32 0x4074CCCD#32) x0 x1⟩,
      ⟨rc10, radV (Scalar.ofBits .f32 0x40633333#32) x0 x1⟩,
      ⟨rc9, radV (Scalar.ofBits .f32 0x4051999A#32) x0 x1⟩,
      ⟨rc8, radV (Scalar.ofBits .f32 0x40400000#32) x0 x1⟩,
      ⟨rc7, radV (Scalar.ofBits .f32 0x402E6666#32) x0 x1⟩,
      ⟨rc6, radV (Scalar.ofBits .f32 0x401CCCCD#32) x0 x1⟩,
      ⟨rc5, radV (Scalar.ofBits .f32 0x400B3333#32) x0 x1⟩,
      ⟨rc4, radV (Scalar.ofBits .f32 0x3FF33333#32) x0 x1⟩,
      ⟨rc3, radV (Scalar.ofBits .f32 0x3FD00000#32) x0 x1⟩,
      ⟨rc2, radV (Scalar.ofBits .f32 0x3FACCCCD#32) x0 x1⟩,
      ⟨rc1, radV (Scalar.ofBits .f32 0x3F89999A#32) x0 x1⟩,
      ⟨rc0, radV (Scalar.ofBits .f32 0x3F4CCCCD#32) x0 x1⟩ ]

theorem chans_slabs (x0 x1 : Vec F S512x128 .f32) : chans x0 x1 = slabs x0 x1 := chans_eq x0 x1

/-- A channel's slab sits at channel k of the block, rows and lanes as they are. -/
theorem slab_emb (kk : ℕ) (hk : kk < 16) (inb : ∀ a, (![0, kk, 0] : Fin 3 → ℕ) a + S512x1x128.size a ≤ S512x16x128.size a)
    (p : Fin 512) (u : Fin 1) (q : Fin 128) :
    (Rect.unit (s := S512x16x128) ![0, kk, 0] S512x1x128.size inb).emb (ix3 p u q) = ix3 p (⟨kk, hk⟩ : Fin 16) q := by
  funext a
  match a with
  | ⟨0, _⟩ => exact Fin.ext (show 0 + 1 * p.val = p.val by omega)
  | ⟨1, _⟩ => exact Fin.ext (show kk + 1 * u.val = kk by have := u.isLt; omega)
  | ⟨2, _⟩ => exact Fin.ext (show 0 + 1 * q.val = q.val by omega)

/-- The output block as ONE function of its index: channel `j 1`'s chain of the inputs at row `j 0`, lane `j 2`. -/
def G0 (x0 x1 : Vec F S512x128 .f32) : S512x16x128.Idx → F .f32 := fun j =>
  radS (Scalar.ofBits .f32 (shiftW (j 1))) (x0 (ix2 (j 0) (j 2))) (x1 (ix2 (j 0) (j 2)))

/-- Each slab is that function's block. -/
theorem slab_ok (x0 x1 : Vec F S512x128 .f32) (kk : ℕ) (hk : kk < 16)
    (inb : ∀ a, (![0, kk, 0] : Fin 3 → ℕ) a + S512x1x128.size a ≤ S512x16x128.size a)
    (s : F .f32) (hs : s = Scalar.ofBits .f32 (shiftW ⟨kk, hk⟩)) (x : S512x1x128.Idx) :
    radV s x0 x1 x = G0 x0 x1 ((Rect.unit (s := S512x16x128) ![0, kk, 0] S512x1x128.size inb).emb x) := by
  obtain ⟨p, u, q, rfl⟩ : ∃ (p : Fin 512) (u : Fin 1) (q : Fin 128), x = ix3 p u q := ⟨x 0, x 1, x 2, eq_ix3 x⟩
  rw [slab_emb kk hk inb, radV_apply, hs]; rfl

set_option maxHeartbeats 2000000 in
theorem slabs_ok (x0 x1 : Vec F S512x128 .f32) :
    ∀ pc ∈ slabs x0 x1, ∀ x : pc.1.shape.Idx, pc.2 x = G0 x0 x1 (pc.1.emb x) := by
  intro pc hpc
  unfold slabs at hpc
  simp only [List.mem_cons, List.mem_nil_iff, or_false] at hpc
  rcases hpc with rfl | rfl | rfl | rfl | rfl | rfl | rfl | rfl | rfl | rfl | rfl | rfl | rfl | rfl | rfl | rfl
  · exact fun x => slab_ok x0 x1 15 (by omega) inb_S512x16x128_S512x1x128_0_15_0 _ rfl x
  · exact fun x => slab_ok x0 x1 14 (by omega) inb_S512x16x128_S512x1x128_0_14_0 _ rfl x
  · exact fun x => slab_ok x0 x1 13 (by omega) inb_S512x16x128_S512x1x128_0_13_0 _ rfl x
  · exact fun x => slab_ok x0 x1 12 (by omega) inb_S512x16x128_S512x1x128_0_12_0 _ rfl x
  · exact fun x => slab_ok x0 x1 11 (by omega) inb_S512x16x128_S512x1x128_0_11_0 _ rfl x
  · exact fun x => slab_ok x0 x1 10 (by omega) inb_S512x16x128_S512x1x128_0_10_0 _ rfl x
  · exact fun x => slab_ok x0 x1 9 (by omega) inb_S512x16x128_S512x1x128_0_9_0 _ rfl x
  · exact fun x => slab_ok x0 x1 8 (by omega) inb_S512x16x128_S512x1x128_0_8_0 _ rfl x
  · exact fun x => slab_ok x0 x1 7 (by omega) inb_S512x16x128_S512x1x128_0_7_0 _ rfl x
  · exact fun x => slab_ok x0 x1 6 (by omega) inb_S512x16x128_S512x1x128_0_6_0 _ rfl x
  · exact fun x => slab_ok x0 x1 5 (by omega) inb_S512x16x128_S512x1x128_0_5_0 _ rfl x
  · exact fun x => slab_ok x0 x1 4 (by omega) inb_S512x16x128_S512x1x128_0_4_0 _ rfl x
  · exact fun x => slab_ok x0 x1 3 (by omega) inb_S512x16x128_S512x1x128_0_3_0 _ rfl x
  · exact fun x => slab_ok x0 x1 2 (by omega) inb_S512x16x128_S512x1x128_0_2_0 _ rfl x
  · exact fun x => slab_ok x0 x1 1 (by omega) inb_S512x16x128_S512x1x128_0_1_0 _ rfl x
  · exact fun x => slab_ok x0 x1 0 (by omega) inb_S512x16x128_S512x1x128_0_0_0 _ rfl x

/-- What the body leaves, at row p, channel k, lane q. -/
theorem out0_apply (x0 x1 : Vec F S512x128 .f32) (p : Fin 512) (k : Fin 16) (q : Fin 128) :
    out0 x0 x1 (ix3 p k q) = radS (Scalar.ofBits .f32 (shiftW k)) (x0 (ix2 p q)) (x1 (ix2 p q)) := by
  unfold out0; rw [chans_slabs]
  exact View.canon_apply_of_pieces (G0 x0 x1) (slabs x0 x1) (slabs_ok x0 x1) (ix3 p k q)
    (cover0 (radV (Scalar.ofBits .f32 0x3F4CCCCD#32) x0 x1) (radV (Scalar.ofBits .f32 0x3F89999A#32) x0 x1) (radV (Scalar.ofBits .f32 0x3FACCCCD#32) x0 x1) (radV (Scalar.ofBits .f32 0x3FD00000#32) x0 x1) (radV (Scalar.ofBits .f32 0x3FF33333#32) x0 x1) (radV (Scalar.ofBits .f32 0x400B3333#32) x0 x1) (radV (Scalar.ofBits .f32 0x401CCCCD#32) x0 x1) (radV (Scalar.ofBits .f32 0x402E6666#32) x0 x1) (radV (Scalar.ofBits .f32 0x40400000#32) x0 x1) (radV (Scalar.ofBits .f32 0x4051999A#32) x0 x1) (radV (Scalar.ofBits .f32 0x40633333#32) x0 x1) (radV (Scalar.ofBits .f32 0x4074CCCD#32) x0 x1) (radV (Scalar.ofBits .f32 0x40833333#32) x0 x1) (radV (Scalar.ofBits .f32 0x408C0000#32) x0 x1) (radV (Scalar.ofBits .f32 0x4094CCCD#32) x0 x1) (radV (Scalar.ofBits .f32 0x409D999A#32) x0 x1) (ix3 p k q))

/-- The three windows are cut alike along the rows, and not at all along the lanes. -/
theorem clip0 : ∀ t : Fin cfg0.N,
    (win0_0.xsize (grid0.coords t) 0 = win0_2.xsize (grid0.coords t) 0 ∧ win0_1.xsize (grid0.coords t) 0 = win0_2.xsize (grid0.coords t) 0)
      ∧ win0_0.xsize (grid0.coords t) 1 = 128 ∧ win0_1.xsize (grid0.coords t) 1 = 128 ∧ win0_2.xsize (grid0.coords t) 2 = 128 :=
  (by decide +kernel : ∀ t : Fin grid0.N, _)

/-- On the part a transfer moves, a filled-out block does not depend on what it was filled out with. -/
theorem fill_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows inside the array, what the body writes does not depend on the words past the array's end. -/
theorem cong : Dat0.Cong F := by
  intro t d0 d0' d1 d1' g0 g1
  obtain ⟨⟨h00, h10⟩, h01, h11, h22⟩ := clip0 t
  funext j
  have hj0 : (j 0).val < win0_2.xsize (grid0.coords t) 0 := (j 0).isLt
  have hj2 : (j 2).val < win0_2.xsize (grid0.coords t) 2 := (j 2).isLt
  obtain ⟨p, k, q, hpkq⟩ : ∃ (p : Fin 512) (k : Fin 16) (q : Fin 128),
      (win0_2.xinj (grid0.coords t) j : S512x16x128.Idx) = ix3 p k q := ⟨_, _, _, eq_ix3 (n0 := 512) (n1 := 16) (n2 := 128) _⟩
  have hp : (j 0).val = p.val := congrArg (fun x : S512x16x128.Idx => (x 0).val) hpkq
  have hq : (j 2).val = q.val := congrArg (fun x : S512x16x128.Idx => (x 2).val) hpkq
  show out0 _ _ (win0_2.xinj (grid0.coords t) j) = out0 _ _ (win0_2.xinj (grid0.coords t) j)
  rw [hpkq, out0_apply, out0_apply]
  have hm0 : win0_0.moved (grid0.coords t) (ix2 p q) = true :=
    (win0_0.moved_iff _ _).mpr fun a => by
      match a with
      | ⟨0, _⟩ => show p.val < win0_0.xsize (grid0.coords t) 0; omega
      | ⟨1, _⟩ => show q.val < win0_0.xsize (grid0.coords t) 1; omega
  have hm1 : win0_1.moved (grid0.coords t) (ix2 p q) = true :=
    (win0_1.moved_iff _ _).mpr fun a => by
      match a with
      | ⟨0, _⟩ => show p.val < win0_1.xsize (grid0.coords t) 0; omega
      | ⟨1, _⟩ => show q.val < win0_1.xsize (grid0.coords t) 1; omega
  rw [fill_moved win0_0 _ d0 d0' g0 _ hm0, fill_moved win0_1 _ d1 d1' g1 _ hm1]

end Cert.Kernel.Point0

end
-- ==== Proof.KPoint1.lean ====
import proofs.«150593_j33397665694348_2_alg».proof.Proof.KDat1
import proofs.«150593_j33397665694348_2_alg».proof.Proof.KPoint0

/-! The angular body read at an index. Channel 4·j + i of the output block is, at row p and lane q,
    ((0.5 + 0.5 · cos (x0 − z_i)) squared five times) · exp ((−8 · (x1 − a_j)) · (x1 − a_j)) · (2 · x2) of the three inputs
    at (p, q) — so what the body writes at a row depends on its inputs at that row only. -/

set_option maxRecDepth 16384

noncomputable section

namespace Cert.Kernel.Point1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open Cert.Kernel.Body1
open Cert.Kernel.Point0 (slab_emb fill_moved)

/-- Channel c's angular shift (c mod 4) and radial shift (c div 4), as the words the body names them by. -/
def zOf : Fin 16 → BitVec 32
  | ⟨0, _⟩ => 0x3EC90FDB#32
  | ⟨1, _⟩ => 0x3F96CBE4#32
  | ⟨2, _⟩ => 0x3FFB53D1#32
  | ⟨3, _⟩ => 0x402FEDDF#32
  | ⟨4, _⟩ => 0x3EC90FDB#32
  | ⟨5, _⟩ => 0x3F96CBE4#32
  | ⟨6, _⟩ => 0x3FFB53D1#32
  | ⟨7, _⟩ => 0x402FEDDF#32
  | ⟨8, _⟩ => 0x3EC90FDB#32
  | ⟨9, _⟩ => 0x3F96CBE4#32
  | ⟨10, _⟩ => 0x3FFB53D1#32
  | ⟨11, _⟩ => 0x402FEDDF#32
  | ⟨12, _⟩ => 0x3EC90FDB#32
  | ⟨13, _⟩ => 0x3F96CBE4#32
  | ⟨14, _⟩ => 0x3FFB53D1#32
  | ⟨15, _⟩ => 0x402FEDDF#32
  | ⟨_ + 16, h⟩ => absurd h (Nat.not_lt.2 (Nat.le_add_left _ _))
def aOf : Fin 16 → BitVec 32
  | ⟨0, _⟩ => 0x3F4CCCCD#32
  | ⟨1, _⟩ => 0x3F4CCCCD#32
  | ⟨2, _⟩ => 0x3F4CCCCD#32
  | ⟨3, _⟩ => 0x3F4CCCCD#32
  | ⟨4, _⟩ => 0x3FBCCCCD#32
  | ⟨5, _⟩ => 0x3FBCCCCD#32
  | ⟨6, _⟩ => 0x3FBCCCCD#32
  | ⟨7, _⟩ => 0x3FBCCCCD#32
  | ⟨8, _⟩ => 0x4009999A#32
  | ⟨9, _⟩ => 0x4009999A#32
  | ⟨10, _⟩ => 0x4009999A#32
  | ⟨11, _⟩ => 0x4009999A#32
  | ⟨12, _⟩ => 0x4034CCCD#32
  | ⟨13, _⟩ => 0x4034CCCD#32
  | ⟨14, _⟩ => 0x4034CCCD#32
  | ⟨15, _⟩ => 0x4034CCCD#32
  | ⟨_ + 16, h⟩ => absurd h (Nat.not_lt.2 (Nat.le_add_left _ _))

/-- The angular factor at one element: y = 0.5 + 0.5 · cos (x − z), then y², y⁴, y⁸, y¹⁶, y³² by squaring. -/
def f1S (z x : F .f32) : F .f32 :=
  let y := FloatOps.addf (Scalar.ofBits .f32 0x3F000000#32) (FloatOps.mulf (Scalar.ofBits .f32 0x3F000000#32) (FloatOps.cos (FloatOps.subf x z)))
  let y2 := FloatOps.mulf y y
  let y4 := FloatOps.mulf y2 y2
  let y8 := FloatOps.mulf y4 y4
  let y16 := FloatOps.mulf y8 y8
  FloatOps.mulf y16 y16
/-- The radial factor at one element. -/
def f2S (a y : F .f32) : F .f32 :=
  FloatOps.exp (FloatOps.mulf (FloatOps.mulf (Scalar.ofBits .f32 0xC1000000#32) (FloatOps.subf y a)) (FloatOps.subf y a))
/-- One channel at one element: the angle `x`, the mean distance `y`, the switch product `w`. -/
def angS (z a x y w : F .f32) : F .f32 :=
  FloatOps.mulf (FloatOps.mulf (f1S z x) (f2S a y)) (FloatOps.mulf (Scalar.ofBits .f32 0x40000000#32) w)

/-- The same on whole blocks, as the body spells them. -/
def f1V (z : F .f32) (v1 : FVec F S512x128 .f32) : FVec F S512x128 .f32 :=
  let y := addf (broadcast S512x128 (Scalar.ofBits .f32 0x3F000000#32)) (mulf (broadcast S512x128 (Scalar.ofBits .f32 0x3F000000#32)) (cos (subf v1 (broadcast S512x128 z))))
  let y2 := mulf y y
  let y4 := mulf y2 y2
  let y8 := mulf y4 y4
  let y16 := mulf y8 y8
  mulf y16 y16
def f2V (a : F .f32) (v3 : FVec F S512x128 .f32) : FVec F S512x128 .f32 :=
  exp (mulf (mulf (broadcast S512x128 (Scalar.ofBits .f32 0xC1000000#32)) (subf v3 (broadcast S512x128 a))) (subf v3 (broadcast S512x128 a)))
def twoV (x2 : FVec F S512x128 .f32) : FVec F S512x128 .f32 := mulf (broadcast S512x128 (Scalar.ofBits .f32 0x40000000#32)) x2
/-- One channel's slab as the body computes it. -/
def angV (z a : F .f32) (v1 v3 v7 : FVec F S512x128 .f32) : FVec F S512x1x128 .f32 :=
  shapeCast S512x1x128 (mulf (mulf (f1V z v1) (f2V a v3)) v7) shapeCasts_S512x128_S512x1x128

/-- The slab at (p, ·, q) is the product of the three factors at (p, q). -/
theorem angV_apply (z a : F .f32) (v1 v3 x2 : FVec F S512x128 .f32) (p : Fin 512) (u : Fin 1) (q : Fin 128) :
    angV z a v1 v3 (twoV x2) (ix3 p u q) = angS z a (v1 (ix2 p q)) (v3 (ix2 p q)) (x2 (ix2 p q)) := by
  unfold angV angS
  refine (Cert.MidAxis.shapeCast_ab_a1b_apply _ _ p u q).trans ?_
  rfl

/-- Channel by channel, the store's payload is the channel's slab (the body's own spelling of it, read off). -/
theorem pay_a0 (l0 : Vec F S512x128 .f32) (v3 v7 : FVec F S512x128 .f32) : k1_pay12 v3 v7 (k1_pay6 l0) = angV (Scalar.ofBits .f32 0x3EC90FDB#32) (Scalar.ofBits .f32 0x3F4CCCCD#32) (k1_pay3 l0) v3 v7 := rfl
theorem pay_a1 (l0 : Vec F S512x128 .f32) (v3 v7 : FVec F S512x128 .f32) : k1_pay13 v3 v7 (k1_pay7 l0) = angV (Scalar.ofBits .f32 0x3F96CBE4#32) (Scalar.ofBits .f32 0x3F4CCCCD#32) (k1_pay3 l0) v3 v7 := rfl
theorem pay_a2 (l0 : Vec F S512x128 .f32) (v3 v7 : FVec F S512x128 .f32) : k1_pay14 v3 v7 (k1_pay8 l0) = angV (Scalar.ofBits .f32 0x3FFB53D1#32) (Scalar.ofBits .f32 0x3F4CCCCD#32) (k1_pay3 l0) v3 v7 := rfl
theorem pay_a3 (v1 v3 v7 : FVec F S512x128 .f32) : k1_pay15 v1 v3 v7 = angV (Scalar.ofBits .f32 0x402FEDDF#32) (Scalar.ofBits .f32 0x3F4CCCCD#32) v1 v3 v7 := rfl
theorem pay_a4 (l0 : Vec F S512x128 .f32) (v3 v7 : FVec F S512x128 .f32) : k1_pay17 v3 v7 (k1_pay6 l0) = angV (Scalar.ofBits .f32 0x3EC90FDB#32) (Scalar.ofBits .f32 0x3FBCCCCD#32) (k1_pay3 l0) v3 v7 := rfl
theorem pay_a5 (l0 : Vec F S512x128 .f32) (v3 v7 : FVec F S512x128 .f32) : k1_pay18 v3 v7 (k1_pay7 l0) = angV (Scalar.ofBits .f32 0x3F96CBE4#32) (Scalar.ofBits .f32 0x3FBCCCCD#32) (k1_pay3 l0) v3 v7 := rfl
theorem pay_a6 (l0 : Vec F S512x128 .f32) (v3 v7 : FVec F S512x128 .f32) : k1_pay19 v3 v7 (k1_pay9 (k1_pay8 l0)) = angV (Scalar.ofBits .f32 0x3FFB53D1#32) (Scalar.ofBits .f32 0x3FBCCCCD#32) (k1_pay3 l0) v3 v7 := rfl
theorem pay_a7 (v1 v3 v7 : FVec F S512x128 .f32) : k1_pay20 v3 v7 (k1_pay10 v1) = angV (Scalar.ofBits .f32 0x402FEDDF#32) (Scalar.ofBits .f32 0x3FBCCCCD#32) v1 v3 v7 := rfl
theorem pay_a8 (l0 : Vec F S512x128 .f32) (v3 v7 : FVec F S512x128 .f32) : k1_pay22 v3 v7 (k1_pay6 l0) = angV (Scalar.ofBits .f32 0x3EC90FDB#32) (Scalar.ofBits .f32 0x4009999A#32) (k1_pay3 l0) v3 v7 := rfl
theorem pay_a9 (l0 : Vec F S512x128 .f32) (v3 v7 : FVec F S512x128 .f32) : k1_pay23 v7 (k1_pay7 l0) (k1_pay21 v3) = angV (Scalar.ofBits .f32 0x3F96CBE4#32) (Scalar.ofBits .f32 0x4009999A#32) (k1_pay3 l0) v3 v7 := rfl
theorem pay_a10 (l0 : Vec F S512x128 .f32) (v3 v7 : FVec F S512x128 .f32) : k1_pay24 v7 (k1_pay9 (k1_pay8 l0)) (k1_pay21 v3) = angV (Scalar.ofBits .f32 0x3FFB53D1#32) (Scalar.ofBits .f32 0x4009999A#32) (k1_pay3 l0) v3 v7 := rfl
theorem pay_a11 (v1 v3 v7 : FVec F S512x128 .f32) : k1_pay25 v7 (k1_pay10 v1) (k1_pay21 v3) = angV (Scalar.ofBits .f32 0x402FEDDF#32) (Scalar.ofBits .f32 0x4009999A#32) v1 v3 v7 := rfl
theorem pay_a12 (l0 : Vec F S512x128 .f32) (v3 v7 : FVec F S512x128 .f32) : k1_pay27 v3 v7 (k1_pay6 l0) = angV (Scalar.ofBits .f32 0x3EC90FDB#32) (Scalar.ofBits .f32 0x4034CCCD#32) (k1_pay3 l0) v3 v7 := rfl
theorem pay_a13 (l0 : Vec F S512x128 .f32) (v3 v7 : FVec F S512x128 .f32) : k1_pay28 v3 v7 (k1_pay7 l0) = angV (Scalar.ofBits .f32 0x3F96CBE4#32) (Scalar.ofBits .f32 0x4034CCCD#32) (k1_pay3 l0) v3 v7 := rfl
theorem pay_a14 (l0 : Vec F S512x128 .f32) (v3 v7 : FVec F S512x128 .f32) : k1_pay1 (k1_pay29 v3 v7 (k1_pay9 (k1_pay8 l0))) = angV (Scalar.ofBits .f32 0x3FFB53D1#32) (Scalar.ofBits .f32 0x4034CCCD#32) (k1_pay3 l0) v3 v7 := rfl
theorem pay_a15 (v1 v3 v7 : FVec F S512x128 .f32) : k1_pay2 v7 (k1_pay10 v1) (k1_pay26 v3) = angV (Scalar.ofBits .f32 0x402FEDDF#32) (Scalar.ofBits .f32 0x4034CCCD#32) v1 v3 v7 := rfl
/-- The loaded blocks cast to their own shape are themselves; the third comes doubled. -/
theorem pay3_eq (l0 : Vec F S512x128 .f32) : k1_pay3 l0 = l0 := shapeCast_self _ _
theorem pay4_eq (l1 : Vec F S512x128 .f32) : k1_pay4 l1 = l1 := shapeCast_self _ _
theorem pay5_eq (l2 : Vec F S512x128 .f32) : k1_pay5 l2 = twoV l2 := by
  show mulf _ (shapeCast S512x128 l2 _) = _; rw [shapeCast_self]; rfl

/-- The sixteen slabs, last first. -/
def slabs (x0 x1 x2 : Vec F S512x128 .f32) : List (View.Piece (Elt F) S512x16x128 .f32) :=
    [ ⟨rc15, angV (Scalar.ofBits .f32 0x402FEDDF#32) (Scalar.ofBits .f32 0x4034CCCD#32) x0 x1 (twoV x2)⟩,
      ⟨rc14, angV (Scalar.ofBits .f32 0x3FFB53D1#32) (Scalar.ofBits .f32 0x4034CCCD#32) x0 x1 (twoV x2)⟩,
      ⟨rc13, angV (Scalar.ofBits .f32 0x3F96CBE4#32) (Scalar.ofBits .f32 0x4034CCCD#32) x0 x1 (twoV x2)⟩,
      ⟨rc12, angV (Scalar.ofBits .f32 0x3EC90FDB#32) (Scalar.ofBits .f32 0x4034CCCD#32) x0 x1 (twoV x2)⟩,
      ⟨rc11, angV (Scalar.ofBits .f32 0x402FEDDF#32) (Scalar.ofBits .f32 0x4009999A#32) x0 x1 (twoV x2)⟩,
      ⟨rc10, angV (Scalar.ofBits .f32 0x3FFB53D1#32) (Scalar.ofBits .f32 0x4009999A#32) x0 x1 (twoV x2)⟩,
      ⟨rc9, angV (Scalar.ofBits .f32 0x3F96CBE4#32) (Scalar.ofBits .f32 0x4009999A#32) x0 x1 (twoV x2)⟩,
      ⟨rc8, angV (Scalar.ofBits .f32 0x3EC90FDB#32) (Scalar.ofBits .f32 0x4009999A#32) x0 x1 (twoV x2)⟩,
      ⟨rc7, angV (Scalar.ofBits .f32 0x402FEDDF#32) (Scalar.ofBits .f32 0x3FBCCCCD#32) x0 x1 (twoV x2)⟩,
      ⟨rc6, angV (Scalar.ofBits .f32 0x3FFB53D1#32) (Scalar.ofBits .f32 0x3FBCCCCD#32) x0 x1 (twoV x2)⟩,
      ⟨rc5, angV (Scalar.ofBits .f32 0x3F96CBE4#32) (Scalar.ofBits .f32 0x3FBCCCCD#32) x0 x1 (twoV x2)⟩,
      ⟨rc4, angV (Scalar.ofBits .f32 0x3EC90FDB#32) (Scalar.ofBits .f32 0x3FBCCCCD#32) x0 x1 (twoV x2)⟩,
      ⟨rc3, angV (Scalar.ofBits .f32 0x402FEDDF#32) (Scalar.ofBits .f32 0x3F4CCCCD#32) x0 x1 (twoV x2)⟩,
      ⟨rc2, angV (Scalar.ofBits .f32 0x3FFB53D1#32) (Scalar.ofBits .f32 0x3F4CCCCD#32) x0 x1 (twoV x2)⟩,
      ⟨rc1, angV (Scalar.ofBits .f32 0x3F96CBE4#32) (Scalar.ofBits .f32 0x3F4CCCCD#32) x0 x1 (twoV x2)⟩,
      ⟨rc0, angV (Scalar.ofBits .f32 0x3EC90FDB#32) (Scalar.ofBits .f32 0x3F4CCCCD#32) x0 x1 (twoV x2)⟩ ]

theorem chans_slabs (x0 x1 x2 : Vec F S512x128 .f32) : chans x0 x1 x2 = slabs x0 x1 x2 := by
  unfold chans slabs
  simp only [View.ld_unit_zero (S := S512x128) (off := ![0, 0]) (funext fun a => by fin_cases a <;> rfl),
    pay_a0, pay_a1, pay_a2, pay_a3, pay_a4, pay_a5, pay_a6, pay_a7, pay_a8, pay_a9, pay_a10, pay_a11, pay_a12, pay_a13, pay_a14, pay_a15, pay3_eq, pay4_eq, pay5_eq]

/-- The output block as ONE function of its index. -/
def G1 (x0 x1 x2 : Vec F S512x128 .f32) : S512x16x128.Idx → F .f32 := fun j =>
  angS (Scalar.ofBits .f32 (zOf (j 1))) (Scalar.ofBits .f32 (aOf (j 1))) (x0 (ix2 (j 0) (j 2))) (x1 (ix2 (j 0) (j 2))) (x2 (ix2 (j 0) (j 2)))

/-- Each slab is that function's block. -/
theorem slab_ok (x0 x1 x2 : Vec F S512x128 .f32) (kk : ℕ) (hk : kk < 16)
    (inb : ∀ a, (![0, kk, 0] : Fin 3 → ℕ) a + S512x1x128.size a ≤ S512x16x128.size a)
    (z a : F .f32) (hz : z = Scalar.ofBits .f32 (zOf ⟨kk, hk⟩)) (ha : a = Scalar.ofBits .f32 (aOf ⟨kk, hk⟩)) (x : S512x1x128.Idx) :
    angV z a x0 x1 (twoV x2) x = G1 x0 x1 x2 ((Rect.unit (s := S512x16x128) ![0, kk, 0] S512x1x128.size inb).emb x) := by
  obtain ⟨p, u, q, rfl⟩ : ∃ (p : Fin 512) (u : Fin 1) (q : Fin 128), x = ix3 p u q := ⟨x 0, x 1, x 2, eq_ix3 x⟩
  rw [slab_emb kk hk inb, angV_apply, hz, ha]; rfl

set_option maxHeartbeats 2000000 in
theorem slabs_ok (x0 x1 x2 : Vec F S512x128 .f32) :
    ∀ pc ∈ slabs x0 x1 x2, ∀ x : pc.1.shape.Idx, pc.2 x = G1 x0 x1 x2 (pc.1.emb x) := by
  intro pc hpc
  unfold slabs at hpc
  simp only [List.mem_cons, List.mem_nil_iff, or_false] at hpc
  rcases hpc with rfl | rfl | rfl | rfl | rfl | rfl | rfl | rfl | rfl | rfl | rfl | rfl | rfl | rfl | rfl | rfl
  · exact fun x => slab_ok x0 x1 x2 15 (by omega) inb_S512x16x128_S512x1x128_0_15_0 _ _ rfl rfl x
  · exact fun x => slab_ok x0 x1 x2 14 (by omega) inb_S512x16x128_S512x1x128_0_14_0 _ _ rfl rfl x
  · exact fun x => slab_ok x0 x1 x2 13 (by omega) inb_S512x16x128_S512x1x128_0_13_0 _ _ rfl rfl x
  · exact fun x => slab_ok x0 x1 x2 12 (by omega) inb_S512x16x128_S512x1x128_0_12_0 _ _ rfl rfl x
  · exact fun x => slab_ok x0 x1 x2 11 (by omega) inb_S512x16x128_S512x1x128_0_11_0 _ _ rfl rfl x
  · exact fun x => slab_ok x0 x1 x2 10 (by omega) inb_S512x16x128_S512x1x128_0_10_0 _ _ rfl rfl x
  · exact fun x => slab_ok x0 x1 x2 9 (by omega) inb_S512x16x128_S512x1x128_0_9_0 _ _ rfl rfl x
  · exact fun x => slab_ok x0 x1 x2 8 (by omega) inb_S512x16x128_S512x1x128_0_8_0 _ _ rfl rfl x
  · exact fun x => slab_ok x0 x1 x2 7 (by omega) inb_S512x16x128_S512x1x128_0_7_0 _ _ rfl rfl x
  · exact fun x => slab_ok x0 x1 x2 6 (by omega) inb_S512x16x128_S512x1x128_0_6_0 _ _ rfl rfl x
  · exact fun x => slab_ok x0 x1 x2 5 (by omega) inb_S512x16x128_S512x1x128_0_5_0 _ _ rfl rfl x
  · exact fun x => slab_ok x0 x1 x2 4 (by omega) inb_S512x16x128_S512x1x128_0_4_0 _ _ rfl rfl x
  · exact fun x => slab_ok x0 x1 x2 3 (by omega) inb_S512x16x128_S512x1x128_0_3_0 _ _ rfl rfl x
  · exact fun x => slab_ok x0 x1 x2 2 (by omega) inb_S512x16x128_S512x1x128_0_2_0 _ _ rfl rfl x
  · exact fun x => slab_ok x0 x1 x2 1 (by omega) inb_S512x16x128_S512x1x128_0_1_0 _ _ rfl rfl x
  · exact fun x => slab_ok x0 x1 x2 0 (by omega) inb_S512x16x128_S512x1x128_0_0_0 _ _ rfl rfl x

/-- What the body leaves, at row p, channel k, lane q. -/
theorem out1_apply (x0 x1 x2 : Vec F S512x128 .f32) (p : Fin 512) (k : Fin 16) (q : Fin 128) :
    out1 x0 x1 x2 (ix3 p k q)
      = angS (Scalar.ofBits .f32 (zOf k)) (Scalar.ofBits .f32 (aOf k)) (x0 (ix2 p q)) (x1 (ix2 p q)) (x2 (ix2 p q)) := by
  unfold out1; rw [chans_slabs]
  exact View.canon_apply_of_pieces (G1 x0 x1 x2) (slabs x0 x1 x2) (slabs_ok x0 x1 x2) (ix3 p k q)
    (cover1 (angV (Scalar.ofBits .f32 0x3EC90FDB#32) (Scalar.ofBits .f32 0x3F4CCCCD#32) x0 x1 (twoV x2)) (angV (Scalar.ofBits .f32 0x3F96CBE4#32) (Scalar.ofBits .f32 0x3F4CCCCD#32) x0 x1 (twoV x2)) (angV (Scalar.ofBits .f32 0x3FFB53D1#32) (Scalar.ofBits .f32 0x3F4CCCCD#32) x0 x1 (twoV x2)) (angV (Scalar.ofBits .f32 0x402FEDDF#32) (Scalar.ofBits .f32 0x3F4CCCCD#32) x0 x1 (twoV x2)) (angV (Scalar.ofBits .f32 0x3EC90FDB#32) (Scalar.ofBits .f32 0x3FBCCCCD#32) x0 x1 (twoV x2)) (angV (Scalar.ofBits .f32 0x3F96CBE4#32) (Scalar.ofBits .f32 0x3FBCCCCD#32) x0 x1 (twoV x2)) (angV (Scalar.ofBits .f32 0x3FFB53D1#32) (Scalar.ofBits .f32 0x3FBCCCCD#32) x0 x1 (twoV x2)) (angV (Scalar.ofBits .f32 0x402FEDDF#32) (Scalar.ofBits .f32 0x3FBCCCCD#32) x0 x1 (twoV x2)) (angV (Scalar.ofBits .f32 0x3EC90FDB#32) (Scalar.ofBits .f32 0x4009999A#32) x0 x1 (twoV x2)) (angV (Scalar.ofBits .f32 0x3F96CBE4#32) (Scalar.ofBits .f32 0x4009999A#32) x0 x1 (twoV x2)) (angV (Scalar.ofBits .f32 0x3FFB53D1#32) (Scalar.ofBits .f32 0x4009999A#32) x0 x1 (twoV x2)) (angV (Scalar.ofBits .f32 0x402FEDDF#32) (Scalar.ofBits .f32 0x4009999A#32) x0 x1 (twoV x2)) (angV (Scalar.ofBits .f32 0x3EC90FDB#32) (Scalar.ofBits .f32 0x4034CCCD#32) x0 x1 (twoV x2)) (angV (Scalar.ofBits .f32 0x3F96CBE4#32) (Scalar.ofBits .f32 0x4034CCCD#32) x0 x1 (twoV x2)) (angV (Scalar.ofBits .f32 0x3FFB53D1#32) (Scalar.ofBits .f32 0x4034CCCD#32) x0 x1 (twoV x2)) (angV (Scalar.ofBits .f32 0x402FEDDF#32) (Scalar.ofBits .f32 0x4034CCCD#32) x0 x1 (twoV x2)) (ix3 p k q))

/-- The four windows are cut alike along the rows, and not at all along the lanes. -/
theorem clip1 : ∀ t : Fin cfg1.N,
    (win1_0.xsize (grid1.coords t) 0 = win1_3.xsize (grid1.coords t) 0 ∧ win1_1.xsize (grid1.coords t) 0 = win1_3.xsize (grid1.coords t) 0
        ∧ win1_2.xsize (grid1.coords t) 0 = win1_3.xsize (grid1.coords t) 0)
      ∧ win1_0.xsize (grid1.coords t) 1 = 128 ∧ win1_1.xsize (grid1.coords t) 1 = 128 ∧ win1_2.xsize (grid1.coords t) 1 = 128
      ∧ win1_3.xsize (grid1.coords t) 2 = 128 :=
  (by decide +kernel : ∀ t : Fin grid1.N, _)

/-- On the rows inside the array, what the body writes does not depend on the words past the array's end. -/
theorem cong : Dat1.Cong F := by
  intro t d0 d0' d1 d1' d2 d2' g0 g1 g2
  obtain ⟨⟨h00, h10, h20⟩, h01, h11, h21, h32⟩ := clip1 t
  funext j
  have hj0 : (j 0).val < win1_3.xsize (grid1.coords t) 0 := (j 0).isLt
  have hj2 : (j 2).val < win1_3.xsize (grid1.coords t) 2 := (j 2).isLt
  obtain ⟨p, k, q, hpkq⟩ : ∃ (p : Fin 512) (k : Fin 16) (q : Fin 128),
      (win1_3.xinj (grid1.coords t) j : S512x16x128.Idx) = ix3 p k q := ⟨_, _, _, eq_ix3 (n0 := 512) (n1 := 16) (n2 := 128) _⟩
  have hp : (j 0).val = p.val := congrArg (fun x : S512x16x128.Idx => (x 0).val) hpkq
  have hq : (j 2).val = q.val := congrArg (fun x : S512x16x128.Idx => (x 2).val) hpkq
  show out1 _ _ _ (win1_3.xinj (grid1.coords t) j) = out1 _ _ _ (win1_3.xinj (grid1.coords t) j)
  rw [hpkq, out1_apply, out1_apply]
  have hm0 : win1_0.moved (grid1.coords t) (ix2 p q) = true :=
    (win1_0.moved_iff _ _).mpr fun a => by
      match a with
      | ⟨0, _⟩ => show p.val < win1_0.xsize (grid1.coords t) 0; omega
      | ⟨1, _⟩ => show q.val < win1_0.xsize (grid1.coords t) 1; omega
  have hm1 : win1_1.moved (grid1.coords t) (ix2 p q) = true :=
    (win1_1.moved_iff _ _).mpr fun a => by
      match a with
      | ⟨0, _⟩ => show p.val < win1_1.xsize (grid1.coords t) 0; omega
      | ⟨1, _⟩ => show q.val < win1_1.xsize (grid1.coords t) 1; omega
  have hm2 : win1_2.moved (grid1.coords t) (ix2 p q) = true :=
    (win1_2.moved_iff _ _).mpr fun a => by
      match a with
      | ⟨0, _⟩ => show p.val < win1_2.xsize (grid1.coords t) 0; omega
      | ⟨1, _⟩ => show q.val < win1_2.xsize (grid1.coords t) 1; omega
  rw [fill_moved win1_0 _ d0 d0' g0 _ hm0, fill_moved win1_1 _ d1 d1' g1 _ hm1, fill_moved win1_2 _ d2 d2' g2 _ hm2]

end Cert.Kernel.Point1

end
-- ==== Proof.KFrame.lean ====
import proofs.«150593_j33397665694348_2_alg».proof.Proof.KArgs
import proofs.«150593_j33397665694348_2_alg».proof.Proof.KPoint0
import proofs.«150593_j33397665694348_2_alg».proof.Proof.KPoint1

/-! The run of @main with the congruence hypotheses discharged, read at the result buffer and at the twelve
    arguments: the result ends at the last boundary's contents, each argument at what it held at launch. -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v103) = W13 m c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v103 (by decide)),
      (h c _ (mem_uc main_arg0 (by decide))).trans (W13_arg0 m c),
      (h c _ (mem_uc main_arg1 (by decide))).trans (W13_arg1 m c),
      (h c _ (mem_uc main_arg2 (by decide))).trans (W13_arg2 m c),
      (h c _ (mem_uc main_arg3 (by decide))).trans (W13_arg3 m c),
      (h c _ (mem_uc main_arg4 (by decide))).trans (W13_arg4 m c),
      (h c _ (mem_uc main_arg5 (by decide))).trans (W13_arg5 m c),
      (h c _ (mem_uc main_arg6 (by decide))).trans (W13_arg6 m c),
      (h c _ (mem_uc main_arg7 (by decide))).trans (W13_arg7 m c),
      (h c _ (mem_uc main_arg8 (by decide))).trans (W13_arg8 m c),
      (h c _ (mem_uc main_arg9 (by decide))).trans (W13_arg9 m c),
      (h c _ (mem_uc main_arg10 (by decide))).trans (W13_arg10 m c),
      (h c _ (mem_uc main_arg11 (by decide))).trans (W13_arg11 m c)⟩)
    (run m ρ Point0.cong Point1.cong)

end Cert.Kernel.Run

end
-- ==== Proof.KiBody0.lean ====
import proofs.«150593_j33397665694348_2_alg».proof.Proof.Gen.KernelIdeal.Skeleton
import proofs.«150593_j33397665694348_2_alg».proof.Proof.Gen.KernelIdeal.Launch
import proofs.«150593_j33397665694348_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The radial kernel's body on whole staging buffers: it loads its two [512,128] inputs whole and stores sixteen
    [512,1,128] slabs, one per channel k, into its [512,16,128] output; the slabs tile the output, so afterwards the
    output buffer holds one function of the two inputs (`out0`), whatever it held before. -/

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [512,128] input block. -/
abbrev rin : Rect S512x128 := Rect.unit (s := S512x128) ![0, 0] S512x128.size inb_S512x128_S512x128_0_0
/-- Channel 0's slab of the output block. -/
abbrev rc0 : Rect S512x16x128 := Rect.unit (s := S512x16x128) ![0, 0, 0] S512x1x128.size inb_S512x16x128_S512x1x128_0_0_0
/-- Channel 1's slab of the output block. -/
abbrev rc1 : Rect S512x16x128 := Rect.unit (s := S512x16x128) ![0, 1, 0] S512x1x128.size inb_S512x16x128_S512x1x128_0_1_0
/-- Channel 2's slab of the output block. -/
abbrev rc2 : Rect S512x16x128 := Rect.unit (s := S512x16x128) ![0, 2, 0] S512x1x128.size inb_S512x16x128_S512x1x128_0_2_0
/-- Channel 3's slab of the output block. -/
abbrev rc3 : Rect S512x16x128 := Rect.unit (s := S512x16x128) ![0, 3, 0] S512x1x128.size inb_S512x16x128_S512x1x128_0_3_0
/-- Channel 4's slab of the output block. -/
abbrev rc4 : Rect S512x16x128 := Rect.unit (s := S512x16x128) ![0, 4, 0] S512x1x128.size inb_S512x16x128_S512x1x128_0_4_0
/-- Channel 5's slab of the output block. -/
abbrev rc5 : Rect S512x16x128 := Rect.unit (s := S512x16x128) ![0, 5, 0] S512x1x128.size inb_S512x16x128_S512x1x128_0_5_0
/-- Channel 6's slab of the output block. -/
abbrev rc6 : Rect S512x16x128 := Rect.unit (s := S512x16x128) ![0, 6, 0] S512x1x128.size inb_S512x16x128_S512x1x128_0_6_0
/-- Channel 7's slab of the output block. -/
abbrev rc7 : Rect S512x16x128 := Rect.unit (s := S512x16x128) ![0, 7, 0] S512x1x128.size inb_S512x16x128_S512x1x128_0_7_0
/-- Channel 8's slab of the output block. -/
abbrev rc8 : Rect S512x16x128 := Rect.unit (s := S512x16x128) ![0, 8, 0] S512x1x128.size inb_S512x16x128_S512x1x128_0_8_0
/-- Channel 9's slab of the output block. -/
abbrev rc9 : Rect S512x16x128 := Rect.unit (s := S512x16x128) ![0, 9, 0] S512x1x128.size inb_S512x16x128_S512x1x128_0_9_0
/-- Channel 10's slab of the output block. -/
abbrev rc10 : Rect S512x16x128 := Rect.unit (s := S512x16x128) ![0, 10, 0] S512x1x128.size inb_S512x16x128_S512x1x128_0_10_0
/-- Channel 11's slab of the output block. -/
abbrev rc11 : Rect S512x16x128 := Rect.unit (s := S512x16x128) ![0, 11, 0] S512x1x128.size inb_S512x16x128_S512x1x128_0_11_0
/-- Channel 12's slab of the output block. -/
abbrev rc12 : Rect S512x16x128 := Rect.unit (s := S512x16x128) ![0, 12, 0] S512x1x128.size inb_S512x16x128_S512x1x128_0_12_0
/-- Channel 13's slab of the output block. -/
abbrev rc13 : Rect S512x16x128 := Rect.unit (s := S512x16x128) ![0, 13, 0] S512x1x128.size inb_S512x16x128_S512x1x128_0_13_0
/-- Channel 14's slab of the output block. -/
abbrev rc14 : Rect S512x16x128 := Rect.unit (s := S512x16x128) ![0, 14, 0] S512x1x128.size inb_S512x16x128_S512x1x128_0_14_0
/-- Channel 15's slab of the output block. -/
abbrev rc15 : Rect S512x16x128 := Rect.unit (s := S512x16x128) ![0, 15, 0] S512x1x128.size inb_S512x16x128_S512x1x128_0_15_0

/-- The sixteen stores as pieces, last first: channel k's slab holds channel k's payload of the two inputs. -/
def chans (x0 x1 : Vec F S512x128 .f32) : List (View.Piece (Elt F) S512x16x128 .f32) :=
  let l0 := View.ld x0 rin
  let l1 := View.ld x1 rin
  let v1 := k0_pay1 l0
  let v3 := k0_pay2 l1
  [ ⟨rc15, k0_pay23 v1 v3⟩,
    ⟨rc14, k0_pay22 v1 v3⟩,
    ⟨rc13, k0_pay21 v3 (k0_pay19 v1) k0_pay20⟩,
    ⟨rc12, k0_pay18 v1 v3⟩,
    ⟨rc11, k0_pay17 v1 v3⟩,
    ⟨rc10, k0_pay16 v3 (k0_pay15 v1)⟩,
    ⟨rc9, k0_pay14 v1 v3⟩,
    ⟨rc8, k0_pay13 v1 v3⟩,
    ⟨rc7, k0_pay12 (k0_pay11 v1 v3)⟩,
    ⟨rc6, k0_pay10 v1 v3⟩,
    ⟨rc5, k0_pay9 v1 v3 (Scalar.ofBits .f32 0x400B3333#32)⟩,
    ⟨rc4, k0_pay8 v1 v3⟩,
    ⟨rc3, k0_pay7 v1 v3⟩,
    ⟨rc2, k0_pay6 v3 (k0_pay5 l0)⟩,
    ⟨rc1, k0_pay4 l0 l1⟩,
    ⟨rc0, k0_pay3 l0 l1⟩ ]

/-- What the body leaves in the output buffer. -/
def out0 (x0 x1 : Vec F S512x128 .f32) : Vec F S512x16x128 .f32 := View.canon (chans x0 x1)

/-- Sixteen slabs of one channel each tile the sixteen-channel block. -/
theorem cover0 (p0 p1 p2 p3 p4 p5 p6 p7 p8 p9 p10 p11 p12 p13 p14 p15 : Vec F S512x1x128 .f32) (y : S512x16x128.Idx) :
    ∃ pc ∈ ([⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] : List (View.Piece (Elt F) S512x16x128 .f32)), y ∈ pc.1.set :=
  View.cover_of_tiled [⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] S512x1x128.size (by rfl) y

set_option maxHeartbeats 4000000 in
/-- The body on whole staging memrefs, the inputs' at contents `x0`, `x1` and the output's at anything, runs to the
    continuation holding the inputs' as they were and the output's at `out0 x0 x1`. -/
theorem sound_kernel0 (c : Dev nD) (E : Set ℕ) (i : grid0.Coords)
    (arg1 : Memref sig .tc .vmem S512x128 .f32) (harg1 : arg1.IsWhole) (arg2 : Memref sig .tc .vmem S512x128 .f32) (harg2 : arg2.IsWhole)
    (arg3 : Memref sig .tc .vmem S512x16x128 .f32) (harg3 : arg3.IsWhole)
    (x0 x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (out0 x0 x1)) -∗ K ⟨⟩))
      ⊢ wp frame (wpE (defs₀ (F := F)) Variants.none c none) E (cc0__radial_kernel i arg1 harg1 arg2 harg2 arg3 harg3) K := by
  simp only [cc0__radial_kernel_eq_skeleton]; unfold cc0__radial_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _ _ _ _ _ _ _ _ _ _ _ _ _ _ _ _)

end Cert.KernelIdeal.Body0

end
-- ==== Proof.KiDat0.lean ====
import proofs.«150593_j33397665694348_2_alg».proof.Proof.KiBody0

/-! Region 0 (the radial kernel) at the contents `V` the region is entered from: at grid point t the two input
    windows hold rows 512·t … of their [12500,128] arrays — at the last point only the 212 rows inside the array, the
    rest of the staging buffer being words nothing names — and the body leaves in the output's buffer `out0` of what
    the inputs' buffers hold. On the rows inside the array that does not depend on the unnamed words (`hcong`). -/

set_option maxRecDepth 16384

noncomputable section

namespace Cert.KernelIdeal.Dat0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.Body0

/-- On the rows inside the array, what the body writes does not depend on the words the input buffers hold past the
    array's end. -/
def Cong (F : FTy → Type) [FloatOps F] : Prop :=
  ∀ (t : Fin cfg0.N) (d0 d0' d1 d1' : S512x128.Idx → Elt F .f32)
    (g0 : (win0_0.xblock (grid0.coords t)).Idx → Elt F .f32) (g1 : (win0_1.xblock (grid0.coords t)).Idx → Elt F .f32),
    win0_2.cut (grid0.coords t) (out0 (win0_0.fill (grid0.coords t) d0 g0) (win0_1.fill (grid0.coords t) d1 g1))
      = win0_2.cut (grid0.coords t) (out0 (win0_0.fill (grid0.coords t) d0' g0) (win0_1.fill (grid0.coords t) d1' g1))

variable (V : (c : Dev nD) → (b : Ref sig .tc) → Buf (Elt F) ((c : Thread nD τ).loc b))

/-- The part inside the array of input window 0's block at point `t`, read off the entry contents; -/
def xblk0 (c : Dev nD) (t : Fin cfg0.N) : (win0_0.xblock (grid0.coords t)).Idx → Elt F .f32 :=
  (win0_0.blk t).view.read (Elt F) (V c (Pipeline.arrRef spec0 0))
/-- input window 1's. -/
def xblk1 (c : Dev nD) (t : Fin cfg0.N) : (win0_1.xblock (grid0.coords t)).Idx → Elt F .f32 :=
  (win0_1.blk t).view.read (Elt F) (V c (Pipeline.arrRef spec0 1))

/-- The same filled out to the whole [512,128] block with the zero word (any word would do: nothing reads it). -/
def in0 (c : Dev nD) (t : Fin cfg0.N) : S512x128.Idx → Elt F .f32 :=
  win0_0.fill (grid0.coords t) (fun _ => Scalar.ofBits .f32 0#32) (xblk0 V c t)
def in1 (c : Dev nD) (t : Fin cfg0.N) : S512x128.Idx → Elt F .f32 :=
  win0_1.fill (grid0.coords t) (fun _ => Scalar.ofBits .f32 0#32) (xblk1 V c t)

/-- The proof data of pipeline 0 on core `c`: the arrays as the region finds them; after the body each input's
    buffer at its block and the output's at `out0` of the two; the class's invariant; nothing owed; full shares. -/
def dat0 (c : Dev nD) : Dat τ (Elt F) Unit ℕ (UR sig nD τ) ℕ cfg0 c where
  A w := V c (Pipeline.arrRef spec0 w)
  after w t := match w with
    | ⟨0, _⟩ => in0 V c t
    | ⟨1, _⟩ => in1 V c t
    | ⟨2, _⟩ => out0 (in0 V c t) (in1 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds in the inputs' buffers: the block just fetched on the rows inside the array, `d` elsewhere. -/
theorem before0_0 (c : Dev nD) (t : Fin cfg0.N) (d) :
    (dat0 V c).before (0 : Fin 3) t d = win0_0.fill (grid0.coords t) d (xblk0 V c t) := by
  unfold Dat.before; rw [if_pos (fetch0_0 t)]; rfl
theorem before0_1 (c : Dev nD) (t : Fin cfg0.N) (d) :
    (dat0 V c).before (1 : Fin 3) t d = win0_1.fill (grid0.coords t) d (xblk1 V c t) := by
  unfold Dat.before; rw [if_pos (fetch0_1 t)]; rfl

/-- What the body leaves, window by window. -/
theorem after0_0 (c : Dev nD) (t : Fin cfg0.N) : (dat0 V c).after 0 t = in0 V c t := by dsimp only [dat0]
theorem after0_1 (c : Dev nD) (t : Fin cfg0.N) : (dat0 V c).after 1 t = in1 V c t := by dsimp only [dat0]
theorem after0_2 (c : Dev nD) (t : Fin cfg0.N) : (dat0 V c).after 2 t = out0 (in0 V c t) (in1 V c t) := by dsimp only [dat0]

/-- The padded blocks cut back to the rows inside the array are the blocks. -/
theorem cut_in0 (c : Dev nD) (t : Fin cfg0.N) : (win0 0).cut (grid0.coords t) (in0 V c t) = xblk0 V c t := win0_0.cut_fill _ _ _
theorem cut_in1 (c : Dev nD) (t : Fin cfg0.N) : (win0 1).cut (grid0.coords t) (in1 V c t) = xblk1 V c t := win0_1.cut_fill _ _ _

/-- What the body wrote from blocks padded with any words agrees, on the rows inside the array, with what it would
    have written from the zero-padded blocks: so filling it out with itself changes nothing. -/
theorem out_fill
    (hcong : Cong F)
    (c : Dev nD) (t : Fin cfg0.N) (d0 d1 : S512x128.Idx → Elt F .f32) :
    (win0 2).fill (grid0.coords t) (out0 (win0_0.fill (grid0.coords t) d0 (xblk0 V c t)) (win0_1.fill (grid0.coords t) d1 (xblk1 V c t)))
        ((win0 2).cut (grid0.coords t) (out0 (in0 V c t) (in1 V c t)))
      = out0 (win0_0.fill (grid0.coords t) d0 (xblk0 V c t)) (win0_1.fill (grid0.coords t) d1 (xblk1 V c t)) :=
  win0_2.fill_congr_cut (grid0.coords t) (hcong t d0 _ d1 _ (xblk0 V c t) (xblk1 V c t))

/-- The body obligation, every window stated on the rows inside the array only. -/
theorem body_obligation0
    (hcong : Cong F)
    (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  iapply (sound_kernel0 (F := F) c Set.univ (grid0.coords t) _ _ _ _ _ _
    (win0_0.fill (grid0.coords t) d0 (xblk0 V c t)) (win0_1.fill (grid0.coords t) d1 (xblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after0_0, cut_in0]; try iexact H0
  isplitl [H1]
  · iexists d1
    rw [after0_1, cut_in1]; try iexact H1
  · iexists out0 (win0_0.fill (grid0.coords t) d0 (xblk0 V c t)) (win0_1.fill (grid0.coords t) d1 (xblk1 V c t))
    rw [after0_2, out_fill V hcong c t d0 d1]; try iexact H2

end Cert.KernelIdeal.Dat0

end
-- ==== Proof.KiBody1.lean ====
import proofs.«150593_j33397665694348_2_alg».proof.Proof.Gen.KernelIdeal.Skeleton
import proofs.«150593_j33397665694348_2_alg».proof.Proof.Gen.KernelIdeal.Launch
import proofs.«150593_j33397665694348_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The angular kernel's body on whole staging buffers: it loads its three [512,128] inputs whole and stores sixteen
    [512,1,128] slabs, one per channel, into its [512,16,128] output; the slabs tile the output, so afterwards the
    output buffer holds one function of the three inputs (`out1`), whatever it held before. -/

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [512,128] input block. -/
abbrev rin : Rect S512x128 := Rect.unit (s := S512x128) ![0, 0] S512x128.size inb_S512x128_S512x128_0_0
/-- Channel 0's slab of the output block. -/
abbrev rc0 : Rect S512x16x128 := Rect.unit (s := S512x16x128) ![0, 0, 0] S512x1x128.size inb_S512x16x128_S512x1x128_0_0_0
/-- Channel 1's slab of the output block. -/
abbrev rc1 : Rect S512x16x128 := Rect.unit (s := S512x16x128) ![0, 1, 0] S512x1x128.size inb_S512x16x128_S512x1x128_0_1_0
/-- Channel 2's slab of the output block. -/
abbrev rc2 : Rect S512x16x128 := Rect.unit (s := S512x16x128) ![0, 2, 0] S512x1x128.size inb_S512x16x128_S512x1x128_0_2_0
/-- Channel 3's slab of the output block. -/
abbrev rc3 : Rect S512x16x128 := Rect.unit (s := S512x16x128) ![0, 3, 0] S512x1x128.size inb_S512x16x128_S512x1x128_0_3_0
/-- Channel 4's slab of the output block. -/
abbrev rc4 : Rect S512x16x128 := Rect.unit (s := S512x16x128) ![0, 4, 0] S512x1x128.size inb_S512x16x128_S512x1x128_0_4_0
/-- Channel 5's slab of the output block. -/
abbrev rc5 : Rect S512x16x128 := Rect.unit (s := S512x16x128) ![0, 5, 0] S512x1x128.size inb_S512x16x128_S512x1x128_0_5_0
/-- Channel 6's slab of the output block. -/
abbrev rc6 : Rect S512x16x128 := Rect.unit (s := S512x16x128) ![0, 6, 0] S512x1x128.size inb_S512x16x128_S512x1x128_0_6_0
/-- Channel 7's slab of the output block. -/
abbrev rc7 : Rect S512x16x128 := Rect.unit (s := S512x16x128) ![0, 7, 0] S512x1x128.size inb_S512x16x128_S512x1x128_0_7_0
/-- Channel 8's slab of the output block. -/
abbrev rc8 : Rect S512x16x128 := Rect.unit (s := S512x16x128) ![0, 8, 0] S512x1x128.size inb_S512x16x128_S512x1x128_0_8_0
/-- Channel 9's slab of the output block. -/
abbrev rc9 : Rect S512x16x128 := Rect.unit (s := S512x16x128) ![0, 9, 0] S512x1x128.size inb_S512x16x128_S512x1x128_0_9_0
/-- Channel 10's slab of the output block. -/
abbrev rc10 : Rect S512x16x128 := Rect.unit (s := S512x16x128) ![0, 10, 0] S512x1x128.size inb_S512x16x128_S512x1x128_0_10_0
/-- Channel 11's slab of the output block. -/
abbrev rc11 : Rect S512x16x128 := Rect.unit (s := S512x16x128) ![0, 11, 0] S512x1x128.size inb_S512x16x128_S512x1x128_0_11_0
/-- Channel 12's slab of the output block. -/
abbrev rc12 : Rect S512x16x128 := Rect.unit (s := S512x16x128) ![0, 12, 0] S512x1x128.size inb_S512x16x128_S512x1x128_0_12_0
/-- Channel 13's slab of the output block. -/
abbrev rc13 : Rect S512x16x128 := Rect.unit (s := S512x16x128) ![0, 13, 0] S512x1x128.size inb_S512x16x128_S512x1x128_0_13_0
/-- Channel 14's slab of the output block. -/
abbrev rc14 : Rect S512x16x128 := Rect.unit (s := S512x16x128) ![0, 14, 0] S512x1x128.size inb_S512x16x128_S512x1x128_0_14_0
/-- Channel 15's slab of the output block. -/
abbrev rc15 : Rect S512x16x128 := Rect.unit (s := S512x16x128) ![0, 15, 0] S512x1x128.size inb_S512x16x128_S512x1x128_0_15_0

/-- The sixteen stores as pieces, last first, over the values the body shares between channels: the angle, the mean
    distance, twice the switch product, the four angular factors and two of the radial ones. -/
def chans (x0 x1 x2 : Vec F S512x128 .f32) : List (View.Piece (Elt F) S512x16x128 .f32) :=
  let l0 := View.ld x0 rin
  let l1 := View.ld x1 rin
  let l2 := View.ld x2 rin
  let v1 := k1_pay3 l0
  let v3 := k1_pay4 l1
  let v7 := k1_pay5 l2
  let v19 := k1_pay6 l0
  let v31 := k1_pay7 l0
  let v42 := k1_pay8 l0
  let v43 := k1_pay9 v42
  let v55 := k1_pay10 v1
  let v113 := k1_pay21 v3
  [ ⟨rc15, k1_pay2 v7 v55 (k1_pay26 v3)⟩,
    ⟨rc14, k1_pay1 (k1_pay29 v3 v7 v43)⟩,
    ⟨rc13, k1_pay28 v3 v7 v31⟩,
    ⟨rc12, k1_pay27 v3 v7 v19⟩,
    ⟨rc11, k1_pay25 v7 v55 v113⟩,
    ⟨rc10, k1_pay24 v7 v43 v113⟩,
    ⟨rc9, k1_pay23 v7 v31 v113⟩,
    ⟨rc8, k1_pay22 v3 v7 v19⟩,
    ⟨rc7, k1_pay20 v3 v7 v55⟩,
    ⟨rc6, k1_pay19 v3 v7 v43⟩,
    ⟨rc5, k1_pay18 v3 v7 v31⟩,
    ⟨rc4, k1_pay17 v3 v7 v19⟩,
    ⟨rc3, k1_pay15 v1 v3 v7⟩,
    ⟨rc2, k1_pay14 v3 v7 v42⟩,
    ⟨rc1, k1_pay13 v3 v7 v31⟩,
    ⟨rc0, k1_pay12 v3 v7 v19⟩ ]

/-- What the body leaves in the output buffer. -/
def out1 (x0 x1 x2 : Vec F S512x128 .f32) : Vec F S512x16x128 .f32 := View.canon (chans x0 x1 x2)

/-- Sixteen slabs of one channel each tile the sixteen-channel block. -/
theorem cover1 (p0 p1 p2 p3 p4 p5 p6 p7 p8 p9 p10 p11 p12 p13 p14 p15 : Vec F S512x1x128 .f32) (y : S512x16x128.Idx) :
    ∃ pc ∈ ([⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] : List (View.Piece (Elt F) S512x16x128 .f32)), y ∈ pc.1.set :=
  View.cover_of_tiled [⟨rc15, p15⟩, ⟨rc14, p14⟩, ⟨rc13, p13⟩, ⟨rc12, p12⟩, ⟨rc11, p11⟩, ⟨rc10, p10⟩, ⟨rc9, p9⟩, ⟨rc8, p8⟩, ⟨rc7, p7⟩, ⟨rc6, p6⟩, ⟨rc5, p5⟩, ⟨rc4, p4⟩, ⟨rc3, p3⟩, ⟨rc2, p2⟩, ⟨rc1, p1⟩, ⟨rc0, p0⟩] S512x1x128.size (by rfl) y

set_option maxHeartbeats 4000000 in
/-- The body on whole staging memrefs, the inputs' at contents `x0`, `x1`, `x2` and the output's at anything, runs to
    the continuation holding the inputs' as they were and the output's at `out1 x0 x1 x2`. -/
theorem sound_kernel1 (c : Dev nD) (E : Set ℕ) (i : grid1.Coords)
    (arg1 : Memref sig .tc .vmem S512x128 .f32) (harg1 : arg1.IsWhole) (arg2 : Memref sig .tc .vmem S512x128 .f32) (harg2 : arg2.IsWhole)
    (arg3 : Memref sig .tc .vmem S512x128 .f32) (harg3 : arg3.IsWhole)
    (arg4 : Memref sig .tc .vmem S512x16x128 .f32) (harg4 : arg4.IsWhole)
    (x0 x1 x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out1 x0 x1 x2)) -∗ K ⟨⟩))
      ⊢ wp frame (wpE (defs₀ (F := F)) Variants.none c none) E (cc1__angular_kernel i arg1 harg1 arg2 harg2 arg3 harg3 arg4 harg4) K := by
  simp only [cc1__angular_kernel_eq_skeleton]; unfold cc1__angular_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _ _ _ _ _ _ _ _ _ _ _ _ _ _ _)

end Cert.KernelIdeal.Body1

end
-- ==== Proof.KiDat1.lean ====
import proofs.«150593_j33397665694348_2_alg».proof.Proof.KiBody1

/-! Region 1 (the angular kernel) at the contents `V` the region is entered from: at grid point t the three input
    windows hold rows 512·t … of their [25782,128] arrays — at the last point only the 182 rows inside the array, the
    rest of the staging buffer being words nothing names — and the body leaves in the output's buffer `out1` of what
    the inputs' buffers hold. On the rows inside the array that does not depend on the unnamed words (`hcong`). -/

set_option maxRecDepth 16384

noncomputable section

namespace Cert.KernelIdeal.Dat1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.Body1

/-- On the rows inside the array, what the body writes does not depend on the words the input buffers hold past the
    array's end. -/
def Cong (F : FTy → Type) [FloatOps F] : Prop :=
  ∀ (t : Fin cfg1.N) (d0 d0' d1 d1' d2 d2' : S512x128.Idx → Elt F .f32)
    (g0 : (win1_0.xblock (grid1.coords t)).Idx → Elt F .f32) (g1 : (win1_1.xblock (grid1.coords t)).Idx → Elt F .f32)
    (g2 : (win1_2.xblock (grid1.coords t)).Idx → Elt F .f32),
    win1_3.cut (grid1.coords t) (out1 (win1_0.fill (grid1.coords t) d0 g0) (win1_1.fill (grid1.coords t) d1 g1) (win1_2.fill (grid1.coords t) d2 g2))
      = win1_3.cut (grid1.coords t) (out1 (win1_0.fill (grid1.coords t) d0' g0) (win1_1.fill (grid1.coords t) d1' g1) (win1_2.fill (grid1.coords t) d2' g2))

variable (V : (c : Dev nD) → (b : Ref sig .tc) → Buf (Elt F) ((c : Thread nD τ).loc b))

/-- The part inside the array of input window 0's block at point `t`, read off the entry contents; -/
def xblk0 (c : Dev nD) (t : Fin cfg1.N) : (win1_0.xblock (grid1.coords t)).Idx → Elt F .f32 :=
  (win1_0.blk t).view.read (Elt F) (V c (Pipeline.arrRef spec1 0))
/-- input window 1's; -/
def xblk1 (c : Dev nD) (t : Fin cfg1.N) : (win1_1.xblock (grid1.coords t)).Idx → Elt F .f32 :=
  (win1_1.blk t).view.read (Elt F) (V c (Pipeline.arrRef spec1 1))
/-- input window 2's. -/
def xblk2 (c : Dev nD) (t : Fin cfg1.N) : (win1_2.xblock (grid1.coords t)).Idx → Elt F .f32 :=
  (win1_2.blk t).view.read (Elt F) (V c (Pipeline.arrRef spec1 2))

/-- The same filled out to the whole [512,128] block with the zero word (any word would do: nothing reads it). -/
def in0 (c : Dev nD) (t : Fin cfg1.N) : S512x128.Idx → Elt F .f32 :=
  win1_0.fill (grid1.coords t) (fun _ => Scalar.ofBits .f32 0#32) (xblk0 V c t)
def in1 (c : Dev nD) (t : Fin cfg1.N) : S512x128.Idx → Elt F .f32 :=
  win1_1.fill (grid1.coords t) (fun _ => Scalar.ofBits .f32 0#32) (xblk1 V c t)
def in2 (c : Dev nD) (t : Fin cfg1.N) : S512x128.Idx → Elt F .f32 :=
  win1_2.fill (grid1.coords t) (fun _ => Scalar.ofBits .f32 0#32) (xblk2 V c t)

/-- The proof data of pipeline 1 on core `c`: the arrays as the region finds them; after the body each input's
    buffer at its block and the output's at `out1` of the three; the class's invariant; nothing owed; full shares. -/
def dat1 (c : Dev nD) : Dat τ (Elt F) Unit ℕ (UR sig nD τ) ℕ cfg1 c where
  A w := V c (Pipeline.arrRef spec1 w)
  after w t := match w with
    | ⟨0, _⟩ => in0 V c t
    | ⟨1, _⟩ => in1 V c t
    | ⟨2, _⟩ => in2 V c t
    | ⟨3, _⟩ => out1 (in0 V c t) (in1 V c t) (in2 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body finds in the inputs' buffers: the block just fetched on the rows inside the array, `d` elsewhere. -/
theorem before1_0 (c : Dev nD) (t : Fin cfg1.N) (d) :
    (dat1 V c).before (0 : Fin 4) t d = win1_0.fill (grid1.coords t) d (xblk0 V c t) := by
  unfold Dat.before; rw [if_pos (fetch1_0 t)]; rfl
theorem before1_1 (c : Dev nD) (t : Fin cfg1.N) (d) :
    (dat1 V c).before (1 : Fin 4) t d = win1_1.fill (grid1.coords t) d (xblk1 V c t) := by
  unfold Dat.before; rw [if_pos (fetch1_1 t)]; rfl
theorem before1_2 (c : Dev nD) (t : Fin cfg1.N) (d) :
    (dat1 V c).before (2 : Fin 4) t d = win1_2.fill (grid1.coords t) d (xblk2 V c t) := by
  unfold Dat.before; rw [if_pos (fetch1_2 t)]; rfl

/-- What the body leaves, window by window. -/
theorem after1_0 (c : Dev nD) (t : Fin cfg1.N) : (dat1 V c).after 0 t = in0 V c t := by dsimp only [dat1]
theorem after1_1 (c : Dev nD) (t : Fin cfg1.N) : (dat1 V c).after 1 t = in1 V c t := by dsimp only [dat1]
theorem after1_2 (c : Dev nD) (t : Fin cfg1.N) : (dat1 V c).after 2 t = in2 V c t := by dsimp only [dat1]
theorem after1_3 (c : Dev nD) (t : Fin cfg1.N) : (dat1 V c).after 3 t = out1 (in0 V c t) (in1 V c t) (in2 V c t) := by dsimp only [dat1]

/-- The padded blocks cut back to the rows inside the array are the blocks. -/
theorem cut_in0 (c : Dev nD) (t : Fin cfg1.N) : (win1 0).cut (grid1.coords t) (in0 V c t) = xblk0 V c t := win1_0.cut_fill _ _ _
theorem cut_in1 (c : Dev nD) (t : Fin cfg1.N) : (win1 1).cut (grid1.coords t) (in1 V c t) = xblk1 V c t := win1_1.cut_fill _ _ _
theorem cut_in2 (c : Dev nD) (t : Fin cfg1.N) : (win1 2).cut (grid1.coords t) (in2 V c t) = xblk2 V c t := win1_2.cut_fill _ _ _

/-- What the body wrote from blocks padded with any words agrees, on the rows inside the array, with what it would
    have written from the zero-padded blocks: so filling it out with itself changes nothing. -/
theorem out_fill
    (hcong : Cong F)
    (c : Dev nD) (t : Fin cfg1.N) (d0 d1 d2 : S512x128.Idx → Elt F .f32) :
    (win1 3).fill (grid1.coords t) (out1 (win1_0.fill (grid1.coords t) d0 (xblk0 V c t)) (win1_1.fill (grid1.coords t) d1 (xblk1 V c t)) (win1_2.fill (grid1.coords t) d2 (xblk2 V c t)))
        ((win1 3).cut (grid1.coords t) (out1 (in0 V c t) (in1 V c t) (in2 V c t)))
      = out1 (win1_0.fill (grid1.coords t) d0 (xblk0 V c t)) (win1_1.fill (grid1.coords t) d1 (xblk1 V c t)) (win1_2.fill (grid1.coords t) d2 (xblk2 V c t)) :=
  win1_3.fill_congr_cut (grid1.coords t) (hcong t d0 _ d1 _ d2 _ (xblk0 V c t) (xblk1 V c t) (xblk2 V c t))

/-- The body obligation, every window stated on the rows inside the array only. -/
theorem body_obligation1
    (hcong : Cong F)
    (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := F) c Set.univ (grid1.coords t) _ _ _ _ _ _ _ _
    (win1_0.fill (grid1.coords t) d0 (xblk0 V c t)) (win1_1.fill (grid1.coords t) d1 (xblk1 V c t)) (win1_2.fill (grid1.coords t) d2 (xblk2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after1_0, cut_in0]; try iexact H0
  isplitl [H1]
  · iexists d1
    rw [after1_1, cut_in1]; try iexact H1
  isplitl [H2]
  · iexists d2
    rw [after1_2, cut_in2]; try iexact H2
  · iexists out1 (win1_0.fill (grid1.coords t) d0 (xblk0 V c t)) (win1_1.fill (grid1.coords t) d1 (xblk1 V c t)) (win1_2.fill (grid1.coords t) d2 (xblk2 V c t))
    rw [after1_3, out_fill V hcong c t d0 d1 d2]; try iexact H3

end Cert.KernelIdeal.Dat1

end
-- ==== Proof.KiHostTab.lean ====
import proofs.«150593_j33397665694348_2_alg».proof.Proof.Gen.KernelIdeal.Launch
import Idealize.ShloMosaic.Lib.StableHlo.Run

/-! For each stretch of host operations of KernelIdeal's @main: no operation allocates a buffer, and the stretch writes
    only the buffers listed. -/

set_option maxRecDepth 4096

noncomputable section

namespace Cert.KernelIdeal.HostTab

open Cert.KernelIdeal Cert.KernelIdeal.Gen Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
/-- The buffers hostOps0 writes. -/
abbrev hostOps0_W : List (Ref sig .tc) := [main_c, main_c_0, main_v0, main_v1, main_c_1, main_v2, main_v3, main_v4, main_v5, main_v6, main_c_2, main_v7, main_v8, main_v9, main_v10, main_v11]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
/-- The buffers hostOps1 writes. -/
abbrev hostOps1_W : List (Ref sig .tc) := [main_v13, main_v14, main_cst, main_v15, main_v16, main_v17, main_v18, main_c_3, main_v19, main_v20, main_c_4, main_v21, main_v22, main_v23, main_v24, main_v25, main_c_5, main_v26, main_v27, main_c_6, main_v28, main_v29, main_v30, main_v31, main_v32, main_v33, main_cst_7, main_v34, main_v35, main_c_8, main_v36, main_v37, main_c_9, main_v38, main_v39, main_v40, main_v41, main_v42, main_c_10, main_v43, main_v44, main_c_11, main_v45, main_v46, main_v47, main_v48, main_v49, main_v50, main_c_12, main_v51, main_v52, main_c_13, main_v53, main_v54, main_v55, main_v56, main_v57, main_c_14, main_v58, main_v59, main_c_15, main_v60, main_v61, main_v62, main_v63, main_v64, main_c_16, main_v65, main_v66, main_c_17, main_v67, main_v68, main_v69, main_v70, main_v71, main_c_18, main_v72, main_v73, main_c_19, main_v74, main_v75, main_v76, main_c_20, main_v77, main_v78, main_c_21, main_v79, main_v80, main_v81, main_v82, main_v83, main_v84, main_v85, main_c_22, main_v86, main_v87, main_v88, main_c_23]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
/-- The buffers hostOps1_1 writes. -/
abbrev hostOps1_1_W : List (Ref sig .tc) := [main_call0_v0, main_v89]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
/-- The buffers hostOps1_2 writes. -/
abbrev hostOps1_2_W : List (Ref sig .tc) := [main_c_24]
theorem hostOps1_2_writes : (hostOps1_2 : List (HloOp τ sig (Elt F))).Forall fun op => op.writes ⊆ (hostOps1_2_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
/-- The buffers hostOps1_3 writes. -/
abbrev hostOps1_3_W : List (Ref sig .tc) := [main_call1_v0, main_v90]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_4_fresh : (hostOps1_4 : List (HloOp τ sig (Elt F))).Forall fun op => op.fresh = ∅ := by
  simp only [List.Forall]; repeat' constructor
/-- The buffers hostOps1_4 writes. -/
abbrev hostOps1_4_W : List (Ref sig .tc) := [main_c_25]
theorem hostOps1_4_writes : (hostOps1_4 : List (HloOp τ sig (Elt F))).Forall fun op => op.writes ⊆ (hostOps1_4_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_5_fresh : (hostOps1_5 : List (HloOp τ sig (Elt F))).Forall fun op => op.fresh = ∅ := by
  simp only [List.Forall]; repeat' constructor
/-- The buffers hostOps1_5 writes. -/
abbrev hostOps1_5_W : List (Ref sig .tc) := [main_call2_v0, main_v91]
theorem hostOps1_5_writes : (hostOps1_5 : List (HloOp τ sig (Elt F))).Forall fun op => op.writes ⊆ (hostOps1_5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_6_fresh : (hostOps1_6 : List (HloOp τ sig (Elt F))).Forall fun op => op.fresh = ∅ := by
  simp only [List.Forall]; repeat' constructor
/-- The buffers hostOps1_6 writes. -/
abbrev hostOps1_6_W : List (Ref sig .tc) := [main_c_26]
theorem hostOps1_6_writes : (hostOps1_6 : List (HloOp τ sig (Elt F))).Forall fun op => op.writes ⊆ (hostOps1_6_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

theorem hostOps1_7_fresh : (hostOps1_7 : List (HloOp τ sig (Elt F))).Forall fun op => op.fresh = ∅ := by
  simp only [List.Forall]; repeat' constructor
/-- The buffers hostOps1_7 writes. -/
abbrev hostOps1_7_W : List (Ref sig .tc) := [main_call3_v0, main_v92]
theorem hostOps1_7_writes : (hostOps1_7 : List (HloOp τ sig (Elt F))).Forall fun op => op.writes ⊆ (hostOps1_7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps1_8_fresh : (hostOps1_8 : List (HloOp τ sig (Elt F))).Forall fun op => op.fresh = ∅ := by
  simp only [List.Forall]; repeat' constructor
/-- The buffers hostOps1_8 writes. -/
abbrev hostOps1_8_W : List (Ref sig .tc) := [main_v93, main_v94, main_v95]
theorem hostOps1_8_writes : (hostOps1_8 : List (HloOp τ sig (Elt F))).Forall fun op => op.writes ⊆ (hostOps1_8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
/-- The buffers hostOps2 writes. -/
abbrev hostOps2_W : List (Ref sig .tc) := [main_v97, main_v98, main_cst_27, main_v99, main_v100, main_v101, main_v102, main_v103]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

end Cert.KernelIdeal.HostTab

end
-- ==== Proof.KiRun.lean ====
import proofs.«150593_j33397665694348_2_alg».proof.Proof.KiDat0
import proofs.«150593_j33397665694348_2_alg».proof.Proof.KiDat1
import proofs.«150593_j33397665694348_2_alg».proof.Proof.KiHostTab

/-! The run of @main: eleven stretches of host operations and the two kernel regions, in order. Between two of these
    thirteen items the core holds every unscoped buffer whole, at contents `W0` (the launch's), then the fold of each
    host stretch, then — after a region — the region's arrays at what its pipeline leaves and every other buffer as
    it was. The regions' body obligations rest on `hc0` / `hc1`: what a body writes on the rows inside the array does
    not depend on the words past the array's end in its input buffers. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (Seg HostSeg RegionSeg)
open Cert.KernelIdeal.HostTab

variable (m : (ℓ : Loc nD τ sig) → Buf (Elt F) ℓ) (ρ : Dev nD → PrngReg)

/-! ## The buffers' contents at the thirteen boundaries -/

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Dat0.dat0 (V1 m) c).arrAt w cfg0.N
theorem W2_arr (c : Dev nD) (w : Fin cfg0.W) :
    W2 m c (Proc.devRef .tc (Pipeline.arrRef spec0 w)) = (Dat0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dat0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After each of the nine host stretches between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev W10 : Dev nD → Valuation τ sig (Elt F) := fun c => StableHlo.after hostOps1_7 (W9 m c)
/-- Region 1's entry. -/
abbrev W11 : Dev nD → Valuation τ sig (Elt F) := fun c => StableHlo.after hostOps1_8 (W10 m c)
abbrev V11 : (c : Dev nD) → (b : Ref sig .tc) → Buf (Elt F) ((c : Thread nD τ).loc b) := fun c b => W11 m c b
/-- At region 1's exit: its arrays at what the pipeline leaves, every other buffer as entered. -/
def W12 (c : Dev nD) : Valuation τ sig (Elt F) :=
  Pipeline.withArrays spec1 c (W11 m c) fun w => (Dat1.dat1 (V11 m) c).arrAt w cfg1.N
theorem W12_arr (c : Dev nD) (w : Fin cfg1.W) :
    W12 m c (Proc.devRef .tc (Pipeline.arrRef spec1 w)) = (Dat1.dat1 (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev V12 : (c : Dev nD) → (b : Ref sig .tc) → Buf (Elt F) ((c : Thread nD τ).loc b) := fun c b => W12 m c b
theorem hF1 (c : Dev nD) (w : Fin cfg1.W) : (Dat1.dat1 (V11 m) c).arrAt w cfg1.N = V12 m c (Pipeline.arrRef spec1 w) :=
  (W12_arr m c w).symm
theorem hrest1 (c : Dev nD) : ∀ b, b ∉ Finset.univ.image (Pipeline.arrRef spec1) → V12 m c b = V11 m c b :=
  fun b hb => W12_of_ne m c b fun w e => hb (Finset.mem_image.mpr ⟨w, Finset.mem_univ _, e⟩)
/-- After the last host stretch: the end. -/
abbrev W13 : Dev nD → Valuation τ sig (Elt F) := fun c => StableHlo.after hostOps2 (W12 m c)

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Dat0.dat0 (V1 m) c
  | ⟨1, _⟩ => fun c => Dat1.dat1 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class's
    invariant and comes back; nothing is owed; the kernel has no semaphore of its own. -/
def reg0 (hc0 : Dat0.Cong F) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Dat0.body_obligation0 (V1 m) hc0 c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays are
    split out of the unscoped buffers and put back at the exit contents; the generator register goes into the class's
    invariant and comes back; nothing is owed; the kernel has no semaphore of its own. -/
def reg1 (hc1 : Dat1.Cong F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Dat1.body_obligation1 (V11 m) hc1 c
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen items in order. -/
abbrev segs (hc0 : Dat0.Cong F) (hc1 : Dat1.Cong F) : List (Pipeline.Seg (pcfgs (F := F)) adm (pdats m) () defs₀ 𝒱₀ L lv) :=
  [ .host (hseg hostOps0 hostOps0_sub hostOps0_fresh (W0 m)),
    .region (reg0 m hc0),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .region (reg1 m hc1),
    .host (hseg hostOps2 hostOps2_sub hostOps2_fresh (W12 m)) ]

/-- @main is the run of the segments. -/
theorem main_run (hc0 : Dat0.Cong F) (hc1 : Dat1.Cong F) (c : Dev nD) : main (F := F) c = Pipeline.Seg.run (segs m hc0 hc1) := (main_chain c).trans (by chain_rfl)

set_option backward.isDefEq.respectTransparency.types false in
/-- At the compiled mesh, from any memory with zero counters, every weakly fair execution of @main on the TensorCores
    terminates, nothing faulting, and every final state has each unscoped buffer at the last boundary's contents. -/
theorem run (hc0 : Dat0.Cong F) (hc1 : Dat1.Cong F) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m hc0 hc1)
    (fun c Q => by rw [main_run m hc0 hc1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show (iprop(StableHlo.held (c : Thread nD τ) (Pipeline.ucRefs τ sig) (W13 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.KernelIdeal.Run

end
-- ==== Proof.KiArgs.lean ====
import proofs.«150593_j33397665694348_2_alg».proof.Proof.KiRun

/-! A buffer that no host stretch writes and that is no array of either region holds at the end what it held at
    launch: so do the twelve arguments. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.HostTab

variable (m : (ℓ : Loc nD τ sig) → Buf (Elt F) ℓ)

/-- The walk back through the thirteen items. -/
theorem W13_kept (c : Dev nD) (b : Ref sig .tc)
    (h0 : b ∉ hostOps0_W) (h1 : b ∉ hostOps1_W) (h2 : b ∉ hostOps1_1_W) (h3 : b ∉ hostOps1_2_W) (h4 : b ∉ hostOps1_3_W) (h5 : b ∉ hostOps1_4_W) (h6 : b ∉ hostOps1_5_W) (h7 : b ∉ hostOps1_6_W) (h8 : b ∉ hostOps1_7_W) (h9 : b ∉ hostOps1_8_W) (h10 : b ∉ hostOps2_W)
    (hr0 : ∀ w, Pipeline.arrRef spec0 w ≠ b) (hr1 : ∀ w, Pipeline.arrRef spec1 w ≠ b) :
    W13 m c (Proc.devRef .tc b) = m ((c : Thread nD τ).loc b) :=
  calc W13 m c (Proc.devRef .tc b)
    _ = W12 m c (Proc.devRef .tc b) := StableHlo.after_of_writes_sub hostOps2 _ hostOps2_writes h10
    _ = W11 m c (Proc.devRef .tc b) := W12_of_ne m c b hr1
    _ = W10 m c (Proc.devRef .tc b) := StableHlo.after_of_writes_sub hostOps1_8 _ hostOps1_8_writes h9
    _ = W9 m c (Proc.devRef .tc b) := StableHlo.after_of_writes_sub hostOps1_7 _ hostOps1_7_writes h8
    _ = W8 m c (Proc.devRef .tc b) := StableHlo.after_of_writes_sub hostOps1_6 _ hostOps1_6_writes h7
    _ = W7 m c (Proc.devRef .tc b) := StableHlo.after_of_writes_sub hostOps1_5 _ hostOps1_5_writes h6
    _ = W6 m c (Proc.devRef .tc b) := StableHlo.after_of_writes_sub hostOps1_4 _ hostOps1_4_writes h5
    _ = W5 m c (Proc.devRef .tc b) := StableHlo.after_of_writes_sub hostOps1_3 _ hostOps1_3_writes h4
    _ = W4 m c (Proc.devRef .tc b) := StableHlo.after_of_writes_sub hostOps1_2 _ hostOps1_2_writes h3
    _ = W3 m c (Proc.devRef .tc b) := StableHlo.after_of_writes_sub hostOps1_1 _ hostOps1_1_writes h2
    _ = W2 m c (Proc.devRef .tc b) := StableHlo.after_of_writes_sub hostOps1 _ hostOps1_writes h1
    _ = W1 m c (Proc.devRef .tc b) := W2_of_ne m c b hr0
    _ = W0 m c (Proc.devRef .tc b) := StableHlo.after_of_writes_sub hostOps0 _ hostOps0_writes h0
    _ = m ((c : Thread nD τ).loc b) := rfl

theorem W13_arg0 (c : Dev nD) : W13 m c (Proc.devRef .tc main_arg0) = m ((c : Thread nD τ).loc main_arg0) :=
  W13_kept m c main_arg0 (by decide) (by decide) (by decide) (by decide) (by decide) (by decide) (by decide) (by decide) (by decide) (by decide) (by decide) (by decide) (by decide)
theorem W13_arg1 (c : Dev nD) : W13 m c (Proc.devRef .tc main_arg1) = m ((c : Thread nD τ).loc main_arg1) :=
  W13_kept m c main_arg1 (by decide) (by decide) (by decide) (by decide) (by decide) (by decide) (by decide) (by decide) (by decide) (by decide) (by decide) (by decide) (by decide)
theorem W13_arg2 (c : Dev nD) : W13 m c (Proc.devRef .tc main_arg2) = m ((c : Thread nD τ).loc main_arg2) :=
  W13_kept m c main_arg2 (by decide) (by decide) (by decide) (by decide) (by decide) (by decide) (by decide) (by decide) (by decide) (by decide) (by decide) (by decide) (by decide)
theorem W13_arg3 (c : Dev nD) : W13 m c (Proc.devRef .tc main_arg3) = m ((c : Thread nD τ).loc main_arg3) :=
  W13_kept m c main_arg3 (by decide) (by decide) (by decide) (by decide) (by decide) (by decide) (by decide) (by decide) (by decide) (by decide) (by decide) (by decide) (by decide)
theorem W13_arg4 (c : Dev nD) : W13 m c (Proc.devRef .tc main_arg4) = m ((c : Thread nD τ).loc main_arg4) :=
  W13_kept m c main_arg4 (by decide) (by decide) (by decide) (by decide) (by decide) (by decide) (by decide) (by decide) (by decide) (by decide) (by decide) (by decide) (by decide)
theorem W13_arg5 (c : Dev nD) : W13 m c (Proc.devRef .tc main_arg5) = m ((c : Thread nD τ).loc main_arg5) :=
  W13_kept m c main_arg5 (by decide) (by decide) (by decide) (by decide) (by decide) (by decide) (by decide) (by decide) (by decide) (by decide) (by decide) (by decide) (by decide)
theorem W13_arg6 (c : Dev nD) : W13 m c (Proc.devRef .tc main_arg6) = m ((c : Thread nD τ).loc main_arg6) :=
  W13_kept m c main_arg6 (by decide) (by decide) (by decide) (by decide) (by decide) (by decide) (by decide) (by decide) (by decide) (by decide) (by decide) (by decide) (by decide)
theorem W13_arg7 (c : Dev nD) : W13 m c (Proc.devRef .tc main_arg7) = m ((c : Thread nD τ).loc main_arg7) :=
  W13_kept m c main_arg7 (by decide) (by decide) (by decide) (by decide) (by decide) (by decide) (by decide) (by decide) (by decide) (by decide) (by decide) (by decide) (by decide)
theorem W13_arg8 (c : Dev nD) : W13 m c (Proc.devRef .tc main_arg8) = m ((c : Thread nD τ).loc main_arg8) :=
  W13_kept m c main_arg8 (by decide) (by decide) (by decide) (by decide) (by decide) (by decide) (by decide) (by decide) (by decide) (by decide) (by decide) (by decide) (by decide)
theorem W13_arg9 (c : Dev nD) : W13 m c (Proc.devRef .tc main_arg9) = m ((c : Thread nD τ).loc main_arg9) :=
  W13_kept m c main_arg9 (by decide) (by decide) (by decide) (by decide) (by decide) (by decide) (by decide) (by decide) (by decide) (by decide) (by decide) (by decide) (by decide)
theorem W13_arg10 (c : Dev nD) : W13 m c (Proc.devRef .tc main_arg10) = m ((c : Thread nD τ).loc main_arg10) :=
  W13_kept m c main_arg10 (by decide) (by decide) (by decide) (by decide) (by decide) (by decide) (by decide) (by decide) (by decide) (by decide) (by decide) (by decide) (by decide)
theorem W13_arg11 (c : Dev nD) : W13 m c (Proc.devRef .tc main_arg11) = m ((c : Thread nD τ).loc main_arg11) :=
  W13_kept m c main_arg11 (by decide) (by decide) (by decide) (by decide) (by decide) (by decide) (by decide) (by decide) (by decide) (by decide) (by decide) (by decide) (by decide)

end Cert.KernelIdeal.Run

end
-- ==== Proof.KiPoint0.lean ====
import proofs.«150593_j33397665694348_2_alg».proof.Proof.KiDat0
import proofs.«150593_j33397665694348_2_alg».proof.Proof.LibMidAxis
import Idealize.ShloMosaic.Lib.ValueIdx
import Idealize.ShloMosaic.Lib.Pipeline.Value

/-! The radial body read at an index. Every channel k of the output block is the same chain of its own shift s_k:
    at row p and lane q the output holds 0.25 · exp (0 − (16 · (x0 − s_k)) · (x0 − s_k)) · x1 of the two inputs at (p, q)
    — so what the body writes at a row depends on its inputs at that row only. -/

set_option maxRecDepth 16384

noncomputable section

namespace Cert.KernelIdeal.Point0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open Cert.KernelIdeal.Body0

/-- The sixteen radial shifts, as the words the body names them by. -/
def shiftW : Fin 16 → BitVec 32
  | ⟨0, _⟩ => 0x3F4CCCCD#32
  | ⟨1, _⟩ => 0x3F89999A#32
  | ⟨2, _⟩ => 0x3FACCCCD#32
  | ⟨3, _⟩ => 0x3FD00000#32
  | ⟨4, _⟩ => 0x3FF33333#32
  | ⟨5, _⟩ => 0x400B3333#32
  | ⟨6, _⟩ => 0x401CCCCD#32
  | ⟨7, _⟩ => 0x402E6666#32
  | ⟨8, _⟩ => 0x40400000#32
  | ⟨9, _⟩ => 0x4051999A#32
  | ⟨10, _⟩ => 0x40633333#32
  | ⟨11, _⟩ => 0x4074CCCD#32
  | ⟨12, _⟩ => 0x40833333#32
  | ⟨13, _⟩ => 0x408C0000#32
  | ⟨14, _⟩ => 0x4094CCCD#32
  | ⟨15, _⟩ => 0x409D999A#32
  | ⟨_ + 16, h⟩ => absurd h (Nat.not_lt.2 (Nat.le_add_left _ _))

/-- One channel at one element: the inputs' elements `a` (the distance) and `b` (the switch), the shift `s`. -/
def radS (s a b : F .f32) : F .f32 :=
  FloatOps.mulf (FloatOps.mulf (Scalar.ofBits .f32 0x3E800000#32)
    (FloatOps.exp (FloatOps.subf (Scalar.ofBits .f32 0x00000000#32)
      (FloatOps.mulf (FloatOps.mulf (Scalar.ofBits .f32 0x41800000#32) (FloatOps.subf a s)) (FloatOps.subf a s))))) b

/-- One channel's slab as the body computes it from the two loaded blocks. -/
def radV (s : F .f32) (v1 v3 : FVec F S512x128 .f32) : FVec F S512x1x128 .f32 :=
  shapeCast S512x1x128
    (mulf (mulf (broadcast S512x128 (Scalar.ofBits .f32 0x3E800000#32))
      (exp (subf (broadcast S512x128 (Scalar.ofBits .f32 0x00000000#32))
        (mulf (mulf (broadcast S512x128 (Scalar.ofBits .f32 0x41800000#32)) (subf v1 (broadcast S512x128 s))) (subf v1 (broadcast S512x128 s)))))) v3)
    shapeCasts_S512x128_S512x1x128

/-- The slab at (p, ·, q) is the chain of the blocks' elements at (p, q). -/
theorem radV_apply (s : F .f32) (v1 v3 : FVec F S512x128 .f32) (p : Fin 512) (u : Fin 1) (q : Fin 128) :
    radV s v1 v3 (ix3 p u q) = radS s (v1 (ix2 p q)) (v3 (ix2 p q)) := by
  unfold radV radS
  refine (Cert.MidAxis.shapeCast_ab_a1b_apply _ _ p u q).trans ?_
  rfl

/-- Channel by channel, the store's payload is the channel's slab (the body's own spelling of it, read off). -/
theorem pay_c0 (l0 l1 : Vec F S512x128 .f32) : k0_pay3 l0 l1 = radV (Scalar.ofBits .f32 0x3F4CCCCD#32) (k0_pay1 l0) (k0_pay2 l1) := rfl
theorem pay_c1 (l0 l1 : Vec F S512x128 .f32) : k0_pay4 l0 l1 = radV (Scalar.ofBits .f32 0x3F89999A#32) (k0_pay1 l0) (k0_pay2 l1) := rfl
theorem pay_c2 (l0 : Vec F S512x128 .f32) (v3 : FVec F S512x128 .f32) : k0_pay6 v3 (k0_pay5 l0) = radV (Scalar.ofBits .f32 0x3FACCCCD#32) (k0_pay1 l0) v3 := rfl
theorem pay_c3 (v1 v3 : FVec F S512x128 .f32) : k0_pay7 v1 v3 = radV (Scalar.ofBits .f32 0x3FD00000#32) v1 v3 := rfl
theorem pay_c4 (v1 v3 : FVec F S512x128 .f32) : k0_pay8 v1 v3 = radV (Scalar.ofBits .f32 0x3FF33333#32) v1 v3 := rfl
theorem pay_c5 (v1 v3 : FVec F S512x128 .f32) : k0_pay9 v1 v3 (Scalar.ofBits .f32 0x400B3333#32) = radV (Scalar.ofBits .f32 0x400B3333#32) v1 v3 := rfl
theorem pay_c6 (v1 v3 : FVec F S512x128 .f32) : k0_pay10 v1 v3 = radV (Scalar.ofBits .f32 0x401CCCCD#32) v1 v3 := rfl
theorem pay_c7 (v1 v3 : FVec F S512x128 .f32) : k0_pay12 (k0_pay11 v1 v3) = radV (Scalar.ofBits .f32 0x402E6666#32) v1 v3 := rfl
theorem pay_c8 (v1 v3 : FVec F S512x128 .f32) : k0_pay13 v1 v3 = radV (Scalar.ofBits .f32 0x40400000#32) v1 v3 := rfl
theorem pay_c9 (v1 v3 : FVec F S512x128 .f32) : k0_pay14 v1 v3 = radV (Scalar.ofBits .f32 0x4051999A#32) v1 v3 := rfl
theorem pay_c10 (v1 v3 : FVec F S512x128 .f32) : k0_pay16 v3 (k0_pay15 v1) = radV (Scalar.ofBits .f32 0x40633333#32) v1 v3 := rfl
theorem pay_c11 (v1 v3 : FVec F S512x128 .f32) : k0_pay17 v1 v3 = radV (Scalar.ofBits .f32 0x4074CCCD#32) v1 v3 := rfl
theorem pay_c12 (v1 v3 : FVec F S512x128 .f32) : k0_pay18 v1 v3 = radV (Scalar.ofBits .f32 0x40833333#32) v1 v3 := rfl
theorem pay_c13 (v1 v3 : FVec F S512x128 .f32) : k0_pay21 v3 (k0_pay19 v1) k0_pay20 = radV (Scalar.ofBits .f32 0x408C0000#32) v1 v3 := rfl
theorem pay_c14 (v1 v3 : FVec F S512x128 .f32) : k0_pay22 v1 v3 = radV (Scalar.ofBits .f32 0x4094CCCD#32) v1 v3 := rfl
theorem pay_c15 (v1 v3 : FVec F S512x128 .f32) : k0_pay23 v1 v3 = radV (Scalar.ofBits .f32 0x409D999A#32) v1 v3 := rfl
/-- The two loaded blocks cast to their own shape are themselves. -/
theorem pay1_eq (l0 : Vec F S512x128 .f32) : k0_pay1 l0 = l0 := shapeCast_self _ _
theorem pay2_eq (l1 : Vec F S512x128 .f32) : k0_pay2 l1 = l1 := shapeCast_self _ _

/-- The sixteen stores' payloads are the sixteen slabs of the two blocks. -/
theorem chans_eq (x0 x1 : Vec F S512x128 .f32) :
    chans x0 x1 = [ ⟨rc15, radV (Scalar.ofBits .f32 0x409D999A#32) x0 x1⟩,
      ⟨rc14, radV (Scalar.ofBits .f32 0x4094CCCD#32) x0 x1⟩,
      ⟨rc13, radV (Scalar.ofBits .f32 0x408C0000#32) x0 x1⟩,
      ⟨rc12, radV (Scalar.ofBits .f32 0x40833333#32) x0 x1⟩,
      ⟨rc11, radV (Scalar.ofBits .f32 0x4074CCCD#32) x0 x1⟩,
      ⟨rc10, radV (Scalar.ofBits .f32 0x40633333#32) x0 x1⟩,
      ⟨rc9, radV (Scalar.ofBits .f32 0x4051999A#32) x0 x1⟩,
      ⟨rc8, radV (Scalar.ofBits .f32 0x40400000#32) x0 x1⟩,
      ⟨rc7, radV (Scalar.ofBits .f32 0x402E6666#32) x0 x1⟩,
      ⟨rc6, radV (Scalar.ofBits .f32 0x401CCCCD#32) x0 x1⟩,
      ⟨rc5, radV (Scalar.ofBits .f32 0x400B3333#32) x0 x1⟩,
      ⟨rc4, radV (Scalar.ofBits .f32 0x3FF33333#32) x0 x1⟩,
      ⟨rc3, radV (Scalar.ofBits .f32 0x3FD00000#32) x0 x1⟩,
      ⟨rc2, radV (Scalar.ofBits .f32 0x3FACCCCD#32) x0 x1⟩,
      ⟨rc1, radV (Scalar.ofBits .f32 0x3F89999A#32) x0 x1⟩,
      ⟨rc0, radV (Scalar.ofBits .f32 0x3F4CCCCD#32) x0 x1⟩ ] := by
  unfold chans
  simp only [View.ld_unit_zero (S := S512x128) (off := ![0, 0]) (funext fun a => by fin_cases a <;> rfl),
    pay_c0, pay_c1, pay_c2, pay_c3, pay_c4, pay_c5, pay_c6, pay_c7, pay_c8, pay_c9, pay_c10, pay_c11, pay_c12, pay_c13, pay_c14, pay_c15, pay1_eq, pay2_eq]

/-- The sixteen slabs, last first. -/
def slabs (x0 x1 : Vec F S512x128 .f32) : List (View.Piece (Elt F) S512x16x128 .f32) :=
    [ ⟨rc15, radV (Scalar.ofBits .f32 0x409D999A#32) x0 x1⟩,
      ⟨rc14, radV (Scalar.ofBits .f32 0x4094CCCD#32) x0 x1⟩,
      ⟨rc13, radV (Scalar.ofBits .f32 0x408C0000#32) x0 x1⟩,
      ⟨rc12, radV (Scalar.ofBits .f32 0x40833333#32) x0 x1⟩,
      ⟨rc11, radV (Scalar.ofBits .f32 0x4074CCCD#32) x0 x1⟩,
      ⟨rc10, radV (Scalar.ofBits .f32 0x40633333#32) x0 x1⟩,
      ⟨rc9, radV (Scalar.ofBits .f32 0x4051999A#32) x0 x1⟩,
      ⟨rc8, radV (Scalar.ofBits .f32 0x40400000#32) x0 x1⟩,
      ⟨rc7, radV (Scalar.ofBits .f32 0x402E6666#32) x0 x1⟩,
      ⟨rc6, radV (Scalar.ofBits .f32 0x401CCCCD#32) x0 x1⟩,
      ⟨rc5, radV (Scalar.ofBits .f32 0x400B3333#32) x0 x1⟩,
      ⟨rc4, radV (Scalar.ofBits .f32 0x3FF33333#32) x0 x1⟩,
      ⟨rc3, radV (Scalar.ofBits .f32 0x3FD00000#32) x0 x1⟩,
      ⟨rc2, radV (Scalar.ofBits .f32 0x3FACCCCD#32) x0 x1⟩,
      ⟨rc1, radV (Scalar.ofBits .f32 0x3F89999A#32) x0 x1⟩,
      ⟨rc0, radV (Scalar.ofBits .f32 0x3F4CCCCD#32) x0 x1⟩ ]

theorem chans_slabs (x0 x1 : Vec F S512x128 .f32) : chans x0 x1 = slabs x0 x1 := chans_eq x0 x1

/-- A channel's slab sits at channel k of the block, rows and lanes as they are. -/
theorem slab_emb (kk : ℕ) (hk : kk < 16) (inb : ∀ a, (![0, kk, 0] : Fin 3 → ℕ) a + S512x1x128.size a ≤ S512x16x128.size a)
    (p : Fin 512) (u : Fin 1) (q : Fin 128) :
    (Rect.unit (s := S512x16x128) ![0, kk, 0] S512x1x128.size inb).emb (ix3 p u q) = ix3 p (⟨kk, hk⟩ : Fin 16) q := by
  funext a
  match a with
  | ⟨0, _⟩ => exact Fin.ext (show 0 + 1 * p.val = p.val by omega)
  | ⟨1, _⟩ => exact Fin.ext (show kk + 1 * u.val = kk by have := u.isLt; omega)
  | ⟨2, _⟩ => exact Fin.ext (show 0 + 1 * q.val = q.val by omega)

/-- The output block as ONE function of its index: channel `j 1`'s chain of the inputs at row `j 0`, lane `j 2`. -/
def G0 (x0 x1 : Vec F S512x128 .f32) : S512x16x128.Idx → F .f32 := fun j =>
  radS (Scalar.ofBits .f32 (shiftW (j 1))) (x0 (ix2 (j 0) (j 2))) (x1 (ix2 (j 0) (j 2)))

/-- Each slab is that function's block. -/
theorem slab_ok (x0 x1 : Vec F S512x128 .f32) (kk : ℕ) (hk : kk < 16)
    (inb : ∀ a, (![0, kk, 0] : Fin 3 → ℕ) a + S512x1x128.size a ≤ S512x16x128.size a)
    (s : F .f32) (hs : s = Scalar.ofBits .f32 (shiftW ⟨kk, hk⟩)) (x : S512x1x128.Idx) :
    radV s x0 x1 x = G0 x0 x1 ((Rect.unit (s := S512x16x128) ![0, kk, 0] S512x1x128.size inb).emb x) := by
  obtain ⟨p, u, q, rfl⟩ : ∃ (p : Fin 512) (u : Fin 1) (q : Fin 128), x = ix3 p u q := ⟨x 0, x 1, x 2, eq_ix3 x⟩
  rw [slab_emb kk hk inb, radV_apply, hs]; rfl

set_option maxHeartbeats 2000000 in
theorem slabs_ok (x0 x1 : Vec F S512x128 .f32) :
    ∀ pc ∈ slabs x0 x1, ∀ x : pc.1.shape.Idx, pc.2 x = G0 x0 x1 (pc.1.emb x) := by
  intro pc hpc
  unfold slabs at hpc
  simp only [List.mem_cons, List.mem_nil_iff, or_false] at hpc
  rcases hpc with rfl | rfl | rfl | rfl | rfl | rfl | rfl | rfl | rfl | rfl | rfl | rfl | rfl | rfl | rfl | rfl
  · exact fun x => slab_ok x0 x1 15 (by omega) inb_S512x16x128_S512x1x128_0_15_0 _ rfl x
  · exact fun x => slab_ok x0 x1 14 (by omega) inb_S512x16x128_S512x1x128_0_14_0 _ rfl x
  · exact fun x => slab_ok x0 x1 13 (by omega) inb_S512x16x128_S512x1x128_0_13_0 _ rfl x
  · exact fun x => slab_ok x0 x1 12 (by omega) inb_S512x16x128_S512x1x128_0_12_0 _ rfl x
  · exact fun x => slab_ok x0 x1 11 (by omega) inb_S512x16x128_S512x1x128_0_11_0 _ rfl x
  · exact fun x => slab_ok x0 x1 10 (by omega) inb_S512x16x128_S512x1x128_0_10_0 _ rfl x
  · exact fun x => slab_ok x0 x1 9 (by omega) inb_S512x16x128_S512x1x128_0_9_0 _ rfl x
  · exact fun x => slab_ok x0 x1 8 (by omega) inb_S512x16x128_S512x1x128_0_8_0 _ rfl x
  · exact fun x => slab_ok x0 x1 7 (by omega) inb_S512x16x128_S512x1x128_0_7_0 _ rfl x
  · exact fun x => slab_ok x0 x1 6 (by omega) inb_S512x16x128_S512x1x128_0_6_0 _ rfl x
  · exact fun x => slab_ok x0 x1 5 (by omega) inb_S512x16x128_S512x1x128_0_5_0 _ rfl x
  · exact fun x => slab_ok x0 x1 4 (by omega) inb_S512x16x128_S512x1x128_0_4_0 _ rfl x
  · exact fun x => slab_ok x0 x1 3 (by omega) inb_S512x16x128_S512x1x128_0_3_0 _ rfl x
  · exact fun x => slab_ok x0 x1 2 (by omega) inb_S512x16x128_S512x1x128_0_2_0 _ rfl x
  · exact fun x => slab_ok x0 x1 1 (by omega) inb_S512x16x128_S512x1x128_0_1_0 _ rfl x
  · exact fun x => slab_ok x0 x1 0 (by omega) inb_S512x16x128_S512x1x128_0_0_0 _ rfl x

/-- What the body leaves, at row p, channel k, lane q. -/
theorem out0_apply (x0 x1 : Vec F S512x128 .f32) (p : Fin 512) (k : Fin 16) (q : Fin 128) :
    out0 x0 x1 (ix3 p k q) = radS (Scalar.ofBits .f32 (shiftW k)) (x0 (ix2 p q)) (x1 (ix2 p q)) := by
  unfold out0; rw [chans_slabs]
  exact View.canon_apply_of_pieces (G0 x0 x1) (slabs x0 x1) (slabs_ok x0 x1) (ix3 p k q)
    (cover0 (radV (Scalar.ofBits .f32 0x3F4CCCCD#32) x0 x1) (radV (Scalar.ofBits .f32 0x3F89999A#32) x0 x1) (radV (Scalar.ofBits .f32 0x3FACCCCD#32) x0 x1) (radV (Scalar.ofBits .f32 0x3FD00000#32) x0 x1) (radV (Scalar.ofBits .f32 0x3FF33333#32) x0 x1) (radV (Scalar.ofBits .f32 0x400B3333#32) x0 x1) (radV (Scalar.ofBits .f32 0x401CCCCD#32) x0 x1) (radV (Scalar.ofBits .f32 0x402E6666#32) x0 x1) (radV (Scalar.ofBits .f32 0x40400000#32) x0 x1) (radV (Scalar.ofBits .f32 0x4051999A#32) x0 x1) (radV (Scalar.ofBits .f32 0x40633333#32) x0 x1) (radV (Scalar.ofBits .f32 0x4074CCCD#32) x0 x1) (radV (Scalar.ofBits .f32 0x40833333#32) x0 x1) (radV (Scalar.ofBits .f32 0x408C0000#32) x0 x1) (radV (Scalar.ofBits .f32 0x4094CCCD#32) x0 x1) (radV (Scalar.ofBits .f32 0x409D999A#32) x0 x1) (ix3 p k q))

/-- The three windows are cut alike along the rows, and not at all along the lanes. -/
theorem clip0 : ∀ t : Fin cfg0.N,
    (win0_0.xsize (grid0.coords t) 0 = win0_2.xsize (grid0.coords t) 0 ∧ win0_1.xsize (grid0.coords t) 0 = win0_2.xsize (grid0.coords t) 0)
      ∧ win0_0.xsize (grid0.coords t) 1 = 128 ∧ win0_1.xsize (grid0.coords t) 1 = 128 ∧ win0_2.xsize (grid0.coords t) 2 = 128 :=
  (by decide +kernel : ∀ t : Fin grid0.N, _)

/-- On the part a transfer moves, a filled-out block does not depend on what it was filled out with. -/
theorem fill_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows inside the array, what the body writes does not depend on the words past the array's end. -/
theorem cong : Dat0.Cong F := by
  intro t d0 d0' d1 d1' g0 g1
  obtain ⟨⟨h00, h10⟩, h01, h11, h22⟩ := clip0 t
  funext j
  have hj0 : (j 0).val < win0_2.xsize (grid0.coords t) 0 := (j 0).isLt
  have hj2 : (j 2).val < win0_2.xsize (grid0.coords t) 2 := (j 2).isLt
  obtain ⟨p, k, q, hpkq⟩ : ∃ (p : Fin 512) (k : Fin 16) (q : Fin 128),
      (win0_2.xinj (grid0.coords t) j : S512x16x128.Idx) = ix3 p k q := ⟨_, _, _, eq_ix3 (n0 := 512) (n1 := 16) (n2 := 128) _⟩
  have hp : (j 0).val = p.val := congrArg (fun x : S512x16x128.Idx => (x 0).val) hpkq
  have hq : (j 2).val = q.val := congrArg (fun x : S512x16x128.Idx => (x 2).val) hpkq
  show out0 _ _ (win0_2.xinj (grid0.coords t) j) = out0 _ _ (win0_2.xinj (grid0.coords t) j)
  rw [hpkq, out0_apply, out0_apply]
  have hm0 : win0_0.moved (grid0.coords t) (ix2 p q) = true :=
    (win0_0.moved_iff _ _).mpr fun a => by
      match a with
      | ⟨0, _⟩ => show p.val < win0_0.xsize (grid0.coords t) 0; omega
      | ⟨1, _⟩ => show q.val < win0_0.xsize (grid0.coords t) 1; omega
  have hm1 : win0_1.moved (grid0.coords t) (ix2 p q) = true :=
    (win0_1.moved_iff _ _).mpr fun a => by
      match a with
      | ⟨0, _⟩ => show p.val < win0_1.xsize (grid0.coords t) 0; omega
      | ⟨1, _⟩ => show q.val < win0_1.xsize (grid0.coords t) 1; omega
  rw [fill_moved win0_0 _ d0 d0' g0 _ hm0, fill_moved win0_1 _ d1 d1' g1 _ hm1]

end Cert.KernelIdeal.Point0

end
-- ==== Proof.KiPoint1.lean ====
import proofs.«150593_j33397665694348_2_alg».proof.Proof.KiDat1
import proofs.«150593_j33397665694348_2_alg».proof.Proof.KiPoint0

/-! The angular body read at an index. Channel 4·j + i of the output block is, at row p and lane q,
    ((0.5 + 0.5 · cos (x0 − z_i)) squared five times) · exp ((−8 · (x1 − a_j)) · (x1 − a_j)) · (2 · x2) of the three inputs
    at (p, q) — so what the body writes at a row depends on its inputs at that row only. -/

set_option maxRecDepth 16384

noncomputable section

namespace Cert.KernelIdeal.Point1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open Cert.KernelIdeal.Body1
open Cert.KernelIdeal.Point0 (slab_emb fill_moved)

/-- Channel c's angular shift (c mod 4) and radial shift (c div 4), as the words the body names them by. -/
def zOf : Fin 16 → BitVec 32
  | ⟨0, _⟩ => 0x3EC90FDB#32
  | ⟨1, _⟩ => 0x3F96CBE4#32
  | ⟨2, _⟩ => 0x3FFB53D1#32
  | ⟨3, _⟩ => 0x402FEDDF#32
  | ⟨4, _⟩ => 0x3EC90FDB#32
  | ⟨5, _⟩ => 0x3F96CBE4#32
  | ⟨6, _⟩ => 0x3FFB53D1#32
  | ⟨7, _⟩ => 0x402FEDDF#32
  | ⟨8, _⟩ => 0x3EC90FDB#32
  | ⟨9, _⟩ => 0x3F96CBE4#32
  | ⟨10, _⟩ => 0x3FFB53D1#32
  | ⟨11, _⟩ => 0x402FEDDF#32
  | ⟨12, _⟩ => 0x3EC90FDB#32
  | ⟨13, _⟩ => 0x3F96CBE4#32
  | ⟨14, _⟩ => 0x3FFB53D1#32
  | ⟨15, _⟩ => 0x402FEDDF#32
  | ⟨_ + 16, h⟩ => absurd h (Nat.not_lt.2 (Nat.le_add_left _ _))
def aOf : Fin 16 → BitVec 32
  | ⟨0, _⟩ => 0x3F4CCCCD#32
  | ⟨1, _⟩ => 0x3F4CCCCD#32
  | ⟨2, _⟩ => 0x3F4CCCCD#32
  | ⟨3, _⟩ => 0x3F4CCCCD#32
  | ⟨4, _⟩ => 0x3FBCCCCD#32
  | ⟨5, _⟩ => 0x3FBCCCCD#32
  | ⟨6, _⟩ => 0x3FBCCCCD#32
  | ⟨7, _⟩ => 0x3FBCCCCD#32
  | ⟨8, _⟩ => 0x4009999A#32
  | ⟨9, _⟩ => 0x4009999A#32
  | ⟨10, _⟩ => 0x4009999A#32
  | ⟨11, _⟩ => 0x4009999A#32
  | ⟨12, _⟩ => 0x4034CCCD#32
  | ⟨13, _⟩ => 0x4034CCCD#32
  | ⟨14, _⟩ => 0x4034CCCD#32
  | ⟨15, _⟩ => 0x4034CCCD#32
  | ⟨_ + 16, h⟩ => absurd h (Nat.not_lt.2 (Nat.le_add_left _ _))

/-- The angular factor at one element: y = 0.5 + 0.5 · cos (x − z), then y², y⁴, y⁸, y¹⁶, y³² by squaring. -/
def f1S (z x : F .f32) : F .f32 :=
  let y := FloatOps.addf (Scalar.ofBits .f32 0x3F000000#32) (FloatOps.mulf (Scalar.ofBits .f32 0x3F000000#32) (FloatOps.cos (FloatOps.subf x z)))
  let y2 := FloatOps.mulf y y
  let y4 := FloatOps.mulf y2 y2
  let y8 := FloatOps.mulf y4 y4
  let y16 := FloatOps.mulf y8 y8
  FloatOps.mulf y16 y16
/-- The radial factor at one element. -/
def f2S (a y : F .f32) : F .f32 :=
  FloatOps.exp (FloatOps.mulf (FloatOps.mulf (Scalar.ofBits .f32 0xC1000000#32) (FloatOps.subf y a)) (FloatOps.subf y a))
/-- One channel at one element: the angle `x`, the mean distance `y`, the switch product `w`. -/
def angS (z a x y w : F .f32) : F .f32 :=
  FloatOps.mulf (FloatOps.mulf (f1S z x) (f2S a y)) (FloatOps.mulf (Scalar.ofBits .f32 0x40000000#32) w)

/-- The same on whole blocks, as the body spells them. -/
def f1V (z : F .f32) (v1 : FVec F S512x128 .f32) : FVec F S512x128 .f32 :=
  let y := addf (broadcast S512x128 (Scalar.ofBits .f32 0x3F000000#32)) (mulf (broadcast S512x128 (Scalar.ofBits .f32 0x3F000000#32)) (cos (subf v1 (broadcast S512x128 z))))
  let y2 := mulf y y
  let y4 := mulf y2 y2
  let y8 := mulf y4 y4
  let y16 := mulf y8 y8
  mulf y16 y16
def f2V (a : F .f32) (v3 : FVec F S512x128 .f32) : FVec F S512x128 .f32 :=
  exp (mulf (mulf (broadcast S512x128 (Scalar.ofBits .f32 0xC1000000#32)) (subf v3 (broadcast S512x128 a))) (subf v3 (broadcast S512x128 a)))
def twoV (x2 : FVec F S512x128 .f32) : FVec F S512x128 .f32 := mulf (broadcast S512x128 (Scalar.ofBits .f32 0x40000000#32)) x2
/-- One channel's slab as the body computes it. -/
def angV (z a : F .f32) (v1 v3 v7 : FVec F S512x128 .f32) : FVec F S512x1x128 .f32 :=
  shapeCast S512x1x128 (mulf (mulf (f1V z v1) (f2V a v3)) v7) shapeCasts_S512x128_S512x1x128

/-- The slab at (p, ·, q) is the product of the three factors at (p, q). -/
theorem angV_apply (z a : F .f32) (v1 v3 x2 : FVec F S512x128 .f32) (p : Fin 512) (u : Fin 1) (q : Fin 128) :
    angV z a v1 v3 (twoV x2) (ix3 p u q) = angS z a (v1 (ix2 p q)) (v3 (ix2 p q)) (x2 (ix2 p q)) := by
  unfold angV angS
  refine (Cert.MidAxis.shapeCast_ab_a1b_apply _ _ p u q).trans ?_
  rfl

/-- Channel by channel, the store's payload is the channel's slab (the body's own spelling of it, read off). -/
theorem pay_a0 (l0 : Vec F S512x128 .f32) (v3 v7 : FVec F S512x128 .f32) : k1_pay12 v3 v7 (k1_pay6 l0) = angV (Scalar.ofBits .f32 0x3EC90FDB#32) (Scalar.ofBits .f32 0x3F4CCCCD#32) (k1_pay3 l0) v3 v7 := rfl
theorem pay_a1 (l0 : Vec F S512x128 .f32) (v3 v7 : FVec F S512x128 .f32) : k1_pay13 v3 v7 (k1_pay7 l0) = angV (Scalar.ofBits .f32 0x3F96CBE4#32) (Scalar.ofBits .f32 0x3F4CCCCD#32) (k1_pay3 l0) v3 v7 := rfl
theorem pay_a2 (l0 : Vec F S512x128 .f32) (v3 v7 : FVec F S512x128 .f32) : k1_pay14 v3 v7 (k1_pay8 l0) = angV (Scalar.ofBits .f32 0x3FFB53D1#32) (Scalar.ofBits .f32 0x3F4CCCCD#32) (k1_pay3 l0) v3 v7 := rfl
theorem pay_a3 (v1 v3 v7 : FVec F S512x128 .f32) : k1_pay15 v1 v3 v7 = angV (Scalar.ofBits .f32 0x402FEDDF#32) (Scalar.ofBits .f32 0x3F4CCCCD#32) v1 v3 v7 := rfl
theorem pay_a4 (l0 : Vec F S512x128 .f32) (v3 v7 : FVec F S512x128 .f32) : k1_pay17 v3 v7 (k1_pay6 l0) = angV (Scalar.ofBits .f32 0x3EC90FDB#32) (Scalar.ofBits .f32 0x3FBCCCCD#32) (k1_pay3 l0) v3 v7 := rfl
theorem pay_a5 (l0 : Vec F S512x128 .f32) (v3 v7 : FVec F S512x128 .f32) : k1_pay18 v3 v7 (k1_pay7 l0) = angV (Scalar.ofBits .f32 0x3F96CBE4#32) (Scalar.ofBits .f32 0x3FBCCCCD#32) (k1_pay3 l0) v3 v7 := rfl
theorem pay_a6 (l0 : Vec F S512x128 .f32) (v3 v7 : FVec F S512x128 .f32) : k1_pay19 v3 v7 (k1_pay9 (k1_pay8 l0)) = angV (Scalar.ofBits .f32 0x3FFB53D1#32) (Scalar.ofBits .f32 0x3FBCCCCD#32) (k1_pay3 l0) v3 v7 := rfl
theorem pay_a7 (v1 v3 v7 : FVec F S512x128 .f32) : k1_pay20 v3 v7 (k1_pay10 v1) = angV (Scalar.ofBits .f32 0x402FEDDF#32) (Scalar.ofBits .f32 0x3FBCCCCD#32) v1 v3 v7 := rfl
theorem pay_a8 (l0 : Vec F S512x128 .f32) (v3 v7 : FVec F S512x128 .f32) : k1_pay22 v3 v7 (k1_pay6 l0) = angV (Scalar.ofBits .f32 0x3EC90FDB#32) (Scalar.ofBits .f32 0x4009999A#32) (k1_pay3 l0) v3 v7 := rfl
theorem pay_a9 (l0 : Vec F S512x128 .f32) (v3 v7 : FVec F S512x128 .f32) : k1_pay23 v7 (k1_pay7 l0) (k1_pay21 v3) = angV (Scalar.ofBits .f32 0x3F96CBE4#32) (Scalar.ofBits .f32 0x4009999A#32) (k1_pay3 l0) v3 v7 := rfl
theorem pay_a10 (l0 : Vec F S512x128 .f32) (v3 v7 : FVec F S512x128 .f32) : k1_pay24 v7 (k1_pay9 (k1_pay8 l0)) (k1_pay21 v3) = angV (Scalar.ofBits .f32 0x3FFB53D1#32) (Scalar.ofBits .f32 0x4009999A#32) (k1_pay3 l0) v3 v7 := rfl
theorem pay_a11 (v1 v3 v7 : FVec F S512x128 .f32) : k1_pay25 v7 (k1_pay10 v1) (k1_pay21 v3) = angV (Scalar.ofBits .f32 0x402FEDDF#32) (Scalar.ofBits .f32 0x4009999A#32) v1 v3 v7 := rfl
theorem pay_a12 (l0 : Vec F S512x128 .f32) (v3 v7 : FVec F S512x128 .f32) : k1_pay27 v3 v7 (k1_pay6 l0) = angV (Scalar.ofBits .f32 0x3EC90FDB#32) (Scalar.ofBits .f32 0x4034CCCD#32) (k1_pay3 l0) v3 v7 := rfl
theorem pay_a13 (l0 : Vec F S512x128 .f32) (v3 v7 : FVec F S512x128 .f32) : k1_pay28 v3 v7 (k1_pay7 l0) = angV (Scalar.ofBits .f32 0x3F96CBE4#32) (Scalar.ofBits .f32 0x4034CCCD#32) (k1_pay3 l0) v3 v7 := rfl
theorem pay_a14 (l0 : Vec F S512x128 .f32) (v3 v7 : FVec F S512x128 .f32) : k1_pay1 (k1_pay29 v3 v7 (k1_pay9 (k1_pay8 l0))) = angV (Scalar.ofBits .f32 0x3FFB53D1#32) (Scalar.ofBits .f32 0x4034CCCD#32) (k1_pay3 l0) v3 v7 := rfl
theorem pay_a15 (v1 v3 v7 : FVec F S512x128 .f32) : k1_pay2 v7 (k1_pay10 v1) (k1_pay26 v3) = angV (Scalar.ofBits .f32 0x402FEDDF#32) (Scalar.ofBits .f32 0x4034CCCD#32) v1 v3 v7 := rfl
/-- The loaded blocks cast to their own shape are themselves; the third comes doubled. -/
theorem pay3_eq (l0 : Vec F S512x128 .f32) : k1_pay3 l0 = l0 := shapeCast_self _ _
theorem pay4_eq (l1 : Vec F S512x128 .f32) : k1_pay4 l1 = l1 := shapeCast_self _ _
theorem pay5_eq (l2 : Vec F S512x128 .f32) : k1_pay5 l2 = twoV l2 := by
  show mulf _ (shapeCast S512x128 l2 _) = _; rw [shapeCast_self]; rfl

/-- The sixteen slabs, last first. -/
def slabs (x0 x1 x2 : Vec F S512x128 .f32) : List (View.Piece (Elt F) S512x16x128 .f32) :=
    [ ⟨rc15, angV (Scalar.ofBits .f32 0x402FEDDF#32) (Scalar.ofBits .f32 0x4034CCCD#32) x0 x1 (twoV x2)⟩,
      ⟨rc14, angV (Scalar.ofBits .f32 0x3FFB53D1#32) (Scalar.ofBits .f32 0x4034CCCD#32) x0 x1 (twoV x2)⟩,
      ⟨rc13, angV (Scalar.ofBits .f32 0x3F96CBE4#32) (Scalar.ofBits .f32 0x4034CCCD#32) x0 x1 (twoV x2)⟩,
      ⟨rc12, angV (Scalar.ofBits .f32 0x3EC90FDB#32) (Scalar.ofBits .f32 0x4034CCCD#32) x0 x1 (twoV x2)⟩,
      ⟨rc11, angV (Scalar.ofBits .f32 0x402FEDDF#32) (Scalar.ofBits .f32 0x4009999A#32) x0 x1 (twoV x2)⟩,
      ⟨rc10, angV (Scalar.ofBits .f32 0x3FFB53D1#32) (Scalar.ofBits .f32 0x4009999A#32) x0 x1 (twoV x2)⟩,
      ⟨rc9, angV (Scalar.ofBits .f32 0x3F96CBE4#32) (Scalar.ofBits .f32 0x4009999A#32) x0 x1 (twoV x2)⟩,
      ⟨rc8, angV (Scalar.ofBits .f32 0x3EC90FDB#32) (Scalar.ofBits .f32 0x4009999A#32) x0 x1 (twoV x2)⟩,
      ⟨rc7, angV (Scalar.ofBits .f32 0x402FEDDF#32) (Scalar.ofBits .f32 0x3FBCCCCD#32) x0 x1 (twoV x2)⟩,
      ⟨rc6, angV (Scalar.ofBits .f32 0x3FFB53D1#32) (Scalar.ofBits .f32 0x3FBCCCCD#32) x0 x1 (twoV x2)⟩,
      ⟨rc5, angV (Scalar.ofBits .f32 0x3F96CBE4#32) (Scalar.ofBits .f32 0x3FBCCCCD#32) x0 x1 (twoV x2)⟩,
      ⟨rc4, angV (Scalar.ofBits .f32 0x3EC90FDB#32) (Scalar.ofBits .f32 0x3FBCCCCD#32) x0 x1 (twoV x2)⟩,
      ⟨rc3, angV (Scalar.ofBits .f32 0x402FEDDF#32) (Scalar.ofBits .f32 0x3F4CCCCD#32) x0 x1 (twoV x2)⟩,
      ⟨rc2, angV (Scalar.ofBits .f32 0x3FFB53D1#32) (Scalar.ofBits .f32 0x3F4CCCCD#32) x0 x1 (twoV x2)⟩,
      ⟨rc1, angV (Scalar.ofBits .f32 0x3F96CBE4#32) (Scalar.ofBits .f32 0x3F4CCCCD#32) x0 x1 (twoV x2)⟩,
      ⟨rc0, angV (Scalar.ofBits .f32 0x3EC90FDB#32) (Scalar.ofBits .f32 0x3F4CCCCD#32) x0 x1 (twoV x2)⟩ ]

theorem chans_slabs (x0 x1 x2 : Vec F S512x128 .f32) : chans x0 x1 x2 = slabs x0 x1 x2 := by
  unfold chans slabs
  simp only [View.ld_unit_zero (S := S512x128) (off := ![0, 0]) (funext fun a => by fin_cases a <;> rfl),
    pay_a0, pay_a1, pay_a2, pay_a3, pay_a4, pay_a5, pay_a6, pay_a7, pay_a8, pay_a9, pay_a10, pay_a11, pay_a12, pay_a13, pay_a14, pay_a15, pay3_eq, pay4_eq, pay5_eq]

/-- The output block as ONE function of its index. -/
def G1 (x0 x1 x2 : Vec F S512x128 .f32) : S512x16x128.Idx → F .f32 := fun j =>
  angS (Scalar.ofBits .f32 (zOf (j 1))) (Scalar.ofBits .f32 (aOf (j 1))) (x0 (ix2 (j 0) (j 2))) (x1 (ix2 (j 0) (j 2))) (x2 (ix2 (j 0) (j 2)))

/-- Each slab is that function's block. -/
theorem slab_ok (x0 x1 x2 : Vec F S512x128 .f32) (kk : ℕ) (hk : kk < 16)
    (inb : ∀ a, (![0, kk, 0] : Fin 3 → ℕ) a + S512x1x128.size a ≤ S512x16x128.size a)
    (z a : F .f32) (hz : z = Scalar.ofBits .f32 (zOf ⟨kk, hk⟩)) (ha : a = Scalar.ofBits .f32 (aOf ⟨kk, hk⟩)) (x : S512x1x128.Idx) :
    angV z a x0 x1 (twoV x2) x = G1 x0 x1 x2 ((Rect.unit (s := S512x16x128) ![0, kk, 0] S512x1x128.size inb).emb x) := by
  obtain ⟨p, u, q, rfl⟩ : ∃ (p : Fin 512) (u : Fin 1) (q : Fin 128), x = ix3 p u q := ⟨x 0, x 1, x 2, eq_ix3 x⟩
  rw [slab_emb kk hk inb, angV_apply, hz, ha]; rfl

set_option maxHeartbeats 2000000 in
theorem slabs_ok (x0 x1 x2 : Vec F S512x128 .f32) :
    ∀ pc ∈ slabs x0 x1 x2, ∀ x : pc.1.shape.Idx, pc.2 x = G1 x0 x1 x2 (pc.1.emb x) := by
  intro pc hpc
  unfold slabs at hpc
  simp only [List.mem_cons, List.mem_nil_iff, or_false] at hpc
  rcases hpc with rfl | rfl | rfl | rfl | rfl | rfl | rfl | rfl | rfl | rfl | rfl | rfl | rfl | rfl | rfl | rfl
  · exact fun x => slab_ok x0 x1 x2 15 (by omega) inb_S512x16x128_S512x1x128_0_15_0 _ _ rfl rfl x
  · exact fun x => slab_ok x0 x1 x2 14 (by omega) inb_S512x16x128_S512x1x128_0_14_0 _ _ rfl rfl x
  · exact fun x => slab_ok x0 x1 x2 13 (by omega) inb_S512x16x128_S512x1x128_0_13_0 _ _ rfl rfl x
  · exact fun x => slab_ok x0 x1 x2 12 (by omega) inb_S512x16x128_S512x1x128_0_12_0 _ _ rfl rfl x
  · exact fun x => slab_ok x0 x1 x2 11 (by omega) inb_S512x16x128_S512x1x128_0_11_0 _ _ rfl rfl x
  · exact fun x => slab_ok x0 x1 x2 10 (by omega) inb_S512x16x128_S512x1x128_0_10_0 _ _ rfl rfl x
  · exact fun x => slab_ok x0 x1 x2 9 (by omega) inb_S512x16x128_S512x1x128_0_9_0 _ _ rfl rfl x
  · exact fun x => slab_ok x0 x1 x2 8 (by omega) inb_S512x16x128_S512x1x128_0_8_0 _ _ rfl rfl x
  · exact fun x => slab_ok x0 x1 x2 7 (by omega) inb_S512x16x128_S512x1x128_0_7_0 _ _ rfl rfl x
  · exact fun x => slab_ok x0 x1 x2 6 (by omega) inb_S512x16x128_S512x1x128_0_6_0 _ _ rfl rfl x
  · exact fun x => slab_ok x0 x1 x2 5 (by omega) inb_S512x16x128_S512x1x128_0_5_0 _ _ rfl rfl x
  · exact fun x => slab_ok x0 x1 x2 4 (by omega) inb_S512x16x128_S512x1x128_0_4_0 _ _ rfl rfl x
  · exact fun x => slab_ok x0 x1 x2 3 (by omega) inb_S512x16x128_S512x1x128_0_3_0 _ _ rfl rfl x
  · exact fun x => slab_ok x0 x1 x2 2 (by omega) inb_S512x16x128_S512x1x128_0_2_0 _ _ rfl rfl x
  · exact fun x => slab_ok x0 x1 x2 1 (by omega) inb_S512x16x128_S512x1x128_0_1_0 _ _ rfl rfl x
  · exact fun x => slab_ok x0 x1 x2 0 (by omega) inb_S512x16x128_S512x1x128_0_0_0 _ _ rfl rfl x

/-- What the body leaves, at row p, channel k, lane q. -/
theorem out1_apply (x0 x1 x2 : Vec F S512x128 .f32) (p : Fin 512) (k : Fin 16) (q : Fin 128) :
    out1 x0 x1 x2 (ix3 p k q)
      = angS (Scalar.ofBits .f32 (zOf k)) (Scalar.ofBits .f32 (aOf k)) (x0 (ix2 p q)) (x1 (ix2 p q)) (x2 (ix2 p q)) := by
  unfold out1; rw [chans_slabs]
  exact View.canon_apply_of_pieces (G1 x0 x1 x2) (slabs x0 x1 x2) (slabs_ok x0 x1 x2) (ix3 p k q)
    (cover1 (angV (Scalar.ofBits .f32 0x3EC90FDB#32) (Scalar.ofBits .f32 0x3F4CCCCD#32) x0 x1 (twoV x2)) (angV (Scalar.ofBits .f32 0x3F96CBE4#32) (Scalar.ofBits .f32 0x3F4CCCCD#32) x0 x1 (twoV x2)) (angV (Scalar.ofBits .f32 0x3FFB53D1#32) (Scalar.ofBits .f32 0x3F4CCCCD#32) x0 x1 (twoV x2)) (angV (Scalar.ofBits .f32 0x402FEDDF#32) (Scalar.ofBits .f32 0x3F4CCCCD#32) x0 x1 (twoV x2)) (angV (Scalar.ofBits .f32 0x3EC90FDB#32) (Scalar.ofBits .f32 0x3FBCCCCD#32) x0 x1 (twoV x2)) (angV (Scalar.ofBits .f32 0x3F96CBE4#32) (Scalar.ofBits .f32 0x3FBCCCCD#32) x0 x1 (twoV x2)) (angV (Scalar.ofBits .f32 0x3FFB53D1#32) (Scalar.ofBits .f32 0x3FBCCCCD#32) x0 x1 (twoV x2)) (angV (Scalar.ofBits .f32 0x402FEDDF#32) (Scalar.ofBits .f32 0x3FBCCCCD#32) x0 x1 (twoV x2)) (angV (Scalar.ofBits .f32 0x3EC90FDB#32) (Scalar.ofBits .f32 0x4009999A#32) x0 x1 (twoV x2)) (angV (Scalar.ofBits .f32 0x3F96CBE4#32) (Scalar.ofBits .f32 0x4009999A#32) x0 x1 (twoV x2)) (angV (Scalar.ofBits .f32 0x3FFB53D1#32) (Scalar.ofBits .f32 0x4009999A#32) x0 x1 (twoV x2)) (angV (Scalar.ofBits .f32 0x402FEDDF#32) (Scalar.ofBits .f32 0x4009999A#32) x0 x1 (twoV x2)) (angV (Scalar.ofBits .f32 0x3EC90FDB#32) (Scalar.ofBits .f32 0x4034CCCD#32) x0 x1 (twoV x2)) (angV (Scalar.ofBits .f32 0x3F96CBE4#32) (Scalar.ofBits .f32 0x4034CCCD#32) x0 x1 (twoV x2)) (angV (Scalar.ofBits .f32 0x3FFB53D1#32) (Scalar.ofBits .f32 0x4034CCCD#32) x0 x1 (twoV x2)) (angV (Scalar.ofBits .f32 0x402FEDDF#32) (Scalar.ofBits .f32 0x4034CCCD#32) x0 x1 (twoV x2)) (ix3 p k q))

/-- The four windows are cut alike along the rows, and not at all along the lanes. -/
theorem clip1 : ∀ t : Fin cfg1.N,
    (win1_0.xsize (grid1.coords t) 0 = win1_3.xsize (grid1.coords t) 0 ∧ win1_1.xsize (grid1.coords t) 0 = win1_3.xsize (grid1.coords t) 0
        ∧ win1_2.xsize (grid1.coords t) 0 = win1_3.xsize (grid1.coords t) 0)
      ∧ win1_0.xsize (grid1.coords t) 1 = 128 ∧ win1_1.xsize (grid1.coords t) 1 = 128 ∧ win1_2.xsize (grid1.coords t) 1 = 128
      ∧ win1_3.xsize (grid1.coords t) 2 = 128 :=
  (by decide +kernel : ∀ t : Fin grid1.N, _)

/-- On the rows inside the array, what the body writes does not depend on the words past the array's end. -/
theorem cong : Dat1.Cong F := by
  intro t d0 d0' d1 d1' d2 d2' g0 g1 g2
  obtain ⟨⟨h00, h10, h20⟩, h01, h11, h21, h32⟩ := clip1 t
  funext j
  have hj0 : (j 0).val < win1_3.xsize (grid1.coords t) 0 := (j 0).isLt
  have hj2 : (j 2).val < win1_3.xsize (grid1.coords t) 2 := (j 2).isLt
  obtain ⟨p, k, q, hpkq⟩ : ∃ (p : Fin 512) (k : Fin 16) (q : Fin 128),
      (win1_3.xinj (grid1.coords t) j : S512x16x128.Idx) = ix3 p k q := ⟨_, _, _, eq_ix3 (n0 := 512) (n1 := 16) (n2 := 128) _⟩
  have hp : (j 0).val = p.val := congrArg (fun x : S512x16x128.Idx => (x 0).val) hpkq
  have hq : (j 2).val = q.val := congrArg (fun x : S512x16x128.Idx => (x 2).val) hpkq
  show out1 _ _ _ (win1_3.xinj (grid1.coords t) j) = out1 _ _ _ (win1_3.xinj (grid1.coords t) j)
  rw [hpkq, out1_apply, out1_apply]
  have hm0 : win1_0.moved (grid1.coords t) (ix2 p q) = true :=
    (win1_0.moved_iff _ _).mpr fun a => by
      match a with
      | ⟨0, _⟩ => show p.val < win1_0.xsize (grid1.coords t) 0; omega
      | ⟨1, _⟩ => show q.val < win1_0.xsize (grid1.coords t) 1; omega
  have hm1 : win1_1.moved (grid1.coords t) (ix2 p q) = true :=
    (win1_1.moved_iff _ _).mpr fun a => by
      match a with
      | ⟨0, _⟩ => show p.val < win1_1.xsize (grid1.coords t) 0; omega
      | ⟨1, _⟩ => show q.val < win1_1.xsize (grid1.coords t) 1; omega
  have hm2 : win1_2.moved (grid1.coords t) (ix2 p q) = true :=
    (win1_2.moved_iff _ _).mpr fun a => by
      match a with
      | ⟨0, _⟩ => show p.val < win1_2.xsize (grid1.coords t) 0; omega
      | ⟨1, _⟩ => show q.val < win1_2.xsize (grid1.coords t) 1; omega
  rw [fill_moved win1_0 _ d0 d0' g0 _ hm0, fill_moved win1_1 _ d1 d1' g1 _ hm1, fill_moved win1_2 _ d2 d2' g2 _ hm2]

end Cert.KernelIdeal.Point1

end
-- ==== Proof.KiFrame.lean ====
import proofs.«150593_j33397665694348_2_alg».proof.Proof.KiArgs
import proofs.«150593_j33397665694348_2_alg».proof.Proof.KiPoint0
import proofs.«150593_j33397665694348_2_alg».proof.Proof.KiPoint1

/-! The run of @main with the congruence hypotheses discharged, read at the result buffer and at the twelve
    arguments: the result ends at the last boundary's contents, each argument at what it held at launch. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v103) = W13 m c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v103 (by decide)),
      (h c _ (mem_uc main_arg0 (by decide))).trans (W13_arg0 m c),
      (h c _ (mem_uc main_arg1 (by decide))).trans (W13_arg1 m c),
      (h c _ (mem_uc main_arg2 (by decide))).trans (W13_arg2 m c),
      (h c _ (mem_uc main_arg3 (by decide))).trans (W13_arg3 m c),
      (h c _ (mem_uc main_arg4 (by decide))).trans (W13_arg4 m c),
      (h c _ (mem_uc main_arg5 (by decide))).trans (W13_arg5 m c),
      (h c _ (mem_uc main_arg6 (by decide))).trans (W13_arg6 m c),
      (h c _ (mem_uc main_arg7 (by decide))).trans (W13_arg7 m c),
      (h c _ (mem_uc main_arg8 (by decide))).trans (W13_arg8 m c),
      (h c _ (mem_uc main_arg9 (by decide))).trans (W13_arg9 m c),
      (h c _ (mem_uc main_arg10 (by decide))).trans (W13_arg10 m c),
      (h c _ (mem_uc main_arg11 (by decide))).trans (W13_arg11 m c)⟩)
    (run m ρ Point0.cong Point1.cong)

end Cert.KernelIdeal.Run

end
-- ==== Proof.RefOps.lean ====
import proofs.«150593_j33397665694348_2_alg».proof.Proof.Gen.ReferenceIdeal
import Idealize.ShloMosaic.Lib.StableHlo.Run

/-! The host operations of ReferenceIdeal's @main, in order, one list per printed window of it; the buffers each list
    writes; that every operation touches only the core's references; and that a list writes only the buffers named. -/

set_option maxRecDepth 4096

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 0 of @main. -/
abbrev ops0 : List (HloOp τ sig (Elt F)) :=
  [ StableHlo.nullary main_cst (fun i => FloatOps.ofBits .f32 (lit0 (S1x16.rowMajor i))),
    StableHlo.nullary main_cst_0 (fun i => FloatOps.ofBits .f32 (lit1 (S1x4.rowMajor i))),
    StableHlo.nullary main_cst_1 (fun i => FloatOps.ofBits .f32 (lit2 (S1x4.rowMajor i))),
    StableHlo.nullary main_c (fun i => lit3 (S4x4.rowMajor i)),
    StableHlo.unary main_arg1 main_v0 (broadcastInDim S1600000x1 ![0] bcast_S1600000_S1600000x1_0 : (⟨S1600000, .f32⟩ : BufTy).Contents (Elt F) → (⟨S1600000x1, .f32⟩ : BufTy).Contents (Elt F)),
    StableHlo.unary main_v0 main_v1 (broadcastInDim S1600000x16 ![0, 1] bcast_S1600000x1_S1600000x16_0_1 : (⟨S1600000x1, .f32⟩ : BufTy).Contents (Elt F) → (⟨S1600000x16, .f32⟩ : BufTy).Contents (Elt F)),
    StableHlo.unary main_cst main_v2 (broadcastInDim S1600000x16 ![0, 1] bcast_S1x16_S1600000x16_0_1 : (⟨S1x16, .f32⟩ : BufTy).Contents (Elt F) → (⟨S1600000x16, .f32⟩ : BufTy).Contents (Elt F)),
    StableHlo.binary main_v1 main_v2 main_v3 (subf : (⟨S1600000x16, .f32⟩ : BufTy).Contents (Elt F) → (⟨S1600000x16, .f32⟩ : BufTy).Contents (Elt F) → (⟨S1600000x16, .f32⟩ : BufTy).Contents (Elt F)),
    StableHlo.binary main_v3 main_v3 main_v4 (mulf : (⟨S1600000x16, .f32⟩ : BufTy).Contents (Elt F) → (⟨S1600000x16, .f32⟩ : BufTy).Contents (Elt F) → (⟨S1600000x16, .f32⟩ : BufTy).Contents (Elt F)),
    StableHlo.nullary main_cst_2 (constant S_ .f32 0x41800000#32),
    StableHlo.unary main_cst_2 main_v5 (broadcastInDim S1600000x16 ![] bcast_S_S1600000x16 : (⟨S_, .f32⟩ : BufTy).Contents (Elt F) → (⟨S1600000x16, .f32⟩ : BufTy).Contents (Elt F)),
    StableHlo.binary main_v5 main_v4 main_v6 (mulf : (⟨S1600000x16, .f32⟩ : BufTy).Contents (Elt F) → (⟨S1600000x16, .f32⟩ : BufTy).Contents (Elt F) → (⟨S1600000x16, .f32⟩ : BufTy).Contents (Elt F)),
    StableHlo.unary main_v6 main_v7 (Host.negf : (⟨S1600000x16, .f32⟩ : BufTy).Contents (Elt F) → (⟨S1600000x16, .f32⟩ : BufTy).Contents (Elt F)),
    StableHlo.unary main_v7 main_v8 (Host.exp : (⟨S1600000x16, .f32⟩ : BufTy).Contents (Elt F) → (⟨S1600000x16, .f32⟩ : BufTy).Contents (Elt F)),
    StableHlo.nullary main_cst_3 (constant S_ .f32 0x3E800000#32),
    StableHlo.unary main_cst_3 main_v9 (broadcastInDim S1600000x16 ![] bcast_S_S1600000x16 : (⟨S_, .f32⟩ : BufTy).Contents (Elt F) → (⟨S1600000x16, .f32⟩ : BufTy).Contents (Elt F)),
    StableHlo.binary main_v9 main_v8 main_v10 (mulf : (⟨S1600000x16, .f32⟩ : BufTy).Contents (Elt F) → (⟨S1600000x16, .f32⟩ : BufTy).Contents (Elt F) → (⟨S1600000x16, .f32⟩ : BufTy).Contents (Elt F)),
    StableHlo.unary main_arg2 main_v11 (broadcastInDim S1600000x1 ![0] bcast_S1600000_S1600000x1_0 : (⟨S1600000, .f32⟩ : BufTy).Contents (Elt F) → (⟨S1600000x1, .f32⟩ : BufTy).Contents (Elt F)),
    StableHlo.unary main_v11 main_v12 (broadcastInDim S1600000x16 ![0, 1] bcast_S1600000x1_S1600000x16_0_1 : (⟨S1600000x1, .f32⟩ : BufTy).Contents (Elt F) → (⟨S1600000x16, .f32⟩ : BufTy).Contents (Elt F)),
    StableHlo.binary main_v10 main_v12 main_v13 (mulf : (⟨S1600000x16, .f32⟩ : BufTy).Contents (Elt F) → (⟨S1600000x16, .f32⟩ : BufTy).Contents (Elt F) → (⟨S1600000x16, .f32⟩ : BufTy).Contents (Elt F)),
    StableHlo.nullary main_c_4 (constantI S_ 32 4#32),
    StableHlo.unary main_c_4 main_v14 (broadcastInDim S1600000 ![] bcast_S_S1600000 : (⟨S_, .i32⟩ : BufTy).Contents (Elt F) → (⟨S1600000, .i32⟩ : BufTy).Contents (Elt F)),
    StableHlo.binary main_arg3 main_v14 main_v15 (muli : (⟨S1600000, .i32⟩ : BufTy).Contents (Elt F) → (⟨S1600000, .i32⟩ : BufTy).Contents (Elt F) → (⟨S1600000, .i32⟩ : BufTy).Contents (Elt F)),
    StableHlo.nullary main_c_5 (constantI S_ 32 0#32),
    StableHlo.unary main_c_5 main_v16 (broadcastInDim S1600000 ![] bcast_S_S1600000 : (⟨S_, .i32⟩ : BufTy).Contents (Elt F) → (⟨S1600000, .i32⟩ : BufTy).Contents (Elt F)),
    StableHlo.binary main_arg4 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v18 (broadcastInDim S1600000 ![] bcast_S_S1600000 : (⟨S_, .i32⟩ : BufTy).Contents (Elt F) → (⟨S1600000, .i32⟩ : BufTy).Contents (Elt F)),
    StableHlo.binary main_arg4 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_arg4 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_arg0 main_v21 main_v22 ((fun x i => Host.gather gather_S50000_S1600000x1_S1600000_n_0_n_n_0_1_1 x i) : (⟨S50000, .i32⟩ : BufTy).Contents (Elt F) → (⟨S1600000x1, .i32⟩ : BufTy).Contents (Elt F) → (⟨S1600000, .i32⟩ : BufTy).Contents (Elt F)),
    StableHlo.binary main_v15 main_v22 main_v23 (addi : (⟨S1600000, .i32⟩ : BufTy).Contents (Elt F) → (⟨S1600000, .i32⟩ : BufTy).Contents (Elt F) → (⟨S1600000, .i32⟩ : BufTy).Contents (Elt F)),
    StableHlo.nullary main_cst_7 (constant S_ .f32 0x00000000#32),
    StableHlo.unary main_cst_7 main_v24 (broadcastInDim S200000x16 ![] bcast_S_S200000x16 : (⟨S_, .f32⟩ : BufTy).Contents (Elt F) → (⟨S200000x16, .f32⟩ : BufTy).Contents (Elt F)),
    StableHlo.unary main_v23 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v13 main_v26 ((fun x i u => Host.scatterAdd scatter_S200000x16_S1600000x1_S1600000x16_1_0_0_1 x i u) : (⟨S200000x16, .f32⟩ : BufTy).Contents (Elt F) → (⟨S1600000x1, .i32⟩ : BufTy).Contents (Elt F) → (⟨S1600000x16, .f32⟩ : BufTy).Contents (Elt F) → (⟨S200000x16, .f32⟩ : BufTy).Contents (Elt F)),
    StableHlo.reshape main_v26 main_v27 rfl shapeCasts_S200000x16_S50000x64,
    StableHlo.nullary main_c_8 (constantI S_ 32 0#32),
    StableHlo.unary main_c_8 main_v28 (broadcastInDim S3300000 ![] bcast_S_S3300000 : (⟨S_, .i32⟩ : BufTy).Contents (Elt F) → (⟨S3300000, .i32⟩ : BufTy).Contents (Elt F)),
    StableHlo.binary main_arg8 main_v28 main_v29 (cmpi .slt : (⟨S3300000, .i32⟩ : BufTy).Contents (Elt F) → (⟨S3300000, .i32⟩ : BufTy).Contents (Elt F) → (⟨S3300000, .i1⟩ : BufTy).Contents (Elt F)),
    StableHlo.nullary main_c_9 (constantI S_ 32 600000#32),
    StableHlo.unary main_c_9 main_v30 (broadcastInDim S3300000 ![] bcast_S_S3300000 : (⟨S_, .i32⟩ : BufTy).Contents (Elt F) → (⟨S3300000, .i32⟩ : BufTy).Contents (Elt F)),
    StableHlo.binary main_arg8 main_v30 main_v31 (addi : (⟨S3300000, .i32⟩ : BufTy).Contents (Elt F) → (⟨S3300000, .i32⟩ : BufTy).Contents (Elt F) → (⟨S3300000, .i32⟩ : BufTy).Contents (Elt F)),
    StableHlo.ternary main_v29 main_v31 main_arg8 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v32 main_v33 (broadcastInDim S3300000x1 ![0] bcast_S3300000_S3300000x1_0 : (⟨S3300000, .i32⟩ : BufTy).Contents (Elt F) → (⟨S3300000x1, .i32⟩ : BufTy).Contents (Elt F)),
    StableHlo.binary main_arg6 main_v33 main_v34 ((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)),
    StableHlo.nullary main_c_10 (constantI S_ 32 0#32),
    StableHlo.unary main_c_10 main_v35 (broadcastInDim S3300000 ![] bcast_S_S3300000 : (⟨S_, .i32⟩ : BufTy).Contents (Elt F) → (⟨S3300000, .i32⟩ : BufTy).Contents (Elt F)),
    StableHlo.binary main_arg9 main_v35 main_v36 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 600000#32),
    StableHlo.unary main_c_11 main_v37 (broadcastInDim S3300000 ![] bcast_S_S3300000 : (⟨S_, .i32⟩ : BufTy).Contents (Elt F) → (⟨S3300000, .i32⟩ : BufTy).Contents (Elt F)),
    StableHlo.binary main_arg9 main_v37 main_v38 (addi : (⟨S3300000, .i32⟩ : BufTy).Contents (Elt F) → (⟨S3300000, .i32⟩ : BufTy).Contents (Elt F) → (⟨S3300000, .i32⟩ : BufTy).Contents (Elt F)),
    StableHlo.ternary main_v36 main_v38 main_arg9 main_v39 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v39 main_v40 (broadcastInDim S3300000x1 ![0] bcast_S3300000_S3300000x1_0 : (⟨S3300000, .i32⟩ : BufTy).Contents (Elt F) → (⟨S3300000x1, .i32⟩ : BufTy).Contents (Elt F)),
    StableHlo.binary main_arg6 main_v40 main_v41 ((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)),
    StableHlo.binary main_v34 main_v41 main_v42 (addf : (⟨S3300000, .f32⟩ : BufTy).Contents (Elt F) → (⟨S3300000, .f32⟩ : BufTy).Contents (Elt F) → (⟨S3300000, .f32⟩ : BufTy).Contents (Elt F)),
    StableHlo.unary main_v42 main_v43 (broadcastInDim S3300000x1 ![0] bcast_S3300000_S3300000x1_0 : (⟨S3300000, .f32⟩ : BufTy).Contents (Elt F) → (⟨S3300000x1, .f32⟩ : BufTy).Contents (Elt F)),
    StableHlo.nullary main_cst_12 (constant S_ .f32 0x3F000000#32),
    StableHlo.unary main_cst_12 main_v44 (broadcastInDim S3300000x1 ![] bcast_S_S3300000x1 : (⟨S_, .f32⟩ : BufTy).Contents (Elt F) → (⟨S3300000x1, .f32⟩ : BufTy).Contents (Elt F)) ]

theorem ops0_sub : (ops0 : List (HloOp τ sig (Elt F))).Forall fun op => op.bufs ⊆ tcRefs τ sig :=
  ⟨nullary_bufs_sub .., nullary_bufs_sub .., nullary_bufs_sub .., nullary_bufs_sub .., unary_bufs_sub .., unary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub ..⟩

/-- The buffers window 0 writes. -/
abbrev W0 : List (Ref sig .tc) := [main_cst, main_cst_0, main_cst_1, main_c, main_v0, main_v1, main_v2, main_v3, main_v4, main_cst_2, main_v5, main_v6, main_v7, main_v8, main_cst_3, main_v9, main_v10, main_v11, main_v12, main_v13, main_c_4, main_v14, main_v15, main_c_5, main_v16, main_v17, main_c_6, main_v18, main_v19, main_v20, main_v21, main_v22, main_v23, main_cst_7, main_v24, main_v25, main_v26, main_v27, main_c_8, main_v28, main_v29, main_c_9, main_v30, main_v31, main_v32, main_v33, main_v34, main_c_10, main_v35, main_v36, main_c_11, main_v37, main_v38, main_v39, main_v40, main_v41, main_v42, main_v43, main_cst_12, main_v44]

theorem ops0_writes : (ops0 : List (HloOp τ sig (Elt F))).Forall fun op => op.writes ⊆ (W0.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The 60 operations of window 1 of @main. -/
abbrev ops1 : List (HloOp τ sig (Elt F)) :=
  [ StableHlo.binary main_v44 main_v43 main_v45 (mulf : (⟨S3300000x1, .f32⟩ : BufTy).Contents (Elt F) → (⟨S3300000x1, .f32⟩ : BufTy).Contents (Elt F) → (⟨S3300000x1, .f32⟩ : BufTy).Contents (Elt F)),
    StableHlo.unary main_arg5 main_v46 (broadcastInDim S3300000x1 ![0] bcast_S3300000_S3300000x1_0 : (⟨S3300000, .f32⟩ : BufTy).Contents (Elt F) → (⟨S3300000x1, .f32⟩ : BufTy).Contents (Elt F)),
    StableHlo.unary main_v46 main_v47 (broadcastInDim S3300000x4 ![0, 1] bcast_S3300000x1_S3300000x4_0_1 : (⟨S3300000x1, .f32⟩ : BufTy).Contents (Elt F) → (⟨S3300000x4, .f32⟩ : BufTy).Contents (Elt F)),
    StableHlo.unary main_cst_0 main_v48 (broadcastInDim S3300000x4 ![0, 1] bcast_S1x4_S3300000x4_0_1 : (⟨S1x4, .f32⟩ : BufTy).Contents (Elt F) → (⟨S3300000x4, .f32⟩ : BufTy).Contents (Elt F)),
    StableHlo.binary main_v47 main_v48 main_v49 (subf : (⟨S3300000x4, .f32⟩ : BufTy).Contents (Elt F) → (⟨S3300000x4, .f32⟩ : BufTy).Contents (Elt F) → (⟨S3300000x4, .f32⟩ : BufTy).Contents (Elt F)),
    StableHlo.unary main_v49 main_v50 (Host.cos : (⟨S3300000x4, .f32⟩ : BufTy).Contents (Elt F) → (⟨S3300000x4, .f32⟩ : BufTy).Contents (Elt F)),
    StableHlo.nullary main_cst_13 (constant S_ .f32 0x3F000000#32),
    StableHlo.unary main_cst_13 main_v51 (broadcastInDim S3300000x4 ![] bcast_S_S3300000x4 : (⟨S_, .f32⟩ : BufTy).Contents (Elt F) → (⟨S3300000x4, .f32⟩ : BufTy).Contents (Elt F)),
    StableHlo.binary main_v51 main_v50 main_v52 (mulf : (⟨S3300000x4, .f32⟩ : BufTy).Contents (Elt F) → (⟨S3300000x4, .f32⟩ : BufTy).Contents (Elt F) → (⟨S3300000x4, .f32⟩ : BufTy).Contents (Elt F)),
    StableHlo.nullary main_cst_14 (constant S_ .f32 0x3F000000#32),
    StableHlo.unary main_cst_14 main_v53 (broadcastInDim S3300000x4 ![] bcast_S_S3300000x4 : (⟨S_, .f32⟩ : BufTy).Contents (Elt F) → (⟨S3300000x4, .f32⟩ : BufTy).Contents (Elt F)),
    StableHlo.binary main_v53 main_v52 main_v54 (addf : (⟨S3300000x4, .f32⟩ : BufTy).Contents (Elt F) → (⟨S3300000x4, .f32⟩ : BufTy).Contents (Elt F) → (⟨S3300000x4, .f32⟩ : BufTy).Contents (Elt F)),
    StableHlo.nullary main_cst_15 (constant S_ .f32 0x42000000#32),
    StableHlo.unary main_cst_15 main_v55 (broadcastInDim S3300000x4 ![] bcast_S_S3300000x4 : (⟨S_, .f32⟩ : BufTy).Contents (Elt F) → (⟨S3300000x4, .f32⟩ : BufTy).Contents (Elt F)),
    StableHlo.binary main_v54 main_v55 main_v56 (Host.powf : (⟨S3300000x4, .f32⟩ : BufTy).Contents (Elt F) → (⟨S3300000x4, .f32⟩ : BufTy).Contents (Elt F) → (⟨S3300000x4, .f32⟩ : BufTy).Contents (Elt F)),
    StableHlo.unary main_v45 main_v57 (broadcastInDim S3300000x4 ![0, 1] bcast_S3300000x1_S3300000x4_0_1 : (⟨S3300000x1, .f32⟩ : BufTy).Contents (Elt F) → (⟨S3300000x4, .f32⟩ : BufTy).Contents (Elt F)),
    StableHlo.unary main_cst_1 main_v58 (broadcastInDim S3300000x4 ![0, 1] bcast_S1x4_S3300000x4_0_1 : (⟨S1x4, .f32⟩ : BufTy).Contents (Elt F) → (⟨S3300000x4, .f32⟩ : BufTy).Contents (Elt F)),
    StableHlo.binary main_v57 main_v58 main_v59 (subf : (⟨S3300000x4, .f32⟩ : BufTy).Contents (Elt F) → (⟨S3300000x4, .f32⟩ : BufTy).Contents (Elt F) → (⟨S3300000x4, .f32⟩ : BufTy).Contents (Elt F)),
    StableHlo.binary main_v59 main_v59 main_v60 (mulf : (⟨S3300000x4, .f32⟩ : BufTy).Contents (Elt F) → (⟨S3300000x4, .f32⟩ : BufTy).Contents (Elt F) → (⟨S3300000x4, .f32⟩ : BufTy).Contents (Elt F)),
    StableHlo.nullary main_cst_16 (constant S_ .f32 0xC1000000#32),
    StableHlo.unary main_cst_16 main_v61 (broadcastInDim S3300000x4 ![] bcast_S_S3300000x4 : (⟨S_, .f32⟩ : BufTy).Contents (Elt F) → (⟨S3300000x4, .f32⟩ : BufTy).Contents (Elt F)),
    StableHlo.binary main_v61 main_v60 main_v62 (mulf : (⟨S3300000x4, .f32⟩ : BufTy).Contents (Elt F) → (⟨S3300000x4, .f32⟩ : BufTy).Contents (Elt F) → (⟨S3300000x4, .f32⟩ : BufTy).Contents (Elt F)),
    StableHlo.unary main_v62 main_v63 (Host.exp : (⟨S3300000x4, .f32⟩ : BufTy).Contents (Elt F) → (⟨S3300000x4, .f32⟩ : BufTy).Contents (Elt F)),
    StableHlo.unary main_v56 main_v64 (broadcastInDim S3300000x1x4 ![0, 2] bcast_S3300000x4_S3300000x1x4_0_2 : (⟨S3300000x4, .f32⟩ : BufTy).Contents (Elt F) → (⟨S3300000x1x4, .f32⟩ : BufTy).Contents (Elt F)),
    StableHlo.unary main_v63 main_v65 (broadcastInDim S3300000x4x1 ![0, 1] bcast_S3300000x4_S3300000x4x1_0_1 : (⟨S3300000x4, .f32⟩ : BufTy).Contents (Elt F) → (⟨S3300000x4x1, .f32⟩ : BufTy).Contents (Elt F)),
    StableHlo.unary main_v64 main_v66 (broadcastInDim S3300000x4x4 ![0, 1, 2] bcast_S3300000x1x4_S3300000x4x4_0_1_2 : (⟨S3300000x1x4, .f32⟩ : BufTy).Contents (Elt F) → (⟨S3300000x4x4, .f32⟩ : BufTy).Contents (Elt F)),
    StableHlo.unary main_v65 main_v67 (broadcastInDim S3300000x4x4 ![0, 1, 2] bcast_S3300000x4x1_S3300000x4x4_0_1_2 : (⟨S3300000x4x1, .f32⟩ : BufTy).Contents (Elt F) → (⟨S3300000x4x4, .f32⟩ : BufTy).Contents (Elt F)),
    StableHlo.binary main_v66 main_v67 main_v68 (mulf : (⟨S3300000x4x4, .f32⟩ : BufTy).Contents (Elt F) → (⟨S3300000x4x4, .f32⟩ : BufTy).Contents (Elt F) → (⟨S3300000x4x4, .f32⟩ : BufTy).Contents (Elt F)),
    StableHlo.reshape main_v68 main_v69 rfl shapeCasts_S3300000x4x4_S3300000x16,
    StableHlo.nullary main_cst_17 (constant S_ .f32 0x40000000#32),
    StableHlo.unary main_cst_17 main_v70 (broadcastInDim S3300000x16 ![] bcast_S_S3300000x16 : (⟨S_, .f32⟩ : BufTy).Contents (Elt F) → (⟨S3300000x16, .f32⟩ : BufTy).Contents (Elt F)),
    StableHlo.binary main_v69 main_v70 main_v71 (mulf : (⟨S3300000x16, .f32⟩ : BufTy).Contents (Elt F) → (⟨S3300000x16, .f32⟩ : BufTy).Contents (Elt F) → (⟨S3300000x16, .f32⟩ : BufTy).Contents (Elt F)),
    StableHlo.nullary main_c_18 (constantI S_ 32 0#32),
    StableHlo.unary main_c_18 main_v72 (broadcastInDim S3300000 ![] bcast_S_S3300000 : (⟨S_, .i32⟩ : BufTy).Contents (Elt F) → (⟨S3300000, .i32⟩ : BufTy).Contents (Elt F)),
    StableHlo.binary main_arg8 main_v72 main_v73 (cmpi .slt : (⟨S3300000, .i32⟩ : BufTy).Contents (Elt F) → (⟨S3300000, .i32⟩ : BufTy).Contents (Elt F) → (⟨S3300000, .i1⟩ : BufTy).Contents (Elt F)),
    StableHlo.nullary main_c_19 (constantI S_ 32 600000#32),
    StableHlo.unary main_c_19 main_v74 (broadcastInDim S3300000 ![] bcast_S_S3300000 : (⟨S_, .i32⟩ : BufTy).Contents (Elt F) → (⟨S3300000, .i32⟩ : BufTy).Contents (Elt F)),
    StableHlo.binary main_arg8 main_v74 main_v75 (addi : (⟨S3300000, .i32⟩ : BufTy).Contents (Elt F) → (⟨S3300000, .i32⟩ : BufTy).Contents (Elt F) → (⟨S3300000, .i32⟩ : BufTy).Contents (Elt F)),
    StableHlo.ternary main_v73 main_v75 main_arg8 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v76 main_v77 (broadcastInDim S3300000x1 ![0] bcast_S3300000_S3300000x1_0 : (⟨S3300000, .i32⟩ : BufTy).Contents (Elt F) → (⟨S3300000x1, .i32⟩ : BufTy).Contents (Elt F)),
    StableHlo.binary main_arg10 main_v77 main_v78 ((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)),
    StableHlo.nullary main_c_20 (constantI S_ 32 0#32),
    StableHlo.unary main_c_20 main_v79 (broadcastInDim S3300000 ![] bcast_S_S3300000 : (⟨S_, .i32⟩ : BufTy).Contents (Elt F) → (⟨S3300000, .i32⟩ : BufTy).Contents (Elt F)),
    StableHlo.binary main_arg9 main_v79 main_v80 (cmpi .slt : (⟨S3300000, .i32⟩ : BufTy).Contents (Elt F) → (⟨S3300000, .i32⟩ : BufTy).Contents (Elt F) → (⟨S3300000, .i1⟩ : BufTy).Contents (Elt F)),
    StableHlo.nullary main_c_21 (constantI S_ 32 600000#32),
    StableHlo.unary main_c_21 main_v81 (broadcastInDim S3300000 ![] bcast_S_S3300000 : (⟨S_, .i32⟩ : BufTy).Contents (Elt F) → (⟨S3300000, .i32⟩ : BufTy).Contents (Elt F)),
    StableHlo.binary main_arg9 main_v81 main_v82 (addi : (⟨S3300000, .i32⟩ : BufTy).Contents (Elt F) → (⟨S3300000, .i32⟩ : BufTy).Contents (Elt F) → (⟨S3300000, .i32⟩ : BufTy).Contents (Elt F)),
    StableHlo.ternary main_v80 main_v82 main_arg9 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v83 main_v84 (broadcastInDim S3300000x1 ![0] bcast_S3300000_S3300000x1_0 : (⟨S3300000, .i32⟩ : BufTy).Contents (Elt F) → (⟨S3300000x1, .i32⟩ : BufTy).Contents (Elt F)),
    StableHlo.binary main_arg10 main_v84 main_v85 ((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)),
    StableHlo.binary main_v78 main_v85 main_v86 (mulf : (⟨S3300000, .f32⟩ : BufTy).Contents (Elt F) → (⟨S3300000, .f32⟩ : BufTy).Contents (Elt F) → (⟨S3300000, .f32⟩ : BufTy).Contents (Elt F)),
    StableHlo.unary main_v86 main_v87 (broadcastInDim S3300000x1 ![0] bcast_S3300000_S3300000x1_0 : (⟨S3300000, .f32⟩ : BufTy).Contents (Elt F) → (⟨S3300000x1, .f32⟩ : BufTy).Contents (Elt F)),
    StableHlo.unary main_v87 main_v88 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v71 main_v88 main_v89 (mulf : (⟨S3300000x16, .f32⟩ : BufTy).Contents (Elt F) → (⟨S3300000x16, .f32⟩ : BufTy).Contents (Elt F) → (⟨S3300000x16, .f32⟩ : BufTy).Contents (Elt F)),
    StableHlo.nullary main_c_22 (constantI S_ 32 0#32),
    StableHlo.unary main_c_22 main_v90 (broadcastInDim S600000 ![] bcast_S_S600000 : (⟨S_, .i32⟩ : BufTy).Contents (Elt F) → (⟨S600000, .i32⟩ : BufTy).Contents (Elt F)),
    StableHlo.binary main_arg11 main_v90 main_v91 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 50000#32),
    StableHlo.unary main_c_23 main_v92 (broadcastInDim S600000 ![] bcast_S_S600000 : (⟨S_, .i32⟩ : BufTy).Contents (Elt F) → (⟨S600000, .i32⟩ : BufTy).Contents (Elt F)),
    StableHlo.binary main_arg11 main_v92 main_v93 (addi : (⟨S600000, .i32⟩ : BufTy).Contents (Elt F) → (⟨S600000, .i32⟩ : BufTy).Contents (Elt F) → (⟨S600000, .i32⟩ : BufTy).Contents (Elt F)) ]

theorem ops1_sub : (ops1 : List (HloOp τ sig (Elt F))).Forall fun op => op.bufs ⊆ tcRefs τ sig :=
  ⟨binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

/-- The buffers window 1 writes. -/
abbrev W1 : List (Ref sig .tc) := [main_v45, main_v46, main_v47, main_v48, main_v49, main_v50, main_cst_13, main_v51, main_v52, main_cst_14, main_v53, main_v54, main_cst_15, main_v55, main_v56, main_v57, main_v58, main_v59, main_v60, main_cst_16, main_v61, main_v62, main_v63, main_v64, main_v65, main_v66, main_v67, main_v68, main_v69, main_cst_17, main_v70, main_v71, main_c_18, main_v72, main_v73, main_c_19, main_v74, main_v75, main_v76, main_v77, main_v78, main_c_20, main_v79, main_v80, main_c_21, main_v81, main_v82, main_v83, main_v84, main_v85, main_v86, main_v87, main_v88, main_v89, main_c_22, main_v90, main_v91, main_c_23, main_v92, main_v93]

theorem ops1_writes : (ops1 : List (HloOp τ sig (Elt F))).Forall fun op => op.writes ⊆ (W1.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The 49 operations of window 2 of @main. -/
abbrev ops2 : List (HloOp τ sig (Elt F)) :=
  [ StableHlo.ternary main_v91 main_v93 main_arg11 main_v94 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v94 main_v95 (broadcastInDim S600000x1 ![0] bcast_S600000_S600000x1_0 : (⟨S600000, .i32⟩ : BufTy).Contents (Elt F) → (⟨S600000x1, .i32⟩ : BufTy).Contents (Elt F)),
    StableHlo.binary main_arg0 main_v95 main_v96 ((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)),
    StableHlo.nullary main_c_24 (constantI S_ 32 10#32),
    StableHlo.unary main_c_24 main_v97 (broadcastInDim S3300000 ![] bcast_S_S3300000 : (⟨S_, .i32⟩ : BufTy).Contents (Elt F) → (⟨S3300000, .i32⟩ : BufTy).Contents (Elt F)),
    StableHlo.binary main_arg7 main_v97 main_v98 (muli : (⟨S3300000, .i32⟩ : BufTy).Contents (Elt F) → (⟨S3300000, .i32⟩ : BufTy).Contents (Elt F) → (⟨S3300000, .i32⟩ : BufTy).Contents (Elt F)),
    StableHlo.nullary main_c_25 (constantI S_ 32 0#32),
    StableHlo.unary main_c_25 main_v99 (broadcastInDim S3300000 ![] bcast_S_S3300000 : (⟨S_, .i32⟩ : BufTy).Contents (Elt F) → (⟨S3300000, .i32⟩ : BufTy).Contents (Elt F)),
    StableHlo.binary main_arg8 main_v99 main_v100 (cmpi .slt : (⟨S3300000, .i32⟩ : BufTy).Contents (Elt F) → (⟨S3300000, .i32⟩ : BufTy).Contents (Elt F) → (⟨S3300000, .i1⟩ : BufTy).Contents (Elt F)),
    StableHlo.nullary main_c_26 (constantI S_ 32 600000#32),
    StableHlo.unary main_c_26 main_v101 (broadcastInDim S3300000 ![] bcast_S_S3300000 : (⟨S_, .i32⟩ : BufTy).Contents (Elt F) → (⟨S3300000, .i32⟩ : BufTy).Contents (Elt F)),
    StableHlo.binary main_arg8 main_v101 main_v102 (addi : (⟨S3300000, .i32⟩ : BufTy).Contents (Elt F) → (⟨S3300000, .i32⟩ : BufTy).Contents (Elt F) → (⟨S3300000, .i32⟩ : BufTy).Contents (Elt F)),
    StableHlo.ternary main_v100 main_v102 main_arg8 main_v103 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v103 main_v104 (broadcastInDim S3300000x1 ![0] bcast_S3300000_S3300000x1_0 : (⟨S3300000, .i32⟩ : BufTy).Contents (Elt F) → (⟨S3300000x1, .i32⟩ : BufTy).Contents (Elt F)),
    StableHlo.binary main_v96 main_v104 main_v105 ((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)),
    StableHlo.nullary main_c_27 (constantI S_ 32 0#32),
    StableHlo.unary main_c_27 main_v106 (broadcastInDim S3300000 ![] bcast_S_S3300000 : (⟨S_, .i32⟩ : BufTy).Contents (Elt F) → (⟨S3300000, .i32⟩ : BufTy).Contents (Elt F)),
    StableHlo.binary main_arg9 main_v106 main_v107 (cmpi .slt : (⟨S3300000, .i32⟩ : BufTy).Contents (Elt F) → (⟨S3300000, .i32⟩ : BufTy).Contents (Elt F) → (⟨S3300000, .i1⟩ : BufTy).Contents (Elt F)),
    StableHlo.nullary main_c_28 (constantI S_ 32 600000#32),
    StableHlo.unary main_c_28 main_v108 (broadcastInDim S3300000 ![] bcast_S_S3300000 : (⟨S_, .i32⟩ : BufTy).Contents (Elt F) → (⟨S3300000, .i32⟩ : BufTy).Contents (Elt F)),
    StableHlo.binary main_arg9 main_v108 main_v109 (addi : (⟨S3300000, .i32⟩ : BufTy).Contents (Elt F) → (⟨S3300000, .i32⟩ : BufTy).Contents (Elt F) → (⟨S3300000, .i32⟩ : BufTy).Contents (Elt F)),
    StableHlo.ternary main_v107 main_v109 main_arg9 main_v110 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v110 main_v111 (broadcastInDim S3300000x1 ![0] bcast_S3300000_S3300000x1_0 : (⟨S3300000, .i32⟩ : BufTy).Contents (Elt F) → (⟨S3300000x1, .i32⟩ : BufTy).Contents (Elt F)),
    StableHlo.binary main_v96 main_v111 main_v112 ((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)),
    StableHlo.nullary main_c_29 (constantI S_ 32 0#32),
    StableHlo.unary main_c_29 main_v113 (broadcastInDim S3300000 ![] bcast_S_S3300000 : (⟨S_, .i32⟩ : BufTy).Contents (Elt F) → (⟨S3300000, .i32⟩ : BufTy).Contents (Elt F)),
    StableHlo.binary main_v105 main_v113 main_v114 (cmpi .slt : (⟨S3300000, .i32⟩ : BufTy).Contents (Elt F) → (⟨S3300000, .i32⟩ : BufTy).Contents (Elt F) → (⟨S3300000, .i1⟩ : BufTy).Contents (Elt F)),
    StableHlo.nullary main_c_30 (constantI S_ 32 4#32),
    StableHlo.unary main_c_30 main_v115 (broadcastInDim S3300000 ![] bcast_S_S3300000 : (⟨S_, .i32⟩ : BufTy).Contents (Elt F) → (⟨S3300000, .i32⟩ : BufTy).Contents (Elt F)),
    StableHlo.binary main_v105 main_v115 main_v116 (addi : (⟨S3300000, .i32⟩ : BufTy).Contents (Elt F) → (⟨S3300000, .i32⟩ : BufTy).Contents (Elt F) → (⟨S3300000, .i32⟩ : BufTy).Contents (Elt F)),
    StableHlo.ternary main_v114 main_v116 main_v105 main_v117 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.nullary main_c_31 (constantI S_ 32 0#32),
    StableHlo.unary main_c_31 main_v118 (broadcastInDim S3300000 ![] bcast_S_S3300000 : (⟨S_, .i32⟩ : BufTy).Contents (Elt F) → (⟨S3300000, .i32⟩ : BufTy).Contents (Elt F)),
    StableHlo.binary main_v112 main_v118 main_v119 (cmpi .slt : (⟨S3300000, .i32⟩ : BufTy).Contents (Elt F) → (⟨S3300000, .i32⟩ : BufTy).Contents (Elt F) → (⟨S3300000, .i1⟩ : BufTy).Contents (Elt F)),
    StableHlo.nullary main_c_32 (constantI S_ 32 4#32),
    StableHlo.unary main_c_32 main_v120 (broadcastInDim S3300000 ![] bcast_S_S3300000 : (⟨S_, .i32⟩ : BufTy).Contents (Elt F) → (⟨S3300000, .i32⟩ : BufTy).Contents (Elt F)),
    StableHlo.binary main_v112 main_v120 main_v121 (addi : (⟨S3300000, .i32⟩ : BufTy).Contents (Elt F) → (⟨S3300000, .i32⟩ : BufTy).Contents (Elt F) → (⟨S3300000, .i32⟩ : BufTy).Contents (Elt F)),
    StableHlo.ternary main_v119 main_v121 main_v112 main_v122 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v117 main_v123 (broadcastInDim S3300000x1 ![0] bcast_S3300000_S3300000x1_0 : (⟨S3300000, .i32⟩ : BufTy).Contents (Elt F) → (⟨S3300000x1, .i32⟩ : BufTy).Contents (Elt F)),
    StableHlo.unary main_v122 main_v124 (broadcastInDim S3300000x1 ![0] bcast_S3300000_S3300000x1_0 : (⟨S3300000, .i32⟩ : BufTy).Contents (Elt F) → (⟨S3300000x1, .i32⟩ : BufTy).Contents (Elt F)),
    StableHlo.binary main_v123 main_v124 main_v125 ((fun a b => concatenate S3300000x2 1 [⟨S3300000x1, a⟩, ⟨S3300000x1, b⟩] concatenates_S3300000x1_S3300000x1_S3300000x2_d1) : (⟨S3300000x1, .i32⟩ : BufTy).Contents (Elt F) → (⟨S3300000x1, .i32⟩ : BufTy).Contents (Elt F) → (⟨S3300000x2, .i32⟩ : BufTy).Contents (Elt F)),
    StableHlo.binary main_c main_v125 main_v126 ((fun x i => Host.gather gather_S4x4_S3300000x2_S3300000_n_01_n_n_01_1_11 x i) : (⟨S4x4, .i32⟩ : BufTy).Contents (Elt F) → (⟨S3300000x2, .i32⟩ : BufTy).Contents (Elt F) → (⟨S3300000, .i32⟩ : BufTy).Contents (Elt F)),
    StableHlo.binary main_v98 main_v126 main_v127 (addi : (⟨S3300000, .i32⟩ : BufTy).Contents (Elt F) → (⟨S3300000, .i32⟩ : BufTy).Contents (Elt F) → (⟨S3300000, .i32⟩ : BufTy).Contents (Elt F)),
    StableHlo.nullary main_cst_33 (constant S_ .f32 0x00000000#32),
    StableHlo.unary main_cst_33 main_v128 (broadcastInDim S500000x16 ![] bcast_S_S500000x16 : (⟨S_, .f32⟩ : BufTy).Contents (Elt F) → (⟨S500000x16, .f32⟩ : BufTy).Contents (Elt F)),
    StableHlo.unary main_v127 main_v129 (broadcastInDim S3300000x1 ![0] bcast_S3300000_S3300000x1_0 : (⟨S3300000, .i32⟩ : BufTy).Contents (Elt F) → (⟨S3300000x1, .i32⟩ : BufTy).Contents (Elt F)),
    StableHlo.ternary main_v128 main_v129 main_v89 main_v130 ((fun x i u => Host.scatterAdd scatter_S500000x16_S3300000x1_S3300000x16_1_0_0_1 x i u) : (⟨S500000x16, .f32⟩ : BufTy).Contents (Elt F) → (⟨S3300000x1, .i32⟩ : BufTy).Contents (Elt F) → (⟨S3300000x16, .f32⟩ : BufTy).Contents (Elt F) → (⟨S500000x16, .f32⟩ : BufTy).Contents (Elt F)),
    StableHlo.reshape main_v130 main_v131 rfl shapeCasts_S500000x16_S50000x160,
    StableHlo.binary main_v27 main_v131 main_v132 ((fun a b => concatenate S50000x224 1 [⟨S50000x64, a⟩, ⟨S50000x160, b⟩] concatenates_S50000x64_S50000x160_S50000x224_d1) : (⟨S50000x64, .f32⟩ : BufTy).Contents (Elt F) → (⟨S50000x160, .f32⟩ : BufTy).Contents (Elt F) → (⟨S50000x224, .f32⟩ : BufTy).Contents (Elt F)) ]

theorem ops2_sub : (ops2 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., unary_bufs_sub .., ternary_bufs_sub .., reshape_bufs_sub .., binary_bufs_sub ..⟩

/-- The buffers window 2 writes. -/
abbrev W2 : List (Ref sig .tc) := [main_v94, main_v95, main_v96, main_c_24, main_v97, main_v98, main_c_25, main_v99, main_v100, main_c_26, main_v101, main_v102, main_v103, main_v104, main_v105, main_c_27, main_v106, main_v107, main_c_28, main_v108, main_v109, main_v110, main_v111, main_v112, main_c_29, main_v113, main_v114, main_c_30, main_v115, main_v116, main_v117, main_c_31, main_v118, main_v119, main_c_32, main_v120, main_v121, main_v122, main_v123, main_v124, main_v125, main_v126, main_v127, main_cst_33, main_v128, main_v129, main_v130, main_v131, main_v132]

theorem ops2_writes : (ops2 : List (HloOp τ sig (Elt F))).Forall fun op => op.writes ⊆ (W2.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefOps

end
-- ==== Proof.RefRun.lean ====
import proofs.«150593_j33397665694348_2_alg».proof.Proof.RefOps

/-! The reference's @main is the line of its operations, window after window; so every weakly fair execution of it
    terminates, nothing faulting, with each buffer at the fold of the operations over the launch contents, and an
    argument — which no operation writes — at what it held. -/

set_option maxRecDepth 16384

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- All 169 operations, in order. -/
abbrev ops : List (HloOp τ sig (Elt F)) := ops0 ++ (ops1 ++ ops2)

theorem part0_eq (c : Dev nD) : main_part0 (F := F) c = seq ops0 := rfl
theorem part1_eq (c : Dev nD) : main_part1 (F := F) c = seq ops1 := rfl
theorem part2_eq (c : Dev nD) : main_part2 (F := F) c = seq ops2 := rfl

theorem main_eq (c : Dev nD) : main (F := F) c = seq ops := by
  show (main_part0 (F := F) c >>= fun _ => main_part1 (F := F) c >>= fun _ => main_part2 (F := F) c) = _
  rw [part0_eq, part1_eq, part2_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, ops2_sub⟩⟩

/-- The fold over two lines run one after the other is the second line's fold started from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer none of the three windows writes holds after all of them what it held before. -/
theorem kept (V : Valuation τ sig (Elt F)) (r : Ref sig .tc) (h0 : r ∉ W0) (h1 : r ∉ W1) (h2 : r ∉ W2) :
    after (ops (F := F)) V (Proc.devRef .tc r) = V (Proc.devRef .tc r) := by
  show after (ops0 ++ (ops1 ++ ops2)) V _ = _
  rw [after_append, after_append, after_of_writes_sub ops2 _ ops2_writes h2, after_of_writes_sub ops1 _ ops1_writes h1,
    after_of_writes_sub ops0 _ ops0_writes h0]

theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h

theorem fresh : ∀ op ∈ (ops : List (HloOp τ sig (Elt F))), op.fresh = ∅ := fun op h => by
  rcases List.mem_append.1 h with h | h
  · exact fresh0 op h
  rcases List.mem_append.1 h with h | h
  · exact fresh1 op h
  · exact fresh2 op h

/-- On every device, for any float values, from any memory with zero counters: every weakly fair execution of the
    reference's @main terminates with its result buffer at the fold of the 169 operations over the launch contents and
    the twelve arguments at what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = after (ops (F := F)) (launchContents m c) (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v132,
      (h c main_arg0).trans (kept _ main_arg0 (by decide) (by decide) (by decide)),
      (h c main_arg1).trans (kept _ main_arg1 (by decide) (by decide) (by decide)),
      (h c main_arg2).trans (kept _ main_arg2 (by decide) (by decide) (by decide)),
      (h c main_arg3).trans (kept _ main_arg3 (by decide) (by decide) (by decide)),
      (h c main_arg4).trans (kept _ main_arg4 (by decide) (by decide) (by decide)),
      (h c main_arg5).trans (kept _ main_arg5 (by decide) (by decide) (by decide)),
      (h c main_arg6).trans (kept _ main_arg6 (by decide) (by decide) (by decide)),
      (h c main_arg7).trans (kept _ main_arg7 (by decide) (by decide) (by decide)),
      (h c main_arg8).trans (kept _ main_arg8 (by decide) (by decide) (by decide)),
      (h c main_arg9).trans (kept _ main_arg9 (by decide) (by decide) (by decide)),
      (h c main_arg10).trans (kept _ main_arg10 (by decide) (by decide) (by decide)),
      (h c main_arg11).trans (kept _ main_arg11 (by decide) (by decide) (by decide))⟩)
    (run_seq scopedRefs_eq scopedSems_eq defs main (fun _ => ops) main_eq (fun _ => ops_sub) m ρ (fun _ => fresh))

end Cert.ReferenceIdeal.RefRun

end
-- ==== Proof.KiArr0.lean ====
import proofs.«150593_j33397665694348_2_alg».proof.Proof.KiPoint0

/-! The radial kernel's output array after its pipeline. Point t of the grid writes rows 512·t … of the [12500,16,128]
    array (the last point only the 212 rows inside it), each row r, channel k, lane q holding channel k's chain of the two
    input arrays at (r, q): the blocks are restrictions of ONE function of the array's index, and they cover the array. -/

set_option maxRecDepth 16384

noncomputable section

namespace Cert.KernelIdeal.Arr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx
open Cert.KernelIdeal.Body0

variable (V : (c : Dev nD) → (b : Ref sig .tc) → Buf (Elt F) ((c : Thread nD τ).loc b))

/-- The whole output array as one function of its index. -/
def G0 (c : Dev nD) : S12500x16x128.Idx → Elt F .f32 := fun j =>
  Point0.radS (Scalar.ofBits .f32 (Point0.shiftW (j 1))) (V c main_v10 (ix2 (j 0) (j 2))) (V c main_v11 (ix2 (j 0) (j 2)))

/-- The printed index maps and cuts, decided once over the grid: block t starts at row 512·t of each array, at channel 0
    and lane 0, and holds min 512 (12500 − 512·t) rows. -/
theorem idx0 : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0 ∧ win0_2.index t 2 = 0)
      ∧ (win0_2.xsize (grid0.coords t) 0 = min 512 (12500 - 512 * t.val) ∧ win0_2.xsize (grid0.coords t) 1 = 16) :=
  (by decide +kernel : ∀ t : Fin grid0.N, _)

/-- The array's function at an index given by its coordinates. -/
theorem G0_at (c : Dev nD) (i : S12500x16x128.Idx) (r : Fin 12500) (k : Fin 16) (q : Fin 128)
    (h0 : (i 0).val = r.val) (h1 : (i 1).val = k.val) (h2 : (i 2).val = q.val) :
    G0 V c i = Point0.radS (Scalar.ofBits .f32 (Point0.shiftW k)) (V c main_v10 (ix2 r q)) (V c main_v11 (ix2 r q)) := by
  have e : i = ix3 r k q := by
    funext a
    match a with
    | ⟨0, _⟩ => exact Fin.ext h0
    | ⟨1, _⟩ => exact Fin.ext h1
    | ⟨2, _⟩ => exact Fin.ext h2
  subst e; rfl

/-- An input's filled block, on a row the transfer moves, is the array's row 512·t + p. -/
theorem in0_at (c : Dev nD) (t : Fin cfg0.N) (p : Fin 512) (q : Fin 128) (r : Fin 12500)
    (hm : win0_0.moved (grid0.coords t) (ix2 p q) = true) (hr : r.val = 512 * t.val + p.val) :
    Dat0.in0 V c t (ix2 p q) = V c main_v10 (ix2 r q) := by
  obtain ⟨⟨i00, i01⟩, -⟩ := idx0 t
  unfold Dat0.in0 Pipeline.Window.fill
  rw [dif_pos hm]
  show V c main_v10 ((win0_0.blk t).view.emb _) = V c main_v10 (ix2 r q)
  refine congrArg _ ?_
  funext a
  match a with
  | ⟨0, _⟩ => exact Fin.ext (show win0_0.index t 0 * 512 + 1 * p.val = r.val by omega)
  | ⟨1, _⟩ => exact Fin.ext (show win0_0.index t 1 * 128 + 1 * q.val = q.val by omega)
theorem in1_at (c : Dev nD) (t : Fin cfg0.N) (p : Fin 512) (q : Fin 128) (r : Fin 12500)
    (hm : win0_1.moved (grid0.coords t) (ix2 p q) = true) (hr : r.val = 512 * t.val + p.val) :
    Dat0.in1 V c t (ix2 p q) = V c main_v11 (ix2 r q) := by
  obtain ⟨-, ⟨i10, i11⟩, -⟩ := idx0 t
  unfold Dat0.in1 Pipeline.Window.fill
  rw [dif_pos hm]
  show V c main_v11 ((win0_1.blk t).view.emb _) = V c main_v11 (ix2 r q)
  refine congrArg _ ?_
  funext a
  match a with
  | ⟨0, _⟩ => exact Fin.ext (show win0_1.index t 0 * 512 + 1 * p.val = r.val by omega)
  | ⟨1, _⟩ => exact Fin.ext (show win0_1.index t 1 * 128 + 1 * q.val = q.val by omega)

/-- What point t writes back is its block of the array's function. -/
theorem flushed0 (c : Dev nD) (t : Fin cfg0.N) :
    (Dat0.dat0 V c).flushed 2 t = ((cfg0.win 2).blk t).view.read (Elt F) (G0 V c) := by
  show (cfg0.win 2).cut (grid0.coords t) ((Dat0.dat0 V c).after 2 t) = _
  rw [Dat0.after0_2]
  obtain ⟨⟨h00, h10⟩, h01, h11, h22⟩ := Point0.clip0 t
  obtain ⟨⟨i00, i01⟩, ⟨i10, i11⟩, ⟨i20, i21, i22⟩, x20, x21⟩ := idx0 t
  funext j
  have hj0 : (j 0).val < win0_2.xsize (grid0.coords t) 0 := (j 0).isLt
  have hj1 : (j 1).val < win0_2.xsize (grid0.coords t) 1 := (j 1).isLt
  have hj2 : (j 2).val < win0_2.xsize (grid0.coords t) 2 := (j 2).isLt
  obtain ⟨p, k, q, hpkq⟩ : ∃ (p : Fin 512) (k : Fin 16) (q : Fin 128),
      (win0_2.xinj (grid0.coords t) j : S512x16x128.Idx) = ix3 p k q := ⟨_, _, _, eq_ix3 (n0 := 512) (n1 := 16) (n2 := 128) _⟩
  have hp : (j 0).val = p.val := congrArg (fun x : S512x16x128.Idx => (x 0).val) hpkq
  have hk : (j 1).val = k.val := congrArg (fun x : S512x16x128.Idx => (x 1).val) hpkq
  have hq : (j 2).val = q.val := congrArg (fun x : S512x16x128.Idx => (x 2).val) hpkq
  have ht : t.val < 25 := t.isLt
  have hr : 512 * t.val + p.val < 12500 := by omega
  have hm0 : win0_0.moved (grid0.coords t) (ix2 p q) = true :=
    (win0_0.moved_iff _ _).mpr fun a => by
      match a with
      | ⟨0, _⟩ => show p.val < win0_0.xsize (grid0.coords t) 0; omega
      | ⟨1, _⟩ => show q.val < win0_0.xsize (grid0.coords t) 1; omega
  have hm1 : win0_1.moved (grid0.coords t) (ix2 p q) = true :=
    (win0_1.moved_iff _ _).mpr fun a => by
      match a with
      | ⟨0, _⟩ => show p.val < win0_1.xsize (grid0.coords t) 0; omega
      | ⟨1, _⟩ => show q.val < win0_1.xsize (grid0.coords t) 1; omega
  show out0 _ _ (win0_2.xinj (grid0.coords t) j) = G0 V c (((cfg0.win 2).blk t).view.emb j)
  rw [hpkq, Point0.out0_apply]
  refine Eq.trans ?_ (G0_at V c _ ⟨512 * t.val + p.val, hr⟩ k q ?_ ?_ ?_).symm
  · rw [in0_at V c t p q ⟨512 * t.val + p.val, hr⟩ hm0 rfl, in1_at V c t p q ⟨512 * t.val + p.val, hr⟩ hm1 rfl]
  · show win0_2.index t 0 * 512 + 1 * (j 0).val = 512 * t.val + p.val
    omega
  · show win0_2.index t 1 * 16 + 1 * (j 1).val = k.val
    omega
  · show win0_2.index t 2 * 128 + 1 * (j 2).val = q.val
    omega

/-- An index of the array is in point t's block iff each coordinate is in the block's range on its axis. -/
theorem mem_blk0 (t : Fin cfg0.N) (i : S12500x16x128.Idx) :
    i ∈ ((cfg0.win 2).blk t).view.set ↔ ∀ a : Fin 3, win0_2.index t a * S512x16x128.size a ≤ (i a).val
      ∧ (i a).val < win0_2.index t a * S512x16x128.size a + win0_2.xsize (grid0.coords t) a := by
  show i ∈ ((View.whole main_v12).slice (win0_2.rect t)).set ↔ _
  rw [View.set_slice_whole, Rect.mem_set_unit]
  exact Iff.rfl

/-- Row r of the array is in the block of point r / 512 (the last block holds rows 12288 … 12499). -/
theorem covered0 (i : S12500x16x128.Idx) :
    ∃ t : Fin cfg0.N, (cfg0.win 2).flush t = true ∧ i ∈ ((cfg0.win 2).blk t).view.set := by
  have hi0 : (i 0).val < 12500 := (i 0).isLt
  have hi1 : (i 1).val < 16 := (i 1).isLt
  have hi2 : (i 2).val < 128 := (i 2).isLt
  have htN : (i 0).val / 512 < 25 := by omega
  refine ⟨⟨(i 0).val / 512, htN⟩, flush0_2 _, ?_⟩
  obtain ⟨-, -, ⟨i20, i21, i22⟩, x20, x21⟩ := idx0 ⟨(i 0).val / 512, htN⟩
  obtain ⟨-, -, -, h22⟩ := Point0.clip0 ⟨(i 0).val / 512, htN⟩
  rw [mem_blk0]
  intro a
  match a with
  | ⟨0, _⟩ =>
    show win0_2.index ⟨(i 0).val / 512, htN⟩ 0 * 512 ≤ (i 0).val ∧ (i 0).val < win0_2.index ⟨(i 0).val / 512, htN⟩ 0 * 512 + win0_2.xsize (grid0.coords ⟨(i 0).val / 512, htN⟩) 0
    rw [i20, x20]; show (i 0).val / 512 * 512 ≤ (i 0).val ∧ (i 0).val < (i 0).val / 512 * 512 + min 512 (12500 - 512 * ((i 0).val / 512)); omega
  | ⟨1, _⟩ =>
    show win0_2.index ⟨(i 0).val / 512, htN⟩ 1 * 16 ≤ (i 1).val ∧ (i 1).val < win0_2.index ⟨(i 0).val / 512, htN⟩ 1 * 16 + win0_2.xsize (grid0.coords ⟨(i 0).val / 512, htN⟩) 1
    rw [i21, x21]; omega
  | ⟨2, _⟩ =>
    show win0_2.index ⟨(i 0).val / 512, htN⟩ 2 * 128 ≤ (i 2).val ∧ (i 2).val < win0_2.index ⟨(i 0).val / 512, htN⟩ 2 * 128 + win0_2.xsize (grid0.coords ⟨(i 0).val / 512, htN⟩) 2
    rw [i22, h22]; omega

/-- The radial kernel's output array after its pipeline: at row r, channel k, lane q, channel k's chain of the two input
    arrays at (r, q). -/
theorem arr0 (c : Dev nD) : (Dat0.dat0 V c).arrAt 2 cfg0.N = fun j =>
    Point0.radS (Scalar.ofBits .f32 (Point0.shiftW (j 1))) (V c main_v10 (ix2 (j 0) (j 2))) (V c main_v11 (ix2 (j 0) (j 2))) :=
  (Dat0.dat0 V c).arrAt_eq_of_cover 2 (G0 V c) (fun t _ => flushed0 V c t) covered0

end Cert.KernelIdeal.Arr

end
-- ==== Proof.LibFlatten.lean ====
/-
  Merging the two leading axes of a rank-3 array, read at an index given by coordinates.

  An `[a, b, c]` array cast to `[n, c]` keeps the row-major order of its entries, so entry `(p, s, d)` sits at row
  `p · b + s`, column `d`: both have row-major position `(p · b + s) · c + d`. The same holds read the other way, for
  an `[n, c]` array cast to `[a, b, c]`. For any element type; `n` is `a · b` in every use, but only the row's bound is
  needed here.
-/
import Idealize.ShloMosaic.Lib.ValueIdx
import Idealize.ShloMosaic.Lib.Pipeline.Value

namespace Cert.LibFlatten

open Idealize.ShloMosaic Idealize.ShloMosaic.ValueIdx

variable {α : Type}

/-- An `[a, b, c]` array cast to `[n, c]` reads, at `(p · b + s, d)`, the array at `(p, s, d)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (d : Fin c)
    (hR : p.val * b + s.val < n) :
    shapeCast ⟨2, ![n, c]⟩ x h (ix2 (⟨p.val * b + s.val, hR⟩ : Fin n) d) = x (ix3 p s d) :=
  shapeCast_apply x h _ _ (by
    rw [Shape.rowMajor_val_three, Shape.rowMajor_val_two]
    show (p.val * b + s.val) * c + d.val = (p.val * b + s.val) * c + d.val
    rfl)

/-- An `[n, c]` array cast to `[a, b, c]` reads, at `(p, s, d)`, the array at `(p · b + s, d)`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (d : Fin c)
    (hR : p.val * b + s.val < n) :
    shapeCast ⟨3, ![a, b, c]⟩ y h (ix3 p s d) = y (ix2 (⟨p.val * b + s.val, hR⟩ : Fin n) d) :=
  shapeCast_apply y h _ _ (by
    rw [Shape.rowMajor_val_three, Shape.rowMajor_val_two]
    show (p.val * b + s.val) * c + d.val = (p.val * b + s.val) * c + d.val
    rfl)

end Cert.LibFlatten
-- ==== Proof.KiTerms.lean ====
import proofs.«150593_j33397665694348_2_alg».proof.Proof.KiPoint0
import proofs.«150593_j33397665694348_2_alg».proof.Proof.KiPoint1
import proofs.«150593_j33397665694348_2_alg».proof.Proof.LibFlatten
import Idealize.ShloMosaic.Lib.ValueLayout
import Idealize.ShloMosaic.Lib.KernelVsHost

/-! The host's layout operations around the two kernels, read at an index. The radial output [12500,16,128], its last two
    axes swapped and its first two merged, is the table whose row e = 128·r + q and column k hold channel k's chain of the
    flat inputs at e (the inputs were cast [1600000] → [12500,128], row r lane q being entry 128·r + q); the same for the
    angular output; and a pad of a flat array at the high end read at an index. -/

set_option maxRecDepth 16384

noncomputable section

namespace Cert.KernelIdeal.Terms

open Cert.KernelIdeal Cert.KernelIdeal.Gen
open Idealize.ShloMosaic
open Idealize.ShloMosaic.ValueIdx

variable {F : FTy → Type} [FloatOps F]

/-- A flat array padded at the high end, read at an index: the array below its length, the padding value from there on. -/
theorem pad_high_apply {α : Type} (x : S3300000.Idx → α) (v : S_.Idx → α)
    (hp : S3300000.Pads (![0] : Fin 1 → Nat) ![96] ![0] S3300096) (hu : 0 < S_.numel) (e : Fin 3300096) :
    pad S3300096 ![0] ![96] ![0] x v hp hu (ix1 e) = if h : e.val < 3300000 then x (ix1 ⟨e.val, h⟩) else v ix0 := by
  by_cases h : e.val < 3300000
  · rw [dif_pos h]
    exact pad_apply_of_inside _ _ _ x v hp hu _ (ix1 (⟨e.val, h⟩ : Fin 3300000)) (by
      intro a
      have ha : a = 0 := Subsingleton.elim _ _
      subst ha
      show e.val = 0 + e.val * (0 + 1); omega)
  · rw [dif_neg h]
    refine (pad_apply_of_not_inside _ _ _ x v hp hu _ (0 : Fin 1) ?_).trans (congrArg v (funext fun d => d.elim0))
    intro hin
    have h3 : (e.val - 0) / (0 + 1) < 3300000 := hin.2.2
    rw [Nat.sub_zero, Nat.div_one] at h3
    exact h h3
theorem pad_high_inside {α : Type} (x : S3300000.Idx → α) (v : S_.Idx → α)
    (hp : S3300000.Pads (![0] : Fin 1 → Nat) ![96] ![0] S3300096) (hu : 0 < S_.numel) (e : Fin 3300096) (h : e.val < 3300000) :
    pad S3300096 ![0] ![96] ![0] x v hp hu (ix1 e) = x (ix1 ⟨e.val, h⟩) := by
  rw [pad_high_apply, dif_pos h]
theorem pad_high_outside {α : Type} (x : S3300000.Idx → α) (v : S_.Idx → α)
    (hp : S3300000.Pads (![0] : Fin 1 → Nat) ![96] ![0] S3300096) (hu : 0 < S_.numel) (e : Fin 3300096) (h : 3300000 ≤ e.val) :
    pad S3300096 ![0] ![96] ![0] x v hp hu (ix1 e) = v ix0 := by
  rw [pad_high_apply, dif_neg (by omega)]

/-- A flat array cast to [a, b], read at (p, s): the entry p·b + s. -/
theorem shapeCast_n_ab_apply {α : Type} {n a b : ℕ} (x : (⟨1, ![n]⟩ : Shape).Idx → α)
    (h : (⟨1, ![n]⟩ : Shape).ShapeCasts ⟨2, ![a, b]⟩) (p : Fin a) (s : Fin b) (e : Fin n) (he : e.val = p.val * b + s.val) :
    shapeCast ⟨2, ![a, b]⟩ x h (ix2 p s) = x (ix1 e) :=
  shapeCast_apply x h _ _ (by
    rw [Shape.rowMajor_val_one, Shape.rowMajor_val_two]
    show e.val = p.val * b + s.val
    exact he)

/-- An [m, c, b] array with its last two axes swapped and its first two then merged, read at row e, column k: the array at
    (e / b, k, e % b). -/
theorem table_apply {α : Type} {m b c n : ℕ} (OUT : (⟨3, ![m, c, b]⟩ : Shape).Idx → α)
    (hT : (⟨3, ![m, c, b]⟩ : Shape).Transposes [0, 2, 1] ⟨3, ![m, b, c]⟩)
    (hC : (⟨3, ![m, b, c]⟩ : Shape).ShapeCasts ⟨2, ![n, c]⟩) (e : Fin n) (k : Fin c) (hb : 0 < b) (hm : e.val / b < m) :
    shapeCast ⟨2, ![n, c]⟩ (transpose ⟨3, ![m, b, c]⟩ [0, 2, 1] OUT hT) hC (ix2 e k)
      = OUT (ix3 (⟨e.val / b, hm⟩ : Fin m) k (⟨e.val % b, Nat.mod_lt _ hb⟩ : Fin b)) := by
  have hR : e.val / b * b + e.val % b < n := by rw [Nat.div_add_mod']; exact e.isLt
  have he : e = ⟨e.val / b * b + e.val % b, hR⟩ := Fin.ext (Nat.div_add_mod' _ _).symm
  rw [show (ix2 e k : (⟨2, ![n, c]⟩ : Shape).Idx) = ix2 (⟨e.val / b * b + e.val % b, hR⟩ : Fin n) k from by rw [← he]]
  rw [Cert.LibFlatten.shapeCast_abc_nc_apply _ hC (⟨e.val / b, hm⟩ : Fin m) (⟨e.val % b, Nat.mod_lt _ hb⟩ : Fin b) k hR,
    transpose_ix3_021_apply]

/-- THE RADIAL TABLE: row e, column k is channel k's chain of the two flat inputs at e. -/
theorem radial_table (a1 a2 : S1600000.Idx → Elt F .f32) (hc : S1600000.ShapeCasts S12500x128)
    (hT : S12500x16x128.Transposes [0, 2, 1] S12500x128x16) (hC : S12500x128x16.ShapeCasts S1600000x16)
    (e : Fin 1600000) (k : Fin 16) :
    shapeCast S1600000x16 (transpose S12500x128x16 [0, 2, 1]
        (fun j : S12500x16x128.Idx => Point0.radS (Scalar.ofBits .f32 (Point0.shiftW (j 1)))
          (shapeCast S12500x128 a1 hc (ix2 (j 0) (j 2))) (shapeCast S12500x128 a2 hc (ix2 (j 0) (j 2)))) hT) hC (ix2 e k)
      = Point0.radS (Scalar.ofBits .f32 (Point0.shiftW k)) (a1 (ix1 e)) (a2 (ix1 e)) := by
  have he : e.val < 1600000 := e.isLt
  have hm : e.val / 128 < 12500 := by omega
  refine (table_apply (m := 12500) (b := 128) (c := 16) (n := 1600000) _ hT hC e k (by omega) hm).trans ?_
  show Point0.radS (Scalar.ofBits .f32 (Point0.shiftW k))
      (shapeCast S12500x128 a1 hc (ix2 (⟨e.val / 128, hm⟩ : Fin 12500) (⟨e.val % 128, Nat.mod_lt _ (by omega)⟩ : Fin 128)))
      (shapeCast S12500x128 a2 hc (ix2 (⟨e.val / 128, hm⟩ : Fin 12500) (⟨e.val % 128, Nat.mod_lt _ (by omega)⟩ : Fin 128))) = _
  rw [shapeCast_n_ab_apply a1 hc _ _ e (by show e.val = e.val / 128 * 128 + e.val % 128; omega),
    shapeCast_n_ab_apply a2 hc _ _ e (by show e.val = e.val / 128 * 128 + e.val % 128; omega)]

/-- THE ANGULAR TABLE: row e, column k is channel k's product of the three flat inputs' factors at e. -/
theorem angular_table (b89 b90 b91 : S3300096.Idx → Elt F .f32) (hc : S3300096.ShapeCasts S25782x128)
    (hT : S25782x16x128.Transposes [0, 2, 1] S25782x128x16) (hC : S25782x128x16.ShapeCasts S3300096x16)
    (e : Fin 3300096) (k : Fin 16) :
    shapeCast S3300096x16 (transpose S25782x128x16 [0, 2, 1]
        (fun j : S25782x16x128.Idx => Point1.angS (Scalar.ofBits .f32 (Point1.zOf (j 1))) (Scalar.ofBits .f32 (Point1.aOf (j 1)))
          (shapeCast S25782x128 b89 hc (ix2 (j 0) (j 2))) (shapeCast S25782x128 b90 hc (ix2 (j 0) (j 2)))
          (shapeCast S25782x128 b91 hc (ix2 (j 0) (j 2)))) hT) hC (ix2 e k)
      = Point1.angS (Scalar.ofBits .f32 (Point1.zOf k)) (Scalar.ofBits .f32 (Point1.aOf k)) (b89 (ix1 e)) (b90 (ix1 e)) (b91 (ix1 e)) := by
  have he : e.val < 3300096 := e.isLt
  have hm : e.val / 128 < 25782 := by omega
  refine (table_apply (m := 25782) (b := 128) (c := 16) (n := 3300096) _ hT hC e k (by omega) hm).trans ?_
  show Point1.angS (Scalar.ofBits .f32 (Point1.zOf k)) (Scalar.ofBits .f32 (Point1.aOf k))
      (shapeCast S25782x128 b89 hc (ix2 (⟨e.val / 128, hm⟩ : Fin 25782) (⟨e.val % 128, Nat.mod_lt _ (by omega)⟩ : Fin 128)))
      (shapeCast S25782x128 b90 hc (ix2 (⟨e.val / 128, hm⟩ : Fin 25782) (⟨e.val % 128, Nat.mod_lt _ (by omega)⟩ : Fin 128)))
      (shapeCast S25782x128 b91 hc (ix2 (⟨e.val / 128, hm⟩ : Fin 25782) (⟨e.val % 128, Nat.mod_lt _ (by omega)⟩ : Fin 128))) = _
  rw [shapeCast_n_ab_apply b89 hc _ _ e (by show e.val = e.val / 128 * 128 + e.val % 128; omega),
    shapeCast_n_ab_apply b90 hc _ _ e (by show e.val = e.val / 128 * 128 + e.val % 128; omega),
    shapeCast_n_ab_apply b91 hc _ _ e (by show e.val = e.val / 128 * 128 + e.val % 128; omega)]

end Cert.KernelIdeal.Terms

end
-- ==== Proof.KiAlg.lean ====
import proofs.«150593_j33397665694348_2_alg».proof.Proof.KiPoint0
import proofs.«150593_j33397665694348_2_alg».proof.Proof.KiPoint1
import Idealize.ShloMosaic.PureOps.Ideal
import Idealize.ShloMosaic.PureOps.Ideal.Laws

/-! The two kernels' per-element chains at the extended reals, against the host's spelling of the same terms: the radial
    chain 0.25 · exp (0 − (16·d)·d) · b is 0.25 · exp (−(16·(d·d))) · b; the angular chain's five squarings of
    y = ½ + ½ cos (x − z) are y ^ 32 when x and z are real; and a row whose switch product is zero contributes zero. -/

set_option maxRecDepth 16384

noncomputable section

namespace Cert.KernelIdeal.Alg

open Cert.KernelIdeal
open Idealize.ShloMosaic
open Idealize.ShloMosaic.ValueIdx

/-- A row whose switch product is zero: the channel's value is zero, whatever the other factors. -/
theorem angS_zero (z a x y : Ideal .f32) : Point1.angS (F := Ideal) z a x y 0 = 0 := by
  unfold Point1.angS
  simp only [Ideal.mulf_def, mul_zero]

/-- The padding value, the integer zero converted, is the real zero. -/
theorem pad_zero : sitofp (F := Ideal) .f32 (constantI S_ 32 0#32 : IVec S_ 32) ix0 = (0 : EReal) := by
  show (((0#32 : BitVec 32).toInt : ℝ) : EReal) = 0
  simp

/-- The radial chain: the kernel's exp (0 − (16·d)·d) is the host's exp (−(16·(d·d))), d = a − s. -/
theorem radS_host (s a b : Ideal .f32) :
    Point0.radS (F := Ideal) s a b
      = FloatOps.mulf (FloatOps.mulf (Scalar.ofBits .f32 0x3E800000#32)
          (FloatOps.hostUnary .exp (FloatOps.hostNegf (FloatOps.mulf (Scalar.ofBits .f32 0x41800000#32)
            (FloatOps.mulf (FloatOps.subf a s) (FloatOps.subf a s)))))) b := by
  unfold Point0.radS
  rw [Ideal.hostUnary_exp_def, Ideal.hostNegf_def, Ideal.negf_def, Ideal.exp_def]
  simp only [Ideal.mulf_def, Ideal.subf_def, Ideal.ofBits_def]
  rw [Ideal.ofBits_zero_f32, zero_sub, mul_assoc (Ideal.ofBits .f32 0x41800000#32)]

/-- The words ½ and 32 as the reals they denote. -/
theorem ofBits_half : Ideal.ofBits .f32 0x3F000000#32 = ((1 / 2 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num

/-- Squaring, and five squarings of a real: its 32nd power, which is the host's power function at the real 32. -/
def sq (y : EReal) : EReal := y * y
theorem sq_coe (r : ℝ) : sq (r : EReal) = ((r * r : ℝ) : EReal) := (EReal.coe_mul r r).symm
theorem sq5_coe (r : ℝ) : sq (sq (sq (sq (sq (r : EReal))))) = Ideal.pow (r : EReal) ((32 : ℝ) : EReal) := by
  simp only [sq_coe]
  rw [Ideal.pow_coe_coe]
  refine congrArg _ ?_
  rw [Real.rpow_eq_pow, show (32 : ℝ) = ((32 : ℕ) : ℝ) by norm_num, Real.rpow_natCast]
  ring

/-- The kernel's angular factor is five squarings of y = ½ + ½ cos (x − z). -/
theorem f1S_sq (z x : Ideal .f32) :
    Point1.f1S (F := Ideal) z x = sq (sq (sq (sq (sq (Ideal.ofBits .f32 0x3F000000#32 + Ideal.ofBits .f32 0x3F000000#32 * Ideal.cos (x - z)))))) := rfl

/-- The angular chain, for a real angle and a real shift: the five squarings are the host's 32nd power, and the factors
    regroup. -/
theorem angS_host (z a x y w : Ideal .f32) (hx : ∃ r : ℝ, x = (r : EReal)) (hz : ∃ r : ℝ, z = (r : EReal)) :
    Point1.angS (F := Ideal) z a x y w
      = FloatOps.mulf (FloatOps.mulf (FloatOps.mulf
          (FloatOps.hostPowf (FloatOps.addf (Scalar.ofBits .f32 0x3F000000#32) (FloatOps.mulf (Scalar.ofBits .f32 0x3F000000#32)
            (FloatOps.hostUnary .cos (FloatOps.subf x z)))) (Scalar.ofBits .f32 0x42000000#32))
          (FloatOps.hostUnary .exp (FloatOps.mulf (Scalar.ofBits .f32 0xC1000000#32) (FloatOps.mulf (FloatOps.subf y a) (FloatOps.subf y a)))))
          (Scalar.ofBits .f32 0x40000000#32)) w := by
  obtain ⟨rx, rfl⟩ := hx
  obtain ⟨rz, rfl⟩ := hz
  unfold Point1.angS
  rw [f1S_sq]
  unfold Point1.f2S
  simp only [Ideal.mulf_def, Ideal.addf_def, Ideal.subf_def, Ideal.exp_def, Ideal.hostUnary_cos_def, Ideal.hostUnary_exp_def,
    Ideal.hostPowf_def, Ideal.ofBits_def]
  rw [ofBits_half, ofBits_32, ← EReal.coe_sub, Ideal.cos_coe, ← EReal.coe_mul, ← EReal.coe_add, sq5_coe,
    mul_assoc (Ideal.ofBits .f32 0xC1000000#32), ← mul_assoc _ (Ideal.ofBits .f32 0x40000000#32) w]

/-- A pattern whose exponent field is not all ones denotes a real. -/
theorem ofBits_f32_real (b : BitVec 32) (h : (b.extractLsb' 23 8).toNat ≠ 255) :
    ∃ r : ℝ, Ideal.ofBits .f32 b = (r : EReal) := by
  have h' : ¬ ((b.extractLsb' 23 8).toNat = 2 ^ 8 - 1) := by norm_num; exact h
  unfold Ideal.ofBits Ideal.ieee
  dsimp only
  rw [if_neg h']
  split_ifs <;> exact ⟨_, rfl⟩

/-- Every angular shift word denotes a real. -/
theorem zOf_real (k : Fin 16) : ∃ r : ℝ, (Scalar.ofBits .f32 (Point1.zOf k) : Ideal .f32) = (r : EReal) :=
  ofBits_f32_real _ ((by decide : ∀ k : Fin 16, ((Point1.zOf k).extractLsb' 23 8).toNat ≠ 255) k)

/-- The angular chain at channel k's shift: only the angle need be real. -/
theorem angS_host_chan (k : Fin 16) (a x y w : Ideal .f32) (hx : ∃ r : ℝ, x = (r : EReal)) :
    Point1.angS (F := Ideal) (Scalar.ofBits .f32 (Point1.zOf k)) a x y w
      = FloatOps.mulf (FloatOps.mulf (FloatOps.mulf
          (FloatOps.hostPowf (FloatOps.addf (Scalar.ofBits .f32 0x3F000000#32) (FloatOps.mulf (Scalar.ofBits .f32 0x3F000000#32)
            (FloatOps.hostUnary .cos (FloatOps.subf x (Scalar.ofBits .f32 (Point1.zOf k)))))) (Scalar.ofBits .f32 0x42000000#32))
          (FloatOps.hostUnary .exp (FloatOps.mulf (Scalar.ofBits .f32 0xC1000000#32) (FloatOps.mulf (FloatOps.subf y a) (FloatOps.subf y a)))))
          (Scalar.ofBits .f32 0x40000000#32)) w :=
  angS_host _ a x y w hx (zOf_real k)

end Cert.KernelIdeal.Alg

end
-- ==== Proof.KiVal.lean ====
import proofs.«150593_j33397665694348_2_alg».proof.Proof.KiRun

/-! Each short stretch of host operations read over an arbitrary valuation `W` of the buffers before it: the buffers the later items use, each as the composed term of the stretch's operations over `W`. -/

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo

variable (W : Valuation τ sig (Elt F))

set_option maxHeartbeats 8000000 in
theorem hostOps0_main_c :
    after (hostOps0 (F := F)) W (Proc.devRef .tc main_c) =
      ((fun i => lit0 (S4x4.rowMajor i))) := by
  simp only [hostOps0]
  after_results
  try rfl

set_option maxHeartbeats 8000000 in
theorem hostOps0_main_v9 :
    after (hostOps0 (F := F)) W (Proc.devRef .tc main_v9) =
      ((addi : (⟨S1600000, .i32⟩ : BufTy).Contents (Elt F) → (⟨S1600000, .i32⟩ : BufTy).Contents (Elt F) → (⟨S1600000, .i32⟩ : BufTy).Contents (Elt F)) ((muli : (⟨S1600000, .i32⟩ : BufTy).Contents (Elt F) → (⟨S1600000, .i32⟩ : BufTy).Contents (Elt F) → (⟨S1600000, .i32⟩ : BufTy).Contents (Elt F)) (W (Proc.devRef .tc main_arg3)) ((broadcastInDim S1600000 ![] bcast_S_S1600000 : (⟨S_, .i32⟩ : BufTy).Contents (Elt F) → (⟨S1600000, .i32⟩ : BufTy).Contents (Elt F)) ((constantI S_ 32 4#32)))) (((fun x i => Host.gather gather_S50000_S1600000x1_S1600000_n_0_n_n_0_1_1 x i) : (⟨S50000, .i32⟩ : BufTy).Contents (Elt F) → (⟨S1600000x1, .i32⟩ : BufTy).Contents (Elt F) → (⟨S1600000, .i32⟩ : BufTy).Contents (Elt F)) (W (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W (Proc.devRef .tc main_arg4)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (W (Proc.devRef .tc main_arg4)) ((broadcastInDim S1600000 ![] bcast_S_S1600000 : (⟨S_, .i32⟩ : BufTy).Contents (Elt F) → (⟨S1600000, .i32⟩ : BufTy).Contents (Elt F)) ((constantI S_ 32 50000#32)))) (W (Proc.devRef .tc main_arg4)))))) := by
  simp only [hostOps0]
  after_results
  try rfl

set_option maxHeartbeats 8000000 in
theorem hostOps0_main_v10 :
    after (hostOps0 (F := F)) W (Proc.devRef .tc main_v10) =
      (shapeCast S12500x128 (W (Proc.devRef .tc main_arg1)) shapeCasts_S1600000_S12500x128) := by
  simp only [hostOps0]
  after_results
  try rfl

set_option maxHeartbeats 8000000 in
theorem hostOps0_main_v11 :
    after (hostOps0 (F := F)) W (Proc.devRef .tc main_v11) =
      (shapeCast S12500x128 (W (Proc.devRef .tc main_arg2)) shapeCasts_S1600000_S12500x128) := by
  simp only [hostOps0]
  after_results
  try rfl

set_option maxHeartbeats 8000000 in
theorem hostOps1_1_main_v89 :
    after (hostOps1_1 (F := F)) W (Proc.devRef .tc main_v89) =
      ((fun x v => pad S3300096 ![0] ![96] ![0] x v pads_S3300000_S3300096_0960 h_S_) (W (Proc.devRef .tc main_arg5)) ((sitofp .f32) (W (Proc.devRef .tc main_c_23)))) := by
  simp only [hostOps1_1]
  after_results
  try rfl

set_option maxHeartbeats 8000000 in
theorem hostOps1_2_main_c_24 :
    after (hostOps1_2 (F := F)) W (Proc.devRef .tc main_c_24) =
      ((constantI S_ 32 0#32)) := by
  simp only [hostOps1_2]
  after_results
  try rfl

set_option maxHeartbeats 8000000 in
theorem hostOps1_3_main_v90 :
    after (hostOps1_3 (F := F)) W (Proc.devRef .tc main_v90) =
      ((fun x v => pad S3300096 ![0] ![96] ![0] x v pads_S3300000_S3300096_0960 h_S_) (W (Proc.devRef .tc main_v35)) ((sitofp .f32) (W (Proc.devRef .tc main_c_24)))) := by
  simp only [hostOps1_3]
  after_results
  try rfl

set_option maxHeartbeats 8000000 in
theorem hostOps1_4_main_c_25 :
    after (hostOps1_4 (F := F)) W (Proc.devRef .tc main_c_25) =
      ((constantI S_ 32 0#32)) := by
  simp only [hostOps1_4]
  after_results
  try rfl

set_option maxHeartbeats 8000000 in
theorem hostOps1_5_main_v91 :
    after (hostOps1_5 (F := F)) W (Proc.devRef .tc main_v91) =
      ((fun x v => pad S3300096 ![0] ![96] ![0] x v pads_S3300000_S3300096_0960 h_S_) (W (Proc.devRef .tc main_v50)) ((sitofp .f32) (W (Proc.devRef .tc main_c_25)))) := by
  simp only [hostOps1_5]
  after_results
  try rfl

set_option maxHeartbeats 8000000 in
theorem hostOps1_6_main_c_26 :
    after (hostOps1_6 (F := F)) W (Proc.devRef .tc main_c_26) =
      ((constantI S_ 32 0#32)) := by
  simp only [hostOps1_6]
  after_results
  try rfl

set_option maxHeartbeats 8000000 in
theorem hostOps1_7_main_v92 :
    after (hostOps1_7 (F := F)) W (Proc.devRef .tc main_v92) =
      ((fun x v => pad S3300096 ![0] ![96] ![0] x v pads_S3300000_S3300096_0960 h_S_) (W (Proc.devRef .tc main_v88)) (id (W (Proc.devRef .tc main_c_26)))) := by
  simp only [hostOps1_7]
  after_results
  try rfl

set_option maxHeartbeats 8000000 in
theorem hostOps1_8_main_v93 :
    after (hostOps1_8 (F := F)) W (Proc.devRef .tc main_v93) =
      (shapeCast S25782x128 (W (Proc.devRef .tc main_v89)) shapeCasts_S3300096_S25782x128) := by
  simp only [hostOps1_8]
  after_results
  try rfl

set_option maxHeartbeats 8000000 in
theorem hostOps1_8_main_v94 :
    after (hostOps1_8 (F := F)) W (Proc.devRef .tc main_v94) =
      (shapeCast S25782x128 (W (Proc.devRef .tc main_v90)) shapeCasts_S3300096_S25782x128) := by
  simp only [hostOps1_8]
  after_results
  try rfl

set_option maxHeartbeats 8000000 in
theorem hostOps1_8_main_v95 :
    after (hostOps1_8 (F := F)) W (Proc.devRef .tc main_v95) =
      (shapeCast S25782x128 (W (Proc.devRef .tc main_v91)) shapeCasts_S3300096_S25782x128) := by
  simp only [hostOps1_8]
  after_results
  try rfl

set_option maxHeartbeats 8000000 in
theorem hostOps2_main_v103 :
    after (hostOps2 (F := F)) W (Proc.devRef .tc main_v103) =
      (((fun a b => concatenate S50000x224 1 [⟨S50000x64, a⟩, ⟨S50000x160, b⟩] concatenates_S50000x64_S50000x160_S50000x224_d1) : (⟨S50000x64, .f32⟩ : BufTy).Contents (Elt F) → (⟨S50000x160, .f32⟩ : BufTy).Contents (Elt F) → (⟨S50000x224, .f32⟩ : BufTy).Contents (Elt F)) (W (Proc.devRef .tc main_v18)) (shapeCast S50000x160 (((fun x i u => Host.scatterAdd scatter_S500000x16_S3300096x1_S3300096x16_1_0_0_1 x i u) : (⟨S500000x16, .f32⟩ : BufTy).Contents (Elt F) → (⟨S3300096x1, .i32⟩ : BufTy).Contents (Elt F) → (⟨S3300096x16, .f32⟩ : BufTy).Contents (Elt F) → (⟨S500000x16, .f32⟩ : BufTy).Contents (Elt F)) ((broadcastInDim S500000x16 ![] bcast_S_S500000x16 : (⟨S_, .f32⟩ : BufTy).Contents (Elt F) → (⟨S500000x16, .f32⟩ : BufTy).Contents (Elt F)) ((constant S_ .f32 0x00000000#32))) ((broadcastInDim S3300096x1 ![0] bcast_S3300096_S3300096x1_0 : (⟨S3300096, .i32⟩ : BufTy).Contents (Elt F) → (⟨S3300096x1, .i32⟩ : BufTy).Contents (Elt F)) (W (Proc.devRef .tc main_v92))) (shapeCast S3300096x16 (((transpose S25782x128x16 [0, 2, 1] · transposes_S25782x16x128_S25782x128x16_0_2_1) : (⟨S25782x16x128, .f32⟩ : BufTy).Contents (Elt F) → (⟨S25782x128x16, .f32⟩ : BufTy).Contents (Elt F)) (W (Proc.devRef .tc main_v96))) shapeCasts_S25782x128x16_S3300096x16)) shapeCasts_S500000x16_S50000x160)) := by
  simp only [hostOps2]
  after_results
  try rfl

end Cert.KernelIdeal.Val

end
-- ==== Proof.RefVal.lean ====
import proofs.«150593_j33397665694348_2_alg».proof.Proof.RefRun

/-! The reference's buffers after its 169 operations, read back stage by stage: each result named below as its
    operation's function of the buffers it reads, the two integer scatter rows and the two gathered float combinations
    as explicit terms of the argument arrays. The fold over the three windows is the fold of the later started from
    the earlier; a buffer is written once, so a window that does not write it leaves it alone. -/

set_option maxRecDepth 16384

noncomputable section

namespace Cert.ReferenceIdeal.RefVal

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

variable {F : FTy → Type} [FloatOps F]

/-- The reference's buffer `b` after all 169 operations, from contents `V`. -/
abbrev R (V : Valuation τ sig (Elt F)) (b : Ref sig .tc) := after (ops (F := F)) V (Proc.devRef .tc b)

theorem R_w0 (V : Valuation τ sig (Elt F)) (b : Ref sig .tc) (h1 : b ∉ W1) (h2 : b ∉ W2) :
    R V b = after (ops0 (F := F)) V (Proc.devRef .tc b) := by
  show after (ops0 ++ (ops1 ++ ops2)) V _ = _
  rw [RefRun.after_append, RefRun.after_append, after_of_writes_sub ops2 _ ops2_writes h2, after_of_writes_sub ops1 _ ops1_writes h1]

theorem R_w1 (V : Valuation τ sig (Elt F)) (b : Ref sig .tc) (h2 : b ∉ W2) :
    R V b = after (ops1 (F := F)) (after ops0 V) (Proc.devRef .tc b) := by
  show after (ops0 ++ (ops1 ++ ops2)) V _ = _
  rw [RefRun.after_append, RefRun.after_append, after_of_writes_sub ops2 _ ops2_writes h2]

theorem R_w2 (V : Valuation τ sig (Elt F)) (b : Ref sig .tc) :
    R V b = after (ops2 (F := F)) (after ops1 (after ops0 V)) (Proc.devRef .tc b) := by
  show after (ops0 ++ (ops1 ++ ops2)) V _ = _
  rw [RefRun.after_append, RefRun.after_append]

/-- The concatenation of two arrays, its two operands plain arguments. -/
def concat2 {α : Type} (t : Shape) (ax : Fin t.rank) (s1 s2 : Shape) (a : s1.Idx → α) (b : s2.Idx → α)
    (h : Shape.Concatenates [s1, s2] t ax) : t.Idx → α := concatenate t ax [⟨s1, a⟩, ⟨s2, b⟩] h

theorem concat2_eq {α : Type} (t : Shape) (ax : Fin t.rank) (s1 s2 : Shape) (a : s1.Idx → α) (b : s2.Idx → α)
    (h : Shape.Concatenates [s1, s2] t ax) :
    concatenate t ax [⟨s1, a⟩, ⟨s2, b⟩] h = concat2 t ax s1 s2 a b h := rfl

/-- The contents a literal line of operations leaves at a buffer: an operation's own result buffer holds its function's
    value of the buffers it reads, every other buffer what it held before; a two-operand concatenation is written
    `concat2`, whose operands are plain arguments. -/
macro "after_results_cc" : tactic =>
  `(tactic| (simp (disch := decide) only [after_cons, after_nil, concat2_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## The composed terms -/

/-- A pair-side index below zero wrapped once by the number of atoms (50000). -/
def wrapE (a : IVec S1600000 32) : IVec S1600000 32 :=
  select (cmpi .slt a (broadcastInDim S1600000 ![] bcast_S_S1600000 (constantI S_ 32 0#32)))
    (addi a (broadcastInDim S1600000 ![] bcast_S_S1600000 (constantI S_ 32 50000#32))) a

/-- The radial scatter row of each pair: four times its centre index plus the species gathered at its (wrapped)
    neighbour index (operations 20–32). -/
def idxR (a0 : IVec S50000 32) (a3 a4 : IVec S1600000 32) : IVec S1600000 32 :=
  addi (muli a3 (broadcastInDim S1600000 ![] bcast_S_S1600000 (constantI S_ 32 4#32)))
    (Host.gather gather_S50000_S1600000x1_S1600000_n_0_n_n_0_1_1 a0
      (broadcastInDim S1600000x1 ![0] bcast_S1600000_S1600000x1_0 (wrapE a4)))

/-- A triple-side index below zero wrapped once by the number of pairs in the triple table (600000). -/
def wrapP (a : IVec S3300000 32) : IVec S3300000 32 :=
  select (cmpi .slt a (broadcastInDim S3300000 ![] bcast_S_S3300000 (constantI S_ 32 0#32)))
    (addi a (broadcastInDim S3300000 ![] bcast_S_S3300000 (constantI S_ 32 600000#32))) a

/-- A length-600000 table gathered at a (wrapped) triple-side index. -/
def gatherP {α : Type} (x : S600000.Idx → α) (a : IVec S3300000 32) : S3300000.Idx → α :=
  Host.gather gather_S600000_S3300000x1_S3300000_n_0_n_n_0_1_1 x
    (broadcastInDim S3300000x1 ![0] bcast_S3300000_S3300000x1_0 (wrapP a))

/-- The sum of the two gathered distances of a triple (operations 38–56). -/
def d12sum (a6 : FVec F S600000 .f32) (a8 a9 : IVec S3300000 32) : FVec F S3300000 .f32 :=
  addf (gatherP a6 a8) (gatherP a6 a9)

/-- The product of the two gathered switching values of a triple (operations 92–110). -/
def swprod (a10 : FVec F S600000 .f32) (a8 a9 : IVec S3300000 32) : FVec F S3300000 .f32 :=
  mulf (gatherP a10 a8) (gatherP a10 a9)

/-- The species of each table pair's neighbour: the species table gathered at the (wrapped by 50000) neighbour index
    (operations 111–116). -/
def species (a0 : IVec S50000 32) (a11 : IVec S600000 32) : IVec S600000 32 :=
  Host.gather gather_S50000_S600000x1_S600000_n_0_n_n_0_1_1 a0
    (broadcastInDim S600000x1 ![0] bcast_S600000_S600000x1_0
      (select (cmpi .slt a11 (broadcastInDim S600000 ![] bcast_S_S600000 (constantI S_ 32 0#32)))
        (addi a11 (broadcastInDim S600000 ![] bcast_S_S600000 (constantI S_ 32 50000#32))) a11))

/-- A species below zero wrapped once by the number of species (4). -/
def wrap4 (a : IVec S3300000 32) : IVec S3300000 32 :=
  select (cmpi .slt a (broadcastInDim S3300000 ![] bcast_S_S3300000 (constantI S_ 32 0#32)))
    (addi a (broadcastInDim S3300000 ![] bcast_S_S3300000 (constantI S_ 32 4#32))) a

/-- The two (wrapped) species of a triple's neighbours, side by side. -/
def pairIdx (a0 : IVec S50000 32) (a8 a9 : IVec S3300000 32) (a11 : IVec S600000 32) : IVec S3300000x2 32 :=
  concat2 S3300000x2 1 S3300000x1 S3300000x1
    (broadcastInDim S3300000x1 ![0] bcast_S3300000_S3300000x1_0 (wrap4 (gatherP (species a0 a11) a8)))
    (broadcastInDim S3300000x1 ![0] bcast_S3300000_S3300000x1_0 (wrap4 (gatherP (species a0 a11) a9)))
    concatenates_S3300000x1_S3300000x1_S3300000x2_d1

/-- The angular scatter row of each triple: ten times its centre index plus the entry of the 4×4 table of unordered
    species pairs at its two neighbours' species (operations 114–162). -/
def idxA (a0 : IVec S50000 32) (a7 a8 a9 : IVec S3300000 32) (a11 : IVec S600000 32) : IVec S3300000 32 :=
  addi (muli a7 (broadcastInDim S3300000 ![] bcast_S_S3300000 (constantI S_ 32 10#32)))
    (Host.gather gather_S4x4_S3300000x2_S3300000_n_01_n_n_01_1_11 (fun i => lit3 (S4x4.rowMajor i)) (pairIdx a0 a8 a9 a11))

/-! ## The index vectors and the gathered combinations -/

set_option maxHeartbeats 2000000 in
theorem R_v23 (V : Valuation τ sig (Elt F)) :
    R V main_v23 = idxR (V (Proc.devRef .tc main_arg0)) (V (Proc.devRef .tc main_arg3)) (V (Proc.devRef .tc main_arg4)) := by
  rw [R_w0 V main_v23 (by decide) (by decide)]
  after_results_cc
  rfl

set_option maxHeartbeats 2000000 in
theorem R_v42 (V : Valuation τ sig (Elt F)) :
    R V main_v42 = d12sum (V (Proc.devRef .tc main_arg6)) (V (Proc.devRef .tc main_arg8)) (V (Proc.devRef .tc main_arg9)) := by
  rw [R_w0 V main_v42 (by decide) (by decide)]
  after_results_cc
  rfl

set_option maxHeartbeats 2000000 in
theorem R_v86 (V : Valuation τ sig (Elt F)) :
    R V main_v86 = swprod (V (Proc.devRef .tc main_arg10)) (V (Proc.devRef .tc main_arg8)) (V (Proc.devRef .tc main_arg9)) := by
  rw [R_w1 V main_v86 (by decide)]
  after_results_cc
  rfl

set_option maxHeartbeats 4000000 in
theorem R_v127 (V : Valuation τ sig (Elt F)) :
    R V main_v127 = idxA (V (Proc.devRef .tc main_arg0)) (V (Proc.devRef .tc main_arg7)) (V (Proc.devRef .tc main_arg8))
      (V (Proc.devRef .tc main_arg9)) (V (Proc.devRef .tc main_arg11)) := by
  rw [R_w2 V main_v127]
  after_results_cc
  rfl

/-! ## The stage equations -/

set_option maxHeartbeats 2000000 in
theorem R_v132 (V : Valuation τ sig (Elt F)) :
    R V main_v132 = concatenate S50000x224 1 [⟨S50000x64, R V main_v27⟩, ⟨S50000x160, R V main_v131⟩]
      concatenates_S50000x64_S50000x160_S50000x224_d1 := by
  rw [R_w2 V main_v132, R_w2 V main_v27, R_w2 V main_v131]
  generalize after (ops1 (F := F)) (after ops0 V) = W
  after_results_cc

set_option maxHeartbeats 2000000 in
theorem R_v131 (V : Valuation τ sig (Elt F)) :
    R V main_v131 = shapeCast S50000x160 (R V main_v130) shapeCasts_S500000x16_S50000x160 := by
  rw [R_w2 V main_v131, R_w2 V main_v130]
  generalize after (ops1 (F := F)) (after ops0 V) = W
  after_results_cc
  rfl

set_option maxHeartbeats 2000000 in
theorem R_v130 (V : Valuation τ sig (Elt F)) :
    R V main_v130 = Host.scatterAdd scatter_S500000x16_S3300000x1_S3300000x16_1_0_0_1 (R V main_v128) (R V main_v129) (R V main_v89) := by
  rw [R_w2 V main_v130, R_w2 V main_v128, R_w2 V main_v129, R_w2 V main_v89]
  generalize after (ops1 (F := F)) (after ops0 V) = W
  after_results_cc

set_option maxHeartbeats 2000000 in
theorem R_v128 (V : Valuation τ sig (Elt F)) :
    R V main_v128 = broadcastInDim S500000x16 ![] bcast_S_S500000x16 (constant S_ .f32 0x00000000#32) := by
  rw [R_w2 V main_v128]
  generalize after (ops1 (F := F)) (after ops0 V) = W
  after_results_cc

set_option maxHeartbeats 2000000 in
theorem R_v129 (V : Valuation τ sig (Elt F)) :
    R V main_v129 = broadcastInDim S3300000x1 ![0] bcast_S3300000_S3300000x1_0 (R V main_v127) := by
  rw [R_w2 V main_v129, R_w2 V main_v127]
  generalize after (ops1 (F := F)) (after ops0 V) = W
  after_results_cc

set_option maxHeartbeats 2000000 in
theorem R_v27 (V : Valuation τ sig (Elt F)) :
    R V main_v27 = shapeCast S50000x64 (R V main_v26) shapeCasts_S200000x16_S50000x64 := by
  rw [R_w0 V main_v27 (by decide) (by decide), R_w0 V main_v26 (by decide) (by decide)]
  after_results_cc
  rfl

set_option maxHeartbeats 2000000 in
theorem R_v26 (V : Valuation τ sig (Elt F)) :
    R V main_v26 = Host.scatterAdd scatter_S200000x16_S1600000x1_S1600000x16_1_0_0_1 (R V main_v24) (R V main_v25) (R V main_v13) := by
  rw [R_w0 V main_v26 (by decide) (by decide), R_w0 V main_v24 (by decide) (by decide), R_w0 V main_v25 (by decide) (by decide),
    R_w0 V main_v13 (by decide) (by decide)]
  after_results_cc

set_option maxHeartbeats 2000000 in
theorem R_v24 (V : Valuation τ sig (Elt F)) :
    R V main_v24 = broadcastInDim S200000x16 ![] bcast_S_S200000x16 (constant S_ .f32 0x00000000#32) := by
  rw [R_w0 V main_v24 (by decide) (by decide)]
  after_results_cc

set_option maxHeartbeats 2000000 in
theorem R_v25 (V : Valuation τ sig (Elt F)) :
    R V main_v25 = broadcastInDim S1600000x1 ![0] bcast_S1600000_S1600000x1_0 (R V main_v23) := by
  rw [R_w0 V main_v25 (by decide) (by decide), R_w0 V main_v23 (by decide) (by decide)]
  after_results_cc

end Cert.ReferenceIdeal.RefVal

end
-- ==== Proof.KiVal1.lean ====
import proofs.«150593_j33397665694348_2_alg».proof.Proof.KiRun
import proofs.«150593_j33397665694348_2_alg».proof.Proof.RefVal

/-! The long stretch between the regions read over an arbitrary valuation `W`: the radial sums, the mean distances, the switch products and the padding constant. -/

set_option maxRecDepth 16384

noncomputable section

namespace Cert.KernelIdeal.Val1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo

variable (W : Valuation τ sig (Elt F))

set_option maxHeartbeats 8000000 in
theorem hostOps1_main_v18 :
    after (hostOps1 (F := F)) W (Proc.devRef .tc main_v18) =
      (shapeCast S50000x64 (((fun x i u => Host.scatterAdd scatter_S200000x16_S1600000x1_S1600000x16_1_0_0_1 x i u) : (⟨S200000x16, .f32⟩ : BufTy).Contents (Elt F) → (⟨S1600000x1, .i32⟩ : BufTy).Contents (Elt F) → (⟨S1600000x16, .f32⟩ : BufTy).Contents (Elt F) → (⟨S200000x16, .f32⟩ : BufTy).Contents (Elt F)) ((broadcastInDim S200000x16 ![] bcast_S_S200000x16 : (⟨S_, .f32⟩ : BufTy).Contents (Elt F) → (⟨S200000x16, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) (W (Proc.devRef .tc main_v9))) (shapeCast S1600000x16 (((transpose S12500x128x16 [0, 2, 1] · transposes_S12500x16x128_S12500x128x16_0_2_1) : (⟨S12500x16x128, .f32⟩ : BufTy).Contents (Elt F) → (⟨S12500x128x16, .f32⟩ : BufTy).Contents (Elt F)) (W (Proc.devRef .tc main_v12))) shapeCasts_S12500x128x16_S1600000x16)) shapeCasts_S200000x16_S50000x64) := by
  simp only [hostOps1]
  after_results_cc
  try rfl

set_option maxHeartbeats 8000000 in
theorem hostOps1_main_v35 :
    after (hostOps1 (F := F)) W (Proc.devRef .tc main_v35) =
      ((mulf : (⟨S3300000, .f32⟩ : BufTy).Contents (Elt F) → (⟨S3300000, .f32⟩ : BufTy).Contents (Elt F) → (⟨S3300000, .f32⟩ : BufTy).Contents (Elt F)) ((broadcastInDim S3300000 ![] bcast_S_S3300000 : (⟨S_, .f32⟩ : BufTy).Contents (Elt F) → (⟨S3300000, .f32⟩ : BufTy).Contents (Elt F)) ((constant S_ .f32 0x3F000000#32))) ((addf : (⟨S3300000, .f32⟩ : BufTy).Contents (Elt F) → (⟨S3300000, .f32⟩ : BufTy).Contents (Elt F) → (⟨S3300000, .f32⟩ : BufTy).Contents (Elt F)) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (W (Proc.devRef .tc main_arg6)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg8))))) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (W (Proc.devRef .tc main_arg6)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg9))))))) := by
  simp only [hostOps1]
  after_results_cc
  try rfl

set_option maxHeartbeats 8000000 in
theorem hostOps1_main_v50 :
    after (hostOps1 (F := F)) W (Proc.devRef .tc main_v50) =
      ((mulf : (⟨S3300000, .f32⟩ : BufTy).Contents (Elt F) → (⟨S3300000, .f32⟩ : BufTy).Contents (Elt F) → (⟨S3300000, .f32⟩ : BufTy).Contents (Elt F)) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (W (Proc.devRef .tc main_arg10)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg8))))) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (W (Proc.devRef .tc main_arg10)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg9)))))) := by
  simp only [hostOps1]
  after_results_cc
  try rfl

set_option maxHeartbeats 8000000 in
theorem hostOps1_main_c_23 :
    after (hostOps1 (F := F)) W (Proc.devRef .tc main_c_23) =
      ((constantI S_ 32 0#32)) := by
  simp only [hostOps1]
  after_results_cc
  try rfl

end Cert.KernelIdeal.Val1

end
-- ==== Proof.KiVal88.lean ====
import proofs.«150593_j33397665694348_2_alg».proof.Proof.KiRun
import proofs.«150593_j33397665694348_2_alg».proof.Proof.RefVal

/-! The long stretch between the regions read over an arbitrary valuation `W`: the angular bin index of every angle pair. -/

set_option maxRecDepth 16384

noncomputable section

namespace Cert.KernelIdeal.Val88

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo

variable (W : Valuation τ sig (Elt F))

set_option maxHeartbeats 8000000 in
theorem hostOps1_main_v88 :
    after (hostOps1 (F := F)) W (Proc.devRef .tc main_v88) =
      ((addi : (⟨S3300000, .i32⟩ : BufTy).Contents (Elt F) → (⟨S3300000, .i32⟩ : BufTy).Contents (Elt F) → (⟨S3300000, .i32⟩ : BufTy).Contents (Elt F)) ((muli : (⟨S3300000, .i32⟩ : BufTy).Contents (Elt F) → (⟨S3300000, .i32⟩ : BufTy).Contents (Elt F) → (⟨S3300000, .i32⟩ : BufTy).Contents (Elt F)) (W (Proc.devRef .tc main_arg7)) ((broadcastInDim S3300000 ![] bcast_S_S3300000 : (⟨S_, .i32⟩ : BufTy).Contents (Elt F) → (⟨S3300000, .i32⟩ : BufTy).Contents (Elt F)) ((constantI S_ 32 10#32)))) (((fun x i => Host.gather gather_S4x4_S3300000x2_S3300000_n_01_n_n_01_1_11 x i) : (⟨S4x4, .i32⟩ : BufTy).Contents (Elt F) → (⟨S3300000x2, .i32⟩ : BufTy).Contents (Elt F) → (⟨S3300000, .i32⟩ : BufTy).Contents (Elt F)) (W (Proc.devRef .tc main_c)) (((fun a b => concatenate S3300000x2 1 [⟨S3300000x1, a⟩, ⟨S3300000x1, b⟩] concatenates_S3300000x1_S3300000x1_S3300000x2_d1) : (⟨S3300000x1, .i32⟩ : BufTy).Contents (Elt F) → (⟨S3300000x1, .i32⟩ : BufTy).Contents (Elt F) → (⟨S3300000x2, .i32⟩ : BufTy).Contents (Elt F)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg8))))) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg8))))) ((broadcastInDim S3300000 ![] bcast_S_S3300000 : (⟨S_, .i32⟩ : BufTy).Contents (Elt F) → (⟨S3300000, .i32⟩ : BufTy).Contents (Elt F)) ((constantI S_ 32 4#32)))) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg8)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg8))))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg9))))) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg9))))) ((broadcastInDim S3300000 ![] bcast_S_S3300000 : (⟨S_, .i32⟩ : BufTy).Contents (Elt F) → (⟨S3300000, .i32⟩ : BufTy).Contents (Elt F)) ((constantI S_ 32 4#32)))) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (W (Proc.devRef .tc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (W (Proc.devRef .tc main_arg11)) ((broadcastInDim S600000 ![] bcast_S_S600000 : (⟨S_, .i32⟩ : BufTy).Contents (Elt F) → (⟨S600000, .i32⟩ : BufTy).Contents (Elt F)) ((constantI S_ 32 50000#32)))) (W (Proc.devRef .tc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_arg9)) ((broadcastInDim S3300000 ![] bcast_S_S3300000 : (⟨S_, .i32⟩ : BufTy).Contents (Elt F) → (⟨S3300000, .i32⟩ : BufTy).Contents (Elt F)) ((constantI S_ 32 600000#32)))) (W (Proc.devRef .tc main_arg9)))))))))) := by
  simp only [hostOps1]
  after_results_cc
  try rfl

end Cert.KernelIdeal.Val88

end
-- ==== Proof.KiArr1.lean ====
import proofs.«150593_j33397665694348_2_alg».proof.Proof.KiPoint1

/-! The angular kernel's output array after its pipeline. Point t of the grid writes rows 512·t … of the [25782,16,128]
    array (the last point only the 182 rows inside it), each row r, channel k, lane q holding channel k's product of the
    three input arrays' factors at (r, q): the blocks are restrictions of ONE function of the array's index, and they cover
    the array. -/

set_option maxRecDepth 16384

noncomputable section

namespace Cert.KernelIdeal.Arr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx
open Cert.KernelIdeal.Body1

variable (V : (c : Dev nD) → (b : Ref sig .tc) → Buf (Elt F) ((c : Thread nD τ).loc b))

/-- The whole output array as one function of its index. -/
def G1 (c : Dev nD) : S25782x16x128.Idx → Elt F .f32 := fun j =>
  Point1.angS (Scalar.ofBits .f32 (Point1.zOf (j 1))) (Scalar.ofBits .f32 (Point1.aOf (j 1)))
    (V c main_v93 (ix2 (j 0) (j 2))) (V c main_v94 (ix2 (j 0) (j 2))) (V c main_v95 (ix2 (j 0) (j 2)))

/-- The printed index maps and cuts, decided once over the grid: block t starts at row 512·t of each array, at channel 0
    and lane 0, and holds min 512 (25782 − 512·t) rows. -/
theorem idx1 : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0)
      ∧ (win1_3.index t 0 = t.val ∧ win1_3.index t 1 = 0 ∧ win1_3.index t 2 = 0)
      ∧ (win1_3.xsize (grid1.coords t) 0 = min 512 (25782 - 512 * t.val) ∧ win1_3.xsize (grid1.coords t) 1 = 16) :=
  (by decide +kernel : ∀ t : Fin grid1.N, _)

/-- The array's function at an index given by its coordinates. -/
theorem G1_at (c : Dev nD) (i : S25782x16x128.Idx) (r : Fin 25782) (k : Fin 16) (q : Fin 128)
    (h0 : (i 0).val = r.val) (h1 : (i 1).val = k.val) (h2 : (i 2).val = q.val) :
    G1 V c i = Point1.angS (Scalar.ofBits .f32 (Point1.zOf k)) (Scalar.ofBits .f32 (Point1.aOf k))
      (V c main_v93 (ix2 r q)) (V c main_v94 (ix2 r q)) (V c main_v95 (ix2 r q)) := by
  have e : i = ix3 r k q := by
    funext a
    match a with
    | ⟨0, _⟩ => exact Fin.ext h0
    | ⟨1, _⟩ => exact Fin.ext h1
    | ⟨2, _⟩ => exact Fin.ext h2
  subst e; rfl

/-- An input's filled block, on a row the transfer moves, is the array's row 512·t + p. -/
theorem in1_0_at (c : Dev nD) (t : Fin cfg1.N) (p : Fin 512) (q : Fin 128) (r : Fin 25782)
    (hm : win1_0.moved (grid1.coords t) (ix2 p q) = true) (hr : r.val = 512 * t.val + p.val) :
    Dat1.in0 V c t (ix2 p q) = V c main_v93 (ix2 r q) := by
  obtain ⟨i0, i1⟩ := (idx1 t).1
  unfold Dat1.in0 Pipeline.Window.fill
  rw [dif_pos hm]
  show V c main_v93 ((win1_0.blk t).view.emb _) = V c main_v93 (ix2 r q)
  refine congrArg _ ?_
  funext a
  match a with
  | ⟨0, _⟩ => exact Fin.ext (show win1_0.index t 0 * 512 + 1 * p.val = r.val by omega)
  | ⟨1, _⟩ => exact Fin.ext (show win1_0.index t 1 * 128 + 1 * q.val = q.val by omega)
theorem in1_1_at (c : Dev nD) (t : Fin cfg1.N) (p : Fin 512) (q : Fin 128) (r : Fin 25782)
    (hm : win1_1.moved (grid1.coords t) (ix2 p q) = true) (hr : r.val = 512 * t.val + p.val) :
    Dat1.in1 V c t (ix2 p q) = V c main_v94 (ix2 r q) := by
  obtain ⟨i0, i1⟩ := (idx1 t).2.1
  unfold Dat1.in1 Pipeline.Window.fill
  rw [dif_pos hm]
  show V c main_v94 ((win1_1.blk t).view.emb _) = V c main_v94 (ix2 r q)
  refine congrArg _ ?_
  funext a
  match a with
  | ⟨0, _⟩ => exact Fin.ext (show win1_1.index t 0 * 512 + 1 * p.val = r.val by omega)
  | ⟨1, _⟩ => exact Fin.ext (show win1_1.index t 1 * 128 + 1 * q.val = q.val by omega)
theorem in1_2_at (c : Dev nD) (t : Fin cfg1.N) (p : Fin 512) (q : Fin 128) (r : Fin 25782)
    (hm : win1_2.moved (grid1.coords t) (ix2 p q) = true) (hr : r.val = 512 * t.val + p.val) :
    Dat1.in2 V c t (ix2 p q) = V c main_v95 (ix2 r q) := by
  obtain ⟨i0, i1⟩ := (idx1 t).2.2.1
  unfold Dat1.in2 Pipeline.Window.fill
  rw [dif_pos hm]
  show V c main_v95 ((win1_2.blk t).view.emb _) = V c main_v95 (ix2 r q)
  refine congrArg _ ?_
  funext a
  match a with
  | ⟨0, _⟩ => exact Fin.ext (show win1_2.index t 0 * 512 + 1 * p.val = r.val by omega)
  | ⟨1, _⟩ => exact Fin.ext (show win1_2.index t 1 * 128 + 1 * q.val = q.val by omega)

/-- What point t writes back is its block of the array's function. -/
theorem flushed1 (c : Dev nD) (t : Fin cfg1.N) :
    (Dat1.dat1 V c).flushed 3 t = ((cfg1.win 3).blk t).view.read (Elt F) (G1 V c) := by
  show (cfg1.win 3).cut (grid1.coords t) ((Dat1.dat1 V c).after 3 t) = _
  rw [Dat1.after1_3]
  obtain ⟨⟨h00, h10, h20⟩, h01, h11, h21, h32⟩ := Point1.clip1 t
  obtain ⟨-, -, -, ⟨i30, i31, i32⟩, x30, x31⟩ := idx1 t
  funext j
  have hj0 : (j 0).val < win1_3.xsize (grid1.coords t) 0 := (j 0).isLt
  have hj1 : (j 1).val < win1_3.xsize (grid1.coords t) 1 := (j 1).isLt
  have hj2 : (j 2).val < win1_3.xsize (grid1.coords t) 2 := (j 2).isLt
  obtain ⟨p, k, q, hpkq⟩ : ∃ (p : Fin 512) (k : Fin 16) (q : Fin 128),
      (win1_3.xinj (grid1.coords t) j : S512x16x128.Idx) = ix3 p k q := ⟨_, _, _, eq_ix3 (n0 := 512) (n1 := 16) (n2 := 128) _⟩
  have hp : (j 0).val = p.val := congrArg (fun x : S512x16x128.Idx => (x 0).val) hpkq
  have hk : (j 1).val = k.val := congrArg (fun x : S512x16x128.Idx => (x 1).val) hpkq
  have hq : (j 2).val = q.val := congrArg (fun x : S512x16x128.Idx => (x 2).val) hpkq
  have ht : t.val < 51 := t.isLt
  have hr : 512 * t.val + p.val < 25782 := by omega
  have hm0 : win1_0.moved (grid1.coords t) (ix2 p q) = true :=
    (win1_0.moved_iff _ _).mpr fun a => by
      match a with
      | ⟨0, _⟩ => show p.val < win1_0.xsize (grid1.coords t) 0; omega
      | ⟨1, _⟩ => show q.val < win1_0.xsize (grid1.coords t) 1; omega
  have hm1 : win1_1.moved (grid1.coords t) (ix2 p q) = true :=
    (win1_1.moved_iff _ _).mpr fun a => by
      match a with
      | ⟨0, _⟩ => show p.val < win1_1.xsize (grid1.coords t) 0; omega
      | ⟨1, _⟩ => show q.val < win1_1.xsize (grid1.coords t) 1; omega
  have hm2 : win1_2.moved (grid1.coords t) (ix2 p q) = true :=
    (win1_2.moved_iff _ _).mpr fun a => by
      match a with
      | ⟨0, _⟩ => show p.val < win1_2.xsize (grid1.coords t) 0; omega
      | ⟨1, _⟩ => show q.val < win1_2.xsize (grid1.coords t) 1; omega
  show out1 _ _ _ (win1_3.xinj (grid1.coords t) j) = G1 V c (((cfg1.win 3).blk t).view.emb j)
  rw [hpkq, Point1.out1_apply]
  refine Eq.trans ?_ (G1_at V c _ ⟨512 * t.val + p.val, hr⟩ k q ?_ ?_ ?_).symm
  · rw [in1_0_at V c t p q ⟨512 * t.val + p.val, hr⟩ hm0 rfl, in1_1_at V c t p q ⟨512 * t.val + p.val, hr⟩ hm1 rfl,
      in1_2_at V c t p q ⟨512 * t.val + p.val, hr⟩ hm2 rfl]
  · show win1_3.index t 0 * 512 + 1 * (j 0).val = 512 * t.val + p.val
    omega
  · show win1_3.index t 1 * 16 + 1 * (j 1).val = k.val
    omega
  · show win1_3.index t 2 * 128 + 1 * (j 2).val = q.val
    omega

/-- An index of the array is in point t's block iff each coordinate is in the block's range on its axis. -/
theorem mem_blk1 (t : Fin cfg1.N) (i : S25782x16x128.Idx) :
    i ∈ ((cfg1.win 3).blk t).view.set ↔ ∀ a : Fin 3, win1_3.index t a * S512x16x128.size a ≤ (i a).val
      ∧ (i a).val < win1_3.index t a * S512x16x128.size a + win1_3.xsize (grid1.coords t) a := by
  show i ∈ ((View.whole main_v96).slice (win1_3.rect t)).set ↔ _
  rw [View.set_slice_whole, Rect.mem_set_unit]
  exact Iff.rfl

/-- Row r of the array is in the block of point r / 512 (the last block holds rows 25600 … 25781). -/
theorem covered1 (i : S25782x16x128.Idx) :
    ∃ t : Fin cfg1.N, (cfg1.win 3).flush t = true ∧ i ∈ ((cfg1.win 3).blk t).view.set := by
  have hi0 : (i 0).val < 25782 := (i 0).isLt
  have hi1 : (i 1).val < 16 := (i 1).isLt
  have hi2 : (i 2).val < 128 := (i 2).isLt
  have htN : (i 0).val / 512 < 51 := by omega
  refine ⟨⟨(i 0).val / 512, htN⟩, flush1_3 _, ?_⟩
  obtain ⟨-, -, -, ⟨i30, i31, i32⟩, x30, x31⟩ := idx1 ⟨(i 0).val / 512, htN⟩
  obtain ⟨-, -, -, -, h32⟩ := Point1.clip1 ⟨(i 0).val / 512, htN⟩
  rw [mem_blk1]
  intro a
  match a with
  | ⟨0, _⟩ =>
    show win1_3.index ⟨(i 0).val / 512, htN⟩ 0 * 512 ≤ (i 0).val ∧ (i 0).val < win1_3.index ⟨(i 0).val / 512, htN⟩ 0 * 512 + win1_3.xsize (grid1.coords ⟨(i 0).val / 512, htN⟩) 0
    rw [i30, x30]; show (i 0).val / 512 * 512 ≤ (i 0).val ∧ (i 0).val < (i 0).val / 512 * 512 + min 512 (25782 - 512 * ((i 0).val / 512)); omega
  | ⟨1, _⟩ =>
    show win1_3.index ⟨(i 0).val / 512, htN⟩ 1 * 16 ≤ (i 1).val ∧ (i 1).val < win1_3.index ⟨(i 0).val / 512, htN⟩ 1 * 16 + win1_3.xsize (grid1.coords ⟨(i 0).val / 512, htN⟩) 1
    rw [i31, x31]; omega
  | ⟨2, _⟩ =>
    show win1_3.index ⟨(i 0).val / 512, htN⟩ 2 * 128 ≤ (i 2).val ∧ (i 2).val < win1_3.index ⟨(i 0).val / 512, htN⟩ 2 * 128 + win1_3.xsize (grid1.coords ⟨(i 0).val / 512, htN⟩) 2
    rw [i32, h32]; omega

/-- The angular kernel's output array after its pipeline: at row r, channel k, lane q, channel k's product of the three
    input arrays' factors at (r, q). -/
theorem arr1 (c : Dev nD) : (Dat1.dat1 V c).arrAt 3 cfg1.N = fun j =>
    Point1.angS (Scalar.ofBits .f32 (Point1.zOf (j 1))) (Scalar.ofBits .f32 (Point1.aOf (j 1)))
      (V c main_v93 (ix2 (j 0) (j 2))) (V c main_v94 (ix2 (j 0) (j 2))) (V c main_v95 (ix2 (j 0) (j 2))) :=
  (Dat1.dat1 V c).arrAt_eq_of_cover 3 (G1 V c) (fun t _ => flushed1 V c t) covered1

end Cert.KernelIdeal.Arr

end
-- ==== Proof.KiChain.lean ====
import proofs.«150593_j33397665694348_2_alg».proof.Proof.KiVal
import proofs.«150593_j33397665694348_2_alg».proof.Proof.KiVal1
import proofs.«150593_j33397665694348_2_alg».proof.Proof.KiVal88
import proofs.«150593_j33397665694348_2_alg».proof.Proof.KiArr0
import proofs.«150593_j33397665694348_2_alg».proof.Proof.KiArr1

/-! What the buffers hold at the boundaries between @main's items, walked back to the launch memory `m`: a buffer keeps
    its contents through every item that does not write it; a stretch's results are its operations' terms; a
    region's output array is the channel chain of its input arrays, element by element. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo Idealize.ShloMosaic.ValueIdx
open Cert.KernelIdeal.HostTab

variable (m : (ℓ : Loc nD τ sig) → Buf (Elt F) ℓ) (c : Dev nD)

/-! ## Buffers kept through the items that do not write them -/

theorem W12_main_v18 : W12 m c (Proc.devRef .tc main_v18) = W3 m c (Proc.devRef .tc main_v18) :=
  ((W12_of_ne m c main_v18 (by decide)).trans ((StableHlo.after_of_writes_sub hostOps1_8 _ hostOps1_8_writes (by decide : main_v18 ∉ hostOps1_8_W)).trans ((StableHlo.after_of_writes_sub hostOps1_7 _ hostOps1_7_writes (by decide : main_v18 ∉ hostOps1_7_W)).trans ((StableHlo.after_of_writes_sub hostOps1_6 _ hostOps1_6_writes (by decide : main_v18 ∉ hostOps1_6_W)).trans ((StableHlo.after_of_writes_sub hostOps1_5 _ hostOps1_5_writes (by decide : main_v18 ∉ hostOps1_5_W)).trans ((StableHlo.after_of_writes_sub hostOps1_4 _ hostOps1_4_writes (by decide : main_v18 ∉ hostOps1_4_W)).trans ((StableHlo.after_of_writes_sub hostOps1_3 _ hostOps1_3_writes (by decide : main_v18 ∉ hostOps1_3_W)).trans ((StableHlo.after_of_writes_sub hostOps1_2 _ hostOps1_2_writes (by decide : main_v18 ∉ hostOps1_2_W)).trans (StableHlo.after_of_writes_sub hostOps1_1 _ hostOps1_1_writes (by decide : main_v18 ∉ hostOps1_1_W))))))))))
theorem W12_main_v92 : W12 m c (Proc.devRef .tc main_v92) = W10 m c (Proc.devRef .tc main_v92) :=
  ((W12_of_ne m c main_v92 (by decide)).trans (StableHlo.after_of_writes_sub hostOps1_8 _ hostOps1_8_writes (by decide : main_v92 ∉ hostOps1_8_W)))
theorem W10_main_v89 : W10 m c (Proc.devRef .tc main_v89) = W4 m c (Proc.devRef .tc main_v89) :=
  ((StableHlo.after_of_writes_sub hostOps1_7 _ hostOps1_7_writes (by decide : main_v89 ∉ hostOps1_7_W)).trans ((StableHlo.after_of_writes_sub hostOps1_6 _ hostOps1_6_writes (by decide : main_v89 ∉ hostOps1_6_W)).trans ((StableHlo.after_of_writes_sub hostOps1_5 _ hostOps1_5_writes (by decide : main_v89 ∉ hostOps1_5_W)).trans ((StableHlo.after_of_writes_sub hostOps1_4 _ hostOps1_4_writes (by decide : main_v89 ∉ hostOps1_4_W)).trans ((StableHlo.after_of_writes_sub hostOps1_3 _ hostOps1_3_writes (by decide : main_v89 ∉ hostOps1_3_W)).trans (StableHlo.after_of_writes_sub hostOps1_2 _ hostOps1_2_writes (by decide : main_v89 ∉ hostOps1_2_W)))))))
theorem W10_main_v90 : W10 m c (Proc.devRef .tc main_v90) = W6 m c (Proc.devRef .tc main_v90) :=
  ((StableHlo.after_of_writes_sub hostOps1_7 _ hostOps1_7_writes (by decide : main_v90 ∉ hostOps1_7_W)).trans ((StableHlo.after_of_writes_sub hostOps1_6 _ hostOps1_6_writes (by decide : main_v90 ∉ hostOps1_6_W)).trans ((StableHlo.after_of_writes_sub hostOps1_5 _ hostOps1_5_writes (by decide : main_v90 ∉ hostOps1_5_W)).trans (StableHlo.after_of_writes_sub hostOps1_4 _ hostOps1_4_writes (by decide : main_v90 ∉ hostOps1_4_W)))))
theorem W10_main_v91 : W10 m c (Proc.devRef .tc main_v91) = W8 m c (Proc.devRef .tc main_v91) :=
  ((StableHlo.after_of_writes_sub hostOps1_7 _ hostOps1_7_writes (by decide : main_v91 ∉ hostOps1_7_W)).trans (StableHlo.after_of_writes_sub hostOps1_6 _ hostOps1_6_writes (by decide : main_v91 ∉ hostOps1_6_W)))
theorem W9_main_v88 : W9 m c (Proc.devRef .tc main_v88) = W3 m c (Proc.devRef .tc main_v88) :=
  ((StableHlo.after_of_writes_sub hostOps1_6 _ hostOps1_6_writes (by decide : main_v88 ∉ hostOps1_6_W)).trans ((StableHlo.after_of_writes_sub hostOps1_5 _ hostOps1_5_writes (by decide : main_v88 ∉ hostOps1_5_W)).trans ((StableHlo.after_of_writes_sub hostOps1_4 _ hostOps1_4_writes (by decide : main_v88 ∉ hostOps1_4_W)).trans ((StableHlo.after_of_writes_sub hostOps1_3 _ hostOps1_3_writes (by decide : main_v88 ∉ hostOps1_3_W)).trans ((StableHlo.after_of_writes_sub hostOps1_2 _ hostOps1_2_writes (by decide : main_v88 ∉ hostOps1_2_W)).trans (StableHlo.after_of_writes_sub hostOps1_1 _ hostOps1_1_writes (by decide : main_v88 ∉ hostOps1_1_W)))))))
theorem W7_main_v50 : W7 m c (Proc.devRef .tc main_v50) = W3 m c (Proc.devRef .tc main_v50) :=
  ((StableHlo.after_of_writes_sub hostOps1_4 _ hostOps1_4_writes (by decide : main_v50 ∉ hostOps1_4_W)).trans ((StableHlo.after_of_writes_sub hostOps1_3 _ hostOps1_3_writes (by decide : main_v50 ∉ hostOps1_3_W)).trans ((StableHlo.after_of_writes_sub hostOps1_2 _ hostOps1_2_writes (by decide : main_v50 ∉ hostOps1_2_W)).trans (StableHlo.after_of_writes_sub hostOps1_1 _ hostOps1_1_writes (by decide : main_v50 ∉ hostOps1_1_W)))))
theorem W5_main_v35 : W5 m c (Proc.devRef .tc main_v35) = W3 m c (Proc.devRef .tc main_v35) :=
  ((StableHlo.after_of_writes_sub hostOps1_2 _ hostOps1_2_writes (by decide : main_v35 ∉ hostOps1_2_W)).trans (StableHlo.after_of_writes_sub hostOps1_1 _ hostOps1_1_writes (by decide : main_v35 ∉ hostOps1_1_W)))
theorem W2_main_v9 : W2 m c (Proc.devRef .tc main_v9) = W1 m c (Proc.devRef .tc main_v9) :=
  (W2_of_ne m c main_v9 (by decide))
theorem W2_main_c : W2 m c (Proc.devRef .tc main_c) = W1 m c (Proc.devRef .tc main_c) :=
  (W2_of_ne m c main_c (by decide))
theorem W2_main_arg0 : W2 m c (Proc.devRef .tc main_arg0) = W0 m c (Proc.devRef .tc main_arg0) :=
  ((W2_of_ne m c main_arg0 (by decide)).trans (StableHlo.after_of_writes_sub hostOps0 _ hostOps0_writes (by decide : main_arg0 ∉ hostOps0_W)))
theorem W2_main_arg6 : W2 m c (Proc.devRef .tc main_arg6) = W0 m c (Proc.devRef .tc main_arg6) :=
  ((W2_of_ne m c main_arg6 (by decide)).trans (StableHlo.after_of_writes_sub hostOps0 _ hostOps0_writes (by decide : main_arg6 ∉ hostOps0_W)))
theorem W2_main_arg7 : W2 m c (Proc.devRef .tc main_arg7) = W0 m c (Proc.devRef .tc main_arg7) :=
  ((W2_of_ne m c main_arg7 (by decide)).trans (StableHlo.after_of_writes_sub hostOps0 _ hostOps0_writes (by decide : main_arg7 ∉ hostOps0_W)))
theorem W2_main_arg8 : W2 m c (Proc.devRef .tc main_arg8) = W0 m c (Proc.devRef .tc main_arg8) :=
  ((W2_of_ne m c main_arg8 (by decide)).trans (StableHlo.after_of_writes_sub hostOps0 _ hostOps0_writes (by decide : main_arg8 ∉ hostOps0_W)))
theorem W2_main_arg9 : W2 m c (Proc.devRef .tc main_arg9) = W0 m c (Proc.devRef .tc main_arg9) :=
  ((W2_of_ne m c main_arg9 (by decide)).trans (StableHlo.after_of_writes_sub hostOps0 _ hostOps0_writes (by decide : main_arg9 ∉ hostOps0_W)))
theorem W2_main_arg10 : W2 m c (Proc.devRef .tc main_arg10) = W0 m c (Proc.devRef .tc main_arg10) :=
  ((W2_of_ne m c main_arg10 (by decide)).trans (StableHlo.after_of_writes_sub hostOps0 _ hostOps0_writes (by decide : main_arg10 ∉ hostOps0_W)))
theorem W2_main_arg11 : W2 m c (Proc.devRef .tc main_arg11) = W0 m c (Proc.devRef .tc main_arg11) :=
  ((W2_of_ne m c main_arg11 (by decide)).trans (StableHlo.after_of_writes_sub hostOps0 _ hostOps0_writes (by decide : main_arg11 ∉ hostOps0_W)))
theorem W3_main_arg5 : W3 m c (Proc.devRef .tc main_arg5) = W0 m c (Proc.devRef .tc main_arg5) :=
  ((StableHlo.after_of_writes_sub hostOps1 _ hostOps1_writes (by decide : main_arg5 ∉ hostOps1_W)).trans ((W2_of_ne m c main_arg5 (by decide)).trans (StableHlo.after_of_writes_sub hostOps0 _ hostOps0_writes (by decide : main_arg5 ∉ hostOps0_W))))

/-! ## The integer indices and the host-side float vectors, over the launch memory -/

/-- The radial bin index of every edge. -/
theorem W1_v9_eq : W1 m c (Proc.devRef .tc main_v9) =
    ((addi : (⟨S1600000, .i32⟩ : BufTy).Contents (Elt F) → (⟨S1600000, .i32⟩ : BufTy).Contents (Elt F) → (⟨S1600000, .i32⟩ : BufTy).Contents (Elt F)) ((muli : (⟨S1600000, .i32⟩ : BufTy).Contents (Elt F) → (⟨S1600000, .i32⟩ : BufTy).Contents (Elt F) → (⟨S1600000, .i32⟩ : BufTy).Contents (Elt F)) (m ((c : Thread nD τ).loc main_arg3)) ((broadcastInDim S1600000 ![] bcast_S_S1600000 : (⟨S_, .i32⟩ : BufTy).Contents (Elt F) → (⟨S1600000, .i32⟩ : BufTy).Contents (Elt F)) ((constantI S_ 32 4#32)))) (((fun x i => Host.gather gather_S50000_S1600000x1_S1600000_n_0_n_n_0_1_1 x i) : (⟨S50000, .i32⟩ : BufTy).Contents (Elt F) → (⟨S1600000x1, .i32⟩ : BufTy).Contents (Elt F) → (⟨S1600000, .i32⟩ : BufTy).Contents (Elt F)) (m ((c : Thread nD τ).loc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (m ((c : Thread nD τ).loc main_arg4)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (m ((c : Thread nD τ).loc main_arg4)) ((broadcastInDim S1600000 ![] bcast_S_S1600000 : (⟨S_, .i32⟩ : BufTy).Contents (Elt F) → (⟨S1600000, .i32⟩ : BufTy).Contents (Elt F)) ((constantI S_ 32 50000#32)))) (m ((c : Thread nD τ).loc main_arg4)))))) :=
  Val.hostOps0_main_v9 (W0 m c)

/-- The two radial inputs as rows of 128. -/
theorem V1_v10_eq : V1 m c main_v10 = shapeCast S12500x128 (m ((c : Thread nD τ).loc main_arg1)) shapeCasts_S1600000_S12500x128 :=
  Val.hostOps0_main_v10 (W0 m c)
theorem V1_v11_eq : V1 m c main_v11 = shapeCast S12500x128 (m ((c : Thread nD τ).loc main_arg2)) shapeCasts_S1600000_S12500x128 :=
  Val.hostOps0_main_v11 (W0 m c)

/-- The mean distance of every angle pair. -/
theorem W3_v35_eq : W3 m c (Proc.devRef .tc main_v35) =
    ((mulf : (⟨S3300000, .f32⟩ : BufTy).Contents (Elt F) → (⟨S3300000, .f32⟩ : BufTy).Contents (Elt F) → (⟨S3300000, .f32⟩ : BufTy).Contents (Elt F)) ((broadcastInDim S3300000 ![] bcast_S_S3300000 : (⟨S_, .f32⟩ : BufTy).Contents (Elt F) → (⟨S3300000, .f32⟩ : BufTy).Contents (Elt F)) ((constant S_ .f32 0x3F000000#32))) ((addf : (⟨S3300000, .f32⟩ : BufTy).Contents (Elt F) → (⟨S3300000, .f32⟩ : BufTy).Contents (Elt F) → (⟨S3300000, .f32⟩ : BufTy).Contents (Elt F)) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (m ((c : Thread nD τ).loc main_arg6)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg8))))) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (m ((c : Thread nD τ).loc main_arg6)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg9))))))) := by
  refine (Val1.hostOps1_main_v35 (W2 m c)).trans ?_
  rw [W2_main_arg6, W2_main_arg8, W2_main_arg9]; try rfl

/-- The switch product of every angle pair. -/
theorem W3_v50_eq : W3 m c (Proc.devRef .tc main_v50) =
    ((mulf : (⟨S3300000, .f32⟩ : BufTy).Contents (Elt F) → (⟨S3300000, .f32⟩ : BufTy).Contents (Elt F) → (⟨S3300000, .f32⟩ : BufTy).Contents (Elt F)) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (m ((c : Thread nD τ).loc main_arg10)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg8))))) (((fun x i => Host.gather gather_S600000_S3300000x1_S3300000_n_0_n_n_0_1_1 x i) : (⟨S600000, .f32⟩ : BufTy).Contents (Elt F) → (⟨S3300000x1, .i32⟩ : BufTy).Contents (Elt F) → (⟨S3300000, .f32⟩ : BufTy).Contents (Elt F)) (m ((c : Thread nD τ).loc main_arg10)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg9)))))) := by
  refine (Val1.hostOps1_main_v50 (W2 m c)).trans ?_
  rw [W2_main_arg10, W2_main_arg8, W2_main_arg9]; try rfl

/-- The angular bin index of every angle pair. -/
theorem W3_v88_eq : W3 m c (Proc.devRef .tc main_v88) =
    ((addi : (⟨S3300000, .i32⟩ : BufTy).Contents (Elt F) → (⟨S3300000, .i32⟩ : BufTy).Contents (Elt F) → (⟨S3300000, .i32⟩ : BufTy).Contents (Elt F)) ((muli : (⟨S3300000, .i32⟩ : BufTy).Contents (Elt F) → (⟨S3300000, .i32⟩ : BufTy).Contents (Elt F) → (⟨S3300000, .i32⟩ : BufTy).Contents (Elt F)) (m ((c : Thread nD τ).loc main_arg7)) ((broadcastInDim S3300000 ![] bcast_S_S3300000 : (⟨S_, .i32⟩ : BufTy).Contents (Elt F) → (⟨S3300000, .i32⟩ : BufTy).Contents (Elt F)) ((constantI S_ 32 10#32)))) (((fun x i => Host.gather gather_S4x4_S3300000x2_S3300000_n_01_n_n_01_1_11 x i) : (⟨S4x4, .i32⟩ : BufTy).Contents (Elt F) → (⟨S3300000x2, .i32⟩ : BufTy).Contents (Elt F) → (⟨S3300000, .i32⟩ : BufTy).Contents (Elt F)) ((fun i => lit0 (S4x4.rowMajor i))) (((fun a b => concatenate S3300000x2 1 [⟨S3300000x1, a⟩, ⟨S3300000x1, b⟩] concatenates_S3300000x1_S3300000x1_S3300000x2_d1) : (⟨S3300000x1, .i32⟩ : BufTy).Contents (Elt F) → (⟨S3300000x1, .i32⟩ : BufTy).Contents (Elt F) → (⟨S3300000x2, .i32⟩ : BufTy).Contents (Elt F)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg8))))) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg8))))) ((broadcastInDim S3300000 ![] bcast_S_S3300000 : (⟨S_, .i32⟩ : BufTy).Contents (Elt F) → (⟨S3300000, .i32⟩ : BufTy).Contents (Elt F)) ((constantI S_ 32 4#32)))) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg8)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg8))))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg9))))) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg9))))) ((broadcastInDim S3300000 ![] bcast_S_S3300000 : (⟨S_, .i32⟩ : BufTy).Contents (Elt F) → (⟨S3300000, .i32⟩ : BufTy).Contents (Elt F)) ((constantI S_ 32 4#32)))) (((fun x i => Host.gather gather_S600000_S3300000x1_S3300000_n_0_n_n_0_1_1 x i) : (⟨S600000, .i32⟩ : BufTy).Contents (Elt F) → (⟨S3300000x1, .i32⟩ : BufTy).Contents (Elt F) → (⟨S3300000, .i32⟩ : BufTy).Contents (Elt F)) (((fun x i => Host.gather gather_S50000_S600000x1_S600000_n_0_n_n_0_1_1 x i) : (⟨S50000, .i32⟩ : BufTy).Contents (Elt F) → (⟨S600000x1, .i32⟩ : BufTy).Contents (Elt F) → (⟨S600000, .i32⟩ : BufTy).Contents (Elt F)) (m ((c : Thread nD τ).loc main_arg0)) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (m ((c : Thread nD τ).loc main_arg11)) ((broadcastInDim S600000 ![] bcast_S_S600000 : (⟨S_, .i32⟩ : BufTy).Contents (Elt F) → (⟨S600000, .i32⟩ : BufTy).Contents (Elt F)) ((constantI S_ 32 50000#32)))) (m ((c : Thread nD τ).loc main_arg11))))) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (m ((c : Thread nD τ).loc main_arg9)) ((broadcastInDim S3300000 ![] bcast_S_S3300000 : (⟨S_, .i32⟩ : BufTy).Contents (Elt F) → (⟨S3300000, .i32⟩ : BufTy).Contents (Elt F)) ((constantI S_ 32 600000#32)))) (m ((c : Thread nD τ).loc main_arg9)))))))))) := by
  refine (Val88.hostOps1_main_v88 (W2 m c)).trans ?_
  have hc : W1 m c (Proc.devRef .tc main_c) = ((fun i => lit0 (S4x4.rowMajor i))) := Val.hostOps0_main_c (W0 m c)
  rw [W2_main_arg0, W2_main_arg7, W2_main_arg8, W2_main_arg9, W2_main_arg11, W2_main_c, hc]; try rfl

end Cert.KernelIdeal.Run

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.RefValRad.lean ====
import proofs.«150593_j33397665694348_2_alg».proof.Proof.RefVal
import proofs.«150593_j33397665694348_2_alg».proof.Proof.LibBcast

/-! The reference's radial table read at one entry: the array the first twenty operations build from the pairs'
    distances and switching values, named as a term of those two argument arrays, and its value at pair `e`, column
    `k` as a chain of scalar operations. -/

set_option maxRecDepth 16384

noncomputable section

namespace Cert.ReferenceIdeal.RefVal

open Cert.ReferenceIdeal Cert.ReferenceIdeal.Gen Cert.ReferenceIdeal.RefOps Cert.ReferenceIdeal.RefRun
open Idealize.ShloMosaic Idealize.ShloMosaic.ValueIdx Idealize.ShloMosaic.TcCoe Idealize.SL.Sem Idealize.ShloMosaic.StableHlo

variable {F : FTy → Type} [FloatOps F]

/-! ## The radial table -/

/-- A length-1600000 vector repeated along sixteen columns. -/
def col16 (a : FVec F S1600000 .f32) : FVec F S1600000x16 .f32 :=
  broadcastInDim S1600000x16 ![0, 1] bcast_S1600000x1_S1600000x16_0_1 (broadcastInDim S1600000x1 ![0] bcast_S1600000_S1600000x1_0 a)

/-- The sixteen radial centres, one row repeated for every pair. -/
def centres16 : FVec F S1600000x16 .f32 :=
  broadcastInDim S1600000x16 ![0, 1] bcast_S1x16_S1600000x16_0_1 (fun i => FloatOps.ofBits .f32 (lit0 (S1x16.rowMajor i)))

/-- The radial table (operations 0, 4–19): a quarter of the Gaussian of each pair's distance about each centre, times the
    pair's switching value. -/
def tabR (a1 a2 : FVec F S1600000 .f32) : FVec F S1600000x16 .f32 :=
  mulf
    (mulf (broadcastInDim S1600000x16 ![] bcast_S_S1600000x16 (constant S_ .f32 0x3E800000#32))
      (Host.exp (Host.negf (mulf (broadcastInDim S1600000x16 ![] bcast_S_S1600000x16 (constant S_ .f32 0x41800000#32))
        (mulf (subf (col16 a1) centres16) (subf (col16 a1) centres16))))))
    (col16 a2)

set_option maxHeartbeats 2000000 in
theorem R_v13 (V : Valuation τ sig (Elt F)) :
    R V main_v13 = tabR (V (Proc.devRef .tc main_arg1)) (V (Proc.devRef .tc main_arg2)) := by
  rw [R_w0 V main_v13 (by decide) (by decide)]
  after_results_cc
  rfl

/-- The radial centre of column `k`. -/
def centre (k : Fin 16) : F .f32 := FloatOps.ofBits .f32 (lit0 (S1x16.rowMajor (ix2 (0 : Fin 1) k)))

theorem col16_apply (a : FVec F S1600000 .f32) (e : Fin 1600000) (k : Fin 16) : col16 a (ix2 e k) = a (ix1 e) := by
  unfold col16
  rw [Cert.LibBcast.bid_a1_ab_apply, Cert.LibBcast.bid_col_apply]

theorem centres16_apply (e : Fin 1600000) (k : Fin 16) : (centres16 (F := F)) (ix2 e k) = centre k := by
  unfold centres16
  rw [Cert.LibBcast.bid_1b_ab_apply]
  rfl

/-- The radial table at pair `e`, column `k`. -/
theorem tabR_apply (a1 a2 : FVec F S1600000 .f32) (e : Fin 1600000) (k : Fin 16) :
    tabR a1 a2 (ix2 e k)
      = FloatOps.mulf
          (FloatOps.mulf (FloatOps.ofBits .f32 0x3E800000#32)
            (FloatOps.hostUnary .exp (FloatOps.hostNegf (FloatOps.mulf (FloatOps.ofBits .f32 0x41800000#32)
              (FloatOps.mulf (FloatOps.subf (a1 (ix1 e)) (centre k)) (FloatOps.subf (a1 (ix1 e)) (centre k)))))))
          (a2 (ix1 e)) := by
  show FloatOps.mulf
          (FloatOps.mulf (broadcastInDim S1600000x16 ![] bcast_S_S1600000x16 (constant S_ .f32 0x3E800000#32) (ix2 e k))
            (FloatOps.hostUnary .exp (FloatOps.hostNegf (FloatOps.mulf (broadcastInDim S1600000x16 ![] bcast_S_S1600000x16 (constant S_ .f32 0x41800000#32) (ix2 e k))
              (FloatOps.mulf (FloatOps.subf (col16 a1 (ix2 e k)) (centres16 (ix2 e k))) (FloatOps.subf (col16 a1 (ix2 e k)) (centres16 (ix2 e k))))))))
          (col16 a2 (ix2 e k)) = _
  rw [col16_apply, col16_apply, centres16_apply, Cert.LibBcast.bid_scalar_apply, Cert.LibBcast.bid_scalar_apply]
  rfl

/-- The reference's radial table at pair `e`, column `k`, from the argument arrays. -/
theorem R_v13_apply (V : Valuation τ sig (Elt F)) (e : Fin 1600000) (k : Fin 16) :
    R V main_v13 (ix2 e k)
      = FloatOps.mulf
          (FloatOps.mulf (FloatOps.ofBits .f32 0x3E800000#32)
            (FloatOps.hostUnary .exp (FloatOps.hostNegf (FloatOps.mulf (FloatOps.ofBits .f32 0x41800000#32)
              (FloatOps.mulf (FloatOps.subf (V (Proc.devRef .tc main_arg1) (ix1 e)) (centre k))
                (FloatOps.subf (V (Proc.devRef .tc main_arg1) (ix1 e)) (centre k)))))))
          (V (Proc.devRef .tc main_arg2) (ix1 e)) :=
  (congrFun (R_v13 V) (ix2 e k)).trans (tabR_apply _ _ e k)

end Cert.ReferenceIdeal.RefVal

end
-- ==== Proof.BridgeRad.lean ====
import proofs.«150593_j33397665694348_2_alg».proof.Proof.KiArr0
import proofs.«150593_j33397665694348_2_alg».proof.Proof.KiTerms
import proofs.«150593_j33397665694348_2_alg».proof.Proof.KiAlg
import proofs.«150593_j33397665694348_2_alg».proof.Proof.KiChain
import proofs.«150593_j33397665694348_2_alg».proof.Proof.RefVal
import proofs.«150593_j33397665694348_2_alg».proof.Proof.RefValRad

/-! The radial half of the comparison, at the extended reals: the kernel's radial sums (its pipeline's output array,
    laid out as the pair-by-channel table, scattered by the radial bin index) are the reference's. The two scatters have
    the same zero start and the same bin index; their tables agree entry by entry: at pair e, channel k both hold
    0.25 · exp (−16 · (d_e − s_k)²) · w_e. -/

set_option maxRecDepth 16384

noncomputable section

namespace Cert.Proof.Bridge

open Idealize.ShloMosaic
open Idealize.ShloMosaic.ValueIdx

/-- The reference's sixteen radial centres are the kernel's sixteen shift words. -/
theorem rad_centre_eq (k : Fin 16) :
    Cert.ReferenceIdeal.RefVal.centre (F := Ideal) k = Scalar.ofBits .f32 (Cert.KernelIdeal.Point0.shiftW k) := by
  fin_cases k <;> rfl

/-- The kernel's output array laid out as the pair-by-channel table is the reference's radial table. -/
theorem rad_table_eq (a1 a2 : Cert.KernelIdeal.S1600000.Idx → Ideal .f32)
    (hc : Cert.KernelIdeal.S1600000.ShapeCasts Cert.KernelIdeal.S12500x128)
    (hT : Cert.KernelIdeal.S12500x16x128.Transposes [0, 2, 1] Cert.KernelIdeal.S12500x128x16)
    (hC : Cert.KernelIdeal.S12500x128x16.ShapeCasts Cert.KernelIdeal.S1600000x16) :
    shapeCast Cert.KernelIdeal.S1600000x16 (transpose Cert.KernelIdeal.S12500x128x16 [0, 2, 1]
        (fun j : Cert.KernelIdeal.S12500x16x128.Idx =>
          Cert.KernelIdeal.Point0.radS (F := Ideal) (Scalar.ofBits .f32 (Cert.KernelIdeal.Point0.shiftW (j 1)))
            (shapeCast Cert.KernelIdeal.S12500x128 a1 hc (ix2 (j 0) (j 2))) (shapeCast Cert.KernelIdeal.S12500x128 a2 hc (ix2 (j 0) (j 2)))) hT) hC
      = Cert.ReferenceIdeal.RefVal.tabR (F := Ideal) a1 a2 := by
  funext j
  obtain ⟨e, k, rfl⟩ : ∃ (e : Fin 1600000) (k : Fin 16), j = ix2 e k := ⟨_, _, eq_ix2 _⟩
  rw [Cert.KernelIdeal.Terms.radial_table, Cert.KernelIdeal.Alg.radS_host]
  refine Eq.trans ?_ (Cert.ReferenceIdeal.RefVal.tabR_apply a1 a2 e k).symm
  rw [rad_centre_eq]

/-- THE RADIAL HALF: the reference's radial sums are the kernel's buffer of radial sums at the end of its run, when the
    two programs' arguments agree. -/
theorem bridge_rad
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefVal.R (F := Ideal) (StableHlo.launchContents m' c) Cert.ReferenceIdeal.main_v27
      = Cert.KernelIdeal.Run.W12 m c (Proc.devRef .tc Cert.KernelIdeal.main_v18) := by
  -- the kernel's side: the buffer is kept from the end of the long host stretch, where it is the scatter of the table
  have hK18 : Cert.KernelIdeal.Run.W12 m c (Proc.devRef .tc Cert.KernelIdeal.main_v18)
      = Cert.KernelIdeal.Run.W3 m c (Proc.devRef .tc Cert.KernelIdeal.main_v18) := Cert.KernelIdeal.Run.W12_main_v18 m c
  have hK9 : Cert.KernelIdeal.Run.W2 m c (Proc.devRef .tc Cert.KernelIdeal.main_v9)
      = Cert.ReferenceIdeal.RefVal.idxR (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) :=
    (Cert.KernelIdeal.Run.W2_main_v9 m c).trans
      ((Cert.KernelIdeal.Val.hostOps0_main_v9 (Cert.KernelIdeal.Run.W0 m c)).trans rfl)
  have hK12 : Cert.KernelIdeal.Run.W2 m c (Proc.devRef .tc Cert.KernelIdeal.main_v12)
      = fun j : Cert.KernelIdeal.S12500x16x128.Idx =>
          Cert.KernelIdeal.Point0.radS (F := Ideal) (Scalar.ofBits .f32 (Cert.KernelIdeal.Point0.shiftW (j 1)))
            (shapeCast Cert.KernelIdeal.S12500x128 (m ((c.tc : Thread Cert.KernelIdeal.nD Cert.KernelIdeal.τ).loc Cert.KernelIdeal.main_arg1))
              Cert.KernelIdeal.Gen.shapeCasts_S1600000_S12500x128 (ix2 (j 0) (j 2)))
            (shapeCast Cert.KernelIdeal.S12500x128 (m ((c.tc : Thread Cert.KernelIdeal.nD Cert.KernelIdeal.τ).loc Cert.KernelIdeal.main_arg2))
              Cert.KernelIdeal.Gen.shapeCasts_S1600000_S12500x128 (ix2 (j 0) (j 2))) := by
    refine ((Cert.KernelIdeal.Run.W2_arr m c 2).trans (Cert.KernelIdeal.Arr.arr0 (Cert.KernelIdeal.Run.V1 m) c)).trans ?_
    rw [show Cert.KernelIdeal.Run.V1 m c Cert.KernelIdeal.main_v10 = _ from Cert.KernelIdeal.Val.hostOps0_main_v10 (Cert.KernelIdeal.Run.W0 m c),
      show Cert.KernelIdeal.Run.V1 m c Cert.KernelIdeal.main_v11 = _ from Cert.KernelIdeal.Val.hostOps0_main_v11 (Cert.KernelIdeal.Run.W0 m c)]
    rfl
  rw [hK18]
  refine Eq.trans ?_ (Cert.KernelIdeal.Val1.hostOps1_main_v18 (Cert.KernelIdeal.Run.W2 m c)).symm
  rw [hK9, hK12, rad_table_eq]
  -- the reference's side, stage by stage down to its arguments
  rw [Cert.ReferenceIdeal.RefVal.R_v27, Cert.ReferenceIdeal.RefVal.R_v26, Cert.ReferenceIdeal.RefVal.R_v24,
    Cert.ReferenceIdeal.RefVal.R_v25, Cert.ReferenceIdeal.RefVal.R_v23, Cert.ReferenceIdeal.RefVal.R_v13]
  rw [show StableHlo.launchContents m' c (Proc.devRef .tc Cert.ReferenceIdeal.main_arg0) = _ from h0,
    show StableHlo.launchContents m' c (Proc.devRef .tc Cert.ReferenceIdeal.main_arg1) = _ from h1,
    show StableHlo.launchContents m' c (Proc.devRef .tc Cert.ReferenceIdeal.main_arg2) = _ from h2,
    show StableHlo.launchContents m' c (Proc.devRef .tc Cert.ReferenceIdeal.main_arg3) = _ from h3,
    show StableHlo.launchContents m' c (Proc.devRef .tc Cert.ReferenceIdeal.main_arg4) = _ from h4]
  rfl

end Cert.Proof.Bridge

end
-- ==== Proof.KiChain2.lean ====
import proofs.«150593_j33397665694348_2_alg».proof.Proof.KiChain

/-! The angular side of the boundaries' contents: the three float inputs and the bin index of region 1 are the
    host-side vectors padded with 96 zeros at the end; region 1's output array is the channel chain of its three
    inputs (each a padded vector as rows of 128), element by element; the result is the concatenation of the radial
    sums and the angular sums. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo Idealize.ShloMosaic.ValueIdx
open Cert.KernelIdeal.HostTab

variable (m : (ℓ : Loc nD τ sig) → Buf (Elt F) ℓ) (c : Dev nD)

/-- The padded angles; -/
theorem W10_v89_eq : W10 m c (Proc.devRef .tc main_v89) =
    ((fun x v => pad S3300096 ![0] ![96] ![0] x v pads_S3300000_S3300096_0960 h_S_) (m ((c : Thread nD τ).loc main_arg5)) ((sitofp .f32) (constantI S_ 32 0#32))) := by
  rw [W10_main_v89]
  refine (Val.hostOps1_1_main_v89 (W3 m c)).trans ?_
  have hk : W3 m c (Proc.devRef .tc main_c_23) = (constantI S_ 32 0#32) := Val1.hostOps1_main_c_23 (W2 m c)
  rw [W3_main_arg5, hk]; try rfl

/-- the padded mean distances; -/
theorem W10_v90_eq : W10 m c (Proc.devRef .tc main_v90) =
    ((fun x v => pad S3300096 ![0] ![96] ![0] x v pads_S3300000_S3300096_0960 h_S_) (W3 m c (Proc.devRef .tc main_v35)) ((sitofp .f32) (constantI S_ 32 0#32))) := by
  rw [W10_main_v90]
  refine (Val.hostOps1_3_main_v90 (W5 m c)).trans ?_
  have hk : W5 m c (Proc.devRef .tc main_c_24) = (constantI S_ 32 0#32) := Val.hostOps1_2_main_c_24 (W4 m c)
  rw [W5_main_v35, hk]; try rfl

/-- the padded switch products; -/
theorem W10_v91_eq : W10 m c (Proc.devRef .tc main_v91) =
    ((fun x v => pad S3300096 ![0] ![96] ![0] x v pads_S3300000_S3300096_0960 h_S_) (W3 m c (Proc.devRef .tc main_v50)) ((sitofp .f32) (constantI S_ 32 0#32))) := by
  rw [W10_main_v91]
  refine (Val.hostOps1_5_main_v91 (W7 m c)).trans ?_
  have hk : W7 m c (Proc.devRef .tc main_c_25) = (constantI S_ 32 0#32) := Val.hostOps1_4_main_c_25 (W6 m c)
  rw [W7_main_v50, hk]; try rfl

/-- the padded angular bin indices. -/
theorem W12_v92_eq : W12 m c (Proc.devRef .tc main_v92) =
    ((fun x v => pad S3300096 ![0] ![96] ![0] x v pads_S3300000_S3300096_0960 h_S_) (W3 m c (Proc.devRef .tc main_v88)) (id (constantI S_ 32 0#32))) := by
  rw [W12_main_v92]
  refine (Val.hostOps1_7_main_v92 (W9 m c)).trans ?_
  have hk : W9 m c (Proc.devRef .tc main_c_26) = (constantI S_ 32 0#32) := Val.hostOps1_6_main_c_26 (W8 m c)
  rw [W9_main_v88, hk]; try rfl

/-- Region 1's three inputs are the padded vectors as rows of 128. -/
theorem V11_v93_eq : V11 m c main_v93 = shapeCast S25782x128 (W10 m c (Proc.devRef .tc main_v89)) shapeCasts_S3300096_S25782x128 :=
  Val.hostOps1_8_main_v93 (W10 m c)
theorem V11_v94_eq : V11 m c main_v94 = shapeCast S25782x128 (W10 m c (Proc.devRef .tc main_v90)) shapeCasts_S3300096_S25782x128 :=
  Val.hostOps1_8_main_v94 (W10 m c)
theorem V11_v95_eq : V11 m c main_v95 = shapeCast S25782x128 (W10 m c (Proc.devRef .tc main_v91)) shapeCasts_S3300096_S25782x128 :=
  Val.hostOps1_8_main_v95 (W10 m c)

/-- Region 1's output array, element by element. -/
theorem W12_v96_eq : W12 m c (Proc.devRef .tc main_v96) = fun j =>
    Point1.angS (Scalar.ofBits .f32 (Point1.zOf (j 1))) (Scalar.ofBits .f32 (Point1.aOf (j 1)))
      (V11 m c main_v93 (ix2 (j 0) (j 2))) (V11 m c main_v94 (ix2 (j 0) (j 2))) (V11 m c main_v95 (ix2 (j 0) (j 2))) :=
  (W12_arr m c 3).trans (Arr.arr1 (V11 m) c)

/-- Region 0's output array, element by element. -/
theorem W2_v12_eq : W2 m c (Proc.devRef .tc main_v12) = fun j =>
    Point0.radS (Scalar.ofBits .f32 (Point0.shiftW (j 1))) (V1 m c main_v10 (ix2 (j 0) (j 2))) (V1 m c main_v11 (ix2 (j 0) (j 2))) :=
  (W2_arr m c 2).trans (Arr.arr0 (V1 m) c)

/-- The result: the radial sums beside the angular sums. -/
theorem W13_v103_eq : W13 m c (Proc.devRef .tc main_v103) =
    (((fun a b => concatenate S50000x224 1 [⟨S50000x64, a⟩, ⟨S50000x160, b⟩] concatenates_S50000x64_S50000x160_S50000x224_d1) : (⟨S50000x64, .f32⟩ : BufTy).Contents (Elt F) → (⟨S50000x160, .f32⟩ : BufTy).Contents (Elt F) → (⟨S50000x224, .f32⟩ : BufTy).Contents (Elt F)) (W12 m c (Proc.devRef .tc main_v18)) (shapeCast S50000x160 (((fun x i u => Host.scatterAdd scatter_S500000x16_S3300096x1_S3300096x16_1_0_0_1 x i u) : (⟨S500000x16, .f32⟩ : BufTy).Contents (Elt F) → (⟨S3300096x1, .i32⟩ : BufTy).Contents (Elt F) → (⟨S3300096x16, .f32⟩ : BufTy).Contents (Elt F) → (⟨S500000x16, .f32⟩ : BufTy).Contents (Elt F)) ((broadcastInDim S500000x16 ![] bcast_S_S500000x16 : (⟨S_, .f32⟩ : BufTy).Contents (Elt F) → (⟨S500000x16, .f32⟩ : BufTy).Contents (Elt F)) ((constant S_ .f32 0x00000000#32))) ((broadcastInDim S3300096x1 ![0] bcast_S3300096_S3300096x1_0 : (⟨S3300096, .i32⟩ : BufTy).Contents (Elt F) → (⟨S3300096x1, .i32⟩ : BufTy).Contents (Elt F)) (W12 m c (Proc.devRef .tc main_v92))) (shapeCast S3300096x16 (((transpose S25782x128x16 [0, 2, 1] · transposes_S25782x16x128_S25782x128x16_0_2_1) : (⟨S25782x16x128, .f32⟩ : BufTy).Contents (Elt F) → (⟨S25782x128x16, .f32⟩ : BufTy).Contents (Elt F)) (W12 m c (Proc.devRef .tc main_v96))) shapeCasts_S25782x128x16_S3300096x16)) shapeCasts_S500000x16_S50000x160)) :=
  Val.hostOps2_main_v103 (W12 m c)

end Cert.KernelIdeal.Run

end
-- ==== Proof.KiFin.lean ====
import proofs.«150593_j33397665694348_2_alg».proof.Defs
import proofs.«150593_j33397665694348_2_alg».proof.Proof.Gen.Pre_finite_inputs
import Idealize.ShloMosaic.Lib.ReduceAll
import Idealize.ShloMosaic.Lib.ValueIdx

/-! The precondition read back: the printed predicate is the conjunction of five "every |x| is below +∞" tests, one per
    float argument; its third conjunct says every angle is a real number. -/

set_option maxRecDepth 16384

noncomputable section

namespace Cert.KernelIdeal.Alg

open Idealize.ShloMosaic
open Idealize.ShloMosaic.ValueIdx

/-- The scalar shape has one index. -/
instance subsingleton_scalar_idx : Subsingleton Cert.Pre_finite_inputs.S_.Idx := ⟨fun _ _ => funext fun d => d.elim0⟩

/-- The pattern of +∞ denotes the top element. -/
theorem ofBits_inf : Ideal.ofBits .f32 0x7F800000#32 = ⊤ := by
  simp [Ideal.ofBits, Ideal.ieee]

/-- An extended real whose absolute value is below +∞ is a real. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  change BitVec.ofBool (decide (max x (-x) < Ideal.ofBits .f32 0x7F800000#32)) = 1#1 at h
  rw [ofBits_inf] at h
  induction x using EReal.rec with
  | bot => exfalso; simp at h
  | coe r => exact ⟨r, rfl⟩
  | top => exfalso; simp at h

/-- Under the precondition every angle is a real number. -/
theorem arg5_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 3300000) :
    ∃ r : ℝ, m ((c.tc : Thread Cert.KernelIdeal.nD Cert.KernelIdeal.τ).loc Cert.KernelIdeal.main_arg5) (ix1 p) = (r : EReal) := by
  have h := congrFun (hpre c) ix0
  dsimp only [Cert.Pre_finite_inputs.fn, Cert.Pre_finite_inputs.fn_part1] at h
  obtain ⟨h1, -⟩ := IntOp.andi_eq_one.1 h
  obtain ⟨h2, -⟩ := IntOp.andi_eq_one.1 h1
  obtain ⟨-, h3⟩ := IntOp.andi_eq_one.1 h2
  have h4 := Host.reduce_andi_all _ _ _ _ ix0 h3 (ix1 p)
  exact real_of_abs_lt _ h4

end Cert.KernelIdeal.Alg

end
-- ==== Proof.LibHostRank3.lean ====
/-
  Array operations of rank three read at an index given by coordinates, on the extended reals.

  A matrix made a one-column stack, a one-column stack repeated along its last axis, a vector made a `[1, 1, c]` block
  and that block repeated over the two leading axes: each reads the operand at the coordinates it keeps. A sum and a
  maximum along the last axis of a rank-three array, read at the two coordinates kept: the initial value combined with
  the `c` entries along that axis. Two products: a stack of matrices against one matrix, both contracted over their last
  axis; and two stacks, batch by batch, the left's last axis against the right's middle axis. On the extended reals each
  is the plain sum of products over the contracted coordinate.
-/
import Idealize.ShloMosaic.Lib.ValueIdx
import Idealize.ShloMosaic.Lib.Pipeline.Value
import Idealize.ShloMosaic.Lib.ValueLayout
import Idealize.ShloMosaic.PureOps.Ideal.Laws

noncomputable section

namespace Cert.RefLib3

open Idealize.ShloMosaic Idealize.ShloMosaic.ValueIdx

section Layout
variable {α : Type}

/-- An `[a, b]` matrix broadcast to an `[a, b, 1]` stack of columns reads, at `(p, q, u)`, the matrix at `(p, q)`. -/
theorem bid_ab_ab1_apply {a b : ℕ} (v : (⟨2, ![a, b]⟩ : Shape).Idx → α)
    (h : (⟨2, ![a, b]⟩ : Shape).BroadcastsInDim ⟨3, ![a, b, 1]⟩ (![0, 1] : Fin 2 → Fin 3)) (p : Fin a) (q : Fin b) (u : Fin 1) :
    broadcastInDim ⟨3, ![a, b, 1]⟩ ![0, 1] h v (ix3 p q u) = v (ix2 p q) :=
  broadcastInDim_apply _ h v (ix3 p q u) (ix2 p q) (fun d => by
    match d with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl)

/-- An `[a, b, 1]` stack of columns repeated over `c` columns reads, at `(p, q, r)`, the stack at `(p, q, 0)`. -/
theorem bid_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim ⟨3, ![a, b, c]⟩ ![0, 1, 2] h v (ix3 p q r) = v (ix3 p q (0 : Fin 1)) :=
  broadcastInDim_apply _ h v (ix3 p q r) (ix3 p q (0 : Fin 1)) (fun d => by
    match d with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl
    | ⟨2, _⟩ =>
      show (0 : ℕ) = if (1 : ℕ) = 1 then 0 else r.val
      rw [if_pos rfl])

/-- A length-`c` vector broadcast to a `[1, 1, c]` block reads, at `(u, u', r)`, the vector at `r`. -/
theorem bid_c_11c_apply {c : ℕ} (v : (⟨1, ![c]⟩ : Shape).Idx → α)
    (h : (⟨1, ![c]⟩ : Shape).BroadcastsInDim ⟨3, ![1, 1, c]⟩ (![2] : Fin 1 → Fin 3)) (u u' : Fin 1) (r : Fin c) :
    broadcastInDim ⟨3, ![1, 1, c]⟩ ![2] h v (ix3 u u' r) = v (ix1 r) :=
  broadcastInDim_apply _ h v (ix3 u u' r) (ix1 r) (fun d => by
    match d with
    | ⟨0, _⟩ =>
      show r.val = if c = 1 then 0 else r.val
      split_ifs with h1
      · have := r.isLt; omega
      · rfl)

/-- A `[1, 1, c]` block repeated over the two leading axes reads, at `(p, q, r)`, the block at `(0, 0, r)`. -/
theorem bid_11c_abc_apply {a b c : ℕ} (v : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (r : Fin c) :
    broadcastInDim ⟨3, ![a, b, c]⟩ ![0, 1, 2] h v (ix3 p q r) = v (ix3 (0 : Fin 1) (0 : Fin 1) r) :=
  broadcastInDim_apply _ h v (ix3 p q r) (ix3 (0 : Fin 1) (0 : Fin 1) r) (fun d => by
    match d with
    | ⟨0, _⟩ =>
      show (0 : ℕ) = if (1 : ℕ) = 1 then 0 else p.val
      rw [if_pos rfl]
    | ⟨1, _⟩ =>
      show (0 : ℕ) = if (1 : ℕ) = 1 then 0 else q.val
      rw [if_pos rfl]
    | ⟨2, _⟩ =>
      show r.val = if c = 1 then 0 else r.val
      split_ifs with h1
      · have := r.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

end Layout

/-- The host's sum along the last axis of an `[a, b, c]` array from an initial scalar, at `(p, q)`. -/
theorem hostSum3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hS : 0 < (⟨0, ![]⟩ : Shape).numel) (p : Fin a) (q : Fin b) :
    Host.reduceAdd x init h' hS (ix2 p q) = init (Shape.Idx.first hS) + ∑ k : Fin c, x (ix3 p q k) := by
  simp only [Host.reduceAdd, Ideal.hostReduceAdd_def]
  rw [Ideal.hostReduceAdd_single h' h]
  exact congrArg (_ + ·) (Finset.sum_congr rfl fun k _ => congrArg x
    (funext fun ax => Fin.ext (by match ax with | ⟨0, _⟩ => rfl | ⟨1, _⟩ => rfl | ⟨2, _⟩ => rfl)))

/-- The host's maximum along the last axis of an `[a, b, c]` array from an initial scalar, at `(p, q)`: the fold of
    `max` from the scalar over the `c` entries. -/
theorem hostMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hS : 0 < (⟨0, ![]⟩ : Shape).numel) (p : Fin a) (q : Fin b) :
    Host.reduce (FloatOps.maximumf (F := Ideal) (φ := φ)) x init h' hS (ix2 p q)
      = (Finset.univ : Finset (Fin c)).fold max (init (Shape.Idx.first hS)) (fun k => x (ix3 p q k)) := by
  rw [Host.reduce_eq_fold_single _ x init h' h hS (ix2 p q)]
  show (Finset.univ : Finset (Fin c)).fold max (init (Shape.Idx.first hS)) (x ∘ h.lift (ix2 p q)) = _
  exact Finset.fold_congr fun k _ => congrArg x
    (funext fun ax => Fin.ext (by match ax with | ⟨0, _⟩ => rfl | ⟨1, _⟩ => rfl | ⟨2, _⟩ => rfl))

/-- A stack of `a` matrices `[b, k]` against one matrix `[c, k]`, both contracted over their last axis: at `(p, q, r)`
    the sum over `d` of `A (p, q, d) · B (r, d)`. -/
theorem dot_abk_ck_apply {a b c k : ℕ} {φ₁ φ₂ : FTy}
    (w : DotDims.WF ⟨3, ![a, b, k]⟩ ⟨2, ![c, k]⟩ ⟨3, ![a, b, c]⟩ [2] [1] [0, 1] [0] [] []) (prec : Option ContractPrecision)
    (A : FVec Ideal ⟨3, ![a, b, k]⟩ φ₁) (B : FVec Ideal ⟨2, ![c, k]⟩ φ₂) (p : Fin a) (q : Fin b) (r : Fin c) :
    Host.dotGeneral (F := Ideal) (⟨[2], [1], [0, 1], [0], [], [], w⟩ : DotDims ⟨3, ![a, b, k]⟩ ⟨2, ![c, k]⟩ ⟨3, ![a, b, c]⟩) prec A B (ix3 p q r)
      = ∑ d : Fin k, A (ix3 p q d) * B (ix2 r d) := by
  refine (Ideal.dotGeneral_apply _ prec .single A B (ix3 p q r)).trans ?_
  rw [← Equiv.sum_comp (contrEquiv1 (⟨[2], [1], [0, 1], [0], [], [], w⟩ : DotDims ⟨3, ![a, b, k]⟩ ⟨2, ![c, k]⟩ ⟨3, ![a, b, c]⟩) k rfl rfl).symm]
  refine Finset.sum_congr rfl fun d _ => ?_
  have c2 := contrEquiv1_symm_val (⟨[2], [1], [0, 1], [0], [], [], w⟩ : DotDims ⟨3, ![a, b, k]⟩ ⟨2, ![c, k]⟩ ⟨3, ![a, b, c]⟩) k rfl rfl d
  have l2 : (⟨[2], [1], [0, 1], [0], [], [], w⟩ : DotDims ⟨3, ![a, b, k]⟩ ⟨2, ![c, k]⟩ ⟨3, ![a, b, c]⟩).lhsIdx (ix3 p q r)
      ((contrEquiv1 _ k rfl rfl).symm d) = ix3 p q d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![a, b, k]⟩ ⟨2, ![c, k]⟩ ⟨3, ![a, b, c]⟩).rhsIdx (ix3 p q r)
      ((contrEquiv1 _ k rfl rfl).symm d) = ix2 r d := by
    funext ax; apply Fin.ext
    match ax with
    | ⟨0, _⟩ => simp [DotDims.rhsIdx]; rfl
    | ⟨1, _⟩ => simp [DotDims.rhsIdx]; exact c2
  rw [l2, r2]

/-- Two stacks multiplied batch by batch, `[a, m, n]` against `[a, n, d]`, the left's last axis contracted with the
    right's middle axis: at `(p, q, r)` the sum over `j` of `A (p, q, j) · B (p, j, r)`. -/
theorem dot_batch_apply {a m n d : ℕ} {φ₁ φ₂ : FTy}
    (w : DotDims.WF ⟨3, ![a, m, n]⟩ ⟨3, ![a, n, d]⟩ ⟨3, ![a, m, d]⟩ [2] [1] [1] [2] [0] [0]) (prec : Option ContractPrecision)
    (A : FVec Ideal ⟨3, ![a, m, n]⟩ φ₁) (B : FVec Ideal ⟨3, ![a, n, d]⟩ φ₂) (p : Fin a) (q : Fin m) (r : Fin d) :
    Host.dotGeneral (F := Ideal) (⟨[2], [1], [1], [2], [0], [0], w⟩ : DotDims ⟨3, ![a, m, n]⟩ ⟨3, ![a, n, d]⟩ ⟨3, ![a, m, d]⟩) prec A B (ix3 p q r)
      = ∑ j : Fin n, A (ix3 p q j) * B (ix3 p j r) := by
  refine (Ideal.dotGeneral_apply _ prec .single A B (ix3 p q r)).trans ?_
  rw [← Equiv.sum_comp (contrEquiv1 (⟨[2], [1], [1], [2], [0], [0], w⟩ : DotDims ⟨3, ![a, m, n]⟩ ⟨3, ![a, n, d]⟩ ⟨3, ![a, m, d]⟩) n rfl rfl).symm]
  refine Finset.sum_congr rfl fun j _ => ?_
  have c2 := contrEquiv1_symm_val (⟨[2], [1], [1], [2], [0], [0], w⟩ : DotDims ⟨3, ![a, m, n]⟩ ⟨3, ![a, n, d]⟩ ⟨3, ![a, m, d]⟩) n rfl rfl j
  have l2 : (⟨[2], [1], [1], [2], [0], [0], w⟩ : DotDims ⟨3, ![a, m, n]⟩ ⟨3, ![a, n, d]⟩ ⟨3, ![a, m, d]⟩).lhsIdx (ix3 p q r)
      ((contrEquiv1 _ n rfl rfl).symm j) = ix3 p q j := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [1], [2], [0], [0], w⟩ : DotDims ⟨3, ![a, m, n]⟩ ⟨3, ![a, n, d]⟩ ⟨3, ![a, m, d]⟩).rhsIdx (ix3 p q r)
      ((contrEquiv1 _ n rfl rfl).symm j) = ix3 p j r := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
  rw [l2, r2]

end Cert.RefLib3

end
-- ==== Proof.RefValAng.lean ====
import proofs.«150593_j33397665694348_2_alg».proof.Proof.RefVal
import proofs.«150593_j33397665694348_2_alg».proof.Proof.LibBcast
import proofs.«150593_j33397665694348_2_alg».proof.Proof.LibHostRank3
import proofs.«150593_j33397665694348_2_alg».proof.Proof.LibMidAxis

/-! The reference's angular table read at one entry: the array built from the triples' angles, distance sums and
    switching products, named as a term of those three arrays, and its value at triple `p`, column `4 j + i` as a chain
    of scalar operations — the angular factor depends on `i`, the radial factor on `j`. -/

set_option maxRecDepth 16384

noncomputable section

namespace Cert.ReferenceIdeal.RefVal

open Cert.ReferenceIdeal Cert.ReferenceIdeal.Gen Cert.ReferenceIdeal.RefOps Cert.ReferenceIdeal.RefRun
open Idealize.ShloMosaic Idealize.ShloMosaic.ValueIdx Idealize.ShloMosaic.TcCoe Idealize.SL.Sem Idealize.ShloMosaic.StableHlo

variable {F : FTy → Type} [FloatOps F]

/-! ## The angular table -/

/-- A `[P, 4, 4]` array cast to `[P, 16]` reads, at `(p, 4 j + i)`, the array at `(p, j, i)`: both have row-major
    position `16 p + 4 j + i`. -/
theorem shapeCast_a44_a16_apply {α : Type} {a : ℕ} (x : (⟨3, ![a, 4, 4]⟩ : Shape).Idx → α)
    (h : (⟨3, ![a, 4, 4]⟩ : Shape).ShapeCasts ⟨2, ![a, 16]⟩) (p : Fin a) (j i : Fin 4) (hc : 4 * j.val + i.val < 16) :
    shapeCast ⟨2, ![a, 16]⟩ x h (ix2 p (⟨4 * j.val + i.val, hc⟩ : Fin 16)) = x (ix3 p j i) :=
  shapeCast_apply x h _ _ (by
    rw [Shape.rowMajor_val_three, Shape.rowMajor_val_two]
    show (p.val * 4 + j.val) * 4 + i.val = p.val * 16 + (4 * j.val + i.val)
    omega)

/-- A length-3300000 vector repeated along four columns. -/
def row4 (a : FVec F S3300000 .f32) : FVec F S3300000x4 .f32 :=
  broadcastInDim S3300000x4 ![0, 1] bcast_S3300000x1_S3300000x4_0_1 (broadcastInDim S3300000x1 ![0] bcast_S3300000_S3300000x1_0 a)

/-- A four-entry table, one row repeated for every triple. -/
def tab4 (lit : Fin 4 → BitVec 32) : FVec F S3300000x4 .f32 :=
  broadcastInDim S3300000x4 ![0, 1] bcast_S1x4_S3300000x4_0_1 (fun i => FloatOps.ofBits .f32 (lit (S1x4.rowMajor i)))

/-- A constant word in every entry of a `[P, 4]` array. -/
def bc4 (w : BitVec 32) : FVec F S3300000x4 .f32 :=
  broadcastInDim S3300000x4 ![] bcast_S_S3300000x4 (constant S_ .f32 w)

/-- The angular factor (operations 61–74): the 32nd power of a half plus half the cosine of the angle less each of four
    offsets. -/
def angPart (a5 : FVec F S3300000 .f32) : FVec F S3300000x4 .f32 :=
  Host.powf (addf (bc4 0x3F000000#32) (mulf (bc4 0x3F000000#32) (Host.cos (subf (row4 a5) (tab4 lit1))))) (bc4 0x42000000#32)

/-- Half of each triple's distance sum, as a column (operations 58–60). -/
def halfcol (d12 : FVec F S3300000 .f32) : FVec F S3300000x1 .f32 :=
  mulf (broadcastInDim S3300000x1 ![] bcast_S_S3300000x1 (constant S_ .f32 0x3F000000#32))
    (broadcastInDim S3300000x1 ![0] bcast_S3300000_S3300000x1_0 d12)

/-- The radial factor (operations 75–82): the Gaussian of half the distance sum about each of four centres. -/
def radPart (d12 : FVec F S3300000 .f32) : FVec F S3300000x4 .f32 :=
  Host.exp (mulf (bc4 0xC1000000#32)
    (mulf (subf (broadcastInDim S3300000x4 ![0, 1] bcast_S3300000x1_S3300000x4_0_1 (halfcol d12)) (tab4 lit2))
      (subf (broadcastInDim S3300000x4 ![0, 1] bcast_S3300000x1_S3300000x4_0_1 (halfcol d12)) (tab4 lit2))))

/-- The product of the two factors over `[P, 4, 4]`: the angular one along the last axis, the radial one along the
    middle axis (operations 83–87). -/
def cube (a5 d12 : FVec F S3300000 .f32) : FVec F S3300000x4x4 .f32 :=
  mulf
    (broadcastInDim S3300000x4x4 ![0, 1, 2] bcast_S3300000x1x4_S3300000x4x4_0_1_2
      (broadcastInDim S3300000x1x4 ![0, 2] bcast_S3300000x4_S3300000x1x4_0_2 (angPart a5)))
    (broadcastInDim S3300000x4x4 ![0, 1, 2] bcast_S3300000x4x1_S3300000x4x4_0_1_2
      (broadcastInDim S3300000x4x1 ![0, 1] bcast_S3300000x4_S3300000x4x1_0_1 (radPart d12)))

/-- The angular table (operations 1, 2, 57–91, 111–113): the product flattened to sixteen columns, doubled, times each
    triple's switching product. -/
def tabA (a5 d12 sw : FVec F S3300000 .f32) : FVec F S3300000x16 .f32 :=
  mulf
    (mulf (shapeCast S3300000x16 (cube a5 d12) shapeCasts_S3300000x4x4_S3300000x16)
      (broadcastInDim S3300000x16 ![] bcast_S_S3300000x16 (constant S_ .f32 0x40000000#32)))
    (broadcastInDim S3300000x16 ![0, 1] bcast_S3300000x1_S3300000x16_0_1 (broadcastInDim S3300000x1 ![0] bcast_S3300000_S3300000x1_0 sw))

set_option maxHeartbeats 4000000 in
theorem R_v89 (V : Valuation τ sig (Elt F)) :
    R V main_v89 = tabA (V (Proc.devRef .tc main_arg5)) (R V main_v42) (R V main_v86) := by
  rw [R_w1 V main_v89 (by decide), R_w1 V main_v86 (by decide), R_w0 V main_v42 (by decide) (by decide)]
  after_results_cc
  rfl

/-- The angular offset of column `i`. -/
def zc (i : Fin 4) : F .f32 := FloatOps.ofBits .f32 (lit1 (S1x4.rowMajor (ix2 (0 : Fin 1) i)))
/-- The radial centre of row `j`. -/
def ac (j : Fin 4) : F .f32 := FloatOps.ofBits .f32 (lit2 (S1x4.rowMajor (ix2 (0 : Fin 1) j)))

theorem row4_apply (a : FVec F S3300000 .f32) (p : Fin 3300000) (i : Fin 4) : row4 a (ix2 p i) = a (ix1 p) := by
  unfold row4
  rw [Cert.LibBcast.bid_a1_ab_apply, Cert.LibBcast.bid_col_apply]

theorem tab4_apply (lit : Fin 4 → BitVec 32) (p : Fin 3300000) (i : Fin 4) :
    (tab4 (F := F) lit) (ix2 p i) = FloatOps.ofBits .f32 (lit (S1x4.rowMajor (ix2 (0 : Fin 1) i))) := by
  unfold tab4
  rw [Cert.LibBcast.bid_1b_ab_apply]

theorem bc4_apply (w : BitVec 32) (p : Fin 3300000) (i : Fin 4) : (bc4 (F := F) w) (ix2 p i) = FloatOps.ofBits .f32 w := by
  unfold bc4
  rw [Cert.LibBcast.bid_scalar_apply]
  rfl

theorem angPart_apply (a5 : FVec F S3300000 .f32) (p : Fin 3300000) (i : Fin 4) :
    angPart a5 (ix2 p i)
      = FloatOps.hostPowf
          (FloatOps.addf (FloatOps.ofBits .f32 0x3F000000#32)
            (FloatOps.mulf (FloatOps.ofBits .f32 0x3F000000#32) (FloatOps.hostUnary .cos (FloatOps.subf (a5 (ix1 p)) (zc i)))))
          (FloatOps.ofBits .f32 0x42000000#32) := by
  show FloatOps.hostPowf
          (FloatOps.addf (bc4 0x3F000000#32 (ix2 p i))
            (FloatOps.mulf (bc4 0x3F000000#32 (ix2 p i)) (FloatOps.hostUnary .cos (FloatOps.subf (row4 a5 (ix2 p i)) (tab4 lit1 (ix2 p i))))))
          (bc4 0x42000000#32 (ix2 p i)) = _
  rw [bc4_apply, bc4_apply, row4_apply, tab4_apply]
  rfl

theorem halfcol_apply (d12 : FVec F S3300000 .f32) (p : Fin 3300000) (u : Fin 1) :
    halfcol d12 (ix2 p u) = FloatOps.mulf (FloatOps.ofBits .f32 0x3F000000#32) (d12 (ix1 p)) := by
  show FloatOps.mulf (broadcastInDim S3300000x1 ![] bcast_S_S3300000x1 (constant S_ .f32 0x3F000000#32) (ix2 p u))
    (broadcastInDim S3300000x1 ![0] bcast_S3300000_S3300000x1_0 d12 (ix2 p u)) = _
  rw [Cert.LibBcast.bid_scalar_apply, Cert.LibBcast.bid_col_apply]
  rfl

theorem radPart_apply (d12 : FVec F S3300000 .f32) (p : Fin 3300000) (j : Fin 4) :
    radPart d12 (ix2 p j)
      = FloatOps.hostUnary .exp (FloatOps.mulf (FloatOps.ofBits .f32 0xC1000000#32)
          (FloatOps.mulf (FloatOps.subf (FloatOps.mulf (FloatOps.ofBits .f32 0x3F000000#32) (d12 (ix1 p))) (ac j))
            (FloatOps.subf (FloatOps.mulf (FloatOps.ofBits .f32 0x3F000000#32) (d12 (ix1 p))) (ac j)))) := by
  show FloatOps.hostUnary .exp (FloatOps.mulf (bc4 0xC1000000#32 (ix2 p j))
          (FloatOps.mulf
            (FloatOps.subf (broadcastInDim S3300000x4 ![0, 1] bcast_S3300000x1_S3300000x4_0_1 (halfcol d12) (ix2 p j)) (tab4 lit2 (ix2 p j)))
            (FloatOps.subf (broadcastInDim S3300000x4 ![0, 1] bcast_S3300000x1_S3300000x4_0_1 (halfcol d12) (ix2 p j)) (tab4 lit2 (ix2 p j))))) = _
  rw [bc4_apply, Cert.LibBcast.bid_a1_ab_apply, halfcol_apply, tab4_apply]
  rfl

theorem cube_apply (a5 d12 : FVec F S3300000 .f32) (p : Fin 3300000) (j i : Fin 4) :
    cube a5 d12 (ix3 p j i) = FloatOps.mulf (angPart a5 (ix2 p i)) (radPart d12 (ix2 p j)) := by
  show FloatOps.mulf
    (broadcastInDim S3300000x4x4 ![0, 1, 2] bcast_S3300000x1x4_S3300000x4x4_0_1_2
      (broadcastInDim S3300000x1x4 ![0, 2] bcast_S3300000x4_S3300000x1x4_0_2 (angPart a5)) (ix3 p j i))
    (broadcastInDim S3300000x4x4 ![0, 1, 2] bcast_S3300000x4x1_S3300000x4x4_0_1_2
      (broadcastInDim S3300000x4x1 ![0, 1] bcast_S3300000x4_S3300000x4x1_0_1 (radPart d12)) (ix3 p j i)) = _
  rw [Cert.MidAxis.broadcastInDim_a1b_akb_apply _ rfl rfl, Cert.MidAxis.broadcastInDim_ab_a1b_apply _ rfl rfl,
    Cert.RefLib3.bid_ab1_abc_apply, Cert.RefLib3.bid_ab_ab1_apply]

/-- The angular table at triple `p`, column `4 j + i`. -/
theorem tabA_apply (a5 d12 sw : FVec F S3300000 .f32) (p : Fin 3300000) (j i : Fin 4) (hc : 4 * j.val + i.val < 16) :
    tabA a5 d12 sw (ix2 p (⟨4 * j.val + i.val, hc⟩ : Fin 16))
      = FloatOps.mulf
          (FloatOps.mulf
            (FloatOps.mulf
              (FloatOps.hostPowf
                (FloatOps.addf (FloatOps.ofBits .f32 0x3F000000#32)
                  (FloatOps.mulf (FloatOps.ofBits .f32 0x3F000000#32) (FloatOps.hostUnary .cos (FloatOps.subf (a5 (ix1 p)) (zc i)))))
                (FloatOps.ofBits .f32 0x42000000#32))
              (FloatOps.hostUnary .exp (FloatOps.mulf (FloatOps.ofBits .f32 0xC1000000#32)
                (FloatOps.mulf (FloatOps.subf (FloatOps.mulf (FloatOps.ofBits .f32 0x3F000000#32) (d12 (ix1 p))) (ac j))
                  (FloatOps.subf (FloatOps.mulf (FloatOps.ofBits .f32 0x3F000000#32) (d12 (ix1 p))) (ac j))))))
            (FloatOps.ofBits .f32 0x40000000#32))
          (sw (ix1 p)) := by
  show FloatOps.mulf
    (FloatOps.mulf (shapeCast S3300000x16 (cube a5 d12) shapeCasts_S3300000x4x4_S3300000x16 (ix2 p (⟨4 * j.val + i.val, hc⟩ : Fin 16)))
      (broadcastInDim S3300000x16 ![] bcast_S_S3300000x16 (constant S_ .f32 0x40000000#32) (ix2 p (⟨4 * j.val + i.val, hc⟩ : Fin 16))))
    (broadcastInDim S3300000x16 ![0, 1] bcast_S3300000x1_S3300000x16_0_1 (broadcastInDim S3300000x1 ![0] bcast_S3300000_S3300000x1_0 sw)
      (ix2 p (⟨4 * j.val + i.val, hc⟩ : Fin 16))) = _
  rw [shapeCast_a44_a16_apply, cube_apply, angPart_apply, radPart_apply, Cert.LibBcast.bid_scalar_apply,
    Cert.LibBcast.bid_a1_ab_apply, Cert.LibBcast.bid_col_apply]
  rfl

/-- The reference's angular table at triple `p`, column `4 j + i`: the angular factor at offset `i`, the radial factor
    at centre `j`, doubled, times the triple's switching product. -/
theorem R_v89_apply (V : Valuation τ sig (Elt F)) (p : Fin 3300000) (j i : Fin 4) (hc : 4 * j.val + i.val < 16) :
    R V main_v89 (ix2 p (⟨4 * j.val + i.val, hc⟩ : Fin 16))
      = FloatOps.mulf
          (FloatOps.mulf
            (FloatOps.mulf
              (FloatOps.hostPowf
                (FloatOps.addf (FloatOps.ofBits .f32 0x3F000000#32)
                  (FloatOps.mulf (FloatOps.ofBits .f32 0x3F000000#32)
                    (FloatOps.hostUnary .cos (FloatOps.subf (V (Proc.devRef .tc main_arg5) (ix1 p)) (zc i)))))
                (FloatOps.ofBits .f32 0x42000000#32))
              (FloatOps.hostUnary .exp (FloatOps.mulf (FloatOps.ofBits .f32 0xC1000000#32)
                (FloatOps.mulf (FloatOps.subf (FloatOps.mulf (FloatOps.ofBits .f32 0x3F000000#32) (R V main_v42 (ix1 p))) (ac j))
                  (FloatOps.subf (FloatOps.mulf (FloatOps.ofBits .f32 0x3F000000#32) (R V main_v42 (ix1 p))) (ac j))))))
            (FloatOps.ofBits .f32 0x40000000#32))
          (R V main_v86 (ix1 p)) :=
  (congrFun (R_v89 V) (ix2 p (⟨4 * j.val + i.val, hc⟩ : Fin 16))).trans (tabA_apply _ _ _ p j i hc)

end Cert.ReferenceIdeal.RefVal

end
-- ==== Proof.LibRowIndex.lean ====
/-
  Row indexing of a matrix by a column of integer indices, read at one element.

  For an `N × C` matrix and `M` row indices held as an `[M, 1]` integer array:

  * the additive scatter of whole rows (`segment_sum`, `x.at[idx].add(upd)`): update position `(e, c')` names
    element `(v, c)` exactly when row index `e`, read signed, is `v` and `c' = c`; a row index outside
    `0 … N - 1` names no element and its row of updates is dropped. So element `(v, c)` of the result is the
    operand's element plus the sum of `upd (e, c)` over the `e` whose row index is `v`.
  * the gather of whole rows (`x[idx]`): row `e` of the result is the operand's row at row index `e`,
    read signed and clamped into `0 … N - 1`.
-/
import Idealize.ShloMosaic.PureOps.ShapeOps
import Idealize.ShloMosaic.PureOps.Ideal
import Idealize.ShloMosaic.Lib.ValueIdx

namespace Idealize.ShloMosaic.LibRowIndex

open Idealize.ShloMosaic Idealize.ShloMosaic.ValueIdx

variable {N C M w : Nat}

/-! ## The additive scatter of rows -/

/-- The dimension numbers of a scatter of whole rows into an `N × C` matrix at `M` row indices `[M, 1]` with
    updates `[M, C]`: the updates' axis 1 is the window axis, the operand's axis 0 is inserted and is the one
    the index names. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ :=
  { updateWindowDims := [1], insertedWindowDims := [0], scatterDimsToOperandDims := [0], indexVectorDim := 1, wf := wf }

section Scatter

variable (wf : ScatterDims.WF ⟨2, ![N, C]⟩ ⟨2, ![M, 1]⟩ ⟨2, ![M, C]⟩ [1] [0] [0] 1)

/-- Update position `(e, c')` reads its one index component at `(e, 0)` of the index array. -/
theorem rowScatter_siIdx (e : Fin M) (c' : Fin C) (k : Fin 1) :
    (rowScatterDims N C M wf).siIdx (ix2 e c') k = ix2 e (0 : Fin 1) := by
  funext b
  match b with
  | ⟨0, _⟩ => rfl
  | ⟨1, _⟩ => exact Fin.ext (by have := k.isLt; show k.val = 0; omega)

/-- On the row axis the window of update position `(e, c')` starts at row index `e`, read signed. -/
theorem rowScatter_start0 (e : Fin M) (c' : Fin C) (idx : IVec ⟨2, ![M, 1]⟩ w) :
    (rowScatterDims N C M wf).start (ix2 e c') idx 0 = (idx (ix2 e (0 : Fin 1))).toInt := by
  unfold ScatterDims.start
  rw [dif_pos (List.mem_singleton.2 rfl)]
  exact congrArg (fun k => (idx k).toInt) (rowScatter_siIdx wf e c' _)

/-- On the column axis, which no index component names, the window starts at `0`. -/
theorem rowScatter_start1 (e : Fin M) (c' : Fin C) (idx : IVec ⟨2, ![M, 1]⟩ w) :
    (rowScatterDims N C M wf).start (ix2 e c') idx 1 = 0 := by
  unfold ScatterDims.start
  rw [dif_neg (by simp)]

/-- The row axis is inserted: the window coordinate on it is `0`. -/
theorem rowScatter_window0 (e : Fin M) (c' : Fin C) : (rowScatterDims N C M wf).window (ix2 e c') 0 = 0 := by
  unfold ScatterDims.window
  rw [dif_neg (by simp [ScatterDims.sKept, Shape.kept, List.finRange_succ])]

/-- The column axis carries the window: the window coordinate on it is the update's column. -/
theorem rowScatter_window1 (e : Fin M) (c' : Fin C) : (rowScatterDims N C M wf).window (ix2 e c') 1 = c'.val := by
  unfold ScatterDims.window
  rw [dif_pos (by simp [ScatterDims.sKept, Shape.kept, List.finRange_succ])]
  rfl

/-- Update position `(e, c')` lands on element `(v, c)` exactly when row index `e`, read signed, is `v` and the
    columns agree (a row index outside `0 … N - 1` names no element: that row of updates is dropped). -/
theorem rowScatter_resultIdx?_eq_some_iff (e : Fin M) (c' : Fin C) (idx : IVec ⟨2, ![M, 1]⟩ w) (v : Fin N) (c : Fin C) :
    (rowScatterDims N C M wf).resultIdx? (ix2 e c') idx = some (ix2 v c)
      ↔ (idx (ix2 e (0 : Fin 1))).toInt = (v.val : Int) ∧ c' = c := by
  have hs0 := rowScatter_start0 wf e c' idx
  have hs1 := rowScatter_start1 wf e c' idx
  have hw0 := rowScatter_window0 wf e c'
  have hw1 := rowScatter_window1 wf e c'
  unfold ScatterDims.resultIdx?
  split
  · rename_i h
    have h0 := h 0
    rw [hs0, hw0] at h0
    constructor
    · intro q
      have q0 := congrArg (fun f : (⟨2, ![N, C]⟩ : Shape).Idx => (f 0).val) (Option.some.inj q)
      have q1 := congrArg (fun f : (⟨2, ![N, C]⟩ : Shape).Idx => (f 1).val) (Option.some.inj q)
      simp only [hs0, hw0] at q0
      simp only [hs1, hw1] at q1
      have q0' : ((idx (ix2 e (0 : Fin 1))).toInt + ((0 : Nat) : Int)).toNat = v.val := q0
      have q1' : ((0 : Int) + ((c'.val : Nat) : Int)).toNat = c.val := q1
      exact ⟨by omega, Fin.ext (by omega)⟩
    · rintro ⟨q0, rfl⟩
      refine congrArg some (funext fun a => ?_)
      match a with
      | ⟨0, _⟩ =>
        apply Fin.ext
        show ((rowScatterDims N C M wf).start (ix2 e c') idx 0
          + (((rowScatterDims N C M wf).window (ix2 e c') 0 : Nat) : Int)).toNat = v.val
        rw [hs0, hw0]; omega
      | ⟨1, _⟩ =>
        apply Fin.ext
        show ((rowScatterDims N C M wf).start (ix2 e c') idx 1
          + (((rowScatterDims N C M wf).window (ix2 e c') 1 : Nat) : Int)).toNat = c'.val
        rw [hs1, hw1]; omega
  · rename_i h
    constructor
    · intro q; exact absurd q (by simp)
    · rintro ⟨q0, rfl⟩
      exfalso
      apply h
      intro a
      match a with
      | ⟨0, _⟩ =>
        show 0 ≤ (rowScatterDims N C M wf).start (ix2 e c') idx 0
              + (((rowScatterDims N C M wf).window (ix2 e c') 0 : Nat) : Int) ∧
          (rowScatterDims N C M wf).start (ix2 e c') idx 0
              + (((rowScatterDims N C M wf).window (ix2 e c') 0 : Nat) : Int) < (N : Int)
        rw [hs0, hw0]
        have := v.isLt
        omega
      | ⟨1, _⟩ =>
        show 0 ≤ (rowScatterDims N C M wf).start (ix2 e c') idx 1
              + (((rowScatterDims N C M wf).window (ix2 e c') 1 : Nat) : Int) ∧
          (rowScatterDims N C M wf).start (ix2 e c') idx 1
              + (((rowScatterDims N C M wf).window (ix2 e c') 1 : Nat) : Int) < (C : Int)
        rw [hs1, hw1]
        have := c'.isLt
        omega

/-- The additive scatter of rows at element `(v, c)`: the operand's element plus the sum of the updates `(e, c)`
    over the update rows `e` whose row index, read signed, is `v`. -/
theorem hostScatterAdd_row_apply (x : (⟨2, ![N, C]⟩ : Shape).Idx → EReal) (idx : IVec ⟨2, ![M, 1]⟩ w)
    (upd : (⟨2, ![M, C]⟩ : Shape).Idx → EReal) (v : Fin N) (c : Fin C) :
    Ideal.hostScatterAdd (rowScatterDims N C M wf) x idx upd (ix2 v c)
      = x (ix2 v c)
        + ∑ e ∈ Finset.univ.filter (fun e : Fin M => (idx (ix2 e (0 : Fin 1))).toInt = (v.val : Int)), upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rowScatter_resultIdx?_eq_some_iff wf e c idx v c).2 ⟨he.2, rfl⟩⟩
  · intro a _ b _ q
    exact congrFun q 0
  · intro j hj
    rw [Finset.mem_filter] at hj
    have q := hj.2
    rw [eq_ix2 j] at q
    obtain ⟨q0, q1⟩ := (rowScatter_resultIdx?_eq_some_iff wf (j 0) (j 1) idx v c).1 q
    refine ⟨j 0, Finset.mem_filter.2 ⟨Finset.mem_univ _, q0⟩, ?_⟩
    rw [← q1]
    exact (eq_ix2 j).symm
  · intro e _
    rfl

end Scatter

/-! ## The gather of rows -/

/-- The dimension numbers of a gather of whole rows of an `N × C` matrix at `M` row indices `[M, 1]` into a
    result `[M, C]`: the result's axis 1 is the offset axis, the operand's axis 0 is collapsed and is the one the
    index names, and a slice is one whole row. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ :=
  { offsetDims := [1], collapsedSliceDims := [0], operandBatchingDims := [], startIndicesBatchingDims := [],
    startIndexMap := [0], indexVectorDim := 1, sliceSizes := ![1, C], wf := wf }

section Gather

variable (wf : GatherDims.WF ⟨2, ![N, C]⟩ ⟨2, ![M, 1]⟩ ⟨2, ![M, C]⟩ [1] [0] [] [0] [] 1 ![1, C])

/-- Result position `(e, c)` reads its one index component at `(e, 0)` of the index array. -/
theorem rowGather_siIdx (e : Fin M) (c : Fin C) (k : Fin 1) :
    (rowGatherDims N C M wf).siIdx (ix2 e c) k = ix2 e (0 : Fin 1) := by
  funext b
  match b with
  | ⟨0, _⟩ => rfl
  | ⟨1, _⟩ => exact Fin.ext (by have := k.isLt; show k.val = 0; omega)

/-- On the row axis the slice of result position `(e, c)` starts at row index `e`, read signed and clamped into
    `0 … N - 1`. -/
theorem rowGather_start0 (e : Fin M) (c : Fin C) (idx : IVec ⟨2, ![M, 1]⟩ w) :
    (rowGatherDims N C M wf).start (ix2 e c) idx 0 = min (idx (ix2 e (0 : Fin 1))).toInt.toNat (N - 1) := by
  unfold GatherDims.start
  rw [dif_pos (List.mem_singleton.2 rfl)]
  rw [rowGather_siIdx wf e c _]
  rfl

/-- On the column axis, which no index component names, the slice starts at `0`. -/
theorem rowGather_start1 (e : Fin M) (c : Fin C) (idx : IVec ⟨2, ![M, 1]⟩ w) :
    (rowGatherDims N C M wf).start (ix2 e c) idx 1 = 0 := by
  unfold GatherDims.start
  rw [dif_neg (by simp)]

/-- The column axis carries the offset: the offset coordinate on it is the result's column. -/
theorem rowGather_offCoord1 (e : Fin M) (c : Fin C) : (rowGatherDims N C M wf).offCoord (ix2 e c) 1 = c.val := by
  unfold GatherDims.offCoord
  rw [dif_pos (by simp [GatherDims.sKept, Shape.kept, List.finRange_succ])]
  rfl

end Gather

/-- The gather of rows at `(e, c)`: the operand at column `c` of the row whose number is row index `e`, read
    signed and clamped into `0 … N - 1`. -/
theorem rowGather_apply {α : Type} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N C M wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N C M wf).start (ix2 e c) idx 0 + (rowGatherDims N C M wf).batchCoord (ix2 e c) 0
      + (rowGatherDims N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      rowGather_start0 wf e c idx, Nat.add_zero]
  | ⟨1, _⟩ =>
    show (rowGatherDims N C M wf).start (ix2 e c) idx 1 + (rowGatherDims N C M wf).batchCoord (ix2 e c) 1
      + (rowGatherDims N C M wf).offCoord (ix2 e c) 1 = c.val
    rw [GatherDims.batchCoord_eq_zero _ _ _ List.not_mem_nil, rowGather_start1 wf e c idx, rowGather_offCoord1 wf e c]
    omega

end Idealize.ShloMosaic.LibRowIndex
-- ==== Proof.LibZeroTail.lean ====
import Mathlib.Algebra.BigOperators.Fin

/-! A filtered sum over `Fin m` whose summand vanishes from position `n` on is the filtered sum over `Fin n` of the
    restricted summand, when the two filters agree on the first `n` positions. General: nothing here knows of any program. -/

namespace Cert.LibZeroTail

open scoped BigOperators

/-- DROPPING A ZERO TAIL. For `n ≤ m`: if `f` on `Fin m` restricted to the first `n` positions is `g`, the predicate `P` there is
    `Q`, and `f` is zero at every position from `n` on, then the sum of `f` over the positions where `P` holds is the sum of
    `g` over the positions where `Q` holds (the positions past `n` add zeros, whether `P` holds there or not). -/
theorem sum_filter_drop_tail {M : Type*} [AddCommMonoid M] {n m : ℕ} (hnm : n ≤ m) (f : Fin m → M) (g : Fin n → M)
    (P : Fin m → Prop) (Q : Fin n → Prop) [DecidablePred P] [DecidablePred Q]
    (hPQ : ∀ p : Fin n, P (Fin.castLE hnm p) ↔ Q p) (hfg : ∀ p : Fin n, f (Fin.castLE hnm p) = g p)
    (htail : ∀ e : Fin m, n ≤ e.val → f e = 0) :
    ∑ e ∈ Finset.univ.filter P, f e = ∑ p ∈ Finset.univ.filter Q, g p := by
  rw [← Finset.sum_congr rfl (fun p _ => hfg p)]
  refine Eq.trans ?_ (Finset.sum_map (Finset.univ.filter Q) (Fin.castLEEmb hnm) f)
  symm
  apply Finset.sum_subset
  · intro e he
    obtain ⟨p, hp, rfl⟩ := Finset.mem_map.1 he
    rw [Finset.mem_filter] at hp ⊢
    exact ⟨Finset.mem_univ _, (hPQ p).2 hp.2⟩
  · intro e he hne
    by_cases hlt : e.val < n
    · exfalso
      apply hne
      refine Finset.mem_map.2 ⟨⟨e.val, hlt⟩, ?_, Fin.ext rfl⟩
      rw [Finset.mem_filter]
      refine ⟨Finset.mem_univ _, (hPQ ⟨e.val, hlt⟩).1 ?_⟩
      have hE : Fin.castLE hnm ⟨e.val, hlt⟩ = e := Fin.ext rfl
      rw [hE]
      exact (Finset.mem_filter.1 he).2
    · exact htail e (by omega)

end Cert.LibZeroTail
-- ==== Proof.BridgeAng0.lean ====
import proofs.«150593_j33397665694348_2_alg».proof.Proof.KiChain2
import proofs.«150593_j33397665694348_2_alg».proof.Proof.KiTerms
import proofs.«150593_j33397665694348_2_alg».proof.Proof.KiAlg
import proofs.«150593_j33397665694348_2_alg».proof.Proof.KiFin
import proofs.«150593_j33397665694348_2_alg».proof.Proof.RefValAng
import proofs.«150593_j33397665694348_2_alg».proof.Proof.LibRowIndex
import proofs.«150593_j33397665694348_2_alg».proof.Proof.LibZeroTail
import proofs.«150593_j33397665694348_2_alg».proof.Proof.LibBcast

/-! The angular sums agree. The kernel sums its table of 3300096 rows — the 3300000 angle pairs and 96 rows of padding —
    by the padded bin index; the reference sums its table of 3300000 rows by the bin index. At an element (bin s,
    channel ch) each is the sum of the table's column over the rows whose index is s. Row by row below 3300000 the
    two indices are one term of the arguments and the two entries are equal extended reals (the kernel's five
    squarings against the host's power 32, which needs the angle finite; the rest is associativity); the padding
    rows' entries are zero, their last factor being twice the zero switch product. -/

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.Run

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem le_pad : 3300000 ≤ 3300096 := by decide

/-! ## The two scatters at an element -/

theorem sc_ref (x : FVec Ideal Cert.ReferenceIdeal.S500000x16 .f32) (i : IVec Cert.ReferenceIdeal.S3300000x1 32) (u : FVec Ideal Cert.ReferenceIdeal.S3300000x16 .f32)
    (s : Fin 500000) (ch : Fin 16) :
    Host.scatterAdd Cert.ReferenceIdeal.scatter_S500000x16_S3300000x1_S3300000x16_1_0_0_1 x i u (ix2 s ch)
      = x (ix2 s ch) + ∑ e ∈ Finset.univ.filter (fun e : Fin 3300000 => (i (ix2 e (0 : Fin 1))).toInt = (s.val : Int)), u (ix2 e ch) :=
  LibRowIndex.hostScatterAdd_row_apply (N := 500000) (C := 16) (M := 3300000)
    Cert.ReferenceIdeal.Gen.scatter_S500000x16_S3300000x1_S3300000x16_1_0_0_1_wf x i u s ch

theorem sc_ker (x : FVec Ideal Cert.KernelIdeal.S500000x16 .f32) (i : IVec Cert.KernelIdeal.S3300096x1 32) (u : FVec Ideal Cert.KernelIdeal.S3300096x16 .f32)
    (s : Fin 500000) (ch : Fin 16) :
    Host.scatterAdd Cert.KernelIdeal.scatter_S500000x16_S3300096x1_S3300096x16_1_0_0_1 x i u (ix2 s ch)
      = x (ix2 s ch) + ∑ e ∈ Finset.univ.filter (fun e : Fin 3300096 => (i (ix2 e (0 : Fin 1))).toInt = (s.val : Int)), u (ix2 e ch) :=
  LibRowIndex.hostScatterAdd_row_apply (N := 500000) (C := 16) (M := 3300096)
    Cert.KernelIdeal.Gen.scatter_S500000x16_S3300096x1_S3300096x16_1_0_0_1_wf x i u s ch

/-! ## The padded vectors below and past row 3300000 -/

theorem b89_in (p : Fin 3300000) :
    W10 m c (Proc.devRef .tc Cert.KernelIdeal.main_v89) (ix1 (Fin.castLE le_pad p)) = (m ((c.tc : Thread Cert.KernelIdeal.nD Cert.KernelIdeal.τ).loc Cert.KernelIdeal.main_arg5)) (ix1 p) :=
  (congrFun (W10_v89_eq m c) _).trans (Cert.KernelIdeal.Terms.pad_high_inside _ _ _ _ (Fin.castLE le_pad p) p.isLt)
theorem b90_in (p : Fin 3300000) :
    W10 m c (Proc.devRef .tc Cert.KernelIdeal.main_v90) (ix1 (Fin.castLE le_pad p)) = W3 m c (Proc.devRef .tc Cert.KernelIdeal.main_v35) (ix1 p) :=
  (congrFun (W10_v90_eq m c) _).trans (Cert.KernelIdeal.Terms.pad_high_inside _ _ _ _ (Fin.castLE le_pad p) p.isLt)
theorem b91_in (p : Fin 3300000) :
    W10 m c (Proc.devRef .tc Cert.KernelIdeal.main_v91) (ix1 (Fin.castLE le_pad p)) = W3 m c (Proc.devRef .tc Cert.KernelIdeal.main_v50) (ix1 p) :=
  (congrFun (W10_v91_eq m c) _).trans (Cert.KernelIdeal.Terms.pad_high_inside _ _ _ _ (Fin.castLE le_pad p) p.isLt)
theorem b92_in (p : Fin 3300000) :
    W12 m c (Proc.devRef .tc Cert.KernelIdeal.main_v92) (ix1 (Fin.castLE le_pad p)) = W3 m c (Proc.devRef .tc Cert.KernelIdeal.main_v88) (ix1 p) :=
  (congrFun (W12_v92_eq m c) _).trans (Cert.KernelIdeal.Terms.pad_high_inside _ _ _ _ (Fin.castLE le_pad p) p.isLt)
theorem b91_out (e : Fin 3300096) (h : 3300000 ≤ e.val) :
    W10 m c (Proc.devRef .tc Cert.KernelIdeal.main_v91) (ix1 e) = (0 : EReal) :=
  (congrFun (W10_v91_eq m c) _).trans ((Cert.KernelIdeal.Terms.pad_high_outside _ _ _ _ e h).trans Cert.KernelIdeal.Alg.pad_zero)

/-! ## The kernel's table at a row -/

/-- The kernel's angular table: row e, channel ch is the channel's chain of the three padded vectors at e. -/
theorem tabK_apply (e : Fin 3300096) (ch : Fin 16) :
    shapeCast Cert.KernelIdeal.S3300096x16 (transpose Cert.KernelIdeal.S25782x128x16 [0, 2, 1] (W12 m c (Proc.devRef .tc Cert.KernelIdeal.main_v96))
        Cert.KernelIdeal.Gen.transposes_S25782x16x128_S25782x128x16_0_2_1) Cert.KernelIdeal.Gen.shapeCasts_S25782x128x16_S3300096x16 (ix2 e ch)
      = Cert.KernelIdeal.Point1.angS (F := Ideal) (Scalar.ofBits .f32 (Cert.KernelIdeal.Point1.zOf ch)) (Scalar.ofBits .f32 (Cert.KernelIdeal.Point1.aOf ch))
          (W10 m c (Proc.devRef .tc Cert.KernelIdeal.main_v89) (ix1 e)) (W10 m c (Proc.devRef .tc Cert.KernelIdeal.main_v90) (ix1 e))
          (W10 m c (Proc.devRef .tc Cert.KernelIdeal.main_v91) (ix1 e)) := by
  rw [W12_v96_eq, V11_v93_eq, V11_v94_eq, V11_v95_eq]
  exact Cert.KernelIdeal.Terms.angular_table _ _ _ _ _ _ e ch

end Cert.Proof.Bridge

end
-- ==== Proof.RefValAngCol.lean ====
import proofs.«150593_j33397665694348_2_alg».proof.Proof.RefValAng

/-! The reference's angular table at an arbitrary column `c` of its sixteen: column `c` is `4 j + i` with `i = c mod 4`
    the angular offset and `j = c div 4` the radial centre. -/

set_option maxRecDepth 16384

noncomputable section

namespace Cert.ReferenceIdeal.RefVal

open Cert.ReferenceIdeal Cert.ReferenceIdeal.Gen Cert.ReferenceIdeal.RefOps Cert.ReferenceIdeal.RefRun
open Idealize.ShloMosaic Idealize.ShloMosaic.ValueIdx Idealize.ShloMosaic.TcCoe Idealize.SL.Sem Idealize.ShloMosaic.StableHlo

variable {F : FTy → Type} [FloatOps F]

/-- The same at an arbitrary column `c`: the angular offset is `c mod 4`, the radial centre `c div 4`. -/
theorem R_v89_apply_col (V : Valuation τ sig (Elt F)) (p : Fin 3300000) (c : Fin 16) :
    R V main_v89 (ix2 p c)
      = FloatOps.mulf
          (FloatOps.mulf
            (FloatOps.mulf
              (FloatOps.hostPowf
                (FloatOps.addf (FloatOps.ofBits .f32 0x3F000000#32)
                  (FloatOps.mulf (FloatOps.ofBits .f32 0x3F000000#32)
                    (FloatOps.hostUnary .cos (FloatOps.subf (V (Proc.devRef .tc main_arg5) (ix1 p))
                      (zc (⟨c.val % 4, Nat.mod_lt _ (by decide)⟩ : Fin 4))))))
                (FloatOps.ofBits .f32 0x42000000#32))
              (FloatOps.hostUnary .exp (FloatOps.mulf (FloatOps.ofBits .f32 0xC1000000#32)
                (FloatOps.mulf
                  (FloatOps.subf (FloatOps.mulf (FloatOps.ofBits .f32 0x3F000000#32) (R V main_v42 (ix1 p)))
                    (ac (⟨c.val / 4, by have := c.isLt; omega⟩ : Fin 4)))
                  (FloatOps.subf (FloatOps.mulf (FloatOps.ofBits .f32 0x3F000000#32) (R V main_v42 (ix1 p)))
                    (ac (⟨c.val / 4, by have := c.isLt; omega⟩ : Fin 4)))))))
            (FloatOps.ofBits .f32 0x40000000#32))
          (R V main_v86 (ix1 p)) := by
  have hc : 4 * (c.val / 4) + c.val % 4 < 16 := by have := c.isLt; omega
  have e : c = (⟨4 * (c.val / 4) + c.val % 4, hc⟩ : Fin 16) := Fin.ext (by show c.val = 4 * (c.val / 4) + c.val % 4; omega)
  have h := R_v89_apply V p (⟨c.val / 4, by have := c.isLt; omega⟩ : Fin 4) (⟨c.val % 4, Nat.mod_lt _ (by decide)⟩ : Fin 4) hc
  rw [← e] at h
  exact h

end Cert.ReferenceIdeal.RefVal

end
-- ==== Proof.BridgeIdx.lean ====
import proofs.«150593_j33397665694348_2_alg».proof.Proof.KiChain
import proofs.«150593_j33397665694348_2_alg».proof.Proof.KiPoint0
import proofs.«150593_j33397665694348_2_alg».proof.Proof.KiPoint1
import proofs.«150593_j33397665694348_2_alg».proof.Proof.RefVal
import proofs.«150593_j33397665694348_2_alg».proof.Proof.RefValRad
import proofs.«150593_j33397665694348_2_alg».proof.Proof.RefValAng
import proofs.«150593_j33397665694348_2_alg».proof.Proof.RefValAngCol
import proofs.«150593_j33397665694348_2_alg».proof.Proof.LibBcast

/-! The kernel's host-side index vectors, gathered float vectors and table words are the reference's. Both programs
    compute their scatter rows, the triples' distance sums and switching products by the same operations on the same
    argument arrays, and name the same float words for their radial centres and angular offsets; here each of the
    kernel's is identified with the reference's term, the kernel's arrays being the launch memory's. -/

set_option maxRecDepth 16384

noncomputable section

namespace Cert.Proof.Bridge

open Cert.KernelIdeal Cert.KernelIdeal.Gen Cert.KernelIdeal.Run
open Idealize.ShloMosaic Idealize.ShloMosaic.ValueIdx Idealize.ShloMosaic.TcCoe Idealize.SL.Sem

variable {F : FTy → Type} [FloatOps F]

/-! ## The table words -/

/-- In a one-row `[1, n]` shape the row-major position of `(0, k)` is `k`. -/
theorem rowMajor_1n (n : ℕ) (k : Fin n) :
    ((⟨2, ![1, n]⟩ : Shape).rowMajor (ix2 (0 : Fin 1) k)).val = k.val := by
  rw [Shape.rowMajor_val_two]
  show (0 : ℕ) * n + k.val = k.val
  omega

theorem lit0_eq_shiftW : ∀ k : Fin 16, Cert.ReferenceIdeal.lit0 k = Cert.KernelIdeal.Point0.shiftW k := by decide
theorem lit1_eq_zOf : ∀ ch : Fin 16, Cert.ReferenceIdeal.lit1 (⟨ch.val % 4, Nat.mod_lt _ (by decide)⟩ : Fin 4) = Cert.KernelIdeal.Point1.zOf ch := by decide
theorem lit2_eq_aOf : ∀ ch : Fin 16, Cert.ReferenceIdeal.lit2 (⟨ch.val / 4, by have := ch.isLt; omega⟩ : Fin 4) = Cert.KernelIdeal.Point1.aOf ch := by decide

/-- The reference's radial centre of column `k` is the kernel's radial shift word of channel `k`. -/
theorem centre_eq (k : Fin 16) :
    Cert.ReferenceIdeal.RefVal.centre (F := F) k = Scalar.ofBits .f32 (Cert.KernelIdeal.Point0.shiftW k) := by
  have e : Cert.ReferenceIdeal.S1x16.rowMajor (ix2 (0 : Fin 1) k) = k := Fin.ext (rowMajor_1n 16 k)
  show FloatOps.ofBits .f32 (Cert.ReferenceIdeal.lit0 (Cert.ReferenceIdeal.S1x16.rowMajor (ix2 (0 : Fin 1) k))) = _
  rw [e, lit0_eq_shiftW]

/-- The reference's angular offset `ch mod 4` is the kernel's angular shift word of channel `ch`. -/
theorem zc_eq (ch : Fin 16) :
    Cert.ReferenceIdeal.RefVal.zc (F := F) (⟨ch.val % 4, Nat.mod_lt _ (by decide)⟩ : Fin 4)
      = Scalar.ofBits .f32 (Cert.KernelIdeal.Point1.zOf ch) := by
  have e : Cert.ReferenceIdeal.S1x4.rowMajor (ix2 (0 : Fin 1) (⟨ch.val % 4, Nat.mod_lt _ (by decide)⟩ : Fin 4))
      = (⟨ch.val % 4, Nat.mod_lt _ (by decide)⟩ : Fin 4) := Fin.ext (rowMajor_1n 4 _)
  show FloatOps.ofBits .f32 (Cert.ReferenceIdeal.lit1 (Cert.ReferenceIdeal.S1x4.rowMajor (ix2 (0 : Fin 1) _))) = _
  rw [e, lit1_eq_zOf]

/-- The reference's radial centre `ch div 4` is the kernel's radial shift word of channel `ch`. -/
theorem ac_eq (ch : Fin 16) :
    Cert.ReferenceIdeal.RefVal.ac (F := F) (⟨ch.val / 4, by have := ch.isLt; omega⟩ : Fin 4)
      = Scalar.ofBits .f32 (Cert.KernelIdeal.Point1.aOf ch) := by
  have e : Cert.ReferenceIdeal.S1x4.rowMajor (ix2 (0 : Fin 1) (⟨ch.val / 4, by have := ch.isLt; omega⟩ : Fin 4))
      = (⟨ch.val / 4, by have := ch.isLt; omega⟩ : Fin 4) := Fin.ext (rowMajor_1n 4 _)
  show FloatOps.ofBits .f32 (Cert.ReferenceIdeal.lit2 (Cert.ReferenceIdeal.S1x4.rowMajor (ix2 (0 : Fin 1) _))) = _
  rw [e, lit2_eq_aOf]

/-! ## The reference's angular table at a channel, over the kernel's words -/

/-- The reference's angular table at triple `p`, channel `ch`, its offset and centre the kernel's words of `ch`. -/
theorem ref_v89_at (V : Valuation Cert.ReferenceIdeal.τ Cert.ReferenceIdeal.sig (Elt F)) (p : Fin 3300000) (ch : Fin 16) :
    Cert.ReferenceIdeal.RefVal.R V Cert.ReferenceIdeal.main_v89 (ix2 p ch)
      = FloatOps.mulf
          (FloatOps.mulf
            (FloatOps.mulf
              (FloatOps.hostPowf
                (FloatOps.addf (FloatOps.ofBits .f32 0x3F000000#32)
                  (FloatOps.mulf (FloatOps.ofBits .f32 0x3F000000#32)
                    (FloatOps.hostUnary .cos (FloatOps.subf (V (Proc.devRef .tc Cert.ReferenceIdeal.main_arg5) (ix1 p))
                      (Scalar.ofBits .f32 (Cert.KernelIdeal.Point1.zOf ch))))))
                (FloatOps.ofBits .f32 0x42000000#32))
              (FloatOps.hostUnary .exp (FloatOps.mulf (FloatOps.ofBits .f32 0xC1000000#32)
                (FloatOps.mulf
                  (FloatOps.subf (FloatOps.mulf (FloatOps.ofBits .f32 0x3F000000#32)
                      (Cert.ReferenceIdeal.RefVal.R V Cert.ReferenceIdeal.main_v42 (ix1 p)))
                    (Scalar.ofBits .f32 (Cert.KernelIdeal.Point1.aOf ch)))
                  (FloatOps.subf (FloatOps.mulf (FloatOps.ofBits .f32 0x3F000000#32)
                      (Cert.ReferenceIdeal.RefVal.R V Cert.ReferenceIdeal.main_v42 (ix1 p)))
                    (Scalar.ofBits .f32 (Cert.KernelIdeal.Point1.aOf ch)))))))
            (FloatOps.ofBits .f32 0x40000000#32))
          (Cert.ReferenceIdeal.RefVal.R V Cert.ReferenceIdeal.main_v86 (ix1 p)) := by
  rw [← zc_eq (F := F) ch, ← ac_eq (F := F) ch]
  exact Cert.ReferenceIdeal.RefVal.R_v89_apply_col V p ch

/-- The reference's radial table at pair `e`, channel `k`, its centre the kernel's word of `k`. -/
theorem ref_v13_at (V : Valuation Cert.ReferenceIdeal.τ Cert.ReferenceIdeal.sig (Elt F)) (e : Fin 1600000) (k : Fin 16) :
    Cert.ReferenceIdeal.RefVal.R V Cert.ReferenceIdeal.main_v13 (ix2 e k)
      = FloatOps.mulf
          (FloatOps.mulf (FloatOps.ofBits .f32 0x3E800000#32)
            (FloatOps.hostUnary .exp (FloatOps.hostNegf (FloatOps.mulf (FloatOps.ofBits .f32 0x41800000#32)
              (FloatOps.mulf
                (FloatOps.subf (V (Proc.devRef .tc Cert.ReferenceIdeal.main_arg1) (ix1 e)) (Scalar.ofBits .f32 (Cert.KernelIdeal.Point0.shiftW k)))
                (FloatOps.subf (V (Proc.devRef .tc Cert.ReferenceIdeal.main_arg1) (ix1 e)) (Scalar.ofBits .f32 (Cert.KernelIdeal.Point0.shiftW k))))))))
          (V (Proc.devRef .tc Cert.ReferenceIdeal.main_arg2) (ix1 e)) := by
  rw [← centre_eq (F := F) k]
  exact Cert.ReferenceIdeal.RefVal.R_v13_apply V e k

/-! ## The kernel's index vectors and gathered vectors are the reference's terms -/

variable (m : (ℓ : Loc nD τ sig) → Buf (Elt F) ℓ) (c : Dev nD)

/-- The kernel's angular bin index of every triple is the reference's angular scatter row of the launch arrays. -/
theorem W3_v88_idxA :
    W3 m c (Proc.devRef .tc main_v88)
      = Cert.ReferenceIdeal.RefVal.idxA (m ((c : Thread nD τ).loc main_arg0)) (m ((c : Thread nD τ).loc main_arg7))
          (m ((c : Thread nD τ).loc main_arg8)) (m ((c : Thread nD τ).loc main_arg9)) (m ((c : Thread nD τ).loc main_arg11)) :=
  (W3_v88_eq m c).trans rfl

/-- The kernel's radial bin index of every pair is the reference's radial scatter row of the launch arrays. -/
theorem W1_v9_idxR :
    W1 m c (Proc.devRef .tc main_v9)
      = Cert.ReferenceIdeal.RefVal.idxR (m ((c : Thread nD τ).loc main_arg0)) (m ((c : Thread nD τ).loc main_arg3))
          (m ((c : Thread nD τ).loc main_arg4)) :=
  (W1_v9_eq m c).trans rfl

/-- The kernel's switch product of every triple is the reference's. -/
theorem W3_v50_swprod :
    W3 m c (Proc.devRef .tc main_v50)
      = Cert.ReferenceIdeal.RefVal.swprod (m ((c : Thread nD τ).loc main_arg10)) (m ((c : Thread nD τ).loc main_arg8))
          (m ((c : Thread nD τ).loc main_arg9)) :=
  (W3_v50_eq m c).trans rfl

/-- The kernel's mean distance of triple `p` is half the reference's distance sum. -/
theorem W3_v35_at (p : Fin 3300000) :
    W3 m c (Proc.devRef .tc main_v35) (ix1 p)
      = FloatOps.mulf (FloatOps.ofBits .f32 0x3F000000#32)
          (Cert.ReferenceIdeal.RefVal.d12sum (m ((c : Thread nD τ).loc main_arg6)) (m ((c : Thread nD τ).loc main_arg8))
            (m ((c : Thread nD τ).loc main_arg9)) (ix1 p)) := by
  refine (congrFun (W3_v35_eq m c) (ix1 p)).trans ?_
  show FloatOps.mulf (broadcastInDim S3300000 ![] bcast_S_S3300000 (constant S_ .f32 0x3F000000#32) (ix1 p))
      (Cert.ReferenceIdeal.RefVal.d12sum (m ((c : Thread nD τ).loc main_arg6)) (m ((c : Thread nD τ).loc main_arg8))
        (m ((c : Thread nD τ).loc main_arg9)) (ix1 p)) = _
  rw [Cert.LibBcast.bid_scalar_apply]
  rfl

end Cert.Proof.Bridge

end
-- ==== Proof.BridgeRow.lean ====
import proofs.«150593_j33397665694348_2_alg».proof.Proof.BridgeAng0
import proofs.«150593_j33397665694348_2_alg».proof.Proof.KiTerms
import proofs.«150593_j33397665694348_2_alg».proof.Proof.KiAlg
import proofs.«150593_j33397665694348_2_alg».proof.Proof.KiFin
import proofs.«150593_j33397665694348_2_alg».proof.Proof.RefValAng
import proofs.«150593_j33397665694348_2_alg».proof.Proof.LibBcast

/-! One row of the two angular tables. Below row 3300000 the kernel's table (its pipeline's output array laid out as
    rows by channels, over the three padded vectors) and the reference's table agree entry by entry: at angle pair p,
    channel 4·j + i both hold (½ + ½ cos (θ_p − z_i))³² · exp (−8 · (d_p − a_j)²) · 2 · w_p, the kernel's five squarings
    being the host's power 32 because the angle θ_p is real under the precondition; d_p is half the sum of the two
    gathered distances and w_p the product of the two gathered switch values, on both sides. -/

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.Run

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's angular offset of column i and radial centre of row j are the kernel's two words of channel 4·j + i. -/
theorem row_zc (j i : Fin 4) (hc : 4 * j.val + i.val < 16) :
    Cert.ReferenceIdeal.RefVal.zc (F := Ideal) i = Scalar.ofBits .f32 (Cert.KernelIdeal.Point1.zOf (⟨4 * j.val + i.val, hc⟩ : Fin 16)) := by
  fin_cases j <;> fin_cases i <;> rfl
theorem row_ac (j i : Fin 4) (hc : 4 * j.val + i.val < 16) :
    Cert.ReferenceIdeal.RefVal.ac (F := Ideal) j = Scalar.ofBits .f32 (Cert.KernelIdeal.Point1.aOf (⟨4 * j.val + i.val, hc⟩ : Fin 16)) := by
  fin_cases j <;> fin_cases i <;> rfl

/-- The kernel's mean distance of angle pair p is half the sum of the two gathered distances; -/
theorem row_v35 (p : Fin 3300000) :
    W3 m c (Proc.devRef .tc Cert.KernelIdeal.main_v35) (ix1 p)
      = FloatOps.mulf (FloatOps.ofBits .f32 0x3F000000#32) (Cert.ReferenceIdeal.RefVal.d12sum (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (ix1 p)) := by
  refine (congrFun (W3_v35_eq m c) (ix1 p)).trans ?_
  show FloatOps.mulf (broadcastInDim Cert.KernelIdeal.S3300000 ![] Cert.KernelIdeal.Gen.bcast_S_S3300000 (constant Cert.KernelIdeal.S_ .f32 0x3F000000#32) (ix1 p)) _ = _
  rw [Cert.LibBcast.bid_scalar_apply]
  rfl
/-- its switch product is the product of the two gathered switch values. -/
theorem row_v50 :
    W3 m c (Proc.devRef .tc Cert.KernelIdeal.main_v50) = Cert.ReferenceIdeal.RefVal.swprod (F := Ideal) (m ((c.tc : Thread Cert.KernelIdeal.nD Cert.KernelIdeal.τ).loc Cert.KernelIdeal.main_arg10)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  (W3_v50_eq m c).trans rfl

/-- ONE ROW: below row 3300000 the kernel's table entry is the reference's. -/
theorem row_eq [Cert.Pre_finite_inputs.Facts] (hpre : Cert.Pre_KernelIdeal m)
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (p : Fin 3300000) (ch : Fin 16) :
    shapeCast Cert.KernelIdeal.S3300096x16 (transpose Cert.KernelIdeal.S25782x128x16 [0, 2, 1] (W12 m c (Proc.devRef .tc Cert.KernelIdeal.main_v96))
        Cert.KernelIdeal.Gen.transposes_S25782x16x128_S25782x128x16_0_2_1) Cert.KernelIdeal.Gen.shapeCasts_S25782x128x16_S3300096x16 (ix2 (Fin.castLE le_pad p) ch)
      = Cert.ReferenceIdeal.RefVal.R (F := Ideal) (StableHlo.launchContents m' c) Cert.ReferenceIdeal.main_v89 (ix2 p ch) := by
  obtain ⟨j, i, hc, rfl⟩ : ∃ (j i : Fin 4) (hc : 4 * j.val + i.val < 16), ch = ⟨4 * j.val + i.val, hc⟩ :=
    ⟨⟨ch.val / 4, by omega⟩, ⟨ch.val % 4, by omega⟩, by show 4 * (ch.val / 4) + ch.val % 4 < 16; omega,
      Fin.ext (by show ch.val = 4 * (ch.val / 4) + ch.val % 4; omega)⟩
  rw [tabK_apply, b89_in, b90_in, b91_in,
    Cert.KernelIdeal.Alg.angS_host_chan _ _ _ _ _ (Cert.KernelIdeal.Alg.arg5_real m hpre c p)]
  rw [Cert.ReferenceIdeal.RefVal.R_v89_apply, Cert.ReferenceIdeal.RefVal.R_v42, Cert.ReferenceIdeal.RefVal.R_v86, row_zc j i hc, row_ac j i hc]
  rw [show StableHlo.launchContents m' c (Proc.devRef .tc Cert.ReferenceIdeal.main_arg5) = _ from h5,
    show StableHlo.launchContents m' c (Proc.devRef .tc Cert.ReferenceIdeal.main_arg6) = _ from h6,
    show StableHlo.launchContents m' c (Proc.devRef .tc Cert.ReferenceIdeal.main_arg8) = _ from h8,
    show StableHlo.launchContents m' c (Proc.devRef .tc Cert.ReferenceIdeal.main_arg9) = _ from h9,
    show StableHlo.launchContents m' c (Proc.devRef .tc Cert.ReferenceIdeal.main_arg10) = _ from h10]
  rw [row_v35, row_v50]

end Cert.Proof.Bridge

end
-- ==== Proof.BridgeAng.lean ====
import proofs.«150593_j33397665694348_2_alg».proof.Proof.BridgeAng0
import proofs.«150593_j33397665694348_2_alg».proof.Proof.BridgeIdx
import proofs.«150593_j33397665694348_2_alg».proof.Proof.BridgeRow

/-! The angular sums agree, element by element: bin s, channel ch of either is the zero start plus the sum of the
    table's column ch over the rows whose bin index is s; the kernel's rows past 3300000 hold zeros and drop out, and
    below 3300000 the two bin indices and the two tables agree row by row. -/

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.Run

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- A padding row of the kernel's table is zero: its switch product is the zero padding, and anything times twice
    zero is zero. -/
theorem tail_zero (e : Fin 3300096) (he : 3300000 ≤ e.val) (ch : Fin 16) :
    shapeCast Cert.KernelIdeal.S3300096x16 (transpose Cert.KernelIdeal.S25782x128x16 [0, 2, 1] (W12 m c (Proc.devRef .tc Cert.KernelIdeal.main_v96))
        Cert.KernelIdeal.Gen.transposes_S25782x16x128_S25782x128x16_0_2_1) Cert.KernelIdeal.Gen.shapeCasts_S25782x128x16_S3300096x16 (ix2 e ch) = (0 : EReal) := by
  rw [tabK_apply, b91_out m c e he]
  exact Cert.KernelIdeal.Alg.angS_zero _ _ _ _

/-- Below row 3300000 the kernel's padded bin index is the reference's bin index. -/
theorem index_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (p : Fin 3300000) :
    broadcastInDim Cert.KernelIdeal.S3300096x1 ![0] Cert.KernelIdeal.Gen.bcast_S3300096_S3300096x1_0 (W12 m c (Proc.devRef .tc Cert.KernelIdeal.main_v92)) (ix2 (Fin.castLE le_pad p) (0 : Fin 1))
      = Cert.ReferenceIdeal.RefVal.R (F := Ideal) (launchContents m' c) Cert.ReferenceIdeal.main_v129 (ix2 p (0 : Fin 1)) := by
  rw [Cert.ReferenceIdeal.RefVal.R_v129, Cert.ReferenceIdeal.RefVal.R_v127]
  refine (Cert.LibBcast.bid_col_apply _ _ _ _).trans ?_
  refine Eq.trans ?_ (Cert.LibBcast.bid_col_apply _ _ _ _).symm
  rw [b92_in, W3_v88_idxA]
  show _ = Cert.ReferenceIdeal.RefVal.idxA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg11)) (ix1 p)
  rw [h0, h7, h8, h9, h11]

set_option maxRecDepth 65536 in
/-- The two angular scatters agree at bin s, channel ch. -/
theorem ang_point (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (s : Fin 500000) (ch : Fin 16) :
    Host.scatterAdd (F := Ideal) Cert.ReferenceIdeal.scatter_S500000x16_S3300000x1_S3300000x16_1_0_0_1
        (Cert.ReferenceIdeal.RefVal.R (F := Ideal) (launchContents m' c) Cert.ReferenceIdeal.main_v128)
        (Cert.ReferenceIdeal.RefVal.R (F := Ideal) (launchContents m' c) Cert.ReferenceIdeal.main_v129)
        (Cert.ReferenceIdeal.RefVal.R (F := Ideal) (launchContents m' c) Cert.ReferenceIdeal.main_v89) (ix2 s ch)
      = Host.scatterAdd (F := Ideal) Cert.KernelIdeal.scatter_S500000x16_S3300096x1_S3300096x16_1_0_0_1
          (broadcastInDim Cert.KernelIdeal.S500000x16 ![] Cert.KernelIdeal.Gen.bcast_S_S500000x16 (constant Cert.KernelIdeal.S_ .f32 0x00000000#32))
          (broadcastInDim Cert.KernelIdeal.S3300096x1 ![0] Cert.KernelIdeal.Gen.bcast_S3300096_S3300096x1_0 (W12 m c (Proc.devRef .tc Cert.KernelIdeal.main_v92)))
          (shapeCast Cert.KernelIdeal.S3300096x16 (transpose Cert.KernelIdeal.S25782x128x16 [0, 2, 1] (W12 m c (Proc.devRef .tc Cert.KernelIdeal.main_v96))
            Cert.KernelIdeal.Gen.transposes_S25782x16x128_S25782x128x16_0_2_1) Cert.KernelIdeal.Gen.shapeCasts_S25782x128x16_S3300096x16) (ix2 s ch) := by
  refine (sc_ref _ _ _ s ch).trans ?_
  refine Eq.trans ?_ (sc_ker _ _ _ s ch).symm
  refine congrArg₂ (fun a b : EReal => a + b) ?_ ?_
  · rw [Cert.ReferenceIdeal.RefVal.R_v128]; try rfl
  · symm
    refine Cert.LibZeroTail.sum_filter_drop_tail le_pad _ _ _ _ (fun p => ?_) (fun p => ?_) (fun e he => ?_)
    · rw [index_eq m m' c h0 h7 h8 h9 h11 p]
    · exact row_eq m m' c hpre h5 h6 h8 h9 h10 p ch
    · exact tail_zero m c e he ch

/-- The two angular scatters agree. -/
theorem ang_bridge (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Host.scatterAdd (F := Ideal) Cert.ReferenceIdeal.scatter_S500000x16_S3300000x1_S3300000x16_1_0_0_1
        (Cert.ReferenceIdeal.RefVal.R (F := Ideal) (launchContents m' c) Cert.ReferenceIdeal.main_v128)
        (Cert.ReferenceIdeal.RefVal.R (F := Ideal) (launchContents m' c) Cert.ReferenceIdeal.main_v129)
        (Cert.ReferenceIdeal.RefVal.R (F := Ideal) (launchContents m' c) Cert.ReferenceIdeal.main_v89)
      = Host.scatterAdd (F := Ideal) Cert.KernelIdeal.scatter_S500000x16_S3300096x1_S3300096x16_1_0_0_1
          (broadcastInDim Cert.KernelIdeal.S500000x16 ![] Cert.KernelIdeal.Gen.bcast_S_S500000x16 (constant Cert.KernelIdeal.S_ .f32 0x00000000#32))
          (broadcastInDim Cert.KernelIdeal.S3300096x1 ![0] Cert.KernelIdeal.Gen.bcast_S3300096_S3300096x1_0 (W12 m c (Proc.devRef .tc Cert.KernelIdeal.main_v92)))
          (shapeCast Cert.KernelIdeal.S3300096x16 (transpose Cert.KernelIdeal.S25782x128x16 [0, 2, 1] (W12 m c (Proc.devRef .tc Cert.KernelIdeal.main_v96))
            Cert.KernelIdeal.Gen.transposes_S25782x16x128_S25782x128x16_0_2_1) Cert.KernelIdeal.Gen.shapeCasts_S25782x128x16_S3300096x16) :=
  funext fun j => (congrArg _ (eq_ix2 j)).trans
    ((ang_point m m' c hpre h0 h5 h6 h7 h8 h9 h10 h11 (j 0) (j 1)).trans (congrArg _ (eq_ix2 j)).symm)

end Cert.Proof.Bridge

end
-- ==== Proof.Bridge.lean ====
import proofs.«150593_j33397665694348_2_alg».proof.Proof.BridgeRad
import proofs.«150593_j33397665694348_2_alg».proof.Proof.BridgeAng
import proofs.«150593_j33397665694348_2_alg».proof.Proof.KiFrame
import proofs.«150593_j33397665694348_2_alg».proof.Proof.RefRun

/-! The two programs' results agree: each is the radial sums beside the angular sums, and the two halves agree. -/

set_option maxRecDepth 16384

noncomputable section

namespace Cert.Proof.Bridge

open Idealize.ShloMosaic Idealize.ShloMosaic.TcCoe Idealize.SL.Sem Idealize.ShloMosaic.ValueIdx Idealize.ShloMosaic.StableHlo

/-- From memories that agree on the twelve arguments, the reference's result after its 169 operations is the
    kernel program's result buffer at its last boundary. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    StableHlo.after (Cert.ReferenceIdeal.RefRun.ops (F := Ideal)) (launchContents m' c) (Proc.devRef .tc Cert.ReferenceIdeal.main_v132)
      = Cert.KernelIdeal.Run.W13 m c (Proc.devRef .tc Cert.KernelIdeal.main_v103) := by
  have hr := bridge_rad m m' c h0 h1 h2 h3 h4
  have ha := ang_bridge m m' c hpre h0 h5 h6 h7 h8 h9 h10 h11
  show Cert.ReferenceIdeal.RefVal.R (launchContents m' c) Cert.ReferenceIdeal.main_v132 = _
  rw [Cert.ReferenceIdeal.RefVal.R_v132, Cert.ReferenceIdeal.RefVal.R_v131, Cert.ReferenceIdeal.RefVal.R_v130, hr, ha]
  exact (Cert.KernelIdeal.Run.W13_v103_eq m c).symm

end Cert.Proof.Bridge

end
-- ==== Proof.lean ====
/-
  Radial and angular basis functions over edges and angle pairs, summed into atom bins. The kernel computes the two
  tables of basis terms in two pipelined regions (blocks of 512 rows of a [rows, 128] layout, the last block cut at
  the array's end; the angular inputs padded with 96 zeros to whole rows) and the host sums each table by its bin
  index; the reference computes both tables on the host and sums them the same way.

  The three frames: each program runs to the end, faults nowhere, and leaves its twelve arguments as they were. For
  the two kernel programs the run is @main's eleven host stretches and two regions in order, each region's body
  obligation resting on the fact that what a body writes at a row depends on its inputs at that row only; for the
  reference it is the line of its 169 host operations.

  The results agree as extended reals. The radial tables are equal element by element by associativity alone
  (0.25 · exp (0 − (16·d)·d) · s against 0.25 · exp (−(16·(d·d))) · s), so the radial sums are the same sum. The
  angular tables agree row by row below 3300000 — the kernel's five squarings of 0.5 + 0.5 · cos (θ − z) against the
  host's power 32, which is where the finiteness of the angles is used — and the kernel's 96 padding rows are zero
  (their switch product is zero), so the sum over the kernel's 3300096 rows is the sum over the reference's 3300000.
-/
import proofs.«150593_j33397665694348_2_alg».proof.Defs
import proofs.«150593_j33397665694348_2_alg».proof.Proof.Gen.Kernel
import proofs.«150593_j33397665694348_2_alg».proof.Proof.Gen.KernelIdeal
import proofs.«150593_j33397665694348_2_alg».proof.Proof.Gen.ReferenceIdeal
import proofs.«150593_j33397665694348_2_alg».proof.Proof.Gen.Pre_finite_inputs
import proofs.«150593_j33397665694348_2_alg».proof.Proof.KFrame
import proofs.«150593_j33397665694348_2_alg».proof.Proof.KiFrame
import proofs.«150593_j33397665694348_2_alg».proof.Proof.RefRun
import proofs.«150593_j33397665694348_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Run.run_full (F := Bits) m ρ)

theorem frame_ki : Cert.frame_KernelIdeal := fun m ρ _ =>
  (θ_run Cert.KernelIdeal.defs _ _).mono (fun _ h c => (h c).2) (Cert.KernelIdeal.Run.run_full (F := Ideal) m ρ)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs run; the kernel program's result buffer ends at its last boundary's contents and the
    reference's at the fold of its operations, which are equal when the memories agree on the arguments. -/
theorem algebraic : Cert.algebraic_KernelIdeal_ReferenceIdeal := by
  intro m ρ m' ρ' hpre hagree
  refine ⟨fun c => Cert.KernelIdeal.Run.W13 m c (Proc.devRef .tc Cert.KernelIdeal.main_v103),
    Cert.KernelIdeal.Run.run_full (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11⟩ := hagree c
  exact Cert.Proof.Bridge.result_eq m m' c hpre h0 h1 h2 h3 h4 h5 h6 h7 h8 h9 h10 h11

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
